-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S1x256 : S_.BroadcastsInDim S1x256 (![] : Fin 0 → Fin S1x256.rank)
  reducesTo_S1x256_S_d0_1 : S1x256.ReducesTo [0, 1] S_

variable [Facts]

def fn_part5 {F : FTy → Type} [FloatOps F] (main_arg19 : FVec F S256 .f32) (main_arg20 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg15 : FVec F S256 .f32) (main_arg16 : FVec F S256 .f32) (main_arg17 : FVec F S256x256 .f32) (main_arg18 : FVec F S256 .f32) (main_arg19 : FVec F S256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S1x256 .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg12
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S256 .f32) (main_arg9 : FVec F S256 .f32) (main_arg10 : FVec F S256 .f32) (main_arg11 : FVec F S256 .f32) (main_arg12 : FVec F S1x256 .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256x40 .f32) (main_arg7 : FVec F S40 .f32) (main_arg8 : FVec F S256 .f32) (main_arg9 : FVec F S256 .f32) (main_arg10 : FVec F S256 .f32) (main_arg11 : FVec F S256 .f32) (main_arg12 : FVec F S1x256 .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg6
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x256 .f32) (main_arg1 : IVec S2x800000 32) (main_arg2 : FVec F S256x256 .f32) (main_arg3 : FVec F S256 .f32) (main_arg4 : FVec F S256x256 .f32) (main_arg5 : FVec F S256 .f32) (main_arg6 : FVec F S256x40 .f32) (main_arg7 : FVec F S40 .f32) (main_arg8 : FVec F S256 .f32) (main_arg9 : FVec F S256 .f32) (main_arg10 : FVec F S256 .f32) (main_arg11 : FVec F S256 .f32) (main_arg12 : FVec F S1x256 .f32) (main_arg13 : FVec F S256x256 .f32) (main_arg14 : FVec F S256 .f32) (main_arg15 : FVec F S256 .f32) (main_arg16 : FVec F S256 .f32) (main_arg17 : FVec F S256x256 .f32) (main_arg18 : FVec F S256 .f32) (main_arg19 : FVec F S256 .f32) (main_arg20 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S2000x256 : Shape := ⟨2, ![2000, 256]⟩
abbrev S800000x256 : Shape := ⟨2, ![800000, 256]⟩
abbrev S2000x1 : Shape := ⟨2, ![2000, 1]⟩
abbrev S1 : Shape := ⟨1, ![1]⟩
abbrev S1x1 : Shape := ⟨2, ![1, 1]⟩
abbrev S100000x40 : Shape := ⟨2, ![100000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩

abbrev nBuf : Space → Nat
  | .hbm => 208
  | .vmem => 71
  | .smem => 0
  | _ => 0

abbrev hbmTy0_0 (i : Nat) : BufTy := match i % 128 with
  | 0 => ⟨S100000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x40, .f32⟩
  | 7 => ⟨S40, .f32⟩
  | 8 => ⟨S256, .f32⟩
  | 9 => ⟨S256, .f32⟩
  | 10 => ⟨S256, .f32⟩
  | 11 => ⟨S256, .f32⟩
  | 12 => ⟨S1x256, .f32⟩
  | 13 => ⟨S256x256, .f32⟩
  | 14 => ⟨S256, .f32⟩
  | 15 => ⟨S256, .f32⟩
  | 16 => ⟨S256, .f32⟩
  | 17 => ⟨S256x256, .f32⟩
  | 18 => ⟨S256, .f32⟩
  | 19 => ⟨S256, .f32⟩
  | 20 => ⟨S256, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S100000, .f32⟩
  | 56 => ⟨S100000x1, .f32⟩
  | 57 => ⟨S100000x256, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x256, .f32⟩
  | 67 => ⟨S800000x256, .f32⟩
  | 68 => ⟨S800000x256, .f32⟩
  | 69 => ⟨S_, .f32⟩
  | 70 => ⟨S100000x256, .f32⟩
  | 71 => ⟨S800000x1, .i32⟩
  | 72 => ⟨S100000x256, .f32⟩
  | 73 => ⟨S1x256, .f32⟩
  | 74 => ⟨S100000x256, .f32⟩
  | 75 => ⟨S1x256, .f32⟩
  | 76 => ⟨S1x256, .f32⟩
  | 77 => ⟨S_, .f32⟩
  | 78 => ⟨S1x256, .f32⟩
  | 79 => ⟨S1x256, .f32⟩
  | 80 => ⟨S_, .f32⟩
  | 81 => ⟨S1x256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S100000x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S_, .f32⟩
  | 94 => ⟨S1, .f32⟩
  | 95 => ⟨S1x1, .f32⟩
  | 96 => ⟨S_, .f32⟩
  | 97 => ⟨S1x1, .f32⟩
  | 98 => ⟨S1x1, .f32⟩
  | 99 => ⟨S1x256, .f32⟩
  | 100 => ⟨S1x256, .f32⟩
  | 101 => ⟨S1x256, .f32⟩
  | 102 => ⟨S_, .f32⟩
  | 103 => ⟨S1, .f32⟩
  | 104 => ⟨S1x1, .f32⟩
  | 105 => ⟨S_, .f32⟩
  | 106 => ⟨S1x1, .f32⟩
  | 107 => ⟨S1x1, .f32⟩
  | 108 => ⟨S1x256, .f32⟩
  | 109 => ⟨S1x256, .f32⟩
  | 110 => ⟨S_, .f32⟩
  | 111 => ⟨S1x1, .f32⟩
  | 112 => ⟨S1x1, .f32⟩
  | 113 => ⟨S1x1, .f32⟩
  | 114 => ⟨S1x256, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S_, .f32⟩
  | 121 => ⟨S1x256, .f32⟩
  | 122 => ⟨S1x256, .f32⟩
  | 123 => ⟨S100000x256, .f32⟩
  | 124 => ⟨S_, .i32⟩
  | 125 => ⟨S800000, .i32⟩
  | 126 => ⟨S800000, .i1⟩
  | 127 => ⟨S_, .i32⟩
  | _ => ⟨S100000x256, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x256, .f32⟩
  | 5 => ⟨S800000x256, .f32⟩
  | 6 => ⟨S800000x256, .f32⟩
  | 7 => ⟨S_, .f32⟩
  | 8 => ⟨S100000x256, .f32⟩
  | 9 => ⟨S800000x1, .i32⟩
  | 10 => ⟨S100000x256, .f32⟩
  | 11 => ⟨S1x256, .f32⟩
  | 12 => ⟨S100000x256, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S1x256, .f32⟩
  | 25 => ⟨S100000x256, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S_, .f32⟩
  | 32 => ⟨S1, .f32⟩
  | 33 => ⟨S1x1, .f32⟩
  | 34 => ⟨S_, .f32⟩
  | 35 => ⟨S1x1, .f32⟩
  | 36 => ⟨S1x1, .f32⟩
  | 37 => ⟨S1x256, .f32⟩
  | 38 => ⟨S1x256, .f32⟩
  | 39 => ⟨S1x256, .f32⟩
  | 40 => ⟨S_, .f32⟩
  | 41 => ⟨S1, .f32⟩
  | 42 => ⟨S1x1, .f32⟩
  | 43 => ⟨S_, .f32⟩
  | 44 => ⟨S1x1, .f32⟩
  | 45 => ⟨S1x1, .f32⟩
  | 46 => ⟨S1x256, .f32⟩
  | 47 => ⟨S1x256, .f32⟩
  | 48 => ⟨S_, .f32⟩
  | 49 => ⟨S1x1, .f32⟩
  | 50 => ⟨S1x1, .f32⟩
  | 51 => ⟨S1x1, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S100000x40, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x40, .f32⟩
  | 71 => ⟨S800000x40, .f32⟩
  | 72 => ⟨S800000x40, .f32⟩
  | 73 => ⟨S_, .f32⟩
  | 74 => ⟨S100000x40, .f32⟩
  | 75 => ⟨S800000x1, .i32⟩
  | 76 => ⟨S100000x40, .f32⟩
  | 77 => ⟨S1x40, .f32⟩
  | 78 => ⟨S100000x40, .f32⟩
  | 79 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S1x256, .f32⟩
  | .local _ .vmem, ⟨3, _⟩ => ⟨S256x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S256x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x1, .f32⟩
  | .local _ .vmem, ⟨37, _⟩ => ⟨S2000x1, .f32⟩
  | .local _ .vmem, ⟨38, _⟩ => ⟨S1x256, .f32⟩
  | .local _ .vmem, ⟨39, _⟩ => ⟨S2000x256, .f32⟩
  | .local _ .vmem, ⟨40, _⟩ => ⟨S2000x256, .f32⟩
  | .local _ .vmem, ⟨41, _⟩ => ⟨S1x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S1x256, .f32⟩
  | .local _ .vmem, ⟨55, _⟩ => ⟨S256x40, .f32⟩
  | .local _ .vmem, ⟨56, _⟩ => ⟨S2000x40, .f32⟩
  | .local _ .vmem, ⟨57, _⟩ => ⟨S2000x40, .f32⟩
  | .local _ .vmem, ⟨58, _⟩ => ⟨S2000x40, .f32⟩
  | .local _ .vmem, ⟨59, _⟩ => ⟨S2000x40, .f32⟩
  | .local _ .vmem, ⟨60, _⟩ => ⟨S2000x40, .f32⟩
  | .local _ .vmem, ⟨61, _⟩ => ⟨S2000x40, .f32⟩
  | .local _ .vmem, ⟨62, _⟩ => ⟨S2000x1, .f32⟩
  | .local _ .vmem, ⟨63, _⟩ => ⟨S2000x1, .f32⟩
  | .local _ .vmem, ⟨64, _⟩ => ⟨S1x40, .f32⟩
  | .local _ .vmem, ⟨65, _⟩ => ⟨S2000x40, .f32⟩
  | .local _ .vmem, ⟨66, _⟩ => ⟨S2000x40, .f32⟩
  | .local _ .vmem, ⟨67, _⟩ => ⟨S2000x40, .f32⟩
  | .local _ .vmem, ⟨68, _⟩ => ⟨S2000x40, .f32⟩
  | .local _ .vmem, ⟨69, _⟩ => ⟨S2000x40, .f32⟩
  | .local _ .vmem, ⟨70, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev main_v43_2 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52_0 : Ref sig .tc := ⟨.hbm, 87, rfl⟩
abbrev main_v52_1 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_10 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_14 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call0_cst : Ref sig .tc := ⟨.hbm, 120, rfl⟩
abbrev main_call0_v0 : Ref sig .tc := ⟨.hbm, 121, rfl⟩
abbrev main_v79 : Ref sig .tc := ⟨.hbm, 122, rfl⟩
abbrev main_v80 : Ref sig .tc := ⟨.hbm, 123, rfl⟩
abbrev main_c_15 : Ref sig .tc := ⟨.hbm, 124, rfl⟩
abbrev main_v81 : Ref sig .tc := ⟨.hbm, 125, rfl⟩
abbrev main_v82 : Ref sig .tc := ⟨.hbm, 126, rfl⟩
abbrev main_c_16 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_17 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94_0 : Ref sig .tc := ⟨.hbm, 140, rfl⟩
abbrev main_v94_1 : Ref sig .tc := ⟨.hbm, 141, rfl⟩
abbrev main_v94_2 : Ref sig .tc := ⟨.hbm, 142, rfl⟩
abbrev main_cst_18 : Ref sig .tc := ⟨.hbm, 143, rfl⟩
abbrev main_v95 : Ref sig .tc := ⟨.hbm, 144, rfl⟩
abbrev main_v96 : Ref sig .tc := ⟨.hbm, 145, rfl⟩
abbrev main_cst_19 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103_0 : Ref sig .tc := ⟨.hbm, 153, rfl⟩
abbrev main_v103_1 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_20 : Ref sig .tc := ⟨.hbm, 159, rfl⟩
abbrev main_v108 : Ref sig .tc := ⟨.hbm, 160, rfl⟩
abbrev main_v109 : Ref sig .tc := ⟨.hbm, 161, rfl⟩
abbrev main_cst_21 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_22 : Ref sig .tc := ⟨.hbm, 168, rfl⟩
abbrev main_v115 : Ref sig .tc := ⟨.hbm, 169, rfl⟩
abbrev main_v116 : Ref sig .tc := ⟨.hbm, 170, rfl⟩
abbrev main_cst_23 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_24 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_call1_cst : Ref sig .tc := ⟨.hbm, 186, rfl⟩
abbrev main_call1_v0 : Ref sig .tc := ⟨.hbm, 187, rfl⟩
abbrev main_v130 : Ref sig .tc := ⟨.hbm, 188, rfl⟩
abbrev main_v131 : Ref sig .tc := ⟨.hbm, 189, rfl⟩
abbrev main_c_25 : Ref sig .tc := ⟨.hbm, 190, rfl⟩
abbrev main_v132 : Ref sig .tc := ⟨.hbm, 191, rfl⟩
abbrev main_v133 : Ref sig .tc := ⟨.hbm, 192, rfl⟩
abbrev main_c_26 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_27 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc5_stg6_0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg4_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg1_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem6_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc5_sem6_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem4_0 : DmaSem sig := 65
abbrev cc7_sem4_1 : DmaSem sig := 66
abbrev cc8_sem0_0 : DmaSem sig := 67
abbrev cc8_sem0_1 : DmaSem sig := 68
abbrev cc8_sem1_0 : DmaSem sig := 69
abbrev cc8_sem1_1 : DmaSem sig := 70

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x40 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x40 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  broadcasts_S1x256_S2000x256 : S1x256.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S1x256_S1x256 : S1x256.ShapeCasts S1x256
  reduces_S2000x256_S256 : S2000x256.Reduces [0] S256
  bcast_S_S1x256 : S_.BroadcastsInDim S1x256 (![] : Fin 0 → Fin S1x256.rank)
  bcast_S256_S1x256_1 : S256.BroadcastsInDim S1x256 (![1] : Fin 1 → Fin S1x256.rank)
  reducesTo_S1x256_S1_d1 : S1x256.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S2000x256_S256x256_S2000x256_1_0_0_1_n_n_wf : DotDims.WF S2000x256 S256x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S1x256_S256x256_S1x256_1_0_0_1_n_n_wf : DotDims.WF S1x256 S256x256 S1x256 [1] [0] [0] [1] [] []
  dot_S2000x256_S256x40_S2000x40_1_0_0_1_n_n_wf : DotDims.WF S2000x256 S256x40 S2000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S100000x256.size a
  hwx3_3 : ∀ i : grid3.Coords, EltTy.bits .f32 = 32 ∨ (Rect.block (s := S100000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S100000x256.size a
  hwx4_4 : ∀ i : grid4.Coords, EltTy.bits .f32 = 32 ∨ (Rect.block (s := S100000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x40.size a ≤ S256x40.size a
  hwx6_2 : ∀ i : grid6.Coords, EltTy.bits .f32 = 32 ∨ (Rect.block (s := S256x40) S256x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S100000x40.size a
  hwx6_3 : ∀ i : grid6.Coords, EltTy.bits .f32 = 32 ∨ (Rect.block (s := S100000x40) S2000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x40.size a ≤ S100000x40.size a
  hwx7_1 : ∀ i : grid7.Coords, EltTy.bits .f32 = 32 ∨ (Rect.block (s := S100000x40) S2000x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x40.size a ≤ S1x40.size a
  hwx7_3 : ∀ i : grid7.Coords, EltTy.bits .f32 = 32 ∨ (Rect.block (s := S1x40) S1x40.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x40.size a ≤ S100000x40.size a
  hwx7_4 : ∀ i : grid7.Coords, EltTy.bits .f32 = 32 ∨ (Rect.block (s := S100000x40) S2000x40.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x40.size a ≤ S100000x40.size a
  hwx8_0 : ∀ i : grid8.Coords, EltTy.bits .f32 = 32 ∨ (Rect.block (s := S100000x40) S2000x40.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x40.size a ≤ S100000x40.size a
  hwx8_1 : ∀ i : grid8.Coords, EltTy.bits .f32 = 32 ∨ (Rect.block (s := S100000x40) S2000x40.size (cc8_transform_1 i) (hinb8_1 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v94_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v100) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103_0) S2000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v103_1) S1x256.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v103_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v130) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg6) S256x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v131) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v143) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v131) S2000x40.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v144) S1x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145) S2000x40.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v145) S2000x40.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v146) S2000x40.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x256 : Shape := ⟨2, ![800000, 256]⟩
abbrev S1 : Shape := ⟨1, ![1]⟩
abbrev S1x1 : Shape := ⟨2, ![1, 1]⟩
abbrev S100000x40 : Shape := ⟨2, ![100000, 40]⟩
abbrev S800000x40 : Shape := ⟨2, ![800000, 40]⟩
abbrev S1x40 : Shape := ⟨2, ![1, 40]⟩

abbrev nBuf : Space → Nat
  | .hbm => 284
  | .vmem => 0
  | .smem => 0
  | _ => 0

abbrev hbmTy0_0 (i : Nat) : BufTy := match i % 128 with
  | 0 => ⟨S100000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x40, .f32⟩
  | 7 => ⟨S40, .f32⟩
  | 8 => ⟨S256, .f32⟩
  | 9 => ⟨S256, .f32⟩
  | 10 => ⟨S256, .f32⟩
  | 11 => ⟨S256, .f32⟩
  | 12 => ⟨S1x256, .f32⟩
  | 13 => ⟨S256x256, .f32⟩
  | 14 => ⟨S256, .f32⟩
  | 15 => ⟨S256, .f32⟩
  | 16 => ⟨S256, .f32⟩
  | 17 => ⟨S256x256, .f32⟩
  | 18 => ⟨S256, .f32⟩
  | 19 => ⟨S256, .f32⟩
  | 20 => ⟨S256, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S100000, .f32⟩
  | 56 => ⟨S100000x1, .f32⟩
  | 57 => ⟨S100000x256, .f32⟩
  | 58 => ⟨S100000x256, .f32⟩
  | 59 => ⟨S100000x256, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .f32⟩
  | 69 => ⟨S800000x256, .f32⟩
  | 70 => ⟨S800000x256, .f32⟩
  | 71 => ⟨S_, .f32⟩
  | 72 => ⟨S100000x256, .f32⟩
  | 73 => ⟨S800000x1, .i32⟩
  | 74 => ⟨S100000x256, .f32⟩
  | 75 => ⟨S100000x256, .f32⟩
  | 76 => ⟨S100000x256, .f32⟩
  | 77 => ⟨S100000x256, .f32⟩
  | 78 => ⟨S1x256, .f32⟩
  | 79 => ⟨S100000x256, .f32⟩
  | 80 => ⟨S100000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S100000x256, .f32⟩
  | 88 => ⟨S100000x256, .f32⟩
  | 89 => ⟨S100000x256, .f32⟩
  | 90 => ⟨S_, .f32⟩
  | 91 => ⟨S256, .f32⟩
  | 92 => ⟨S_, .f32⟩
  | 93 => ⟨S256, .f32⟩
  | 94 => ⟨S256, .f32⟩
  | 95 => ⟨S1x256, .f32⟩
  | 96 => ⟨S100000x256, .f32⟩
  | 97 => ⟨S100000x256, .f32⟩
  | 98 => ⟨S_, .f32⟩
  | 99 => ⟨S256, .f32⟩
  | 100 => ⟨S256, .f32⟩
  | 101 => ⟨S256, .f32⟩
  | 102 => ⟨S1x256, .f32⟩
  | 103 => ⟨S100000x256, .f32⟩
  | 104 => ⟨S100000x256, .f32⟩
  | 105 => ⟨S1x256, .f32⟩
  | 106 => ⟨S100000x256, .f32⟩
  | 107 => ⟨S100000x256, .f32⟩
  | 108 => ⟨S1x256, .f32⟩
  | 109 => ⟨S100000x256, .f32⟩
  | 110 => ⟨S100000x256, .f32⟩
  | 111 => ⟨S_, .f32⟩
  | 112 => ⟨S100000x256, .f32⟩
  | 113 => ⟨S100000x256, .f32⟩
  | 114 => ⟨S_, .f32⟩
  | 115 => ⟨S256, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S1x256, .f32⟩
  | _ => ⟨S100000x256, .f32⟩

abbrev hbmTy0_1 (i : Nat) : BufTy := match i % 128 with
  | 0 => ⟨S1x256, .f32⟩
  | 1 => ⟨S1x256, .f32⟩
  | 2 => ⟨S_, .f32⟩
  | 3 => ⟨S1, .f32⟩
  | 4 => ⟨S1x1, .f32⟩
  | 5 => ⟨S_, .f32⟩
  | 6 => ⟨S1x1, .f32⟩
  | 7 => ⟨S1x1, .f32⟩
  | 8 => ⟨S1x256, .f32⟩
  | 9 => ⟨S1x256, .f32⟩
  | 10 => ⟨S_, .f32⟩
  | 11 => ⟨S1x1, .f32⟩
  | 12 => ⟨S1x1, .f32⟩
  | 13 => ⟨S1x1, .f32⟩
  | 14 => ⟨S1x256, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S100000x256, .f32⟩
  | 24 => ⟨S100000x256, .f32⟩
  | 25 => ⟨S100000x256, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S800000x256, .f32⟩
  | 36 => ⟨S800000x256, .f32⟩
  | 37 => ⟨S_, .f32⟩
  | 38 => ⟨S100000x256, .f32⟩
  | 39 => ⟨S800000x1, .i32⟩
  | 40 => ⟨S100000x256, .f32⟩
  | 41 => ⟨S100000x256, .f32⟩
  | 42 => ⟨S100000x256, .f32⟩
  | 43 => ⟨S100000x256, .f32⟩
  | 44 => ⟨S1x256, .f32⟩
  | 45 => ⟨S100000x256, .f32⟩
  | 46 => ⟨S100000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S100000x256, .f32⟩
  | 54 => ⟨S100000x256, .f32⟩
  | 55 => ⟨S100000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S100000x256, .f32⟩
  | 63 => ⟨S100000x256, .f32⟩
  | 64 => ⟨S_, .f32⟩
  | 65 => ⟨S256, .f32⟩
  | 66 => ⟨S256, .f32⟩
  | 67 => ⟨S256, .f32⟩
  | 68 => ⟨S1x256, .f32⟩
  | 69 => ⟨S100000x256, .f32⟩
  | 70 => ⟨S100000x256, .f32⟩
  | 71 => ⟨S1x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S_, .f32⟩
  | 78 => ⟨S100000x256, .f32⟩
  | 79 => ⟨S100000x256, .f32⟩
  | 80 => ⟨S_, .f32⟩
  | 81 => ⟨S256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S_, .f32⟩
  | 88 => ⟨S1, .f32⟩
  | 89 => ⟨S1x1, .f32⟩
  | 90 => ⟨S_, .f32⟩
  | 91 => ⟨S1x1, .f32⟩
  | 92 => ⟨S1x1, .f32⟩
  | 93 => ⟨S1x256, .f32⟩
  | 94 => ⟨S1x256, .f32⟩
  | 95 => ⟨S1x256, .f32⟩
  | 96 => ⟨S_, .f32⟩
  | 97 => ⟨S1, .f32⟩
  | 98 => ⟨S1x1, .f32⟩
  | 99 => ⟨S_, .f32⟩
  | 100 => ⟨S1x1, .f32⟩
  | 101 => ⟨S1x1, .f32⟩
  | 102 => ⟨S1x256, .f32⟩
  | 103 => ⟨S1x256, .f32⟩
  | 104 => ⟨S_, .f32⟩
  | 105 => ⟨S1x1, .f32⟩
  | 106 => ⟨S1x1, .f32⟩
  | 107 => ⟨S1x1, .f32⟩
  | 108 => ⟨S1x256, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S_, .f32⟩
  | 115 => ⟨S1x256, .f32⟩
  | 116 => ⟨S1x256, .f32⟩
  | 117 => ⟨S100000x256, .f32⟩
  | 118 => ⟨S100000x256, .f32⟩
  | 119 => ⟨S100000x40, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000x256, .f32⟩

abbrev hbmTy0_2 (i : Nat) : BufTy := match i % 128 with
  | 0 => ⟨S800000x40, .f32⟩
  | 1 => ⟨S800000x40, .f32⟩
  | 2 => ⟨S800000x40, .f32⟩
  | 3 => ⟨S_, .f32⟩
  | 4 => ⟨S100000x40, .f32⟩
  | 5 => ⟨S800000x1, .i32⟩
  | 6 => ⟨S100000x40, .f32⟩
  | 7 => ⟨S100000x40, .f32⟩
  | 8 => ⟨S100000x40, .f32⟩
  | 9 => ⟨S100000x40, .f32⟩
  | 10 => ⟨S1x40, .f32⟩
  | 11 => ⟨S100000x40, .f32⟩
  | 12 => ⟨S100000x40, .f32⟩
  | 13 => ⟨S_, .f32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x40, .f32⟩
  | 20 => ⟨S100000x40, .f32⟩
  | 21 => ⟨S100000x40, .f32⟩
  | 22 => ⟨S_, .f32⟩
  | 23 => ⟨S100000, .f32⟩
  | 24 => ⟨S100000x1, .f32⟩
  | 25 => ⟨S100000x1, .f32⟩
  | 26 => ⟨S100000x40, .f32⟩
  | 27 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call0_cst : Ref sig .tc := ⟨.hbm, 111, rfl⟩
abbrev main_call0_v0 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_16 : Ref sig .tc := ⟨.hbm, 130, rfl⟩
abbrev main_v89 : Ref sig .tc := ⟨.hbm, 131, rfl⟩
abbrev main_v90 : Ref sig .tc := ⟨.hbm, 132, rfl⟩
abbrev main_cst_17 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_18 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call1_cst : Ref sig .tc := ⟨.hbm, 148, rfl⟩
abbrev main_call1_v0 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_19 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_21 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_22 : Ref sig .tc := ⟨.hbm, 175, rfl⟩
abbrev main_v126 : Ref sig .tc := ⟨.hbm, 176, rfl⟩
abbrev main_cst_23 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_24 : Ref sig .tc := ⟨.hbm, 184, rfl⟩
abbrev main_v133 : Ref sig .tc := ⟨.hbm, 185, rfl⟩
abbrev main_cst_25 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_26 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_call2_cst : Ref sig .tc := ⟨.hbm, 205, rfl⟩
abbrev main_call2_v0 : Ref sig .tc := ⟨.hbm, 206, rfl⟩
abbrev main_v151 : Ref sig .tc := ⟨.hbm, 207, rfl⟩
abbrev main_cst_27 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_28 : Ref sig .tc := ⟨.hbm, 215, rfl⟩
abbrev main_v158 : Ref sig .tc := ⟨.hbm, 216, rfl⟩
abbrev main_v159 : Ref sig .tc := ⟨.hbm, 217, rfl⟩
abbrev main_cst_29 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_30 : Ref sig .tc := ⟨.hbm, 224, rfl⟩
abbrev main_v165 : Ref sig .tc := ⟨.hbm, 225, rfl⟩
abbrev main_v166 : Ref sig .tc := ⟨.hbm, 226, rfl⟩
abbrev main_cst_31 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_32 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_call3_cst : Ref sig .tc := ⟨.hbm, 242, rfl⟩
abbrev main_call3_v0 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_c_33 : Ref sig .tc := ⟨.hbm, 248, rfl⟩
abbrev main_v184 : Ref sig .tc := ⟨.hbm, 249, rfl⟩
abbrev main_v185 : Ref sig .tc := ⟨.hbm, 250, rfl⟩
abbrev main_c_34 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_35 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_call4_cst : Ref sig .tc := ⟨.hbm, 269, rfl⟩
abbrev main_call4_v0 : Ref sig .tc := ⟨.hbm, 270, rfl⟩
abbrev main_call4_cst_0 : Ref sig .tc := ⟨.hbm, 271, rfl⟩
abbrev main_call4_v1 : Ref sig .tc := ⟨.hbm, 272, rfl⟩
abbrev main_call4_v2 : Ref sig .tc := ⟨.hbm, 273, rfl⟩
abbrev main_call4_v3 : Ref sig .tc := ⟨.hbm, 274, rfl⟩
abbrev main_call4_v4 : Ref sig .tc := ⟨.hbm, 275, rfl⟩
abbrev main_call4_v5 : Ref sig .tc := ⟨.hbm, 276, rfl⟩
abbrev main_call4_v6 : Ref sig .tc := ⟨.hbm, 277, rfl⟩
abbrev main_call4_cst_1 : Ref sig .tc := ⟨.hbm, 278, rfl⟩
abbrev main_call4_v7 : Ref sig .tc := ⟨.hbm, 279, rfl⟩
abbrev main_call4_v8 : Ref sig .tc := ⟨.hbm, 280, rfl⟩
abbrev main_call4_v9 : Ref sig .tc := ⟨.hbm, 281, rfl⟩
abbrev main_call4_v10 : Ref sig .tc := ⟨.hbm, 282, rfl⟩
abbrev main_v202 : Ref sig .tc := ⟨.hbm, 283, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S1x256_S100000x256_0_1 : S1x256.BroadcastsInDim S100000x256 (![0, 1] : Fin 2 → Fin S100000x256.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  reducesTo_S100000x256_S256_d0 : S100000x256.ReducesTo [0] S256
  h_S_ : 0 < S_.numel
  bcast_S_S256 : S_.BroadcastsInDim S256 (![] : Fin 0 → Fin S256.rank)
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S_S1x256 : S_.BroadcastsInDim S1x256 (![] : Fin 0 → Fin S1x256.rank)
  bcast_S800000x1_S800000x40_0_1 : S800000x1.BroadcastsInDim S800000x40 (![0, 1] : Fin 2 → Fin S800000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S1x256_S256x256_S1x256_1_0_0_1_n_n_wf : DotDims.WF S1x256 S256x256 S1x256 [1] [0] [0] [1] [] []
  dot_S100000x256_S256x40_S100000x40_1_0_0_1_n_n_wf : DotDims.WF S100000x256 S256x40 S100000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

class Facts : Prop extends Facts₀ where

variable [Facts]
-- ==== Proof.KRun.lean ====
/-
  The idealized kernel's run with its result named: every weakly fair execution of the whole program ends with the
  result array at the contents the last region's write-backs leave (the fold through the nine regions and the host
  stretches between them), and the argument arrays as launched.  The statement is the frame's, with one more
  conjunct read off the same final thread state.
-/
import proofs.«161332_j44100724195822_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array ends at the last region's final contents, the arguments unchanged. -/
theorem run_out : θ_run defs (onTc (τ := τ) (main (F := F))) ⟨m, fun _ => 0, ρ⟩ (fun r => ∀ c : Dev nD,
      r.2.mem ((c.tc : Thread nD τ).loc main_v146) = W19 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v146 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c)⟩)

end Cert.KernelIdeal.Run

end
-- ==== Proof.KSteps.lean ====
/-
  Bookkeeping for the idealized kernel's run: the buffer contents at the nineteen boundaries between the host
  stretches and the nine regions form a fold, and a buffer that a step does not write holds after the step what it
  held before.  This file states that once per step, and then carries every argument array (never written) from the
  launch to each boundary, and a buffer written by the first host stretch from there to each later boundary.
-/
import proofs.«161332_j44100724195822_1_alg».proof.Proof.Gen.KernelIdeal.Frame
import Idealize.ShloMosaic.PureOps.Ideal

set_option maxRecDepth 16384

noncomputable section

namespace Cert.KernelIdeal.Steps

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- No operation of the list writes the buffer. -/
def FreeH (ops : List (HloOp τ sig (Elt Ideal))) (b : Ref sig .tc) : Prop :=
  ∀ op ∈ ops, Proc.devRef .tc b ∉ op.writes

/-- Closes `FreeH ops b` for a literal list of host operations and a literal buffer: every operation's one written
    buffer is another one. -/
macro "hostfree" : tactic => `(tactic| (
  unfold FreeH
  refine List.forall_iff_forall_mem.mp ?_
  simp only [hostOps0, hostOps1, hostOps2, hostOps3, hostOps3_1, hostOps4, hostOps5, hostOps6, hostOps6_1, hostOps7, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A region leaves the buffer alone: it is none of the region's arrays, or the array of an input window (which the
    region's write-backs leave as entered). -/
def RFree {gr W : Nat} (spec : Fin W → Pipeline.WinSpec sig gr) (isOut : Fin W → Bool) (b : Ref sig .tc) : Prop :=
  (∀ w, Pipeline.arrRef spec w ≠ b) ∨ ∃ w, isOut w = false ∧ Pipeline.arrRef spec w = b

instance {gr W : Nat} (spec : Fin W → Pipeline.WinSpec sig gr) (isOut : Fin W → Bool) (b : Ref sig .tc) :
    Decidable (RFree spec isOut b) := by unfold RFree; infer_instance

theorem W0_eq (b : Ref sig .tc) : W0 m ρ c (Proc.devRef .tc b) = m ((c : Thread nD τ).loc b) := rfl

theorem step1 (b : Ref sig .tc) (h : FreeH hostOps0 b) : W1 m ρ c (Proc.devRef .tc b) = W0 m ρ c (Proc.devRef .tc b) :=
  StableHlo.after_of_forall_not_mem _ _ h
theorem step2 (b : Ref sig .tc) (h : RFree spec0 (fun w => (cfg0.win w).isOut) b) : W2 m ρ c (Proc.devRef .tc b) = W1 m ρ c (Proc.devRef .tc b) := by
  rcases h with h | ⟨w, hin, rfl⟩
  · exact W2_of_ne m ρ c b h
  · exact (W2_arr m ρ c w).trans (((dat0 (V1 m ρ) c).arrAt_in w hin _).trans (A_eq0 (V1 m ρ) c w))
theorem step3 (b : Ref sig .tc) (h : FreeH hostOps1 b) : W3 m ρ c (Proc.devRef .tc b) = W2 m ρ c (Proc.devRef .tc b) :=
  StableHlo.after_of_forall_not_mem _ _ h
theorem step4 (b : Ref sig .tc) (h : RFree spec1 (fun w => (cfg1.win w).isOut) b) : W4 m ρ c (Proc.devRef .tc b) = W3 m ρ c (Proc.devRef .tc b) := by
  rcases h with h | ⟨w, hin, rfl⟩
  · exact W4_of_ne m ρ c b h
  · exact (W4_arr m ρ c w).trans (((dat1 (V3 m ρ) c).arrAt_in w hin _).trans (A_eq1 (V3 m ρ) c w))
theorem step5 (b : Ref sig .tc) (h : FreeH hostOps2 b) : W5 m ρ c (Proc.devRef .tc b) = W4 m ρ c (Proc.devRef .tc b) :=
  StableHlo.after_of_forall_not_mem _ _ h
theorem step6 (b : Ref sig .tc) (h : RFree spec2 (fun w => (cfg2.win w).isOut) b) : W6 m ρ c (Proc.devRef .tc b) = W5 m ρ c (Proc.devRef .tc b) := by
  rcases h with h | ⟨w, hin, rfl⟩
  · exact W6_of_ne m ρ c b h
  · exact (W6_arr m ρ c w).trans (((dat2 (V5 m ρ) c).arrAt_in w hin _).trans (A_eq2 (V5 m ρ) c w))
theorem step7 (b : Ref sig .tc) (h : FreeH hostOps3 b) : W7 m ρ c (Proc.devRef .tc b) = W6 m ρ c (Proc.devRef .tc b) :=
  StableHlo.after_of_forall_not_mem _ _ h
theorem step8 (b : Ref sig .tc) (h : FreeH hostOps3_1 b) : W8 m ρ c (Proc.devRef .tc b) = W7 m ρ c (Proc.devRef .tc b) :=
  StableHlo.after_of_forall_not_mem _ _ h
theorem step9 (b : Ref sig .tc) (h : RFree spec3 (fun w => (cfg3.win w).isOut) b) : W9 m ρ c (Proc.devRef .tc b) = W8 m ρ c (Proc.devRef .tc b) := by
  rcases h with h | ⟨w, hin, rfl⟩
  · exact W9_of_ne m ρ c b h
  · exact (W9_arr m ρ c w).trans (((dat3 (V8 m ρ) c).arrAt_in w hin _).trans (A_eq3 (V8 m ρ) c w))
theorem step10 (b : Ref sig .tc) (h : FreeH hostOps4 b) : W10 m ρ c (Proc.devRef .tc b) = W9 m ρ c (Proc.devRef .tc b) :=
  StableHlo.after_of_forall_not_mem _ _ h
theorem step11 (b : Ref sig .tc) (h : RFree spec4 (fun w => (cfg4.win w).isOut) b) : W11 m ρ c (Proc.devRef .tc b) = W10 m ρ c (Proc.devRef .tc b) := by
  rcases h with h | ⟨w, hin, rfl⟩
  · exact W11_of_ne m ρ c b h
  · exact (W11_arr m ρ c w).trans (((dat4 (V10 m ρ) c).arrAt_in w hin _).trans (A_eq4 (V10 m ρ) c w))
theorem step12 (b : Ref sig .tc) (h : FreeH hostOps5 b) : W12 m ρ c (Proc.devRef .tc b) = W11 m ρ c (Proc.devRef .tc b) :=
  StableHlo.after_of_forall_not_mem _ _ h
theorem step13 (b : Ref sig .tc) (h : RFree spec5 (fun w => (cfg5.win w).isOut) b) : W13 m ρ c (Proc.devRef .tc b) = W12 m ρ c (Proc.devRef .tc b) := by
  rcases h with h | ⟨w, hin, rfl⟩
  · exact W13_of_ne m ρ c b h
  · exact (W13_arr m ρ c w).trans (((dat5 (V12 m ρ) c).arrAt_in w hin _).trans (A_eq5 (V12 m ρ) c w))
theorem step14 (b : Ref sig .tc) (h : FreeH hostOps6 b) : W14 m ρ c (Proc.devRef .tc b) = W13 m ρ c (Proc.devRef .tc b) :=
  StableHlo.after_of_forall_not_mem _ _ h
theorem step15 (b : Ref sig .tc) (h : FreeH hostOps6_1 b) : W15 m ρ c (Proc.devRef .tc b) = W14 m ρ c (Proc.devRef .tc b) :=
  StableHlo.after_of_forall_not_mem _ _ h
theorem step16 (b : Ref sig .tc) (h : RFree spec6 (fun w => (cfg6.win w).isOut) b) : W16 m ρ c (Proc.devRef .tc b) = W15 m ρ c (Proc.devRef .tc b) := by
  rcases h with h | ⟨w, hin, rfl⟩
  · exact W16_of_ne m ρ c b h
  · exact (W16_arr m ρ c w).trans (((dat6 (V15 m ρ) c).arrAt_in w hin _).trans (A_eq6 (V15 m ρ) c w))
theorem step17 (b : Ref sig .tc) (h : FreeH hostOps7 b) : W17 m ρ c (Proc.devRef .tc b) = W16 m ρ c (Proc.devRef .tc b) :=
  StableHlo.after_of_forall_not_mem _ _ h
theorem step18 (b : Ref sig .tc) (h : RFree spec7 (fun w => (cfg7.win w).isOut) b) : W18 m ρ c (Proc.devRef .tc b) = W17 m ρ c (Proc.devRef .tc b) := by
  rcases h with h | ⟨w, hin, rfl⟩
  · exact W18_of_ne m ρ c b h
  · exact (W18_arr m ρ c w).trans (((dat7 (V17 m ρ) c).arrAt_in w hin _).trans (A_eq7 (V17 m ρ) c w))
theorem step19 (b : Ref sig .tc) (h : RFree spec8 (fun w => (cfg8.win w).isOut) b) : W19 m ρ c (Proc.devRef .tc b) = W18 m ρ c (Proc.devRef .tc b) := by
  rcases h with h | ⟨w, hin, rfl⟩
  · exact W19_of_ne m ρ c b h
  · exact (W19_arr m ρ c w).trans (((dat8 (V18 m ρ) c).arrAt_in w hin _).trans (A_eq8 (V18 m ρ) c w))

/-- A buffer no step writes: an argument array. -/
structure Free (b : Ref sig .tc) : Prop where
  s1 : FreeH hostOps0 b
  s2 : RFree spec0 (fun w => (cfg0.win w).isOut) b
  s3 : FreeH hostOps1 b
  s4 : RFree spec1 (fun w => (cfg1.win w).isOut) b
  s5 : FreeH hostOps2 b
  s6 : RFree spec2 (fun w => (cfg2.win w).isOut) b
  s7 : FreeH hostOps3 b
  s8 : FreeH hostOps3_1 b
  s9 : RFree spec3 (fun w => (cfg3.win w).isOut) b
  s10 : FreeH hostOps4 b
  s11 : RFree spec4 (fun w => (cfg4.win w).isOut) b
  s12 : FreeH hostOps5 b
  s13 : RFree spec5 (fun w => (cfg5.win w).isOut) b
  s14 : FreeH hostOps6 b
  s15 : FreeH hostOps6_1 b
  s16 : RFree spec6 (fun w => (cfg6.win w).isOut) b
  s17 : FreeH hostOps7 b
  s18 : RFree spec7 (fun w => (cfg7.win w).isOut) b
  s19 : RFree spec8 (fun w => (cfg8.win w).isOut) b

variable {b : Ref sig .tc}

theorem A0 (hb : Free b) : W0 m ρ c (Proc.devRef .tc b) = m ((c : Thread nD τ).loc b) := W0_eq m ρ c b
theorem A1 (hb : Free b) : W1 m ρ c (Proc.devRef .tc b) = m ((c : Thread nD τ).loc b) := (step1 m ρ c b hb.s1).trans (A0 m ρ c hb)
theorem A2 (hb : Free b) : W2 m ρ c (Proc.devRef .tc b) = m ((c : Thread nD τ).loc b) := (step2 m ρ c b hb.s2).trans (A1 m ρ c hb)
theorem A3 (hb : Free b) : W3 m ρ c (Proc.devRef .tc b) = m ((c : Thread nD τ).loc b) := (step3 m ρ c b hb.s3).trans (A2 m ρ c hb)
theorem A4 (hb : Free b) : W4 m ρ c (Proc.devRef .tc b) = m ((c : Thread nD τ).loc b) := (step4 m ρ c b hb.s4).trans (A3 m ρ c hb)
theorem A5 (hb : Free b) : W5 m ρ c (Proc.devRef .tc b) = m ((c : Thread nD τ).loc b) := (step5 m ρ c b hb.s5).trans (A4 m ρ c hb)
theorem A6 (hb : Free b) : W6 m ρ c (Proc.devRef .tc b) = m ((c : Thread nD τ).loc b) := (step6 m ρ c b hb.s6).trans (A5 m ρ c hb)
theorem A7 (hb : Free b) : W7 m ρ c (Proc.devRef .tc b) = m ((c : Thread nD τ).loc b) := (step7 m ρ c b hb.s7).trans (A6 m ρ c hb)
theorem A8 (hb : Free b) : W8 m ρ c (Proc.devRef .tc b) = m ((c : Thread nD τ).loc b) := (step8 m ρ c b hb.s8).trans (A7 m ρ c hb)
theorem A9 (hb : Free b) : W9 m ρ c (Proc.devRef .tc b) = m ((c : Thread nD τ).loc b) := (step9 m ρ c b hb.s9).trans (A8 m ρ c hb)
theorem A10 (hb : Free b) : W10 m ρ c (Proc.devRef .tc b) = m ((c : Thread nD τ).loc b) := (step10 m ρ c b hb.s10).trans (A9 m ρ c hb)
theorem A11 (hb : Free b) : W11 m ρ c (Proc.devRef .tc b) = m ((c : Thread nD τ).loc b) := (step11 m ρ c b hb.s11).trans (A10 m ρ c hb)
theorem A12 (hb : Free b) : W12 m ρ c (Proc.devRef .tc b) = m ((c : Thread nD τ).loc b) := (step12 m ρ c b hb.s12).trans (A11 m ρ c hb)
theorem A13 (hb : Free b) : W13 m ρ c (Proc.devRef .tc b) = m ((c : Thread nD τ).loc b) := (step13 m ρ c b hb.s13).trans (A12 m ρ c hb)
theorem A14 (hb : Free b) : W14 m ρ c (Proc.devRef .tc b) = m ((c : Thread nD τ).loc b) := (step14 m ρ c b hb.s14).trans (A13 m ρ c hb)
theorem A15 (hb : Free b) : W15 m ρ c (Proc.devRef .tc b) = m ((c : Thread nD τ).loc b) := (step15 m ρ c b hb.s15).trans (A14 m ρ c hb)
theorem A16 (hb : Free b) : W16 m ρ c (Proc.devRef .tc b) = m ((c : Thread nD τ).loc b) := (step16 m ρ c b hb.s16).trans (A15 m ρ c hb)
theorem A17 (hb : Free b) : W17 m ρ c (Proc.devRef .tc b) = m ((c : Thread nD τ).loc b) := (step17 m ρ c b hb.s17).trans (A16 m ρ c hb)
theorem A18 (hb : Free b) : W18 m ρ c (Proc.devRef .tc b) = m ((c : Thread nD τ).loc b) := (step18 m ρ c b hb.s18).trans (A17 m ρ c hb)
theorem A19 (hb : Free b) : W19 m ρ c (Proc.devRef .tc b) = m ((c : Thread nD τ).loc b) := (step19 m ρ c b hb.s19).trans (A18 m ρ c hb)

/-- A buffer written by the first host stretch and by nothing after it. -/
structure Free1 (b : Ref sig .tc) : Prop where
  s2 : RFree spec0 (fun w => (cfg0.win w).isOut) b
  s3 : FreeH hostOps1 b
  s4 : RFree spec1 (fun w => (cfg1.win w).isOut) b
  s5 : FreeH hostOps2 b
  s6 : RFree spec2 (fun w => (cfg2.win w).isOut) b
  s7 : FreeH hostOps3 b
  s8 : FreeH hostOps3_1 b
  s9 : RFree spec3 (fun w => (cfg3.win w).isOut) b
  s10 : FreeH hostOps4 b
  s11 : RFree spec4 (fun w => (cfg4.win w).isOut) b
  s12 : FreeH hostOps5 b
  s13 : RFree spec5 (fun w => (cfg5.win w).isOut) b
  s14 : FreeH hostOps6 b
  s15 : FreeH hostOps6_1 b
  s16 : RFree spec6 (fun w => (cfg6.win w).isOut) b
  s17 : FreeH hostOps7 b

theorem B1 (hb : Free1 b) : W1 m ρ c (Proc.devRef .tc b) = W1 m ρ c (Proc.devRef .tc b) := rfl
theorem B2 (hb : Free1 b) : W2 m ρ c (Proc.devRef .tc b) = W1 m ρ c (Proc.devRef .tc b) := (step2 m ρ c b hb.s2).trans (B1 m ρ c hb)
theorem B3 (hb : Free1 b) : W3 m ρ c (Proc.devRef .tc b) = W1 m ρ c (Proc.devRef .tc b) := (step3 m ρ c b hb.s3).trans (B2 m ρ c hb)
theorem B4 (hb : Free1 b) : W4 m ρ c (Proc.devRef .tc b) = W1 m ρ c (Proc.devRef .tc b) := (step4 m ρ c b hb.s4).trans (B3 m ρ c hb)
theorem B5 (hb : Free1 b) : W5 m ρ c (Proc.devRef .tc b) = W1 m ρ c (Proc.devRef .tc b) := (step5 m ρ c b hb.s5).trans (B4 m ρ c hb)
theorem B6 (hb : Free1 b) : W6 m ρ c (Proc.devRef .tc b) = W1 m ρ c (Proc.devRef .tc b) := (step6 m ρ c b hb.s6).trans (B5 m ρ c hb)
theorem B7 (hb : Free1 b) : W7 m ρ c (Proc.devRef .tc b) = W1 m ρ c (Proc.devRef .tc b) := (step7 m ρ c b hb.s7).trans (B6 m ρ c hb)
theorem B8 (hb : Free1 b) : W8 m ρ c (Proc.devRef .tc b) = W1 m ρ c (Proc.devRef .tc b) := (step8 m ρ c b hb.s8).trans (B7 m ρ c hb)
theorem B9 (hb : Free1 b) : W9 m ρ c (Proc.devRef .tc b) = W1 m ρ c (Proc.devRef .tc b) := (step9 m ρ c b hb.s9).trans (B8 m ρ c hb)
theorem B10 (hb : Free1 b) : W10 m ρ c (Proc.devRef .tc b) = W1 m ρ c (Proc.devRef .tc b) := (step10 m ρ c b hb.s10).trans (B9 m ρ c hb)
theorem B11 (hb : Free1 b) : W11 m ρ c (Proc.devRef .tc b) = W1 m ρ c (Proc.devRef .tc b) := (step11 m ρ c b hb.s11).trans (B10 m ρ c hb)
theorem B12 (hb : Free1 b) : W12 m ρ c (Proc.devRef .tc b) = W1 m ρ c (Proc.devRef .tc b) := (step12 m ρ c b hb.s12).trans (B11 m ρ c hb)
theorem B13 (hb : Free1 b) : W13 m ρ c (Proc.devRef .tc b) = W1 m ρ c (Proc.devRef .tc b) := (step13 m ρ c b hb.s13).trans (B12 m ρ c hb)
theorem B14 (hb : Free1 b) : W14 m ρ c (Proc.devRef .tc b) = W1 m ρ c (Proc.devRef .tc b) := (step14 m ρ c b hb.s14).trans (B13 m ρ c hb)
theorem B15 (hb : Free1 b) : W15 m ρ c (Proc.devRef .tc b) = W1 m ρ c (Proc.devRef .tc b) := (step15 m ρ c b hb.s15).trans (B14 m ρ c hb)
theorem B16 (hb : Free1 b) : W16 m ρ c (Proc.devRef .tc b) = W1 m ρ c (Proc.devRef .tc b) := (step16 m ρ c b hb.s16).trans (B15 m ρ c hb)
theorem B17 (hb : Free1 b) : W17 m ρ c (Proc.devRef .tc b) = W1 m ρ c (Proc.devRef .tc b) := (step17 m ρ c b hb.s17).trans (B16 m ρ c hb)

theorem free_arg0 : Free main_arg0 := ⟨by hostfree, by decide, by hostfree, by decide, by hostfree, by decide, by hostfree, by hostfree, by decide, by hostfree, by decide, by hostfree, by decide, by hostfree, by hostfree, by decide, by hostfree, by decide, by decide⟩
theorem free_arg2 : Free main_arg2 := ⟨by hostfree, by decide, by hostfree, by decide, by hostfree, by decide, by hostfree, by hostfree, by decide, by hostfree, by decide, by hostfree, by decide, by hostfree, by hostfree, by decide, by hostfree, by decide, by decide⟩
theorem free_arg3 : Free main_arg3 := ⟨by hostfree, by decide, by hostfree, by decide, by hostfree, by decide, by hostfree, by hostfree, by decide, by hostfree, by decide, by hostfree, by decide, by hostfree, by hostfree, by decide, by hostfree, by decide, by decide⟩
theorem free_arg4 : Free main_arg4 := ⟨by hostfree, by decide, by hostfree, by decide, by hostfree, by decide, by hostfree, by hostfree, by decide, by hostfree, by decide, by hostfree, by decide, by hostfree, by hostfree, by decide, by hostfree, by decide, by decide⟩
theorem free_arg5 : Free main_arg5 := ⟨by hostfree, by decide, by hostfree, by decide, by hostfree, by decide, by hostfree, by hostfree, by decide, by hostfree, by decide, by hostfree, by decide, by hostfree, by hostfree, by decide, by hostfree, by decide, by decide⟩
theorem free_arg6 : Free main_arg6 := ⟨by hostfree, by decide, by hostfree, by decide, by hostfree, by decide, by hostfree, by hostfree, by decide, by hostfree, by decide, by hostfree, by decide, by hostfree, by hostfree, by decide, by hostfree, by decide, by decide⟩
theorem free_arg7 : Free main_arg7 := ⟨by hostfree, by decide, by hostfree, by decide, by hostfree, by decide, by hostfree, by hostfree, by decide, by hostfree, by decide, by hostfree, by decide, by hostfree, by hostfree, by decide, by hostfree, by decide, by decide⟩
theorem free_arg8 : Free main_arg8 := ⟨by hostfree, by decide, by hostfree, by decide, by hostfree, by decide, by hostfree, by hostfree, by decide, by hostfree, by decide, by hostfree, by decide, by hostfree, by hostfree, by decide, by hostfree, by decide, by decide⟩
theorem free_arg9 : Free main_arg9 := ⟨by hostfree, by decide, by hostfree, by decide, by hostfree, by decide, by hostfree, by hostfree, by decide, by hostfree, by decide, by hostfree, by decide, by hostfree, by hostfree, by decide, by hostfree, by decide, by decide⟩
theorem free_arg10 : Free main_arg10 := ⟨by hostfree, by decide, by hostfree, by decide, by hostfree, by decide, by hostfree, by hostfree, by decide, by hostfree, by decide, by hostfree, by decide, by hostfree, by hostfree, by decide, by hostfree, by decide, by decide⟩
theorem free_arg11 : Free main_arg11 := ⟨by hostfree, by decide, by hostfree, by decide, by hostfree, by decide, by hostfree, by hostfree, by decide, by hostfree, by decide, by hostfree, by decide, by hostfree, by hostfree, by decide, by hostfree, by decide, by decide⟩
theorem free_arg12 : Free main_arg12 := ⟨by hostfree, by decide, by hostfree, by decide, by hostfree, by decide, by hostfree, by hostfree, by decide, by hostfree, by decide, by hostfree, by decide, by hostfree, by hostfree, by decide, by hostfree, by decide, by decide⟩
theorem free_arg13 : Free main_arg13 := ⟨by hostfree, by decide, by hostfree, by decide, by hostfree, by decide, by hostfree, by hostfree, by decide, by hostfree, by decide, by hostfree, by decide, by hostfree, by hostfree, by decide, by hostfree, by decide, by decide⟩
theorem free_arg14 : Free main_arg14 := ⟨by hostfree, by decide, by hostfree, by decide, by hostfree, by decide, by hostfree, by hostfree, by decide, by hostfree, by decide, by hostfree, by decide, by hostfree, by hostfree, by decide, by hostfree, by decide, by decide⟩
theorem free_arg15 : Free main_arg15 := ⟨by hostfree, by decide, by hostfree, by decide, by hostfree, by decide, by hostfree, by hostfree, by decide, by hostfree, by decide, by hostfree, by decide, by hostfree, by hostfree, by decide, by hostfree, by decide, by decide⟩
theorem free_arg16 : Free main_arg16 := ⟨by hostfree, by decide, by hostfree, by decide, by hostfree, by decide, by hostfree, by hostfree, by decide, by hostfree, by decide, by hostfree, by decide, by hostfree, by hostfree, by decide, by hostfree, by decide, by decide⟩
theorem free_arg17 : Free main_arg17 := ⟨by hostfree, by decide, by hostfree, by decide, by hostfree, by decide, by hostfree, by hostfree, by decide, by hostfree, by decide, by hostfree, by decide, by hostfree, by hostfree, by decide, by hostfree, by decide, by decide⟩
theorem free_arg18 : Free main_arg18 := ⟨by hostfree, by decide, by hostfree, by decide, by hostfree, by decide, by hostfree, by hostfree, by decide, by hostfree, by decide, by hostfree, by decide, by hostfree, by hostfree, by decide, by hostfree, by decide, by decide⟩
theorem free_arg19 : Free main_arg19 := ⟨by hostfree, by decide, by hostfree, by decide, by hostfree, by decide, by hostfree, by hostfree, by decide, by hostfree, by decide, by hostfree, by decide, by hostfree, by hostfree, by decide, by hostfree, by decide, by decide⟩
theorem free_arg20 : Free main_arg20 := ⟨by hostfree, by decide, by hostfree, by decide, by hostfree, by decide, by hostfree, by hostfree, by decide, by hostfree, by decide, by hostfree, by decide, by hostfree, by hostfree, by decide, by hostfree, by decide, by decide⟩
theorem free1_v1 : Free1 main_v1 := ⟨by decide, by hostfree, by decide, by hostfree, by decide, by hostfree, by hostfree, by decide, by hostfree, by decide, by hostfree, by decide, by hostfree, by hostfree, by decide, by hostfree⟩
theorem free1_v3 : Free1 main_v3 := ⟨by decide, by hostfree, by decide, by hostfree, by decide, by hostfree, by hostfree, by decide, by hostfree, by decide, by hostfree, by decide, by hostfree, by hostfree, by decide, by hostfree⟩
theorem free1_v26 : Free1 main_v26 := ⟨by decide, by hostfree, by decide, by hostfree, by decide, by hostfree, by hostfree, by decide, by hostfree, by decide, by hostfree, by decide, by hostfree, by hostfree, by decide, by hostfree⟩
theorem free1_v28 : Free1 main_v28 := ⟨by decide, by hostfree, by decide, by hostfree, by decide, by hostfree, by hostfree, by decide, by hostfree, by decide, by hostfree, by decide, by hostfree, by hostfree, by decide, by hostfree⟩

end Cert.KernelIdeal.Steps

end
-- ==== Proof.Chain.lean ====
/-
  The host-side pieces of the graph convolution that the kernel's program and the reference share word for word,
  each named once as a function of whole arrays (at the exact-real reading of floats):

  * from the edge list: the source and destination index words, the inverse square root of (in-degree + 1), the
    per-edge coefficient dis[src]·dis[dst] (a column) and the per-node self-loop coefficient dis·dis (a column);
  * the neighbour aggregation of a projected feature matrix: gather the source rows, scale each by its edge's
    coefficient, add every scaled row into its destination node's row;
  * the virtual node's update: a row vector through a linear map, a layer normalisation and a rectifier.

  Negative index words are wrapped by the number of nodes before a gather, as jnp indexing does.
-/
import proofs.«161332_j44100724195822_1_alg».proof.KernelIdeal
import proofs.«161332_j44100724195822_1_alg».proof.Proof.Gen.KernelIdeal
import Idealize.ShloMosaic.PureOps.Ideal

noncomputable section

namespace Cert.KernelIdeal.Chain

open Idealize.ShloMosaic Cert.KernelIdeal Cert.KernelIdeal.Facts₀ Cert.KernelIdeal.Facts

/-- The edge list's first row: the source node of every edge. -/
def src (ei : IVec S2x800000 32) : IVec S800000 32 :=
  shapeCast S800000 (extractStridedSlice S1x800000 ![0, 0] ei slices_S2x800000_S1x800000_0_0) shapeCasts_S1x800000_S800000

/-- The edge list's second row: the destination node of every edge. -/
def dst (ei : IVec S2x800000 32) : IVec S800000 32 :=
  shapeCast S800000 (extractStridedSlice S1x800000 ![1, 0] ei slices_S2x800000_S1x800000_1_0) shapeCasts_S1x800000_S800000

/-- (in-degree + 1)^(-1/2) per node: ones added into the destination nodes, plus one, inverse square root. -/
def dis (ei : IVec S2x800000 32) : FVec Ideal S100000 .f32 :=
  Host.rsqrt (addf
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 (dst ei))
      (broadcastInDim S800000 ![] bcast_S_S800000 (constant (F := Ideal) S_ .f32 0x3F800000#32)))
    (broadcastInDim S100000 ![] bcast_S_S100000 (constant (F := Ideal) S_ .f32 0x3F800000#32)))

/-- Index words as a column, a negative word first wrapped by the number of nodes. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The per-edge coefficient dis[src]·dis[dst], as a column. -/
def coefc (ei : IVec S2x800000 32) : FVec Ideal S800000x1 .f32 :=
  broadcastInDim S800000x1 ![0] bcast_S800000_S800000x1_0
    (mulf (Host.gather gather_S100000_S800000x1_S800000_n_0_n_n_0_1_1 (dis ei) (wrapCol (src ei)))
          (Host.gather gather_S100000_S800000x1_S800000_n_0_n_n_0_1_1 (dis ei) (wrapCol (dst ei))))

/-- The per-node self-loop coefficient dis·dis, as a column. -/
def selfc (ei : IVec S2x800000 32) : FVec Ideal S100000x1 .f32 :=
  broadcastInDim S100000x1 ![0] bcast_S100000_S100000x1_0 (mulf (dis ei) (dis ei))

/-- The neighbour aggregation of a 256-column matrix. -/
def agg256 (hp : FVec Ideal S100000x256 .f32) (ei : IVec S2x800000 32) : FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 (dst ei))
    (mulf (Host.gather gather_S100000x256_S800000x1_S800000x256_1_0_n_n_0_1_1256 hp (wrapCol (src ei)))
          (broadcastInDim S800000x256 ![0, 1] bcast_S800000x1_S800000x256_0_1 (coefc ei)))

/-- The neighbour aggregation of a 40-column matrix. -/
def agg40 (hp : FVec Ideal S100000x40 .f32) (ei : IVec S2x800000 32) : FVec Ideal S100000x40 .f32 :=
  Host.scatterAdd scatter_S100000x40_S800000x1_S800000x40_1_0_0_1
    (broadcastInDim S100000x40 ![] bcast_S_S100000x40 (constant (F := Ideal) S_ .f32 0x00000000#32))
    (broadcastInDim S800000x1 ![0] bcast_S800000_S800000x1_0 (dst ei))
    (mulf (Host.gather gather_S100000x40_S800000x1_S800000x40_1_0_n_n_0_1_140 hp (wrapCol (src ei)))
          (broadcastInDim S800000x40 ![0, 1] bcast_S800000x1_S800000x40_0_1 (coefc ei)))

/-- The layer normalisation of one row z with scale g and shift bb (vectors), then the rectifier. -/
def lnRelu (z : FVec Ideal S1x256 .f32) (g bb : FVec Ideal S256 .f32) : FVec Ideal S1x256 .f32 :=
  let mu : FVec Ideal S1x1 .f32 :=
    Host.divf (broadcastInDim S1x1 ![0] bcast_S1_S1x1_0
        (Host.reduceAdd z (constant (F := Ideal) S_ .f32 0x00000000#32) reducesTo_S1x256_S1_d1 h_S_))
      (broadcastInDim S1x1 ![] bcast_S_S1x1 (constant (F := Ideal) S_ .f32 0x43800000#32))
  let d : FVec Ideal S1x256 .f32 := subf z (broadcastInDim S1x256 ![0, 1] bcast_S1x1_S1x256_0_1 mu)
  let var : FVec Ideal S1x1 .f32 :=
    Host.divf (broadcastInDim S1x1 ![0] bcast_S1_S1x1_0
        (Host.reduceAdd (mulf d d) (constant (F := Ideal) S_ .f32 0x00000000#32) reducesTo_S1x256_S1_d1 h_S_))
      (broadcastInDim S1x1 ![] bcast_S_S1x1 (constant (F := Ideal) S_ .f32 0x43800000#32))
  let inv : FVec Ideal S1x1 .f32 :=
    Host.rsqrt (addf var (broadcastInDim S1x1 ![] bcast_S_S1x1 (constant (F := Ideal) S_ .f32 0x3727C5AC#32)))
  maximumf
    (addf (mulf (mulf d (broadcastInDim S1x256 ![0, 1] bcast_S1x1_S1x256_0_1 inv))
                (broadcastInDim S1x256 ![1] bcast_S256_S1x256_1 g))
          (broadcastInDim S1x256 ![1] bcast_S256_S1x256_1 bb))
    (broadcastInDim S1x256 ![] bcast_S_S1x256 (constant (F := Ideal) S_ .f32 0x00000000#32))

/-- The virtual node's update: (pool + vx) through the linear map W, b, then normalised and rectified. -/
def vn (pool vx : FVec Ideal S1x256 .f32) (W : FVec Ideal S256x256 .f32) (b g bb : FVec Ideal S256 .f32) :
    FVec Ideal S1x256 .f32 :=
  lnRelu (addf (Host.dotGeneral dot_S1x256_S256x256_S1x256_1_0_0_1_n_n none (addf pool vx) W)
               (broadcastInDim S1x256 ![1] bcast_S256_S1x256_1 b)) g bb

end Cert.KernelIdeal.Chain

end
-- ==== Proof.Spec.lean ====
/-
  The pure functions this certificate is stated over: a three-layer graph convolution with a virtual node, on the
  extended reals, index by index.  Nothing here mentions a program; the kernel's regions and the reference's host
  operations are each read back as one of these functions of whole arrays.

  Notation: N nodes (rows), K input features, D output features.  An array of shape [A, B] is a function of a
  rank-2 index; `ix2 a b` is the index with coordinates a, b.
-/
import Idealize.ShloMosaic.PureOps.Ideal
import Idealize.ShloMosaic.Lib.ValueIdx

noncomputable section

namespace Cert.Vn

open Idealize.ShloMosaic Idealize.ShloMosaic.ValueIdx
open scoped BigOperators

/-- A matrix of extended reals with A rows and B columns. -/
abbrev Mat (A B : ℕ) : Type := (⟨2, ![A, B]⟩ : Shape).Idx → EReal

/-- The row coordinate of a matrix index. -/
abbrev row {A B : ℕ} (i : (⟨2, ![A, B]⟩ : Shape).Idx) : Fin A := i 0
/-- The column coordinate of a matrix index. -/
abbrev col {A B : ℕ} (i : (⟨2, ![A, B]⟩ : Shape).Idx) : Fin B := i 1

/-- The stabiliser added to a variance before the inverse square root: the float word of 1e-5. -/
def eps : EReal := Ideal.ofBits .f32 0x3727C5AC#32

/-- The linear layer: every row of x shifted by the virtual-node row vx, then multiplied by the weight matrix:
    entry (r, j) is the sum over k of (x r k + vx 0 k) · W k j. -/
def lin {N K D : ℕ} (x : Mat N K) (vx : Mat 1 K) (W : Mat K D) : Mat N D :=
  fun i => ∑ k : Fin K, (x (ix2 (row i) k) + vx (ix2 0 k)) * W (ix2 k (col i))

/-- The combine step of a graph convolution: the neighbours' aggregate, plus the node's own projection scaled by its
    self-loop coefficient (a column), plus the bias (a row): entry (r, j) is agg r j + hp r j · sc r 0 + b 0 j. -/
def comb {N D : ℕ} (agg hp : Mat N D) (sc : Mat N 1) (b : Mat 1 D) : Mat N D :=
  fun i => agg i + hp i * sc (ix2 (row i) 0) + b (ix2 0 (col i))

/-- The sum of every column, as one row: entry (0, j) is the sum over r of y r j. -/
def colsum {N D : ℕ} (y : Mat N D) : Mat 1 D :=
  fun j => ∑ r : Fin N, y (ix2 r (col j))

/-- The entrywise square. -/
def sq {N D : ℕ} (y : Mat N D) : Mat N D := fun i => y i * y i

/-- Normalise by a given per-column mean and variance (the variance clamped at zero from below), scale, shift and
    rectify: entry (r, j) is max ((y r j − mean j) · rsqrt (max (var j) 0 + eps) · g j + b j) 0. -/
def nrp {N D : ℕ} (y : Mat N D) (mean var g b : Mat 1 D) : Mat N D :=
  fun i => max ((y i - mean (ix2 0 (col i))) * Ideal.rsqrt (max (var (ix2 0 (col i))) 0 + eps)
      * g (ix2 0 (col i)) + b (ix2 0 (col i))) 0

/-- The same normalisation with the variance taken as it is (no clamp): what the reference computes. -/
def nrpPlain {N D : ℕ} (y : Mat N D) (mean var g b : Mat 1 D) : Mat N D :=
  fun i => max ((y i - mean (ix2 0 (col i))) * Ideal.rsqrt (var (ix2 0 (col i)) + eps)
      * g (ix2 0 (col i)) + b (ix2 0 (col i))) 0

/-- The largest entry of row r (the supremum over the columns; −∞ for an empty row). -/
def rowmax {N D : ℕ} (y : Mat N D) (r : Fin N) : EReal := Finset.univ.sup fun j : Fin D => y (ix2 r j)

/-- The log-softmax of every row: with z r j = y r j − rowmax r, entry (r, j) is z r j − log (Σ_j' exp (z r j')). -/
def lsm {N D : ℕ} (y : Mat N D) : Mat N D :=
  fun i => (y i - rowmax y (row i)) - Ideal.log (∑ j : Fin D, Ideal.exp (y (ix2 (row i) j) - rowmax y (row i)))

/-- The per-column mean of N rows from the column sums: s j / N, in the host's division. -/
def meanOf {D : ℕ} (n : EReal) (s : Mat 1 D) : Mat 1 D := fun j => Ideal.div (s j) n

/-- The per-column variance as the second moment minus the squared mean: ss j / N − mean j · mean j. -/
def varOf {D : ℕ} (n : EReal) (ss mean : Mat 1 D) : Mat 1 D := fun j => Ideal.div (ss j) n - mean j * mean j

end Cert.Vn

end
-- ==== Proof.KVal.lean ====
/-
  The idealized kernel's result as one function of the argument arrays: per layer the linear map of the features
  shifted by the virtual-node row, the neighbour aggregation, the combine step; for the first two layers the batch
  statistics in the kernel's spelling (column sums of y and of y², mean = s/N, variance = ss/N − mean², the clamp
  and the stabiliser inside the normalisation), the rectified normalised features, their pooled row and the virtual
  node's update; for the last layer the log-softmax of the combined rows.
-/
import proofs.«161332_j44100724195822_1_alg».proof.Proof.Chain
import proofs.«161332_j44100724195822_1_alg».proof.Proof.Spec

noncomputable section

namespace Cert.KernelIdeal.KVal

open Idealize.ShloMosaic Cert.KernelIdeal Cert.KernelIdeal.Facts₀ Cert.KernelIdeal.Facts

/-- A vector of 256 entries as one row. -/
def rowv (v : FVec Ideal S256 .f32) : FVec Ideal S1x256 .f32 := shapeCast S1x256 v shapeCasts_S256_S1x256

/-- A vector of 40 entries as one row. -/
def rowv40 (v : FVec Ideal S40 .f32) : FVec Ideal S1x40 .f32 := shapeCast S1x40 v shapeCasts_S40_S1x40

/-- A row of column sums divided by the number of rows (the float word of 100000). -/
def meanK (s : FVec Ideal S1x256 .f32) : FVec Ideal S1x256 .f32 :=
  Host.divf s (broadcastInDim S1x256 ![] bcast_S_S1x256 (constant (F := Ideal) S_ .f32 0x47C35000#32))

/-- The variance as the second moment minus the squared mean. -/
def varK (ss mean : FVec Ideal S1x256 .f32) : FVec Ideal S1x256 .f32 := subf (meanK ss) (mulf mean mean)

/-- One graph convolution on 256 columns, before the normalisation. -/
def yK (h : FVec Ideal S100000x256 .f32) (vx : FVec Ideal S1x256 .f32) (W : FVec Ideal S256x256 .f32)
    (b : FVec Ideal S256 .f32) (ei : IVec S2x800000 32) : FVec Ideal S100000x256 .f32 :=
  Cert.Vn.comb (Chain.agg256 (Cert.Vn.lin h vx W) ei) (Cert.Vn.lin h vx W) (Chain.selfc ei) (rowv b)

/-- The batch normalisation in the kernel's spelling, then the rectifier. -/
def hK (y : FVec Ideal S100000x256 .f32) (g b : FVec Ideal S256 .f32) : FVec Ideal S100000x256 .f32 :=
  Cert.Vn.nrp y (meanK (Cert.Vn.colsum y)) (varK (Cert.Vn.colsum (Cert.Vn.sq y)) (meanK (Cert.Vn.colsum y))) (rowv g) (rowv b)

/-- Layer 0's features. -/
def h0 (a0 : FVec Ideal S100000x256 .f32) (a1 : IVec S2x800000 32) (a2 : FVec Ideal S256x256 .f32) (a3 : FVec Ideal S256 .f32)
    (a8 a9 : FVec Ideal S256 .f32) (a12 : FVec Ideal S1x256 .f32) : FVec Ideal S100000x256 .f32 :=
  hK (yK a0 a12 a2 a3 a1) a8 a9

/-- The virtual node after layer 0. -/
def vx1 (a0 : FVec Ideal S100000x256 .f32) (a1 : IVec S2x800000 32) (a2 : FVec Ideal S256x256 .f32) (a3 : FVec Ideal S256 .f32)
    (a8 a9 : FVec Ideal S256 .f32) (a12 : FVec Ideal S1x256 .f32) (a13 : FVec Ideal S256x256 .f32)
    (a14 a15 a16 : FVec Ideal S256 .f32) : FVec Ideal S1x256 .f32 :=
  Chain.vn (Cert.Vn.colsum (h0 a0 a1 a2 a3 a8 a9 a12)) a12 a13 a14 a15 a16

/-- The whole forward pass. -/
def out (a0 : FVec Ideal S100000x256 .f32) (a1 : IVec S2x800000 32) (a2 : FVec Ideal S256x256 .f32) (a3 : FVec Ideal S256 .f32)
    (a4 : FVec Ideal S256x256 .f32) (a5 : FVec Ideal S256 .f32) (a6 : FVec Ideal S256x40 .f32) (a7 : FVec Ideal S40 .f32)
    (a8 a9 a10 a11 : FVec Ideal S256 .f32) (a12 : FVec Ideal S1x256 .f32) (a13 : FVec Ideal S256x256 .f32)
    (a14 a15 a16 : FVec Ideal S256 .f32) (a17 : FVec Ideal S256x256 .f32) (a18 a19 a20 : FVec Ideal S256 .f32) :
    FVec Ideal S100000x40 .f32 :=
  let hh0 := h0 a0 a1 a2 a3 a8 a9 a12
  let v1 := vx1 a0 a1 a2 a3 a8 a9 a12 a13 a14 a15 a16
  let hh1 := hK (yK hh0 v1 a4 a5 a1) a10 a11
  let v2 := Chain.vn (Cert.Vn.colsum hh1) v1 a17 a18 a19 a20
  let hp2 := Cert.Vn.lin hh1 v2 a6
  Cert.Vn.lsm (Cert.Vn.comb (Chain.agg40 hp2 a1) hp2 (Chain.selfc a1) (rowv40 a7))

end Cert.KernelIdeal.KVal

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.KSeg.lean ====
/-
  The idealized kernel's host stretches, each read back from ANY buffer contents it may start from: what the
  stretch leaves at a result buffer is the named host chain of what it found at the buffers it reads (the edge
  list's pieces; the neighbour aggregation of a projected feature matrix; a bias vector as a row; mean and variance
  from the column sums; the virtual node's update).
-/
import proofs.«161332_j44100724195822_1_alg».proof.Proof.Gen.KernelIdeal.Launch
import proofs.«161332_j44100724195822_1_alg».proof.Proof.KVal
import proofs.«161332_j44100724195822_1_alg».proof.Proof.LibAfterAssign
import proofs.«161332_j44100724195822_1_alg».proof.Proof.LibTypedRef
import Idealize.ShloMosaic.Lib.StableHlo.Run

set_option maxRecDepth 16384

noncomputable section

namespace Cert.KernelIdeal.KSeg

section Aggregation

open Idealize.ShloMosaic Cert.KernelIdeal Cert.KernelIdeal.KVal Cert.KernelIdeal.Facts₀ Cert.KernelIdeal.Facts

/-- The neighbour aggregation on 256 columns from the source and destination words and the coefficient column. -/
def aggOf256 (hp : FVec Ideal S100000x256 .f32) (s d : IVec S800000 32) (cc : FVec Ideal S800000x1 .f32) :
    FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 d)
    (mulf (Host.gather gather_S100000x256_S800000x1_S800000x256_1_0_n_n_0_1_1256 hp (Chain.wrapCol s))
          (broadcastInDim S800000x256 ![0, 1] bcast_S800000x1_S800000x256_0_1 cc))

/-- The neighbour aggregation on 40 columns. -/
def aggOf40 (hp : FVec Ideal S100000x40 .f32) (s d : IVec S800000 32) (cc : FVec Ideal S800000x1 .f32) :
    FVec Ideal S100000x40 .f32 :=
  Host.scatterAdd scatter_S100000x40_S800000x1_S800000x40_1_0_0_1
    (broadcastInDim S100000x40 ![] bcast_S_S100000x40 (constant (F := Ideal) S_ .f32 0x00000000#32))
    (broadcastInDim S800000x1 ![0] bcast_S800000_S800000x1_0 d)
    (mulf (Host.gather gather_S100000x40_S800000x1_S800000x40_1_0_n_n_0_1_140 hp (Chain.wrapCol s))
          (broadcastInDim S800000x40 ![0, 1] bcast_S800000x1_S800000x40_0_1 cc))

theorem aggOf256_eq (hp : FVec Ideal S100000x256 .f32) (ei : IVec S2x800000 32) :
    aggOf256 hp (Chain.src ei) (Chain.dst ei) (Chain.coefc ei) = Chain.agg256 hp ei := rfl
theorem aggOf40_eq (hp : FVec Ideal S100000x40 .f32) (ei : IVec S2x800000 32) :
    aggOf40 hp (Chain.src ei) (Chain.dst ei) (Chain.coefc ei) = Chain.agg40 hp ei := rfl

end Aggregation

open Idealize.ShloMosaic Idealize.ShloMosaic.TcCoe Idealize.SL.Sem Idealize.ShloMosaic.StableHlo
open Cert.KernelIdeal Cert.KernelIdeal.Gen Cert.KernelIdeal.KVal

/-! ## The first stretch: the edge list's pieces -/

theorem seg0_v1 (W : Valuation τ sig (Elt Ideal)) :
    after (hostOps0 (F := Ideal)) W (Proc.devRef .tc main_v1) = Chain.src (W (Proc.devRef .tc main_arg1)) := by
  after_results_simp
  rfl

theorem seg0_v3 (W : Valuation τ sig (Elt Ideal)) :
    after (hostOps0 (F := Ideal)) W (Proc.devRef .tc main_v3) = Chain.dst (W (Proc.devRef .tc main_arg1)) := by
  after_results_simp
  rfl

theorem seg0_v26 (W : Valuation τ sig (Elt Ideal)) :
    after (hostOps0 (F := Ideal)) W (Proc.devRef .tc main_v26) = Chain.coefc (W (Proc.devRef .tc main_arg1)) := by
  after_results_simp
  rfl

theorem seg0_v28 (W : Valuation τ sig (Elt Ideal)) :
    after (hostOps0 (F := Ideal)) W (Proc.devRef .tc main_v28) = Chain.selfc (W (Proc.devRef .tc main_arg1)) := by
  after_results_simp
  rfl

/-! ## The aggregations and the bias rows -/

theorem seg1_v41 (W : Valuation τ sig (Elt Ideal)) :
    after (hostOps1 (F := Ideal)) W (Proc.devRef .tc main_v41) = aggOf256 (W (Proc.devRef .tc main_v29)) (W (Proc.devRef .tc main_v1)) (W (Proc.devRef .tc main_v3)) (W (Proc.devRef .tc main_v26)) := by
  after_results_simp
  rfl

theorem seg1_v42 (W : Valuation τ sig (Elt Ideal)) :
    after (hostOps1 (F := Ideal)) W (Proc.devRef .tc main_v42) = rowv (W (Proc.devRef .tc main_arg3)) := by
  after_results_simp
  rfl

theorem seg4_v92 (W : Valuation τ sig (Elt Ideal)) :
    after (hostOps4 (F := Ideal)) W (Proc.devRef .tc main_v92) = aggOf256 (W (Proc.devRef .tc main_v80)) (W (Proc.devRef .tc main_v1)) (W (Proc.devRef .tc main_v3)) (W (Proc.devRef .tc main_v26)) := by
  after_results_simp
  rfl

theorem seg4_v93 (W : Valuation τ sig (Elt Ideal)) :
    after (hostOps4 (F := Ideal)) W (Proc.devRef .tc main_v93) = rowv (W (Proc.devRef .tc main_arg5)) := by
  after_results_simp
  rfl

theorem seg7_v143 (W : Valuation τ sig (Elt Ideal)) :
    after (hostOps7 (F := Ideal)) W (Proc.devRef .tc main_v143) = aggOf40 (W (Proc.devRef .tc main_v131)) (W (Proc.devRef .tc main_v1)) (W (Proc.devRef .tc main_v3)) (W (Proc.devRef .tc main_v26)) := by
  after_results_simp
  rfl

theorem seg7_v144 (W : Valuation τ sig (Elt Ideal)) :
    after (hostOps7 (F := Ideal)) W (Proc.devRef .tc main_v144) = rowv40 (W (Proc.devRef .tc main_arg7)) := by
  after_results_simp
  rfl

/-! ## Mean, variance, scale and shift rows -/

theorem seg2_v45 (W : Valuation τ sig (Elt Ideal)) :
    after (hostOps2 (F := Ideal)) W (Proc.devRef .tc main_v45) = meanK (W (Proc.devRef .tc main_v43_1)) := by
  after_results_simp
  rfl

theorem seg2_v49 (W : Valuation τ sig (Elt Ideal)) :
    after (hostOps2 (F := Ideal)) W (Proc.devRef .tc main_v49) = varK (W (Proc.devRef .tc main_v43_2)) (meanK (W (Proc.devRef .tc main_v43_1))) := by
  after_results_simp
  rfl

theorem seg2_v50 (W : Valuation τ sig (Elt Ideal)) :
    after (hostOps2 (F := Ideal)) W (Proc.devRef .tc main_v50) = rowv (W (Proc.devRef .tc main_arg8)) := by
  after_results_simp
  rfl

theorem seg2_v51 (W : Valuation τ sig (Elt Ideal)) :
    after (hostOps2 (F := Ideal)) W (Proc.devRef .tc main_v51) = rowv (W (Proc.devRef .tc main_arg9)) := by
  after_results_simp
  rfl

theorem seg5_v96 (W : Valuation τ sig (Elt Ideal)) :
    after (hostOps5 (F := Ideal)) W (Proc.devRef .tc main_v96) = meanK (W (Proc.devRef .tc main_v94_1)) := by
  after_results_simp
  rfl

theorem seg5_v100 (W : Valuation τ sig (Elt Ideal)) :
    after (hostOps5 (F := Ideal)) W (Proc.devRef .tc main_v100) = varK (W (Proc.devRef .tc main_v94_2)) (meanK (W (Proc.devRef .tc main_v94_1))) := by
  after_results_simp
  rfl

theorem seg5_v101 (W : Valuation τ sig (Elt Ideal)) :
    after (hostOps5 (F := Ideal)) W (Proc.devRef .tc main_v101) = rowv (W (Proc.devRef .tc main_arg10)) := by
  after_results_simp
  rfl

theorem seg5_v102 (W : Valuation τ sig (Elt Ideal)) :
    after (hostOps5 (F := Ideal)) W (Proc.devRef .tc main_v102) = rowv (W (Proc.devRef .tc main_arg11)) := by
  after_results_simp
  rfl

/-! ## The virtual node's two updates -/

theorem seg3_v79 (W : Valuation τ sig (Elt Ideal)) :
    after (hostOps3_1 (F := Ideal)) (after (hostOps3 (F := Ideal)) W) (Proc.devRef .tc main_v79) = Chain.vn (W (Proc.devRef .tc main_v52_1)) (W (Proc.devRef .tc main_arg12)) (W (Proc.devRef .tc main_arg13)) (W (Proc.devRef .tc main_arg14)) (W (Proc.devRef .tc main_arg15)) (W (Proc.devRef .tc main_arg16)) := by
  rw [← Cert.Lib.AfterAssign.after_append]
  simp only [hostOps3, hostOps3_1, List.cons_append, List.nil_append]
  after_results_simp
  simp only [Cert.Lib.TypedRef.ofBuf_toBuf]
  rfl

theorem seg6_v130 (W : Valuation τ sig (Elt Ideal)) :
    after (hostOps6_1 (F := Ideal)) (after (hostOps6 (F := Ideal)) W) (Proc.devRef .tc main_v130) = Chain.vn (W (Proc.devRef .tc main_v103_1)) (W (Proc.devRef .tc main_v79)) (W (Proc.devRef .tc main_arg17)) (W (Proc.devRef .tc main_arg18)) (W (Proc.devRef .tc main_arg19)) (W (Proc.devRef .tc main_arg20)) := by
  rw [← Cert.Lib.AfterAssign.after_append]
  simp only [hostOps6, hostOps6_1, List.cons_append, List.nil_append]
  after_results_simp
  simp only [Cert.Lib.TypedRef.ofBuf_toBuf]
  rfl

end Cert.KernelIdeal.KSeg

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionLin.lean ====
/-
  The three linear-layer regions of the kernel program, read as one function of whole arrays: after such a region
  the output array is the linear layer `Cert.Vn.lin` of the region's three input arrays, whatever the buffers hold
  when the region is entered.

  Each region runs over 50 grid points; point `t` loads rows `2000 t … 2000 t + 1999` of the input, the whole
  virtual-node row and the whole weight matrix, and stores rows `2000 t … 2000 t + 1999` of the output. The body's
  result at `(p, q)` of a block is the sum over `k` of `(x p k + vx 0 k) · W k q`; read through the block's place in the
  array this is block `t` of the linear layer of the whole arrays, and the 50 blocks tile the output.
-/
import proofs.«161332_j44100724195822_1_alg».proof.Proof.Gen.KernelIdeal.Frame
import proofs.«161332_j44100724195822_1_alg».proof.Proof.Spec
import proofs.«161332_j44100724195822_1_alg».proof.Proof.LibMatmul

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen Cert.Vn
open Idealize.ShloMosaic.Pipeline (Dat Cfg Window)
open scoped BigOperators

variable (V : (c : Dev nD) → (b : Ref sig .tc) → Buf (Elt Ideal) ((c : Thread nD τ).loc b)) (c : Dev nD)

namespace Lin

/-- The zero offsets of a whole-block access. -/
theorem hz : (![0, 0] : Fin 2 → Nat) = fun _ => 0 := funext fun a => by fin_cases a <;> rfl

/-! ## The body's arithmetic at an index -/

/-- The contraction of the `[2000, 256] × [256, 256]` product is the plain one: axis 1 against axis 0, no batch axis. -/
theorem dims256 : dot_S2000x256_S256x256_S2000x256_1_0_0_1_n_n = DotDims.plain 2000 256 256 := rfl

/-- The virtual-node row broadcast over the 2000 rows of a block reads, at `(p, k)`, the row's entry `k`. -/
theorem bcast_row (x1 : Vec Ideal S1x256 .f32) (p : Fin 2000) (k : Fin 256) :
    broadcastTo S2000x256 x1 broadcasts_S1x256_S2000x256 (ix2 p k) = x1 (ix2 0 k) := by
  refine broadcastTo_apply x1 _ (ix2 p k) (ix2 0 k) fun ax => ?_
  match ax with
  | ⟨0, _⟩ => rfl
  | ⟨1, _⟩ => rfl

/-- The body's result at `(p, q)` of a block: the sum over `k` of `(x p k + vx 0 k) · W k q` (the casts to the
    narrower float type are the identity on extended reals, and the product accumulates into zero). -/
theorem pay0 (x0 : Vec Ideal S2000x256 .f32) (x1 : Vec Ideal S1x256 .f32) (x2 : Vec Ideal S256x256 .f32) (p : Fin 2000) (q : Fin 256) :
    k0_pay1 (F := Ideal) x0 x1 x2 (ix2 p q) = ∑ k : Fin 256, (x0 (ix2 p k) + x1 (ix2 0 k)) * x2 (ix2 k q) := by
  unfold k0_pay1
  rw [dims256]
  refine (Cert.MatOps.matmul_plain_zero_apply none _ _ p q).trans ?_
  refine Finset.sum_congr rfl fun k _ => ?_
  rw [truncf_apply, truncf_apply, addf_apply, bcast_row]

/-- The contraction of the `[2000, 256] × [256, 40]` product is the plain one as well. -/
theorem dims40 : dot_S2000x256_S256x40_S2000x40_1_0_0_1_n_n = DotDims.plain 2000 256 40 := rfl

/-- The second layer's body computes the same sum (its two extra casts to the shape a value already has are the identity). -/
theorem pay3 (x0 : Vec Ideal S2000x256 .f32) (x1 : Vec Ideal S1x256 .f32) (x2 : Vec Ideal S256x256 .f32) (p : Fin 2000) (q : Fin 256) :
    k3_pay1 (F := Ideal) x0 x1 x2 (ix2 p q) = ∑ k : Fin 256, (x0 (ix2 p k) + x1 (ix2 0 k)) * x2 (ix2 k q) := by
  unfold k3_pay1
  rw [dims256]
  refine (Cert.MatOps.matmul_plain_zero_apply none _ _ p q).trans ?_
  refine Finset.sum_congr rfl fun k _ => ?_
  rw [truncf_apply, truncf_apply, addf_apply, bcast_row, shapeCast_self, shapeCast_self]

/-- The third layer's body, with 40 output columns. -/
theorem pay6 (x0 : Vec Ideal S2000x256 .f32) (x1 : Vec Ideal S1x256 .f32) (x2 : Vec Ideal S256x40 .f32) (p : Fin 2000) (q : Fin 40) :
    k6_pay1 (F := Ideal) x0 x1 x2 (ix2 p q) = ∑ k : Fin 256, (x0 (ix2 p k) + x1 (ix2 0 k)) * x2 (ix2 k q) := by
  unfold k6_pay1
  rw [dims40]
  refine (Cert.MatOps.matmul_plain_zero_apply none _ _ p q).trans ?_
  refine Finset.sum_congr rfl fun k _ => ?_
  rw [truncf_apply, truncf_apply, addf_apply, bcast_row, shapeCast_self, shapeCast_self]

/-! ## Region 0: from the blocks to the array -/

/-- The printed index maps over the 50 grid points: the row-block windows (input 0, output 3) are at block `t` of the
    rows, the whole-array windows (the virtual-node row, the weights) at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Input block `t` at `(p, k)` is the input array at row `2000 t + p`, column `k`. -/
theorem blk0_0 (t : Fin cfg0.N) (p : Fin 2000) (k : Fin 256) (i : S100000x256.Idx)
    (h0 : (i 0).val = 2000 * t.val + p.val) (h1 : (i 1).val = k.val) :
    (iblk0 V c 0 t : Vec Ideal S2000x256 .f32) (ix2 p k) = V c main_arg0 i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * p.val = (i 0).val; rw [e0, h0]; omega
  | ⟨1, _⟩ => show win0_0.index t 1 * 256 + 1 * k.val = (i 1).val; rw [e1, h1]; omega

/-- The virtual-node row's block is the whole row at every point. -/
theorem blk0_1 (t : Fin cfg0.N) (k : Fin 256) :
    (iblk0 V c 1 t : Vec Ideal S1x256 .f32) (ix2 0 k) = V c main_arg12 (ix2 0 k) := by
  obtain ⟨-, -, e0, e1, -⟩ := idx0 t
  unfold iblk0
  rw [View.read_apply]
  show V c main_arg12 _ = V c main_arg12 _
  congr 1
  funext a
  apply Fin.ext
  match a with
  | ⟨0, _⟩ => show win0_1.index t 0 * 1 + 1 * 0 = 0; rw [e0]
  | ⟨1, _⟩ => show win0_1.index t 1 * 256 + 1 * k.val = k.val; rw [e1]; omega

/-- The weights' block is the whole matrix at every point. -/
theorem blk0_2 (t : Fin cfg0.N) (k : Fin 256) (q : Fin 256) (i : S256x256.Idx)
    (h0 : (i 0).val = k.val) (h1 : (i 1).val = q.val) :
    (iblk0 V c 2 t : Vec Ideal S256x256 .f32) (ix2 k q) = V c main_arg2 i := by
  obtain ⟨-, -, -, -, e0, e1, -⟩ := idx0 t
  unfold iblk0
  rw [View.read_apply]
  show V c main_arg2 _ = V c main_arg2 _
  congr 1
  funext a
  apply Fin.ext
  match a with
  | ⟨0, _⟩ => show win0_2.index t 0 * 256 + 1 * k.val = (i 0).val; rw [e0, h0]; omega
  | ⟨1, _⟩ => show win0_2.index t 1 * 256 + 1 * q.val = (i 1).val; rw [e1, h1]; omega

/-- What point `t` writes back is block `t` of the linear layer of the three input arrays. -/
theorem flushed0 (t : Fin cfg0.N) :
    (dat0 (F := Ideal) V c).flushed 3 t = ((cfg0.win 3).blk t).view.read (Elt Ideal) (lin (V c main_arg0) (V c main_arg12) (V c main_arg2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 (n0 := 2000) (n1 := 256) j⟩
  obtain ⟨-, -, -, -, -, -, e0, e1⟩ := idx0 t
  show k0_pay1 (F := Ideal) (iblk0 V c 0 t) (iblk0 V c 1 t) (iblk0 V c 2 t) (ix2 p q)
    = lin (V c main_arg0) (V c main_arg12) (V c main_arg2) (((cfg0.win 3).blk t).view.emb (ix2 p q))
  refine (pay0 (iblk0 V c 0 t) (iblk0 V c 1 t) (iblk0 V c 2 t) p q).trans ?_
  unfold lin
  refine Finset.sum_congr rfl fun k _ => ?_
  have a0 := blk0_0 V c t p k (ix2 (row (((cfg0.win 3).blk t).view.emb (ix2 p q))) k)
    (by show win0_3.index t 0 * 2000 + 1 * p.val = _; rw [e0]; omega) rfl
  have a1 := blk0_1 V c t k
  have a2 := blk0_2 V c t k q (ix2 k (col (((cfg0.win 3).blk t).view.emb (ix2 p q)))) rfl
    (by show win0_3.index t 1 * 256 + 1 * q.val = _; rw [e1]; omega)
  exact congrArg₂ (· * ·) (congrArg₂ (· + ·) a0 a1) a2

/-- An index of the output array is in point `t`'s block iff each coordinate is in the block's range on its axis. -/
theorem mem_blk0 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v29).slice (win0_3.rect t)).set ↔ _
  rw [View.set_slice_whole, Rect.mem_set_unit]
  exact Iff.rfl

/-- Row `r` of the output lies in the block of point `r / 2000`: the 50 row blocks tile the array. -/
theorem cover0 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ : ∃ t : Fin cfg0.N, t.val = (i 0).val / 2000 :=
    ⟨⟨(i 0).val / 2000, by have h : cfg0.N = 50 := N_0; omega⟩, rfl⟩
  obtain ⟨-, -, -, -, -, -, e0, e1⟩ := idx0 t
  refine ⟨t, flush0_3 t, ?_⟩
  rw [mem_blk0]
  intro a
  match a with
  | ⟨0, _⟩ => show win0_3.index t 0 * 2000 ≤ (i 0).val ∧ (i 0).val < win0_3.index t 0 * 2000 + 2000; rw [e0, ht]; omega
  | ⟨1, _⟩ => show win0_3.index t 1 * 256 ≤ (i 1).val ∧ (i 1).val < win0_3.index t 1 * 256 + 256; rw [e1]; omega

/-! ## Region 3: from the blocks to the array -/

/-- The printed index maps over the 50 grid points: the row-block windows (input 0, output 3) are at block `t` of the
    rows, the whole-array windows (the virtual-node row, the weights) at block 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Input block `t` at `(p, k)` is the input array at row `2000 t + p`, column `k`. -/
theorem blk3_0 (t : Fin cfg3.N) (p : Fin 2000) (k : Fin 256) (i : S100000x256.Idx)
    (h0 : (i 0).val = 2000 * t.val + p.val) (h1 : (i 1).val = k.val) :
    (iblk3 V c 0 t : Vec Ideal S2000x256 .f32) (ix2 p k) = V c main_v52_0 i := by
  obtain ⟨e0, e1, -⟩ := idx3 t
  unfold iblk3
  rw [View.read_apply]
  show V c main_v52_0 _ = V c main_v52_0 _
  congr 1
  funext a
  apply Fin.ext
  match a with
  | ⟨0, _⟩ => show win3_0.index t 0 * 2000 + 1 * p.val = (i 0).val; rw [e0, h0]; omega
  | ⟨1, _⟩ => show win3_0.index t 1 * 256 + 1 * k.val = (i 1).val; rw [e1, h1]; omega

/-- The virtual-node row's block is the whole row at every point. -/
theorem blk3_1 (t : Fin cfg3.N) (k : Fin 256) :
    (iblk3 V c 1 t : Vec Ideal S1x256 .f32) (ix2 0 k) = V c main_v79 (ix2 0 k) := by
  obtain ⟨-, -, e0, e1, -⟩ := idx3 t
  unfold iblk3
  rw [View.read_apply]
  show V c main_v79 _ = V c main_v79 _
  congr 1
  funext a
  apply Fin.ext
  match a with
  | ⟨0, _⟩ => show win3_1.index t 0 * 1 + 1 * 0 = 0; rw [e0]
  | ⟨1, _⟩ => show win3_1.index t 1 * 256 + 1 * k.val = k.val; rw [e1]; omega

/-- The weights' block is the whole matrix at every point. -/
theorem blk3_2 (t : Fin cfg3.N) (k : Fin 256) (q : Fin 256) (i : S256x256.Idx)
    (h0 : (i 0).val = k.val) (h1 : (i 1).val = q.val) :
    (iblk3 V c 2 t : Vec Ideal S256x256 .f32) (ix2 k q) = V c main_arg4 i := by
  obtain ⟨-, -, -, -, e0, e1, -⟩ := idx3 t
  unfold iblk3
  rw [View.read_apply]
  show V c main_arg4 _ = V c main_arg4 _
  congr 1
  funext a
  apply Fin.ext
  match a with
  | ⟨0, _⟩ => show win3_2.index t 0 * 256 + 1 * k.val = (i 0).val; rw [e0, h0]; omega
  | ⟨1, _⟩ => show win3_2.index t 1 * 256 + 1 * q.val = (i 1).val; rw [e1, h1]; omega

/-- What point `t` writes back is block `t` of the linear layer of the three input arrays. -/
theorem flushed3 (t : Fin cfg3.N) :
    (dat3 (F := Ideal) V c).flushed 3 t = ((cfg3.win 3).blk t).view.read (Elt Ideal) (lin (V c main_v52_0) (V c main_v79) (V c main_arg4)) := by
  show (cfg3.win 3).cut (grid3.coords t) ((dat3 V c).after 3 t) = _
  rw [after3_3]
  unfold out3_3
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 (n0 := 2000) (n1 := 256) j⟩
  obtain ⟨-, -, -, -, -, -, e0, e1⟩ := idx3 t
  show k3_pay1 (F := Ideal) (iblk3 V c 0 t) (iblk3 V c 1 t) (iblk3 V c 2 t) (ix2 p q)
    = lin (V c main_v52_0) (V c main_v79) (V c main_arg4) (((cfg3.win 3).blk t).view.emb (ix2 p q))
  refine (pay3 (iblk3 V c 0 t) (iblk3 V c 1 t) (iblk3 V c 2 t) p q).trans ?_
  unfold lin
  refine Finset.sum_congr rfl fun k _ => ?_
  have a0 := blk3_0 V c t p k (ix2 (row (((cfg3.win 3).blk t).view.emb (ix2 p q))) k)
    (by show win3_3.index t 0 * 2000 + 1 * p.val = _; rw [e0]; omega) rfl
  have a1 := blk3_1 V c t k
  have a2 := blk3_2 V c t k q (ix2 k (col (((cfg3.win 3).blk t).view.emb (ix2 p q)))) rfl
    (by show win3_3.index t 1 * 256 + 1 * q.val = _; rw [e1]; omega)
  exact congrArg₂ (· * ·) (congrArg₂ (· + ·) a0 a1) a2

/-- An index of the output array is in point `t`'s block iff each coordinate is in the block's range on its axis. -/
theorem mem_blk3 (t : Fin cfg3.N) (i : S100000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v80).slice (win3_3.rect t)).set ↔ _
  rw [View.set_slice_whole, Rect.mem_set_unit]
  exact Iff.rfl

/-- Row `r` of the output lies in the block of point `r / 2000`: the 50 row blocks tile the array. -/
theorem cover3 (i : S100000x256.Idx) : ∃ t : Fin cfg3.N, (cfg3.win 3).flush t = true ∧ i ∈ ((cfg3.win 3).blk t).view.set := by
  have hi0 : (i 0).val < 100000 := (i 0).isLt
  have hi1 : (i 1).val < 256 := (i 1).isLt
  obtain ⟨t, ht⟩ : ∃ t : Fin cfg3.N, t.val = (i 0).val / 2000 :=
    ⟨⟨(i 0).val / 2000, by have h : cfg3.N = 50 := N_3; omega⟩, rfl⟩
  obtain ⟨-, -, -, -, -, -, e0, e1⟩ := idx3 t
  refine ⟨t, flush3_3 t, ?_⟩
  rw [mem_blk3]
  intro a
  match a with
  | ⟨0, _⟩ => show win3_3.index t 0 * 2000 ≤ (i 0).val ∧ (i 0).val < win3_3.index t 0 * 2000 + 2000; rw [e0, ht]; omega
  | ⟨1, _⟩ => show win3_3.index t 1 * 256 ≤ (i 1).val ∧ (i 1).val < win3_3.index t 1 * 256 + 256; rw [e1]; omega

/-! ## Region 6: from the blocks to the array -/

/-- The printed index maps over the 50 grid points: the row-block windows (input 0, output 3) are at block `t` of the
    rows, the whole-array windows (the virtual-node row, the weights) at block 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Input block `t` at `(p, k)` is the input array at row `2000 t + p`, column `k`. -/
theorem blk6_0 (t : Fin cfg6.N) (p : Fin 2000) (k : Fin 256) (i : S100000x256.Idx)
    (h0 : (i 0).val = 2000 * t.val + p.val) (h1 : (i 1).val = k.val) :
    (iblk6 V c 0 t : Vec Ideal S2000x256 .f32) (ix2 p k) = V c main_v103_0 i := by
  obtain ⟨e0, e1, -⟩ := idx6 t
  unfold iblk6
  rw [View.read_apply]
  show V c main_v103_0 _ = V c main_v103_0 _
  congr 1
  funext a
  apply Fin.ext
  match a with
  | ⟨0, _⟩ => show win6_0.index t 0 * 2000 + 1 * p.val = (i 0).val; rw [e0, h0]; omega
  | ⟨1, _⟩ => show win6_0.index t 1 * 256 + 1 * k.val = (i 1).val; rw [e1, h1]; omega

/-- The virtual-node row's block is the whole row at every point. -/
theorem blk6_1 (t : Fin cfg6.N) (k : Fin 256) :
    (iblk6 V c 1 t : Vec Ideal S1x256 .f32) (ix2 0 k) = V c main_v130 (ix2 0 k) := by
  obtain ⟨-, -, e0, e1, -⟩ := idx6 t
  unfold iblk6
  rw [View.read_apply]
  show V c main_v130 _ = V c main_v130 _
  congr 1
  funext a
  apply Fin.ext
  match a with
  | ⟨0, _⟩ => show win6_1.index t 0 * 1 + 1 * 0 = 0; rw [e0]
  | ⟨1, _⟩ => show win6_1.index t 1 * 256 + 1 * k.val = k.val; rw [e1]; omega

/-- The weights' block is the whole matrix at every point. -/
theorem blk6_2 (t : Fin cfg6.N) (k : Fin 256) (q : Fin 40) (i : S256x40.Idx)
    (h0 : (i 0).val = k.val) (h1 : (i 1).val = q.val) :
    (iblk6 V c 2 t : Vec Ideal S256x40 .f32) (ix2 k q) = V c main_arg6 i := by
  obtain ⟨-, -, -, -, e0, e1, -⟩ := idx6 t
  unfold iblk6
  rw [View.read_apply]
  show V c main_arg6 _ = V c main_arg6 _
  congr 1
  funext a
  apply Fin.ext
  match a with
  | ⟨0, _⟩ => show win6_2.index t 0 * 256 + 1 * k.val = (i 0).val; rw [e0, h0]; omega
  | ⟨1, _⟩ => show win6_2.index t 1 * 40 + 1 * q.val = (i 1).val; rw [e1, h1]; omega

/-- What point `t` writes back is block `t` of the linear layer of the three input arrays. -/
theorem flushed6 (t : Fin cfg6.N) :
    (dat6 (F := Ideal) V c).flushed 3 t = ((cfg6.win 3).blk t).view.read (Elt Ideal) (lin (V c main_v103_0) (V c main_v130) (V c main_arg6)) := by
  show (cfg6.win 3).cut (grid6.coords t) ((dat6 V c).after 3 t) = _
  rw [after6_3]
  unfold out6_3
  rw [View.canon_unit_zero hz]
  simp only [View.ld_unit_zero (S := S2000x256) hz, View.ld_unit_zero (S := S1x256) hz, View.ld_unit_zero (S := S256x40) hz]
  funext j
  obtain ⟨p, q, rfl⟩ : ∃ (p : Fin 2000) (q : Fin 40), j = ix2 p q := ⟨j 0, j 1, eq_ix2 (n0 := 2000) (n1 := 40) j⟩
  obtain ⟨-, -, -, -, -, -, e0, e1⟩ := idx6 t
  show k6_pay1 (F := Ideal) (iblk6 V c 0 t) (iblk6 V c 1 t) (iblk6 V c 2 t) (ix2 p q)
    = lin (V c main_v103_0) (V c main_v130) (V c main_arg6) (((cfg6.win 3).blk t).view.emb (ix2 p q))
  refine (pay6 (iblk6 V c 0 t) (iblk6 V c 1 t) (iblk6 V c 2 t) p q).trans ?_
  unfold lin
  refine Finset.sum_congr rfl fun k _ => ?_
  have a0 := blk6_0 V c t p k (ix2 (row (((cfg6.win 3).blk t).view.emb (ix2 p q))) k)
    (by show win6_3.index t 0 * 2000 + 1 * p.val = _; rw [e0]; omega) rfl
  have a1 := blk6_1 V c t k
  have a2 := blk6_2 V c t k q (ix2 k (col (((cfg6.win 3).blk t).view.emb (ix2 p q)))) rfl
    (by show win6_3.index t 1 * 40 + 1 * q.val = _; rw [e1]; omega)
  exact congrArg₂ (· * ·) (congrArg₂ (· + ·) a0 a1) a2

/-- An index of the output array is in point `t`'s block iff each coordinate is in the block's range on its axis. -/
theorem mem_blk6 (t : Fin cfg6.N) (i : S100000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v131).slice (win6_3.rect t)).set ↔ _
  rw [View.set_slice_whole, Rect.mem_set_unit]
  exact Iff.rfl

/-- Row `r` of the output lies in the block of point `r / 2000`: the 50 row blocks tile the array. -/
theorem cover6 (i : S100000x40.Idx) : ∃ t : Fin cfg6.N, (cfg6.win 3).flush t = true ∧ i ∈ ((cfg6.win 3).blk t).view.set := by
  have hi0 : (i 0).val < 100000 := (i 0).isLt
  have hi1 : (i 1).val < 40 := (i 1).isLt
  obtain ⟨t, ht⟩ : ∃ t : Fin cfg6.N, t.val = (i 0).val / 2000 :=
    ⟨⟨(i 0).val / 2000, by have h : cfg6.N = 50 := N_6; omega⟩, rfl⟩
  obtain ⟨-, -, -, -, -, -, e0, e1⟩ := idx6 t
  refine ⟨t, flush6_3 t, ?_⟩
  rw [mem_blk6]
  intro a
  match a with
  | ⟨0, _⟩ => show win6_3.index t 0 * 2000 ≤ (i 0).val ∧ (i 0).val < win6_3.index t 0 * 2000 + 2000; rw [e0, ht]; omega
  | ⟨1, _⟩ => show win6_3.index t 1 * 40 ≤ (i 1).val ∧ (i 1).val < win6_3.index t 1 * 40 + 40; rw [e1]; omega

end Lin

open Lin

/-! ## The three regions' output arrays -/

/-- After region 0 the output array is the linear layer of the three input arrays as the region finds them. -/
theorem lin0 : (Gen.dat0 (F := Ideal) V c).arrAt 3 cfg0.N = Cert.Vn.lin (V c main_arg0) (V c main_arg12) (V c main_arg2) :=
  (dat0 (F := Ideal) V c).arrAt_eq_of_cover 3 _ (fun t _ => flushed0 V c t) cover0

/-- After region 3 the output array is the linear layer of the three input arrays as the region finds them. -/
theorem lin3 : (Gen.dat3 (F := Ideal) V c).arrAt 3 cfg3.N = Cert.Vn.lin (V c main_v52_0) (V c main_v79) (V c main_arg4) :=
  (dat3 (F := Ideal) V c).arrAt_eq_of_cover 3 _ (fun t _ => flushed3 V c t) cover3

/-- After region 6 the output array is the linear layer of the three input arrays as the region finds them. -/
theorem lin6 : (Gen.dat6 (F := Ideal) V c).arrAt 3 cfg6.N = Cert.Vn.lin (V c main_v103_0) (V c main_v130) (V c main_arg6) :=
  (dat6 (F := Ideal) V c).arrAt_eq_of_cover 3 _ (fun t _ => flushed6 V c t) cover6

end Cert.KernelIdeal.Regions

end
-- ==== Proof.LibBlockSum.lean ====
import Idealize.ShloMosaic.PureOps.Ideal

/-!
# Sums by blocks, and the running total that adds them up

A sum over `A * B` consecutive rows is the sum, over `A` blocks, of the sums over the `B` rows of
each block: row `t * B + y` is row `y` of block `t`. This holds in any commutative additive
monoid. A running total that starts from zero and adds one block's sum at each step therefore
holds, after the last step, the sum over all rows.
-/

namespace LibBlockSum

open scoped BigOperators

/-- Row `y` of block `t` is a row of the whole. -/
theorem row_lt {A B : ℕ} (t : Fin A) (y : Fin B) : t.1 * B + y.1 < A * B :=
  calc t.1 * B + y.1 < t.1 * B + B := Nat.add_lt_add_left y.2 _
    _ = (t.1 + 1) * B := (Nat.succ_mul t.1 B).symm
    _ ≤ A * B := Nat.mul_le_mul_right B t.2

variable {M : Type*} [AddCommMonoid M]

/-- A sum over `A * B` rows, by blocks. -/
theorem sum_blocks (A B : ℕ) (f : Fin (A * B) → M) :
    ∑ r : Fin (A * B), f r = ∑ t : Fin A, ∑ y : Fin B, f ⟨t.1 * B + y.1, row_lt t y⟩ := by
  rw [← Fintype.sum_prod_type']
  refine (Fintype.sum_equiv finProdFinEquiv (fun p : Fin A × Fin B => f ⟨p.1.1 * B + p.2.1, row_lt p.1 p.2⟩) f
    (fun p => congrArg f (Fin.ext ?_))).symm
  simp only [finProdFinEquiv_apply_val]
  rw [Nat.mul_comm, Nat.add_comm]

/-- The same for `N` rows with `N = A * B`. -/
theorem sum_blocks_of_eq {N : ℕ} (A B : ℕ) (h : A * B = N) (f : Fin N → M) :
    ∑ r : Fin N, f r = ∑ t : Fin A, ∑ y : Fin B, f ⟨t.1 * B + y.1, h ▸ row_lt t y⟩ := by
  subst h
  exact sum_blocks A B f

/-- A running total: started at `z + s 0` and adding `s (t + 1)` at step `t + 1`, it holds
    `z` plus the partial sum. -/
theorem fold_eq (a s : ℕ → M) (z : M) (h0 : a 0 = z + s 0)
    (hstep : ∀ t, a (t + 1) = a t + s (t + 1)) (t : ℕ) :
    a t = z + ∑ k ∈ Finset.range (t + 1), s k := by
  induction t with
  | zero => simpa using h0
  | succ t ih => rw [hstep, ih, Finset.sum_range_succ _ (t + 1), add_assoc]

/-- The running total started from zero is the partial sum. -/
theorem fold_eq_sum (a s : ℕ → M) (z : M) (hz : z = 0) (h0 : a 0 = z + s 0)
    (hstep : ∀ t, a (t + 1) = a t + s (t + 1)) (t : ℕ) :
    a t = ∑ k ∈ Finset.range (t + 1), s k := by
  rw [fold_eq a s z h0 hstep t, hz, zero_add]

/-- The running total over `G` steps only (the step law is asked below `G` only). -/
theorem fold_eq_sum_lt (G : ℕ) (a s : ℕ → M) (z : M) (hz : z = 0) (h0 : a 0 = z + s 0)
    (hstep : ∀ t, t + 1 < G → a (t + 1) = a t + s (t + 1)) :
    ∀ t, t < G → a t = ∑ k ∈ Finset.range (t + 1), s k := by
  intro t
  induction t with
  | zero => intro _; rw [h0, hz, zero_add]; simp
  | succ t ih =>
    intro ht
    rw [hstep t ht, ih (Nat.lt_of_succ_lt ht), Finset.sum_range_succ _ (t + 1)]

/-- After the last of `G` steps the running total is the sum over all `G` blocks. -/
theorem fold_last (G : ℕ) (hG : 0 < G) (a s : ℕ → M) (z : M) (hz : z = 0) (h0 : a 0 = z + s 0)
    (hstep : ∀ t, t + 1 < G → a (t + 1) = a t + s (t + 1)) :
    a (G - 1) = ∑ t : Fin G, s t.1 := by
  rw [fold_eq_sum_lt G a s z hz h0 hstep (G - 1) (Nat.sub_lt hG Nat.one_pos),
    Nat.sub_add_cancel hG, Finset.sum_range]

/-- A running total of block sums, over all `A` blocks of `B` rows, is the sum over all rows. -/
theorem fold_blocks (A B : ℕ) (hA : 0 < A) (f : Fin (A * B) → M) (a : ℕ → M) (z : M) (hz : z = 0)
    (s : ℕ → M) (hs : ∀ t : Fin A, s t.1 = ∑ y : Fin B, f ⟨t.1 * B + y.1, row_lt t y⟩)
    (h0 : a 0 = z + s 0) (hstep : ∀ t, t + 1 < A → a (t + 1) = a t + s (t + 1)) :
    a (A - 1) = ∑ r : Fin (A * B), f r := by
  rw [fold_last A hA a s z hz h0 hstep, sum_blocks A B f]
  exact Finset.sum_congr rfl fun t _ => hs t

end LibBlockSum
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibWords.lean ====
import Idealize.ShloMosaic.PureOps.Ideal

/-!
# A few single-precision words as extended reals

A single-precision word whose exponent field is not all ones denotes a real number. The words
of `0`, `1`, `50000` and `640000` denote exactly those reals; the words nearest to `0.2` and to
`10⁻⁵` denote some real number (a dyadic rational near the decimal), which is all that is used
of them.
-/

namespace LibWords

open Idealize.ShloMosaic

/-- A word whose exponent field is not all ones denotes a real number. -/
theorem ofBits_f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split_ifs <;> exact ⟨_, rfl⟩

theorem word_zero : Ideal.ofBits .f32 0x00000000#32 = (0 : EReal) := by
  simp [Ideal.ofBits, Ideal.ieee]

theorem word_one : Ideal.ofBits .f32 0x3F800000#32 = (1 : EReal) := by
  simp [Ideal.ofBits, Ideal.ieee]
  rw [← EReal.coe_mul]
  norm_num

theorem word_640000 : Ideal.ofBits .f32 0x491C4000#32 = ((640000 : ℝ) : EReal) := by
  simp [Ideal.ofBits, Ideal.ieee]
  rw [← EReal.coe_mul]
  norm_num

theorem word_50000 : Ideal.ofBits .f32 0x47435000#32 = ((50000 : ℝ) : EReal) := by
  simp [Ideal.ofBits, Ideal.ieee]
  rw [← EReal.coe_mul]
  norm_num

/-- The word nearest to `0.2` is a real number. -/
theorem word_slope_real : ∃ r : ℝ, Ideal.ofBits .f32 0x3E4CCCCD#32 = (r : EReal) :=
  ofBits_f32_real _ (by decide)

/-- The word nearest to `10⁻⁵` is a real number. -/
theorem word_eps_real : ∃ r : ℝ, Ideal.ofBits .f32 0x3727C5AC#32 = (r : EReal) :=
  ofBits_f32_real _ (by decide)

end LibWords
-- ==== Proof.RegionComb.lean ====
/-
  The two combine-and-statistics regions of the kernel, read as functions of whole arrays.

  Each region walks the 100000 rows in 50 blocks of 2000. At block t it forms, for rows 2000 t … 2000 t + 1999,
      y r j = agg r j + hp r j · sc r 0 + b 0 j,
  writes that block of y back, and keeps two rows of 256 numbers that stay in place across the walk: they are set
  to zero at the first block, and each block adds to them its column sums of y and of y · y. Only after the last
  block are the two rows written back. So the y array ends as the combine function of the input arrays, and the
  two rows end as (0 + s₀) + s₁ + … + s₄₉ of the per-block column sums, which on the extended reals (a commutative
  additive monoid) is the sum over all 100000 rows.

  The steps: what each case of the body leaves in each output buffer as a payload of the loaded blocks; each payload
  read at an index; each input block read off its array; the y array from its blocks; the two rows by induction over
  the blocks, then from their single write-back.
-/
import proofs.«161332_j44100724195822_1_alg».proof.Proof.Gen.KernelIdeal.Frame
import proofs.«161332_j44100724195822_1_alg».proof.Proof.Spec
import proofs.«161332_j44100724195822_1_alg».proof.Proof.LibBlockSum
import proofs.«161332_j44100724195822_1_alg».proof.Proof.LibKeepdims
import proofs.«161332_j44100724195822_1_alg».proof.Proof.LibWords
import Idealize.ShloMosaic.Lib.ValueLayout
import Idealize.ShloMosaic.PureOps.Ideal.Laws
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen Cert.Vn
open Idealize.ShloMosaic.Pipeline (Dat Cfg Window)

variable (V : (c : Dev nD) → (b : Ref sig .tc) → Buf (Elt Ideal) ((c : Thread nD τ).loc b)) (c : Dev nD)

namespace Comb

/-- The zero offsets of a whole rank-2 buffer. -/
theorem hz : (![0, 0] : Fin 2 → Nat) = fun _ => 0 := funext fun a => by fin_cases a <;> rfl

/-- Row p of block k among the 100000 rows (blocks of 2000 consecutive rows; the remainder only makes the definition
    total in k: for k below 50 it is k · 2000 + p itself). -/
def rowN (k : ℕ) (p : Fin 2000) : Fin 100000 := ⟨(k * 2000 + p.val) % 100000, Nat.mod_lt _ (by decide)⟩

/-- The sum over all 100000 rows is the sum over the 50 blocks of the sums over each block's 2000 rows. -/
theorem colsum_blocks (M : Mat 100000 256) (q : Fin 256) :
    ∑ k ∈ Finset.range 50, ∑ p : Fin 2000, M (ix2 (rowN k p) q) = colsum M (ix2 (0 : Fin 1) q) := by
  rw [Finset.sum_range]
  show _ = ∑ r : Fin 100000, M (ix2 r q)
  rw [LibBlockSum.sum_blocks_of_eq 50 2000 (by norm_num) (fun r : Fin 100000 => M (ix2 r q))]
  refine Finset.sum_congr rfl fun k _ => Finset.sum_congr rfl fun p _ => congrArg (fun r => M (ix2 r q)) (Fin.ext ?_)
  show (k.val * 2000 + p.val) % 100000 = k.val * 2000 + p.val
  have := k.isLt; have := p.isLt; omega

/-- A sum over axis 0 of a [2000, 256] block, read at column q: the sum over the block's rows. -/
theorem colsum_block (x : FVec Ideal S2000x256 .f32) (h : S2000x256.Reduces [0] S256) (hφ : FKind.Formats .f32)
    (hacc : (0x00000000#32 : BitVec 32) = 0x00000000#32) (q : Fin 256) :
    multiReduction .add [0] S256 x 0x00000000#32 h hφ hacc (ix1 q) = ∑ p : Fin 2000, x (ix2 p q) := by
  refine (Ideal.multiReduction_add_single x _ h hφ hacc (ix1 q)).trans ?_
  refine Finset.sum_congr rfl fun p _ => congrArg x ?_
  funext a
  match a with
  | ⟨0, _⟩ => rfl
  | ⟨1, _⟩ => rfl

/-! ### Region 1: what each case of the body leaves in each output buffer, as a payload of the loaded blocks -/

section Pieces1
variable {F : FTy → Type} [FloatOps F]

/-- First point: the y block is the combine payload of the four input blocks. -/
theorem out1_A_4_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond1_0 i) (x0 : Vec F S2000x256 .f32) (x1 : Vec F S2000x256 .f32) (x2 : Vec F S2000x1 .f32) (x3 : Vec F S1x256 .f32) :
    out1_A_4 c i a1 h1 a2 h2 a3 h3 a4 h4 a5 h5 a6 h6 a7 h7 hc x0 x1 x2 x3 = k1_pay1 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the same. -/
theorem out1_B_4_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond1_0 i) (x0 : Vec F S2000x256 .f32) (x1 : Vec F S2000x256 .f32) (x2 : Vec F S2000x1 .f32) (x3 : Vec F S1x256 .f32) (xo5 xo6 : Vec F S1x256 .f32) :
    out1_B_4 c i a1 h1 a2 h2 a3 h3 a4 h4 a5 h5 a6 h6 a7 h7 hc x0 x1 x2 x3 xo5 xo6 = k1_pay1 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, View.ld_unit_zero (S := S2000x256) hz, View.ld_unit_zero (S := S2000x1) hz, View.ld_unit_zero (S := S1x256) hz]

/-- First point: the row of column sums is the zero row plus the block's column sums (the zero row is stored, read
    back, and added to). -/
theorem out1_A_5_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond1_0 i) (x0 : Vec F S2000x256 .f32) (x1 : Vec F S2000x256 .f32) (x2 : Vec F S2000x1 .f32) (x3 : Vec F S1x256 .f32) :
    out1_A_5 c i a1 h1 a2 h2 a3 h3 a4 h4 a5 h5 a6 h6 a7 h7 hc x0 x1 x2 x3 = k1_pay4 x0 x1 x2 x3 (k1_pay2 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the row the point before left plus the block's column sums. -/
theorem out1_B_5_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond1_0 i) (x0 : Vec F S2000x256 .f32) (x1 : Vec F S2000x256 .f32) (x2 : Vec F S2000x1 .f32) (x3 : Vec F S1x256 .f32) (xo5 xo6 : Vec F S1x256 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, View.ld_unit_zero (S := S2000x256) hz, View.ld_unit_zero (S := S2000x1) hz, View.ld_unit_zero (S := S1x256) hz]

/-- First point: the row of column sums of squares is the zero row plus the block's. -/
theorem out1_A_6_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond1_0 i) (x0 : Vec F S2000x256 .f32) (x1 : Vec F S2000x256 .f32) (x2 : Vec F S2000x1 .f32) (x3 : Vec F S1x256 .f32) :
    out1_A_6 c i a1 h1 a2 h2 a3 h3 a4 h4 a5 h5 a6 h6 a7 h7 hc x0 x1 x2 x3 = k1_pay5 x0 x1 x2 x3 (k1_pay3 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the row the point before left plus the block's column sums of squares. -/
theorem out1_B_6_eq (c : Dev nD) (i : grid1.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond1_0 i) (x0 : Vec F S2000x256 .f32) (x1 : Vec F S2000x256 .f32) (x2 : Vec F S2000x1 .f32) (x3 : Vec F S1x256 .f32) (xo5 xo6 : Vec F S1x256 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h7.read_unread, View.ld_unit_zero (S := S2000x256) hz, View.ld_unit_zero (S := S2000x1) hz, View.ld_unit_zero (S := S1x256) hz]

end Pieces1

/-! ### Region 1: the payloads read at an index, on the extended reals -/

section Payloads1

/-- The combine payload at row p, column q of a block: agg + hp · (self coefficient of row p) + (bias of column q). -/
theorem pay1_1_apply (x0 x1 : Vec Ideal S2000x256 .f32) (x2 : Vec Ideal S2000x1 .f32) (x3 : Vec Ideal S1x256 .f32)
    (p : Fin 2000) (q : Fin 256) :
    k1_pay1 (F := Ideal) x0 x1 x2 x3 (ix2 p q)
      = x0 (ix2 p q) + x1 (ix2 p q) * x2 (ix2 p (0 : Fin 1)) + x3 (ix2 (0 : Fin 1) q) := by
  unfold k1_pay1
  simp only [shapeCast_self]
  refine congrArg₂ (· + ·) (congrArg₂ (· + ·) rfl (congrArg₂ (· * ·) rfl ?_)) ?_
  · exact Keepdims.broadcastTo_a1_ab_apply x2 _ p q 0
  · exact broadcastTo_1b_ab_apply x3 _ p q

/-- The zero row. -/
theorem pay1_2_apply (j : S1x256.Idx) : k1_pay2 (F := Ideal) j = 0 := by
  unfold k1_pay2
  exact LibWords.word_zero

theorem pay1_3_apply (j : S1x256.Idx) : k1_pay3 (F := Ideal) j = 0 := by
  unfold k1_pay3
  exact LibWords.word_zero

/-- The accumulated row of column sums: the row before plus the block's column sums. -/
theorem pay1_4_apply (x0 x1 : Vec Ideal S2000x256 .f32) (x2 : Vec Ideal S2000x1 .f32) (x3 : Vec Ideal S1x256 .f32)
    (acc : Vec Ideal S1x256 .f32) (u : Fin 1) (q : Fin 256) :
    k1_pay4 (F := Ideal) x0 x1 x2 x3 acc (ix2 u q)
      = acc (ix2 u q) + ∑ p : Fin 2000, k1_pay1 (F := Ideal) x0 x1 x2 x3 (ix2 p q) := by
  unfold k1_pay4
  simp only [shapeCast_self]
  refine congrArg₂ (· + ·) rfl ?_
  refine (shapeCast_a_1a_apply _ _ u q).trans ?_
  exact colsum_block _ _ _ _ q

/-- The accumulated row of column sums of squares. -/
theorem pay1_5_apply (x0 x1 : Vec Ideal S2000x256 .f32) (x2 : Vec Ideal S2000x1 .f32) (x3 : Vec Ideal S1x256 .f32)
    (acc : Vec Ideal S1x256 .f32) (u : Fin 1) (q : Fin 256) :
    k1_pay5 (F := Ideal) x0 x1 x2 x3 acc (ix2 u q)
      = acc (ix2 u q) + ∑ p : Fin 2000, k1_pay1 (F := Ideal) x0 x1 x2 x3 (ix2 p q) * k1_pay1 (F := Ideal) x0 x1 x2 x3 (ix2 p q) := by
  unfold k1_pay5
  simp only [shapeCast_self]
  refine congrArg₂ (· + ·) rfl ?_
  refine (shapeCast_a_1a_apply _ _ u q).trans ?_
  exact colsum_block _ _ _ _ q

end Payloads1

/-! ### Region 1: the windows' blocks, read off the arrays the region is entered with -/

section Blocks1

/-- The printed index maps over the grid: the row-block windows sit at block (t, 0), the bias row and the two
    accumulated rows at block (0, 0) at every point. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0 :=
  (by decide +kernel : ∀ t : Fin grid1.N, _)

theorem lt1 (t : Fin cfg1.N) : t.val < 50 := lt_of_lt_of_eq t.isLt (show cfg1.N = 50 from N_1)

/-- Block t of the aggregate holds rows 2000 t … 2000 t + 1999. -/
theorem blk1_0 (t : Fin cfg1.N) (p : Fin 2000) (q : Fin 256) :
    (iblk1 V c 0 t : Vec Ideal S2000x256 .f32) (ix2 p q) = V c main_v41 (ix2 (rowN t.val p) q) := by
  obtain ⟨e0, e1, -⟩ := idx1 t
  have hN := lt1 t
  unfold iblk1
  rw [View.read_apply]
  show V c main_v41 _ = V c main_v41 _
  refine congrArg (V c main_v41) ?_
  funext a; apply Fin.ext
  match a with
  | ⟨0, _⟩ => show win1_0.index t (0 : Fin 2) * 2000 + 1 * p.val = (t.val * 2000 + p.val) % 100000; rw [e0]; omega
  | ⟨1, _⟩ => show win1_0.index t (1 : Fin 2) * 256 + 1 * q.val = q.val; rw [e1]; omega

/-- Block t of the projection likewise. -/
theorem blk1_1 (t : Fin cfg1.N) (p : Fin 2000) (q : Fin 256) :
    (iblk1 V c 1 t : Vec Ideal S2000x256 .f32) (ix2 p q) = V c main_v29 (ix2 (rowN t.val p) q) := by
  obtain ⟨-, -, e0, e1, -⟩ := idx1 t
  have hN := lt1 t
  unfold iblk1
  rw [View.read_apply]
  show V c main_v29 _ = V c main_v29 _
  refine congrArg (V c main_v29) ?_
  funext a; apply Fin.ext
  match a with
  | ⟨0, _⟩ => show win1_1.index t (0 : Fin 2) * 2000 + 1 * p.val = (t.val * 2000 + p.val) % 100000; rw [e0]; omega
  | ⟨1, _⟩ => show win1_1.index t (1 : Fin 2) * 256 + 1 * q.val = q.val; rw [e1]; omega

/-- Block t of the self-coefficient column. -/
theorem blk1_2 (t : Fin cfg1.N) (p : Fin 2000) (u : Fin 1) :
    (iblk1 V c 2 t : Vec Ideal S2000x1 .f32) (ix2 p u) = V c main_v28 (ix2 (rowN t.val p) (0 : Fin 1)) := by
  obtain ⟨-, -, -, -, e0, e1, -⟩ := idx1 t
  have hN := lt1 t
  unfold iblk1
  rw [View.read_apply]
  show V c main_v28 _ = V c main_v28 _
  refine congrArg (V c main_v28) ?_
  funext a; apply Fin.ext
  match a with
  | ⟨0, _⟩ => show win1_2.index t (0 : Fin 2) * 2000 + 1 * p.val = (t.val * 2000 + p.val) % 100000; rw [e0]; omega
  | ⟨1, _⟩ => show win1_2.index t (1 : Fin 2) * 1 + 1 * u.val = 0; rw [e1]; omega

/-- The bias row's one block is the row. -/
theorem blk1_3 (t : Fin cfg1.N) (u : Fin 1) (q : Fin 256) :
    (iblk1 V c 3 t : Vec Ideal S1x256 .f32) (ix2 u q) = V c main_v42 (ix2 (0 : Fin 1) q) := by
  obtain ⟨-, -, -, -, -, -, e0, e1, -⟩ := idx1 t
  unfold iblk1
  rw [View.read_apply]
  show V c main_v42 _ = V c main_v42 _
  refine congrArg (V c main_v42) ?_
  funext a; apply Fin.ext
  match a with
  | ⟨0, _⟩ => show win1_3.index t (0 : Fin 2) * 1 + 1 * u.val = 0; rw [e0]; omega
  | ⟨1, _⟩ => show win1_3.index t (1 : Fin 2) * 256 + 1 * q.val = q.val; rw [e1]; omega

/-- The body's y block at point t is the combine function's rows 2000 t … 2000 t + 1999. -/
theorem point1_y (t : Fin cfg1.N) (p : Fin 2000) (q : Fin 256) :
    k1_pay1 (F := Ideal) (iblk1 V c 0 t) (iblk1 V c 1 t) (iblk1 V c 2 t) (iblk1 V c 3 t) (ix2 p q)
      = comb (V c main_v41) (V c main_v29) (V c main_v28) (V c main_v42) (ix2 (rowN t.val p) q) := by
  refine (pay1_1_apply (iblk1 V c 0 t) (iblk1 V c 1 t) (iblk1 V c 2 t) (iblk1 V c 3 t) p q).trans ?_
  rw [blk1_0 V c t p q, blk1_1 V c t p q, blk1_2 V c t p 0, blk1_3 V c t 0 q]
  rfl

end Blocks1

/-! ### Region 1: the output arrays after the region -/

section Final1

/-- The combine function of the arrays the region is entered with. -/
abbrev Y1 : Mat 100000 256 := comb (V c main_v41) (V c main_v29) (V c main_v28) (V c main_v42)

/-- What the y buffer holds after point t: the combine payload of the point's input blocks, in either case. -/
theorem outs1_y (t : Fin cfg1.N) :
    (outsAt1 V c t.val t.isLt).1 = k1_pay1 (F := Ideal) (iblk1 V c 0 t) (iblk1 V c 1 t) (iblk1 V c 2 t) (iblk1 V c 3 t) := by
  by_cases h0 : t.val % 50 = 0
  · rw [outsAt1_A V c t h0]
    dsimp only
    exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- An index of the y array is in point t's block iff each coordinate is in the block's range on its axis. -/
theorem mem_blk1_4 (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole (Pipeline.arrRef spec1 4)).slice (win1_4.rect t)).set ↔ _
  rw [View.set_slice_whole, Rect.mem_set_unit]
  exact Iff.rfl

/-- What point t writes back to the y array is block t of the combine function. -/
theorem flushed1_y (t : Fin cfg1.N) :
    (dat1 (F := Ideal) V c).flushed 4 t = ((cfg1.win 4).blk t).view.read (Elt Ideal) (Y1 V c) := by
  show (cfg1.win 4).cut (grid1.coords t) ((dat1 (F := Ideal) V c).after 4 t) = _
  rw [after1_4, outs1_y]
  obtain ⟨-, -, -, -, -, -, -, -, e0, e1, -⟩ := idx1 t
  have hN := lt1 t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (ix2 p q) = Y1 V c (((cfg1.win 4).blk t).view.emb (ix2 p q))
  rw [point1_y V c t p q]
  refine congrArg (Y1 V c) ?_
  funext a; apply Fin.ext
  match a with
  | ⟨0, _⟩ => show (t.val * 2000 + p.val) % 100000 = win1_4.index t (0 : Fin 2) * 2000 + 1 * p.val; rw [e0]; omega
  | ⟨1, _⟩ => show q.val = win1_4.index t (1 : Fin 2) * 256 + 1 * q.val; rw [e1]; omega

/-- The y array after the region: the combine function of the input arrays. -/
theorem final1_y : (Gen.dat1 (F := Ideal) V c).arrAt 4 cfg1.N = Cert.Vn.comb (V c main_v41) (V c main_v29) (V c main_v28) (V c main_v42) :=
  (dat1 (F := Ideal) V c).arrAt_eq_of_cover 4 (Y1 V c) (fun t _ => flushed1_y V c t) fun i => by
    have hi0 : (i 0).val < 100000 := (i 0).isLt
    have hi1 : (i 1).val < 256 := (i 1).isLt
    have hN : cfg1.N = 50 := N_1
    let t : Fin cfg1.N := ⟨(i 0).val / 2000, by rw [hN]; omega⟩
    obtain ⟨-, -, -, -, -, -, -, -, e0, e1, -⟩ := idx1 t
    refine ⟨t, flush1_4 t, ?_⟩
    rw [mem_blk1_4]
    intro a
    match a with
    | ⟨0, _⟩ => show win1_4.index t (0 : Fin 2) * 2000 ≤ (i 0).val ∧ (i 0).val < win1_4.index t (0 : Fin 2) * 2000 + 2000; rw [e0]; show (i 0).val / 2000 * 2000 ≤ _ ∧ _ < (i 0).val / 2000 * 2000 + 2000; omega
    | ⟨1, _⟩ => show win1_4.index t (1 : Fin 2) * 256 ≤ (i 1).val ∧ (i 1).val < win1_4.index t (1 : Fin 2) * 256 + 256; rw [e1]; omega

end Final1

/-! ### Region 1: the two accumulated rows -/

section Rows1

/-- At the first point the row of column sums is zero plus the column sums of block 0 of the combine function. -/
theorem outs1_s_first (t : Fin cfg1.N) (h0 : t.val % 50 = 0) (u : Fin 1) (q : Fin 256) :
    (outsAt1 V c t.val t.isLt).2.1 (ix2 u q) = 0 + ∑ p : Fin 2000, Y1 V c (ix2 (rowN t.val p) q) := by
  rw [outsAt1_A V c t h0]
  dsimp only
  refine (congrFun (out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 u q)).trans ?_
  refine (pay1_4_apply (iblk1 V c 0 t) (iblk1 V c 1 t) (iblk1 V c 2 t) (iblk1 V c 3 t) (k1_pay2 (F := Ideal)) u q).trans ?_
  refine congrArg₂ (· + ·) (pay1_2_apply _) ?_
  exact Finset.sum_congr rfl fun p _ => point1_y V c t p q

/-- At a later point it is the row the point before left plus the column sums of the point's block. -/
theorem outs1_s_step (t : Fin cfg1.N) (h0 : ¬t.val % 50 = 0) (u : Fin 1) (q : Fin 256) :
    (outsAt1 V c t.val t.isLt).2.1 (ix2 u q)
      = (outsAt1 V c (t.val - 1) (Nat.lt_of_le_of_lt (Nat.sub_le _ _) t.isLt)).2.1 (ix2 u q) + ∑ p : Fin 2000, Y1 V c (ix2 (rowN t.val p) q) := by
  rw [outsAt1_B V c t h0]
  dsimp only
  refine (congrFun (out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 u q)).trans ?_
  refine (pay1_4_apply (iblk1 V c 0 t) (iblk1 V c 1 t) (iblk1 V c 2 t) (iblk1 V c 3 t) (outsAt1 V c (t.val - 1) (Nat.lt_of_le_of_lt (Nat.sub_le _ _) t.isLt)).2.1 u q).trans ?_
  refine congrArg₂ (· + ·) rfl ?_
  exact Finset.sum_congr rfl fun p _ => point1_y V c t p q

/-- So after point n the row holds the column sums over blocks 0 … n. -/
theorem outs1_s : ∀ (n : ℕ) (h : n < cfg1.N) (u : Fin 1) (q : Fin 256),
    (outsAt1 V c n h).2.1 (ix2 u q) = ∑ k ∈ Finset.range (n + 1), ∑ p : Fin 2000, Y1 V c (ix2 (rowN k p) q)
  | 0, h, u, q => by
    rw [Finset.sum_range_one]
    exact (outs1_s_first V c ⟨0, h⟩ rfl u q).trans (zero_add _)
  | n + 1, h, u, q => by
    have hN : cfg1.N = 50 := N_1
    have hB : ¬(⟨n + 1, h⟩ : Fin cfg1.N).val % 50 = 0 := by dsimp only; omega
    rw [Finset.sum_range_succ _ (n + 1)]
    refine (outs1_s_step V c ⟨n + 1, h⟩ hB u q).trans ?_
    refine congrArg₂ (· + ·) ?_ rfl
    exact outs1_s n (Nat.lt_of_succ_lt h) u q

/-- The same three steps for the row of column sums of squares. -/
theorem outs1_ss_first (t : Fin cfg1.N) (h0 : t.val % 50 = 0) (u : Fin 1) (q : Fin 256) :
    (outsAt1 V c t.val t.isLt).2.2 (ix2 u q) = 0 + ∑ p : Fin 2000, sq (Y1 V c) (ix2 (rowN t.val p) q) := by
  rw [outsAt1_A V c t h0]
  dsimp only
  refine (congrFun (out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 u q)).trans ?_
  refine (pay1_5_apply (iblk1 V c 0 t) (iblk1 V c 1 t) (iblk1 V c 2 t) (iblk1 V c 3 t) (k1_pay3 (F := Ideal)) u q).trans ?_
  refine congrArg₂ (· + ·) (pay1_3_apply _) ?_
  exact Finset.sum_congr rfl fun p _ => congrArg₂ (· * ·) (point1_y V c t p q) (point1_y V c t p q)

theorem outs1_ss_step (t : Fin cfg1.N) (h0 : ¬t.val % 50 = 0) (u : Fin 1) (q : Fin 256) :
    (outsAt1 V c t.val t.isLt).2.2 (ix2 u q)
      = (outsAt1 V c (t.val - 1) (Nat.lt_of_le_of_lt (Nat.sub_le _ _) t.isLt)).2.2 (ix2 u q) + ∑ p : Fin 2000, sq (Y1 V c) (ix2 (rowN t.val p) q) := by
  rw [outsAt1_B V c t h0]
  dsimp only
  refine (congrFun (out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 u q)).trans ?_
  refine (pay1_5_apply (iblk1 V c 0 t) (iblk1 V c 1 t) (iblk1 V c 2 t) (iblk1 V c 3 t) (outsAt1 V c (t.val - 1) (Nat.lt_of_le_of_lt (Nat.sub_le _ _) t.isLt)).2.2 u q).trans ?_
  refine congrArg₂ (· + ·) rfl ?_
  exact Finset.sum_congr rfl fun p _ => congrArg₂ (· * ·) (point1_y V c t p q) (point1_y V c t p q)

theorem outs1_ss : ∀ (n : ℕ) (h : n < cfg1.N) (u : Fin 1) (q : Fin 256),
    (outsAt1 V c n h).2.2 (ix2 u q) = ∑ k ∈ Finset.range (n + 1), ∑ p : Fin 2000, sq (Y1 V c) (ix2 (rowN k p) q)
  | 0, h, u, q => by
    rw [Finset.sum_range_one]
    exact (outs1_ss_first V c ⟨0, h⟩ rfl u q).trans (zero_add _)
  | n + 1, h, u, q => by
    have hN : cfg1.N = 50 := N_1
    have hB : ¬(⟨n + 1, h⟩ : Fin cfg1.N).val % 50 = 0 := by dsimp only; omega
    rw [Finset.sum_range_succ _ (n + 1)]
    refine (outs1_ss_step V c ⟨n + 1, h⟩ hB u q).trans ?_
    refine congrArg₂ (· + ·) ?_ rfl
    exact outs1_ss n (Nat.lt_of_succ_lt h) u q

end Rows1

/-! ### Region 1: the two rows after the region -/

section RowFinal1

/-- An index of the one-row array 5 is in point t's block iff each coordinate is in the block's range. -/
theorem mem_blk1_5 (t : Fin cfg1.N) (i : S1x256.Idx) :
    i ∈ ((cfg1.win 5).blk t).view.set ↔ ∀ a : Fin 2, win1_5.index t a * S1x256.size a ≤ (i a).val ∧ (i a).val < win1_5.index t a * S1x256.size a + S1x256.size a := by
  show i ∈ ((View.whole (Pipeline.arrRef spec1 5)).slice (win1_5.rect t)).set ↔ _
  rw [View.set_slice_whole, Rect.mem_set_unit]
  exact Iff.rfl

/-- The one block of the one-row array 5 is the row: reading a row through it gives the row. -/
theorem read_row1_5 (t : Fin cfg1.N) (G : Mat 1 256) (u : Fin 1) (q : Fin 256) :
    ((cfg1.win 5).blk t).view.read (Elt Ideal) G (ix2 u q) = G (ix2 (0 : Fin 1) q) := by
  obtain ⟨-, -, -, -, -, -, -, -, -, -, e0, e1, -⟩ := idx1 t
  rw [View.read_apply]
  show G _ = G _
  refine congrArg G ?_
  funext a; apply Fin.ext
  match a with
  | ⟨0, _⟩ => show win1_5.index t (0 : Fin 2) * 1 + 1 * u.val = 0; rw [e0]; omega
  | ⟨1, _⟩ => show win1_5.index t (1 : Fin 2) * 256 + 1 * q.val = q.val; rw [e1]; omega

/-- The one write-back, after the last point, writes the sums over all 50 blocks, that is over all rows. -/
theorem flushed1_s (t : Fin cfg1.N) (hf : (cfg1.win 5).flush t = true) :
    (dat1 (F := Ideal) V c).flushed 5 t = ((cfg1.win 5).blk t).view.read (Elt Ideal) (colsum (Y1 V c)) := by
  have h50 : t.val + 1 = 50 := by have := (flush1_5 t).mp hf; have := lt1 t; omega
  show (cfg1.win 5).cut (grid1.coords t) ((dat1 (F := Ideal) V c).after 5 t) = _
  rw [after1_5]
  funext j
  obtain ⟨u, q, rfl⟩ : ∃ (u : Fin 1) (q : Fin 256), j = ix2 u q := ⟨j 0, j 1, eq_ix2 j⟩
  refine Eq.trans ?_ (read_row1_5 t (colsum (Y1 V c)) u q).symm
  refine (outs1_s V c t.val t.isLt u q).trans ?_
  rw [h50]
  exact colsum_blocks (Y1 V c) q

/-- The row of column sums after the region: the column sums of the combine function. -/
theorem final1_s : (Gen.dat1 (F := Ideal) V c).arrAt 5 cfg1.N = Cert.Vn.colsum (Cert.Vn.comb (V c main_v41) (V c main_v29) (V c main_v28) (V c main_v42)) :=
  (dat1 (F := Ideal) V c).arrAt_eq_of_cover 5 (colsum (Y1 V c)) (flushed1_s V c) fun i => by
    have hN : cfg1.N = 50 := N_1
    have hi0 : (i 0).val < 1 := (i 0).isLt
    have hi1 : (i 1).val < 256 := (i 1).isLt
    let t : Fin cfg1.N := ⟨49, by rw [hN]; decide⟩
    obtain ⟨-, -, -, -, -, -, -, -, -, -, e0, e1, -⟩ := idx1 t
    refine ⟨t, (flush1_5 t).mpr rfl, ?_⟩
    rw [mem_blk1_5]
    intro a
    match a with
    | ⟨0, _⟩ => show win1_5.index t (0 : Fin 2) * 1 ≤ (i 0).val ∧ (i 0).val < win1_5.index t (0 : Fin 2) * 1 + 1; rw [e0]; omega
    | ⟨1, _⟩ => show win1_5.index t (1 : Fin 2) * 256 ≤ (i 1).val ∧ (i 1).val < win1_5.index t (1 : Fin 2) * 256 + 256; rw [e1]; omega

/-- An index of the one-row array 6 is in point t's block iff each coordinate is in the block's range. -/
theorem mem_blk1_6 (t : Fin cfg1.N) (i : S1x256.Idx) :
    i ∈ ((cfg1.win 6).blk t).view.set ↔ ∀ a : Fin 2, win1_6.index t a * S1x256.size a ≤ (i a).val ∧ (i a).val < win1_6.index t a * S1x256.size a + S1x256.size a := by
  show i ∈ ((View.whole (Pipeline.arrRef spec1 6)).slice (win1_6.rect t)).set ↔ _
  rw [View.set_slice_whole, Rect.mem_set_unit]
  exact Iff.rfl

/-- The one block of the one-row array 6 is the row: reading a row through it gives the row. -/
theorem read_row1_6 (t : Fin cfg1.N) (G : Mat 1 256) (u : Fin 1) (q : Fin 256) :
    ((cfg1.win 6).blk t).view.read (Elt Ideal) G (ix2 u q) = G (ix2 (0 : Fin 1) q) := by
  obtain ⟨-, -, -, -, -, -, -, -, -, -, -, -, e0, e1⟩ := idx1 t
  rw [View.read_apply]
  show G _ = G _
  refine congrArg G ?_
  funext a; apply Fin.ext
  match a with
  | ⟨0, _⟩ => show win1_6.index t (0 : Fin 2) * 1 + 1 * u.val = 0; rw [e0]; omega
  | ⟨1, _⟩ => show win1_6.index t (1 : Fin 2) * 256 + 1 * q.val = q.val; rw [e1]; omega

/-- The one write-back, after the last point, writes the sums over all 50 blocks, that is over all rows. -/
theorem flushed1_ss (t : Fin cfg1.N) (hf : (cfg1.win 6).flush t = true) :
    (dat1 (F := Ideal) V c).flushed 6 t = ((cfg1.win 6).blk t).view.read (Elt Ideal) (colsum (sq (Y1 V c))) := by
  have h50 : t.val + 1 = 50 := by have := (flush1_6 t).mp hf; have := lt1 t; omega
  show (cfg1.win 6).cut (grid1.coords t) ((dat1 (F := Ideal) V c).after 6 t) = _
  rw [after1_6]
  funext j
  obtain ⟨u, q, rfl⟩ : ∃ (u : Fin 1) (q : Fin 256), j = ix2 u q := ⟨j 0, j 1, eq_ix2 j⟩
  refine Eq.trans ?_ (read_row1_6 t (colsum (sq (Y1 V c))) u q).symm
  refine (outs1_ss V c t.val t.isLt u q).trans ?_
  rw [h50]
  exact colsum_blocks (sq (Y1 V c)) q

/-- The row of column sums of squares after the region. -/
theorem final1_ss : (Gen.dat1 (F := Ideal) V c).arrAt 6 cfg1.N = Cert.Vn.colsum (Cert.Vn.sq (Cert.Vn.comb (V c main_v41) (V c main_v29) (V c main_v28) (V c main_v42))) :=
  (dat1 (F := Ideal) V c).arrAt_eq_of_cover 6 (colsum (sq (Y1 V c))) (flushed1_ss V c) fun i => by
    have hN : cfg1.N = 50 := N_1
    have hi0 : (i 0).val < 1 := (i 0).isLt
    have hi1 : (i 1).val < 256 := (i 1).isLt
    let t : Fin cfg1.N := ⟨49, by rw [hN]; decide⟩
    obtain ⟨-, -, -, -, -, -, -, -, -, -, -, -, e0, e1⟩ := idx1 t
    refine ⟨t, (flush1_6 t).mpr rfl, ?_⟩
    rw [mem_blk1_6]
    intro a
    match a with
    | ⟨0, _⟩ => show win1_6.index t (0 : Fin 2) * 1 ≤ (i 0).val ∧ (i 0).val < win1_6.index t (0 : Fin 2) * 1 + 1; rw [e0]; omega
    | ⟨1, _⟩ => show win1_6.index t (1 : Fin 2) * 256 ≤ (i 1).val ∧ (i 1).val < win1_6.index t (1 : Fin 2) * 256 + 256; rw [e1]; omega

end RowFinal1

/-! ### Region 4: what each case of the body leaves in each output buffer, as a payload of the loaded blocks -/

section Pieces4
variable {F : FTy → Type} [FloatOps F]

/-- First point: the y block is the combine payload of the four input blocks. -/
theorem out4_A_4_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond4_0 i) (x0 : Vec F S2000x256 .f32) (x1 : Vec F S2000x256 .f32) (x2 : Vec F S2000x1 .f32) (x3 : Vec F S1x256 .f32) :
    out4_A_4 c i a1 h1 a2 h2 a3 h3 a4 h4 a5 h5 a6 h6 a7 h7 hc x0 x1 x2 x3 = k4_pay1 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  rw [View.canon_unit_zero hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the same. -/
theorem out4_B_4_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond4_0 i) (x0 : Vec F S2000x256 .f32) (x1 : Vec F S2000x256 .f32) (x2 : Vec F S2000x1 .f32) (x3 : Vec F S1x256 .f32) (xo5 xo6 : Vec F S1x256 .f32) :
    out4_B_4 c i a1 h1 a2 h2 a3 h3 a4 h4 a5 h5 a6 h6 a7 h7 hc x0 x1 x2 x3 xo5 xo6 = k4_pay1 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, View.ld_unit_zero (S := S2000x256) hz, View.ld_unit_zero (S := S2000x1) hz, View.ld_unit_zero (S := S1x256) hz]

/-- First point: the row of column sums is the zero row plus the block's column sums (the zero row is stored, read
    back, and added to). -/
theorem out4_A_5_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond4_0 i) (x0 : Vec F S2000x256 .f32) (x1 : Vec F S2000x256 .f32) (x2 : Vec F S2000x1 .f32) (x3 : Vec F S1x256 .f32) :
    out4_A_5 c i a1 h1 a2 h2 a3 h3 a4 h4 a5 h5 a6 h6 a7 h7 hc x0 x1 x2 x3 = k4_pay4 x0 x1 x2 x3 (k4_pay2 (F := F)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the row the point before left plus the block's column sums. -/
theorem out4_B_5_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond4_0 i) (x0 : Vec F S2000x256 .f32) (x1 : Vec F S2000x256 .f32) (x2 : Vec F S2000x1 .f32) (x3 : Vec F S1x256 .f32) (xo5 xo6 : Vec F S1x256 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread, View.ld_unit_zero (S := S2000x256) hz, View.ld_unit_zero (S := S2000x1) hz, View.ld_unit_zero (S := S1x256) hz]

/-- First point: the row of column sums of squares is the zero row plus the block's. -/
theorem out4_A_6_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond4_0 i) (x0 : Vec F S2000x256 .f32) (x1 : Vec F S2000x256 .f32) (x2 : Vec F S2000x1 .f32) (x3 : Vec F S1x256 .f32) :
    out4_A_6 c i a1 h1 a2 h2 a3 h3 a4 h4 a5 h5 a6 h6 a7 h7 hc x0 x1 x2 x3 = k4_pay5 x0 x1 x2 x3 (k4_pay3 (F := F)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, View.ld_unit_zero (S := S2000x256) hz, View.ld_unit_zero (S := S2000x1) hz, View.ld_unit_zero (S := S1x256) hz]

/-- Later points: the row the point before left plus the block's column sums of squares. -/
theorem out4_B_6_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond4_0 i) (x0 : Vec F S2000x256 .f32) (x1 : Vec F S2000x256 .f32) (x2 : Vec F S2000x1 .f32) (x3 : Vec F S1x256 .f32) (xo5 xo6 : Vec F S1x256 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h7.read_unread, View.ld_unit_zero (S := S2000x256) hz, View.ld_unit_zero (S := S2000x1) hz, View.ld_unit_zero (S := S1x256) hz]

end Pieces4

/-! ### Region 4: the payloads read at an index, on the extended reals -/

section Payloads4

/-- The combine payload at row p, column q of a block: agg + hp · (self coefficient of row p) + (bias of column q). -/
theorem pay4_1_apply (x0 x1 : Vec Ideal S2000x256 .f32) (x2 : Vec Ideal S2000x1 .f32) (x3 : Vec Ideal S1x256 .f32)
    (p : Fin 2000) (q : Fin 256) :
    k4_pay1 (F := Ideal) x0 x1 x2 x3 (ix2 p q)
      = x0 (ix2 p q) + x1 (ix2 p q) * x2 (ix2 p (0 : Fin 1)) + x3 (ix2 (0 : Fin 1) q) := by
  unfold k4_pay1
  simp only [shapeCast_self]
  refine congrArg₂ (· + ·) (congrArg₂ (· + ·) rfl (congrArg₂ (· * ·) rfl ?_)) ?_
  · exact Keepdims.broadcastTo_a1_ab_apply x2 _ p q 0
  · exact broadcastTo_1b_ab_apply x3 _ p q

/-- The zero row. -/
theorem pay4_2_apply (j : S1x256.Idx) : k4_pay2 (F := Ideal) j = 0 := by
  unfold k4_pay2
  exact LibWords.word_zero

theorem pay4_3_apply (j : S1x256.Idx) : k4_pay3 (F := Ideal) j = 0 := by
  unfold k4_pay3
  exact LibWords.word_zero

/-- The accumulated row of column sums: the row before plus the block's column sums. -/
theorem pay4_4_apply (x0 x1 : Vec Ideal S2000x256 .f32) (x2 : Vec Ideal S2000x1 .f32) (x3 : Vec Ideal S1x256 .f32)
    (acc : Vec Ideal S1x256 .f32) (u : Fin 1) (q : Fin 256) :
    k4_pay4 (F := Ideal) x0 x1 x2 x3 acc (ix2 u q)
      = acc (ix2 u q) + ∑ p : Fin 2000, k4_pay1 (F := Ideal) x0 x1 x2 x3 (ix2 p q) := by
  unfold k4_pay4
  simp only [shapeCast_self]
  refine congrArg₂ (· + ·) rfl ?_
  refine (shapeCast_a_1a_apply _ _ u q).trans ?_
  exact colsum_block _ _ _ _ q

/-- The accumulated row of column sums of squares. -/
theorem pay4_5_apply (x0 x1 : Vec Ideal S2000x256 .f32) (x2 : Vec Ideal S2000x1 .f32) (x3 : Vec Ideal S1x256 .f32)
    (acc : Vec Ideal S1x256 .f32) (u : Fin 1) (q : Fin 256) :
    k4_pay5 (F := Ideal) x0 x1 x2 x3 acc (ix2 u q)
      = acc (ix2 u q) + ∑ p : Fin 2000, k4_pay1 (F := Ideal) x0 x1 x2 x3 (ix2 p q) * k4_pay1 (F := Ideal) x0 x1 x2 x3 (ix2 p q) := by
  unfold k4_pay5
  simp only [shapeCast_self]
  refine congrArg₂ (· + ·) rfl ?_
  refine (shapeCast_a_1a_apply _ _ u q).trans ?_
  exact colsum_block _ _ _ _ q

end Payloads4

/-! ### Region 4: the windows' blocks, read off the arrays the region is entered with -/

section Blocks4

/-- The printed index maps over the grid: the row-block windows sit at block (t, 0), the bias row and the two
    accumulated rows at block (0, 0) at every point. -/
theorem idx4 : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0
  ∧ win4_5.index t (0 : Fin 2) = 0 ∧ win4_5.index t (1 : Fin 2) = 0
  ∧ win4_6.index t (0 : Fin 2) = 0 ∧ win4_6.index t (1 : Fin 2) = 0 :=
  (by decide +kernel : ∀ t : Fin grid4.N, _)

theorem lt4 (t : Fin cfg4.N) : t.val < 50 := lt_of_lt_of_eq t.isLt (show cfg4.N = 50 from N_4)

/-- Block t of the aggregate holds rows 2000 t … 2000 t + 1999. -/
theorem blk4_0 (t : Fin cfg4.N) (p : Fin 2000) (q : Fin 256) :
    (iblk4 V c 0 t : Vec Ideal S2000x256 .f32) (ix2 p q) = V c main_v92 (ix2 (rowN t.val p) q) := by
  obtain ⟨e0, e1, -⟩ := idx4 t
  have hN := lt4 t
  unfold iblk4
  rw [View.read_apply]
  show V c main_v92 _ = V c main_v92 _
  refine congrArg (V c main_v92) ?_
  funext a; apply Fin.ext
  match a with
  | ⟨0, _⟩ => show win4_0.index t (0 : Fin 2) * 2000 + 1 * p.val = (t.val * 2000 + p.val) % 100000; rw [e0]; omega
  | ⟨1, _⟩ => show win4_0.index t (1 : Fin 2) * 256 + 1 * q.val = q.val; rw [e1]; omega

/-- Block t of the projection likewise. -/
theorem blk4_1 (t : Fin cfg4.N) (p : Fin 2000) (q : Fin 256) :
    (iblk4 V c 1 t : Vec Ideal S2000x256 .f32) (ix2 p q) = V c main_v80 (ix2 (rowN t.val p) q) := by
  obtain ⟨-, -, e0, e1, -⟩ := idx4 t
  have hN := lt4 t
  unfold iblk4
  rw [View.read_apply]
  show V c main_v80 _ = V c main_v80 _
  refine congrArg (V c main_v80) ?_
  funext a; apply Fin.ext
  match a with
  | ⟨0, _⟩ => show win4_1.index t (0 : Fin 2) * 2000 + 1 * p.val = (t.val * 2000 + p.val) % 100000; rw [e0]; omega
  | ⟨1, _⟩ => show win4_1.index t (1 : Fin 2) * 256 + 1 * q.val = q.val; rw [e1]; omega

/-- Block t of the self-coefficient column. -/
theorem blk4_2 (t : Fin cfg4.N) (p : Fin 2000) (u : Fin 1) :
    (iblk4 V c 2 t : Vec Ideal S2000x1 .f32) (ix2 p u) = V c main_v28 (ix2 (rowN t.val p) (0 : Fin 1)) := by
  obtain ⟨-, -, -, -, e0, e1, -⟩ := idx4 t
  have hN := lt4 t
  unfold iblk4
  rw [View.read_apply]
  show V c main_v28 _ = V c main_v28 _
  refine congrArg (V c main_v28) ?_
  funext a; apply Fin.ext
  match a with
  | ⟨0, _⟩ => show win4_2.index t (0 : Fin 2) * 2000 + 1 * p.val = (t.val * 2000 + p.val) % 100000; rw [e0]; omega
  | ⟨1, _⟩ => show win4_2.index t (1 : Fin 2) * 1 + 1 * u.val = 0; rw [e1]; omega

/-- The bias row's one block is the row. -/
theorem blk4_3 (t : Fin cfg4.N) (u : Fin 1) (q : Fin 256) :
    (iblk4 V c 3 t : Vec Ideal S1x256 .f32) (ix2 u q) = V c main_v93 (ix2 (0 : Fin 1) q) := by
  obtain ⟨-, -, -, -, -, -, e0, e1, -⟩ := idx4 t
  unfold iblk4
  rw [View.read_apply]
  show V c main_v93 _ = V c main_v93 _
  refine congrArg (V c main_v93) ?_
  funext a; apply Fin.ext
  match a with
  | ⟨0, _⟩ => show win4_3.index t (0 : Fin 2) * 1 + 1 * u.val = 0; rw [e0]; omega
  | ⟨1, _⟩ => show win4_3.index t (1 : Fin 2) * 256 + 1 * q.val = q.val; rw [e1]; omega

/-- The body's y block at point t is the combine function's rows 2000 t … 2000 t + 1999. -/
theorem point4_y (t : Fin cfg4.N) (p : Fin 2000) (q : Fin 256) :
    k4_pay1 (F := Ideal) (iblk4 V c 0 t) (iblk4 V c 1 t) (iblk4 V c 2 t) (iblk4 V c 3 t) (ix2 p q)
      = comb (V c main_v92) (V c main_v80) (V c main_v28) (V c main_v93) (ix2 (rowN t.val p) q) := by
  refine (pay4_1_apply (iblk4 V c 0 t) (iblk4 V c 1 t) (iblk4 V c 2 t) (iblk4 V c 3 t) p q).trans ?_
  rw [blk4_0 V c t p q, blk4_1 V c t p q, blk4_2 V c t p 0, blk4_3 V c t 0 q]
  rfl

end Blocks4

/-! ### Region 4: the output arrays after the region -/

section Final4

/-- The combine function of the arrays the region is entered with. -/
abbrev Y4 : Mat 100000 256 := comb (V c main_v92) (V c main_v80) (V c main_v28) (V c main_v93)

/-- What the y buffer holds after point t: the combine payload of the point's input blocks, in either case. -/
theorem outs4_y (t : Fin cfg4.N) :
    (outsAt4 V c t.val t.isLt).1 = k4_pay1 (F := Ideal) (iblk4 V c 0 t) (iblk4 V c 1 t) (iblk4 V c 2 t) (iblk4 V c 3 t) := by
  by_cases h0 : t.val % 50 = 0
  · rw [outsAt4_A V c t h0]
    dsimp only
    exact out4_A_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out4_B_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- An index of the y array is in point t's block iff each coordinate is in the block's range on its axis. -/
theorem mem_blk4_4 (t : Fin cfg4.N) (i : S100000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole (Pipeline.arrRef spec4 4)).slice (win4_4.rect t)).set ↔ _
  rw [View.set_slice_whole, Rect.mem_set_unit]
  exact Iff.rfl

/-- What point t writes back to the y array is block t of the combine function. -/
theorem flushed4_y (t : Fin cfg4.N) :
    (dat4 (F := Ideal) V c).flushed 4 t = ((cfg4.win 4).blk t).view.read (Elt Ideal) (Y4 V c) := by
  show (cfg4.win 4).cut (grid4.coords t) ((dat4 (F := Ideal) V c).after 4 t) = _
  rw [after4_4, outs4_y]
  obtain ⟨-, -, -, -, -, -, -, -, e0, e1, -⟩ := idx4 t
  have hN := lt4 t
  funext j
  obtain ⟨p, q, rfl⟩ : ∃ (p : Fin 2000) (q : Fin 256), j = ix2 p q := ⟨j 0, j 1, eq_ix2 j⟩
  show k4_pay1 (F := Ideal) (iblk4 V c 0 t) (iblk4 V c 1 t) (iblk4 V c 2 t) (iblk4 V c 3 t) (ix2 p q) = Y4 V c (((cfg4.win 4).blk t).view.emb (ix2 p q))
  rw [point4_y V c t p q]
  refine congrArg (Y4 V c) ?_
  funext a; apply Fin.ext
  match a with
  | ⟨0, _⟩ => show (t.val * 2000 + p.val) % 100000 = win4_4.index t (0 : Fin 2) * 2000 + 1 * p.val; rw [e0]; omega
  | ⟨1, _⟩ => show q.val = win4_4.index t (1 : Fin 2) * 256 + 1 * q.val; rw [e1]; omega

/-- The y array after the region: the combine function of the input arrays. -/
theorem final4_y : (Gen.dat4 (F := Ideal) V c).arrAt 4 cfg4.N = Cert.Vn.comb (V c main_v92) (V c main_v80) (V c main_v28) (V c main_v93) :=
  (dat4 (F := Ideal) V c).arrAt_eq_of_cover 4 (Y4 V c) (fun t _ => flushed4_y V c t) fun i => by
    have hi0 : (i 0).val < 100000 := (i 0).isLt
    have hi1 : (i 1).val < 256 := (i 1).isLt
    have hN : cfg4.N = 50 := N_4
    let t : Fin cfg4.N := ⟨(i 0).val / 2000, by rw [hN]; omega⟩
    obtain ⟨-, -, -, -, -, -, -, -, e0, e1, -⟩ := idx4 t
    refine ⟨t, flush4_4 t, ?_⟩
    rw [mem_blk4_4]
    intro a
    match a with
    | ⟨0, _⟩ => show win4_4.index t (0 : Fin 2) * 2000 ≤ (i 0).val ∧ (i 0).val < win4_4.index t (0 : Fin 2) * 2000 + 2000; rw [e0]; show (i 0).val / 2000 * 2000 ≤ _ ∧ _ < (i 0).val / 2000 * 2000 + 2000; omega
    | ⟨1, _⟩ => show win4_4.index t (1 : Fin 2) * 256 ≤ (i 1).val ∧ (i 1).val < win4_4.index t (1 : Fin 2) * 256 + 256; rw [e1]; omega

end Final4

/-! ### Region 4: the two accumulated rows -/

section Rows4

/-- At the first point the row of column sums is zero plus the column sums of block 0 of the combine function. -/
theorem outs4_s_first (t : Fin cfg4.N) (h0 : t.val % 50 = 0) (u : Fin 1) (q : Fin 256) :
    (outsAt4 V c t.val t.isLt).2.1 (ix2 u q) = 0 + ∑ p : Fin 2000, Y4 V c (ix2 (rowN t.val p) q) := by
  rw [outsAt4_A V c t h0]
  dsimp only
  refine (congrFun (out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 u q)).trans ?_
  refine (pay4_4_apply (iblk4 V c 0 t) (iblk4 V c 1 t) (iblk4 V c 2 t) (iblk4 V c 3 t) (k4_pay2 (F := Ideal)) u q).trans ?_
  refine congrArg₂ (· + ·) (pay4_2_apply _) ?_
  exact Finset.sum_congr rfl fun p _ => point4_y V c t p q

/-- At a later point it is the row the point before left plus the column sums of the point's block. -/
theorem outs4_s_step (t : Fin cfg4.N) (h0 : ¬t.val % 50 = 0) (u : Fin 1) (q : Fin 256) :
    (outsAt4 V c t.val t.isLt).2.1 (ix2 u q)
      = (outsAt4 V c (t.val - 1) (Nat.lt_of_le_of_lt (Nat.sub_le _ _) t.isLt)).2.1 (ix2 u q) + ∑ p : Fin 2000, Y4 V c (ix2 (rowN t.val p) q) := by
  rw [outsAt4_B V c t h0]
  dsimp only
  refine (congrFun (out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 u q)).trans ?_
  refine (pay4_4_apply (iblk4 V c 0 t) (iblk4 V c 1 t) (iblk4 V c 2 t) (iblk4 V c 3 t) (outsAt4 V c (t.val - 1) (Nat.lt_of_le_of_lt (Nat.sub_le _ _) t.isLt)).2.1 u q).trans ?_
  refine congrArg₂ (· + ·) rfl ?_
  exact Finset.sum_congr rfl fun p _ => point4_y V c t p q

/-- So after point n the row holds the column sums over blocks 0 … n. -/
theorem outs4_s : ∀ (n : ℕ) (h : n < cfg4.N) (u : Fin 1) (q : Fin 256),
    (outsAt4 V c n h).2.1 (ix2 u q) = ∑ k ∈ Finset.range (n + 1), ∑ p : Fin 2000, Y4 V c (ix2 (rowN k p) q)
  | 0, h, u, q => by
    rw [Finset.sum_range_one]
    exact (outs4_s_first V c ⟨0, h⟩ rfl u q).trans (zero_add _)
  | n + 1, h, u, q => by
    have hN : cfg4.N = 50 := N_4
    have hB : ¬(⟨n + 1, h⟩ : Fin cfg4.N).val % 50 = 0 := by dsimp only; omega
    rw [Finset.sum_range_succ _ (n + 1)]
    refine (outs4_s_step V c ⟨n + 1, h⟩ hB u q).trans ?_
    refine congrArg₂ (· + ·) ?_ rfl
    exact outs4_s n (Nat.lt_of_succ_lt h) u q

/-- The same three steps for the row of column sums of squares. -/
theorem outs4_ss_first (t : Fin cfg4.N) (h0 : t.val % 50 = 0) (u : Fin 1) (q : Fin 256) :
    (outsAt4 V c t.val t.isLt).2.2 (ix2 u q) = 0 + ∑ p : Fin 2000, sq (Y4 V c) (ix2 (rowN t.val p) q) := by
  rw [outsAt4_A V c t h0]
  dsimp only
  refine (congrFun (out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 u q)).trans ?_
  refine (pay4_5_apply (iblk4 V c 0 t) (iblk4 V c 1 t) (iblk4 V c 2 t) (iblk4 V c 3 t) (k4_pay3 (F := Ideal)) u q).trans ?_
  refine congrArg₂ (· + ·) (pay4_3_apply _) ?_
  exact Finset.sum_congr rfl fun p _ => congrArg₂ (· * ·) (point4_y V c t p q) (point4_y V c t p q)

theorem outs4_ss_step (t : Fin cfg4.N) (h0 : ¬t.val % 50 = 0) (u : Fin 1) (q : Fin 256) :
    (outsAt4 V c t.val t.isLt).2.2 (ix2 u q)
      = (outsAt4 V c (t.val - 1) (Nat.lt_of_le_of_lt (Nat.sub_le _ _) t.isLt)).2.2 (ix2 u q) + ∑ p : Fin 2000, sq (Y4 V c) (ix2 (rowN t.val p) q) := by
  rw [outsAt4_B V c t h0]
  dsimp only
  refine (congrFun (out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 u q)).trans ?_
  refine (pay4_5_apply (iblk4 V c 0 t) (iblk4 V c 1 t) (iblk4 V c 2 t) (iblk4 V c 3 t) (outsAt4 V c (t.val - 1) (Nat.lt_of_le_of_lt (Nat.sub_le _ _) t.isLt)).2.2 u q).trans ?_
  refine congrArg₂ (· + ·) rfl ?_
  exact Finset.sum_congr rfl fun p _ => congrArg₂ (· * ·) (point4_y V c t p q) (point4_y V c t p q)

theorem outs4_ss : ∀ (n : ℕ) (h : n < cfg4.N) (u : Fin 1) (q : Fin 256),
    (outsAt4 V c n h).2.2 (ix2 u q) = ∑ k ∈ Finset.range (n + 1), ∑ p : Fin 2000, sq (Y4 V c) (ix2 (rowN k p) q)
  | 0, h, u, q => by
    rw [Finset.sum_range_one]
    exact (outs4_ss_first V c ⟨0, h⟩ rfl u q).trans (zero_add _)
  | n + 1, h, u, q => by
    have hN : cfg4.N = 50 := N_4
    have hB : ¬(⟨n + 1, h⟩ : Fin cfg4.N).val % 50 = 0 := by dsimp only; omega
    rw [Finset.sum_range_succ _ (n + 1)]
    refine (outs4_ss_step V c ⟨n + 1, h⟩ hB u q).trans ?_
    refine congrArg₂ (· + ·) ?_ rfl
    exact outs4_ss n (Nat.lt_of_succ_lt h) u q

end Rows4

/-! ### Region 4: the two rows after the region -/

section RowFinal4

/-- An index of the one-row array 5 is in point t's block iff each coordinate is in the block's range. -/
theorem mem_blk4_5 (t : Fin cfg4.N) (i : S1x256.Idx) :
    i ∈ ((cfg4.win 5).blk t).view.set ↔ ∀ a : Fin 2, win4_5.index t a * S1x256.size a ≤ (i a).val ∧ (i a).val < win4_5.index t a * S1x256.size a + S1x256.size a := by
  show i ∈ ((View.whole (Pipeline.arrRef spec4 5)).slice (win4_5.rect t)).set ↔ _
  rw [View.set_slice_whole, Rect.mem_set_unit]
  exact Iff.rfl

/-- The one block of the one-row array 5 is the row: reading a row through it gives the row. -/
theorem read_row4_5 (t : Fin cfg4.N) (G : Mat 1 256) (u : Fin 1) (q : Fin 256) :
    ((cfg4.win 5).blk t).view.read (Elt Ideal) G (ix2 u q) = G (ix2 (0 : Fin 1) q) := by
  obtain ⟨-, -, -, -, -, -, -, -, -, -, e0, e1, -⟩ := idx4 t
  rw [View.read_apply]
  show G _ = G _
  refine congrArg G ?_
  funext a; apply Fin.ext
  match a with
  | ⟨0, _⟩ => show win4_5.index t (0 : Fin 2) * 1 + 1 * u.val = 0; rw [e0]; omega
  | ⟨1, _⟩ => show win4_5.index t (1 : Fin 2) * 256 + 1 * q.val = q.val; rw [e1]; omega

/-- The one write-back, after the last point, writes the sums over all 50 blocks, that is over all rows. -/
theorem flushed4_s (t : Fin cfg4.N) (hf : (cfg4.win 5).flush t = true) :
    (dat4 (F := Ideal) V c).flushed 5 t = ((cfg4.win 5).blk t).view.read (Elt Ideal) (colsum (Y4 V c)) := by
  have h50 : t.val + 1 = 50 := by have := (flush4_5 t).mp hf; have := lt4 t; omega
  show (cfg4.win 5).cut (grid4.coords t) ((dat4 (F := Ideal) V c).after 5 t) = _
  rw [after4_5]
  funext j
  obtain ⟨u, q, rfl⟩ : ∃ (u : Fin 1) (q : Fin 256), j = ix2 u q := ⟨j 0, j 1, eq_ix2 j⟩
  refine Eq.trans ?_ (read_row4_5 t (colsum (Y4 V c)) u q).symm
  refine (outs4_s V c t.val t.isLt u q).trans ?_
  rw [h50]
  exact colsum_blocks (Y4 V c) q

/-- The row of column sums after the region: the column sums of the combine function. -/
theorem final4_s : (Gen.dat4 (F := Ideal) V c).arrAt 5 cfg4.N = Cert.Vn.colsum (Cert.Vn.comb (V c main_v92) (V c main_v80) (V c main_v28) (V c main_v93)) :=
  (dat4 (F := Ideal) V c).arrAt_eq_of_cover 5 (colsum (Y4 V c)) (flushed4_s V c) fun i => by
    have hN : cfg4.N = 50 := N_4
    have hi0 : (i 0).val < 1 := (i 0).isLt
    have hi1 : (i 1).val < 256 := (i 1).isLt
    let t : Fin cfg4.N := ⟨49, by rw [hN]; decide⟩
    obtain ⟨-, -, -, -, -, -, -, -, -, -, e0, e1, -⟩ := idx4 t
    refine ⟨t, (flush4_5 t).mpr rfl, ?_⟩
    rw [mem_blk4_5]
    intro a
    match a with
    | ⟨0, _⟩ => show win4_5.index t (0 : Fin 2) * 1 ≤ (i 0).val ∧ (i 0).val < win4_5.index t (0 : Fin 2) * 1 + 1; rw [e0]; omega
    | ⟨1, _⟩ => show win4_5.index t (1 : Fin 2) * 256 ≤ (i 1).val ∧ (i 1).val < win4_5.index t (1 : Fin 2) * 256 + 256; rw [e1]; omega

/-- An index of the one-row array 6 is in point t's block iff each coordinate is in the block's range. -/
theorem mem_blk4_6 (t : Fin cfg4.N) (i : S1x256.Idx) :
    i ∈ ((cfg4.win 6).blk t).view.set ↔ ∀ a : Fin 2, win4_6.index t a * S1x256.size a ≤ (i a).val ∧ (i a).val < win4_6.index t a * S1x256.size a + S1x256.size a := by
  show i ∈ ((View.whole (Pipeline.arrRef spec4 6)).slice (win4_6.rect t)).set ↔ _
  rw [View.set_slice_whole, Rect.mem_set_unit]
  exact Iff.rfl

/-- The one block of the one-row array 6 is the row: reading a row through it gives the row. -/
theorem read_row4_6 (t : Fin cfg4.N) (G : Mat 1 256) (u : Fin 1) (q : Fin 256) :
    ((cfg4.win 6).blk t).view.read (Elt Ideal) G (ix2 u q) = G (ix2 (0 : Fin 1) q) := by
  obtain ⟨-, -, -, -, -, -, -, -, -, -, -, -, e0, e1⟩ := idx4 t
  rw [View.read_apply]
  show G _ = G _
  refine congrArg G ?_
  funext a; apply Fin.ext
  match a with
  | ⟨0, _⟩ => show win4_6.index t (0 : Fin 2) * 1 + 1 * u.val = 0; rw [e0]; omega
  | ⟨1, _⟩ => show win4_6.index t (1 : Fin 2) * 256 + 1 * q.val = q.val; rw [e1]; omega

/-- The one write-back, after the last point, writes the sums over all 50 blocks, that is over all rows. -/
theorem flushed4_ss (t : Fin cfg4.N) (hf : (cfg4.win 6).flush t = true) :
    (dat4 (F := Ideal) V c).flushed 6 t = ((cfg4.win 6).blk t).view.read (Elt Ideal) (colsum (sq (Y4 V c))) := by
  have h50 : t.val + 1 = 50 := by have := (flush4_6 t).mp hf; have := lt4 t; omega
  show (cfg4.win 6).cut (grid4.coords t) ((dat4 (F := Ideal) V c).after 6 t) = _
  rw [after4_6]
  funext j
  obtain ⟨u, q, rfl⟩ : ∃ (u : Fin 1) (q : Fin 256), j = ix2 u q := ⟨j 0, j 1, eq_ix2 j⟩
  refine Eq.trans ?_ (read_row4_6 t (colsum (sq (Y4 V c))) u q).symm
  refine (outs4_ss V c t.val t.isLt u q).trans ?_
  rw [h50]
  exact colsum_blocks (sq (Y4 V c)) q

/-- The row of column sums of squares after the region. -/
theorem final4_ss : (Gen.dat4 (F := Ideal) V c).arrAt 6 cfg4.N = Cert.Vn.colsum (Cert.Vn.sq (Cert.Vn.comb (V c main_v92) (V c main_v80) (V c main_v28) (V c main_v93))) :=
  (dat4 (F := Ideal) V c).arrAt_eq_of_cover 6 (colsum (sq (Y4 V c))) (flushed4_ss V c) fun i => by
    have hN : cfg4.N = 50 := N_4
    have hi0 : (i 0).val < 1 := (i 0).isLt
    have hi1 : (i 1).val < 256 := (i 1).isLt
    let t : Fin cfg4.N := ⟨49, by rw [hN]; decide⟩
    obtain ⟨-, -, -, -, -, -, -, -, -, -, -, -, e0, e1⟩ := idx4 t
    refine ⟨t, (flush4_6 t).mpr rfl, ?_⟩
    rw [mem_blk4_6]
    intro a
    match a with
    | ⟨0, _⟩ => show win4_6.index t (0 : Fin 2) * 1 ≤ (i 0).val ∧ (i 0).val < win4_6.index t (0 : Fin 2) * 1 + 1; rw [e0]; omega
    | ⟨1, _⟩ => show win4_6.index t (1 : Fin 2) * 256 ≤ (i 1).val ∧ (i 1).val < win4_6.index t (1 : Fin 2) * 256 + 256; rw [e1]; omega

end RowFinal4

end Comb

/-- Region 1: the y array after the region is the combine function of the arrays the region is entered with. -/
theorem comb1_y : (Gen.dat1 (F := Ideal) V c).arrAt 4 cfg1.N = Cert.Vn.comb (V c main_v41) (V c main_v29) (V c main_v28) (V c main_v42) :=
  Comb.final1_y V c

/-- Region 1: the row of column sums after the region. -/
theorem comb1_s : (Gen.dat1 (F := Ideal) V c).arrAt 5 cfg1.N = Cert.Vn.colsum (Cert.Vn.comb (V c main_v41) (V c main_v29) (V c main_v28) (V c main_v42)) :=
  Comb.final1_s V c

/-- Region 1: the row of column sums of squares after the region. -/
theorem comb1_ss : (Gen.dat1 (F := Ideal) V c).arrAt 6 cfg1.N = Cert.Vn.colsum (Cert.Vn.sq (Cert.Vn.comb (V c main_v41) (V c main_v29) (V c main_v28) (V c main_v42))) :=
  Comb.final1_ss V c

/-- Region 4: the y array after the region is the combine function of the arrays the region is entered with. -/
theorem comb4_y : (Gen.dat4 (F := Ideal) V c).arrAt 4 cfg4.N = Cert.Vn.comb (V c main_v92) (V c main_v80) (V c main_v28) (V c main_v93) :=
  Comb.final4_y V c

/-- Region 4: the row of column sums after the region. -/
theorem comb4_s : (Gen.dat4 (F := Ideal) V c).arrAt 5 cfg4.N = Cert.Vn.colsum (Cert.Vn.comb (V c main_v92) (V c main_v80) (V c main_v28) (V c main_v93)) :=
  Comb.final4_s V c

/-- Region 4: the row of column sums of squares after the region. -/
theorem comb4_ss : (Gen.dat4 (F := Ideal) V c).arrAt 6 cfg4.N = Cert.Vn.colsum (Cert.Vn.sq (Cert.Vn.comb (V c main_v92) (V c main_v80) (V c main_v28) (V c main_v93))) :=
  Comb.final4_ss V c

end Cert.KernelIdeal.Regions

end
-- ==== Proof.RegionNorm.lean ====
/-
  The two normalise, rectify and pool regions of the kernel program, read as functions of their input arrays.

  Each region walks 50 grid points. Point t holds rows 2000 t … 2000 t + 1999 of the [100000, 256] input y and the whole
  mean, variance, scale and shift rows. It writes block t of
      h (r, j) = max ((y (r, j) − mean j) · rsqrt (max (var j) 0 + ε) · g j + b j) 0
  and keeps ONE pooled row for all points: zeroed at the first point, then increased by the column sums of the point's
  block of h. After point n the pooled row therefore holds the column sums of rows 0 … 2000 (n + 1) − 1 (induction on
  the point), and after the last point the column sums of all 100000 rows (a sum over 50 · 2000 rows, taken block by
  block). The first output's blocks tile its array, so that array ends holding h; the pooled row is written back once,
  after the last point, and its array ends holding the column sums of h.

  Every auxiliary statement lives in the namespace `Norm`; the four results are `nrp2_h`, `nrp2_pool`, `nrp5_h`,
  `nrp5_pool` at the end.
-/
import proofs.«161332_j44100724195822_1_alg».proof.Proof.Gen.KernelIdeal.Frame
import proofs.«161332_j44100724195822_1_alg».proof.Proof.Spec
import Idealize.ShloMosaic.Lib.Pipeline.Value
import Idealize.ShloMosaic.Lib.ValueLayout
import Idealize.ShloMosaic.PureOps.Ideal.Laws
import proofs.«161332_j44100724195822_1_alg».proof.Proof.LibBlockSum

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen Cert.Vn
open Idealize.ShloMosaic.Pipeline (Dat Cfg Window)
open scoped BigOperators

variable (V : (c : Dev nD) → (b : Ref sig .tc) → Buf (Elt Ideal) ((c : Thread nD τ).loc b)) (c : Dev nD)

namespace Norm

theorem hz2 : (![0, 0] : Fin 2 → Nat) = fun _ => 0 := funext fun a => by fin_cases a <;> rfl

/-- The column sums read at a column. -/
theorem colsum_apply {N D : ℕ} (y : Mat N D) (u : Fin 1) (q : Fin D) :
    colsum y (ix2 u q) = ∑ r : Fin N, y (ix2 r q) := rfl

section pieces2
variable {F : FTy → Type} [FloatOps F]

/-- First point: the block of h the body leaves is the payload of the five input blocks. -/
theorem out2_A_5_eq (c : Dev nD) (i : grid2.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : cond2_0 i)
    (x0 : Vec F S2000x256 .f32) (x1 x2 x3 x4 : Vec F S1x256 .f32) :
    out2_A_5 c i a1 h1 a2 h2 a3 h3 a4 h4 a5 h5 a6 h6 a7 h7 hc x0 x1 x2 x3 x4 = k2_pay1 x2 x0 x1 x3 x4 := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

/-- Later points: the same block of h. -/
theorem out2_B_5_eq (c : Dev nD) (i : grid2.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : ¬cond2_0 i)
    (x0 : Vec F S2000x256 .f32) (x1 x2 x3 x4 xo : Vec F S1x256 .f32) :
    out2_B_5 c i a1 h1 a2 h2 a3 h3 a4 h4 a5 h5 a6 h6 a7 h7 hc x0 x1 x2 x3 x4 xo = k2_pay1 x2 x0 x1 x3 x4 := by
  unfold out2_B_5
  rw [View.read_writes_eq_canon _ _ _ (cover2_B_5 c i a1 h1 a2 h2 a3 h3 a4 h4 a5 h5 a6 h6 a7 h7 hc x0 x1 x2 x3 x4 xo)]
  unfold kernelRun2_B
  dsimp only
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

/-- First point: the pooled row is the zero row plus the block's column sums. -/
theorem out2_A_6_eq (c : Dev nD) (i : grid2.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : cond2_0 i)
    (x0 : Vec F S2000x256 .f32) (x1 x2 x3 x4 : Vec F S1x256 .f32) :
    out2_A_6 c i a1 h1 a2 h2 a3 h3 a4 h4 a5 h5 a6 h6 a7 h7 hc x0 x1 x2 x3 x4 = k2_pay3 x2 x0 x1 x3 x4 (k2_pay2 (F := F)) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread,
    View.ld_unit_zero (S := S2000x256) hz2, View.ld_unit_zero (S := S1x256) hz2]

/-- Later points: the pooled row is the row the point before left plus the block's column sums. -/
theorem out2_B_6_eq (c : Dev nD) (i : grid2.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : ¬cond2_0 i)
    (x0 : Vec F S2000x256 .f32) (x1 x2 x3 x4 xo : Vec F S1x256 .f32) :
    out2_B_6 c i a1 h1 a2 h2 a3 h3 a4 h4 a5 h5 a6 h6 a7 h7 hc x0 x1 x2 x3 x4 xo = k2_pay3 x2 x0 x1 x3 x4 xo := by
  unfold out2_B_6
  rw [View.read_writes_eq_canon _ _ _ (cover2_B_6 c i a1 h1 a2 h2 a3 h3 a4 h4 a5 h5 a6 h6 a7 h7 hc x0 x1 x2 x3 x4 xo)]
  unfold kernelRun2_B
  dsimp only
  sl_unfold_words
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

end pieces2

/-- The normalised, rectified entry of a block at row p, column q. -/
theorem pay2_1_apply (v0 : Vec Ideal S1x256 .f32) (v7 : Vec Ideal S2000x256 .f32) (v9 v15 v19 : Vec Ideal S1x256 .f32)
    (p : Fin 2000) (q : Fin 256) :
    k2_pay1 (F := Ideal) v0 v7 v9 v15 v19 (ix2 p q)
      = max ((v7 (ix2 p q) - v9 (ix2 0 q)) * Ideal.rsqrt (max (v0 (ix2 0 q)) 0 + Cert.Vn.eps) * v15 (ix2 0 q)
          + v19 (ix2 0 q)) 0 := by
  unfold k2_pay1
  simp only [shapeCast_self, maximumf_apply, addf_apply, mulf_apply, subf_apply, broadcast_apply, broadcastTo_1b_ab_apply,
    Ideal.ofBits_def]
  rw [Ideal.ofBits_zero_f32]
  rfl

/-- The pooled row after a point: the row before plus the column sums of the point's block of h. -/
theorem pay2_3_apply (v0 : Vec Ideal S1x256 .f32) (v7 : Vec Ideal S2000x256 .f32) (v9 v15 v19 v29 : Vec Ideal S1x256 .f32)
    (u : Fin 1) (q : Fin 256) :
    k2_pay3 (F := Ideal) v0 v7 v9 v15 v19 v29 (ix2 u q)
      = v29 (ix2 u q) + ∑ k : Fin 2000, k2_pay1 (F := Ideal) v0 v7 v9 v15 v19 (ix2 k q) := by
  unfold k2_pay3
  simp only [shapeCast_self, addf_apply]
  rw [shapeCast_a_1a_apply]
  refine congrArg (v29 (ix2 u q) + ·) ?_
  refine (Ideal.multiReduction_add_single _ _ reduces_S2000x256_S256 (.inl rfl) rfl (ix1 q)).trans ?_
  show ∑ k : Fin 2000, _ = _
  refine Finset.sum_congr rfl fun k _ => congrArg _ (funext fun a => ?_)
  match a with
  | ⟨0, _⟩ => rfl
  | ⟨1, _⟩ => rfl

/-- The zero row. -/
theorem pay2_2_apply (u : Fin 1) (q : Fin 256) : k2_pay2 (F := Ideal) (ix2 u q) = 0 := by
  unfold k2_pay2
  simp only [broadcast_apply, Ideal.ofBits_def]
  exact Ideal.ofBits_zero_f32

/-! ## Region 2: where each window's block sits -/

/-- The printed index maps over the grid: the two row-block windows are at block t. -/
theorem idx2 : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

/-- Every row window is at block 0 at every point. -/
theorem idxrow2 : ∀ (t : Fin cfg2.N) (a : Fin 2), win2_1.index t a = 0 ∧ win2_2.index t a = 0
    ∧ win2_3.index t a = 0 ∧ win2_4.index t a = 0 ∧ win2_6.index t a = 0 :=
  (by decide +kernel : ∀ (t : Fin grid2.N) (a : Fin 2), _)

theorem N2 : cfg2.N = 50 := N_2

/-- Row p of block t of the input is row 2000 t + p of the array. -/
theorem iblk2_0_apply (t : Fin cfg2.N) (p : Fin 2000) (q : Fin 256) (r : Fin 100000) (hr : r.val = t.val * 2000 + p.val) :
    (iblk2 V c 0 t : Vec Ideal S2000x256 .f32) (ix2 p q) = V c main_v43_0 (ix2 r q) := by
  obtain ⟨e0, e1, -⟩ := idx2 t
  show V c main_v43_0 (((cfg2.win 0).blk t).view.emb (ix2 p q)) = V c main_v43_0 (ix2 r q)
  refine congrArg (V c main_v43_0) (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * q.val = q.val; rw [e1]; omega

/-- Every point reads the whole mean row. -/
theorem iblk2_1_apply (t : Fin cfg2.N) (u : Fin 1) (q : Fin 256) :
    (iblk2 V c 1 t : Vec Ideal S1x256 .f32) (ix2 u q) = V c main_v45 (ix2 0 q) := by
  show V c main_v45 (((cfg2.win 1).blk t).view.emb (ix2 u q)) = V c main_v45 (ix2 0 q)
  refine congrArg (V c main_v45) (funext fun a => Fin.ext ?_)
  have hu : u.val = 0 := by omega
  match a with
  | ⟨0, _⟩ => show win2_1.index t (0 : Fin 2) * 1 + 1 * u.val = 0; rw [(idxrow2 t 0).1]; omega
  | ⟨1, _⟩ => show win2_1.index t (1 : Fin 2) * 256 + 1 * q.val = q.val; rw [(idxrow2 t 1).1]; omega

/-- Every point reads the whole variance row. -/
theorem iblk2_2_apply (t : Fin cfg2.N) (u : Fin 1) (q : Fin 256) :
    (iblk2 V c 2 t : Vec Ideal S1x256 .f32) (ix2 u q) = V c main_v49 (ix2 0 q) := by
  show V c main_v49 (((cfg2.win 2).blk t).view.emb (ix2 u q)) = V c main_v49 (ix2 0 q)
  refine congrArg (V c main_v49) (funext fun a => Fin.ext ?_)
  have hu : u.val = 0 := by omega
  match a with
  | ⟨0, _⟩ => show win2_2.index t (0 : Fin 2) * 1 + 1 * u.val = 0; rw [(idxrow2 t 0).2.1]; omega
  | ⟨1, _⟩ => show win2_2.index t (1 : Fin 2) * 256 + 1 * q.val = q.val; rw [(idxrow2 t 1).2.1]; omega

/-- Every point reads the whole scale row. -/
theorem iblk2_3_apply (t : Fin cfg2.N) (u : Fin 1) (q : Fin 256) :
    (iblk2 V c 3 t : Vec Ideal S1x256 .f32) (ix2 u q) = V c main_v50 (ix2 0 q) := by
  show V c main_v50 (((cfg2.win 3).blk t).view.emb (ix2 u q)) = V c main_v50 (ix2 0 q)
  refine congrArg (V c main_v50) (funext fun a => Fin.ext ?_)
  have hu : u.val = 0 := by omega
  match a with
  | ⟨0, _⟩ => show win2_3.index t (0 : Fin 2) * 1 + 1 * u.val = 0; rw [(idxrow2 t 0).2.2.1]; omega
  | ⟨1, _⟩ => show win2_3.index t (1 : Fin 2) * 256 + 1 * q.val = q.val; rw [(idxrow2 t 1).2.2.1]; omega

/-- Every point reads the whole shift row. -/
theorem iblk2_4_apply (t : Fin cfg2.N) (u : Fin 1) (q : Fin 256) :
    (iblk2 V c 4 t : Vec Ideal S1x256 .f32) (ix2 u q) = V c main_v51 (ix2 0 q) := by
  show V c main_v51 (((cfg2.win 4).blk t).view.emb (ix2 u q)) = V c main_v51 (ix2 0 q)
  refine congrArg (V c main_v51) (funext fun a => Fin.ext ?_)
  have hu : u.val = 0 := by omega
  match a with
  | ⟨0, _⟩ => show win2_4.index t (0 : Fin 2) * 1 + 1 * u.val = 0; rw [(idxrow2 t 0).2.2.2.1]; omega
  | ⟨1, _⟩ => show win2_4.index t (1 : Fin 2) * 256 + 1 * q.val = q.val; rw [(idxrow2 t 1).2.2.2.1]; omega

/-! ## Region 2: what the points leave -/

/-- The region's first output as a function of its five input arrays. -/
abbrev H2 : Mat 100000 256 := nrp (V c main_v43_0) (V c main_v45) (V c main_v49) (V c main_v50) (V c main_v51)

/-- Its entry in row r by a natural-number row index (zero past the last row). -/
def Hrow2 (r : ℕ) (q : Fin 256) : EReal := if h : r < 100000 then H2 V c (ix2 ⟨r, h⟩ q) else 0

/-- The payload of point t's blocks at (p, q) is the function at row 2000 t + p. -/
theorem block2_apply (t : Fin cfg2.N) (p : Fin 2000) (q : Fin 256) :
    k2_pay1 (F := Ideal) (iblk2 V c 2 t) (iblk2 V c 0 t) (iblk2 V c 1 t) (iblk2 V c 3 t) (iblk2 V c 4 t) (ix2 p q) = Hrow2 V c (t.val * 2000 + p.val) q := by
  have hN : t.val < 50 := lt_of_lt_of_eq t.isLt N2
  have hr : t.val * 2000 + p.val < 100000 := by have := p.isLt; omega
  unfold Hrow2
  rw [dif_pos hr]
  refine (pay2_1_apply (iblk2 V c 2 t) (iblk2 V c 0 t) (iblk2 V c 1 t) (iblk2 V c 3 t) (iblk2 V c 4 t) p q).trans ?_
  rw [iblk2_0_apply V c t p q ⟨_, hr⟩ rfl, iblk2_1_apply V c t 0 q, iblk2_2_apply V c t 0 q,
    iblk2_3_apply V c t 0 q, iblk2_4_apply V c t 0 q]
  rfl

/-- After every point the first output's buffer holds the payload of the point's blocks. -/
theorem outsAt2_fst (t : Fin cfg2.N) :
    (outsAt2 V c t.val t.isLt).1 = k2_pay1 (F := Ideal) (iblk2 V c 2 t) (iblk2 V c 0 t) (iblk2 V c 1 t) (iblk2 V c 3 t) (iblk2 V c 4 t) := by
  by_cases h0 : t.val % 50 = 0
  · rw [outsAt2_A V c t h0]
    dsimp only
    exact out2_A_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)
  · rw [outsAt2_B V c t h0]
    dsimp only
    exact out2_B_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) _

/-- After point n the pooled row holds the column sums of the first n + 1 blocks. -/
theorem outsAt2_snd (q : Fin 256) : ∀ (n : ℕ) (hn : n < cfg2.N),
    (outsAt2 V c n hn).2 (ix2 0 q) = ∑ k ∈ Finset.range (n + 1), ∑ y : Fin 2000, Hrow2 V c (k * 2000 + y.val) q
  | 0, hn => by
    rw [outsAt2_A V c ⟨0, hn⟩ (Nat.zero_mod _)]
    dsimp only
    refine (congrFun (out2_A_6_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩)) (ix2 0 q)).trans ?_
    refine (pay2_3_apply (iblk2 V c 2 ⟨0, hn⟩) (iblk2 V c 0 ⟨0, hn⟩) (iblk2 V c 1 ⟨0, hn⟩) (iblk2 V c 3 ⟨0, hn⟩) (iblk2 V c 4 ⟨0, hn⟩) (k2_pay2 (F := Ideal)) 0 q).trans ?_
    rw [pay2_2_apply, zero_add, Finset.sum_range_one]
    exact Finset.sum_congr rfl fun y _ => block2_apply V c ⟨0, hn⟩ y q
  | n + 1, hn => by
    have hN : cfg2.N = 50 := N2
    have hB : ¬(⟨n + 1, hn⟩ : Fin cfg2.N).val % 50 = 0 := by dsimp only; omega
    rw [outsAt2_B V c ⟨n + 1, hn⟩ hB]
    dsimp only
    refine (congrFun (out2_B_6_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _) (ix2 0 q)).trans ?_
    refine (pay2_3_apply (iblk2 V c 2 ⟨n + 1, hn⟩) (iblk2 V c 0 ⟨n + 1, hn⟩) (iblk2 V c 1 ⟨n + 1, hn⟩) (iblk2 V c 3 ⟨n + 1, hn⟩) (iblk2 V c 4 ⟨n + 1, hn⟩) _ 0 q).trans ?_
    rw [Finset.sum_range_succ _ (n + 1)]
    refine congrArg₂ (· + ·) ?_ ?_
    · exact outsAt2_snd q n (Nat.lt_of_succ_lt hn)
    · exact Finset.sum_congr rfl fun y _ => block2_apply V c ⟨n + 1, hn⟩ y q

/-! ## Region 2: the arrays after the region -/

/-- What point t writes back of the first output is block t of the function. -/
theorem flushed2_5_eq (t : Fin cfg2.N) (hf : (cfg2.win 5).flush t = true) :
    (dat2 (F := Ideal) V c).flushed 5 t = ((cfg2.win 5).blk t).view.read (Elt Ideal) (H2 V c) := by
  have hN : t.val < 50 := lt_of_lt_of_eq t.isLt N2
  show (cfg2.win 5).cut (grid2.coords t) ((dat2 V c).after 5 t) = _
  rw [after2_5, outsAt2_fst]
  funext j
  obtain ⟨p, q, rfl⟩ : ∃ (p : Fin 2000) (q : Fin 256), j = ix2 p q := ⟨j 0, j 1, eq_ix2 j⟩
  have hr : t.val * 2000 + p.val < 100000 := by have := p.isLt; omega
  show k2_pay1 (F := Ideal) (iblk2 V c 2 t) (iblk2 V c 0 t) (iblk2 V c 1 t) (iblk2 V c 3 t) (iblk2 V c 4 t) (ix2 p q) = H2 V c (((cfg2.win 5).blk t).view.emb (ix2 p q))
  rw [block2_apply, Hrow2, dif_pos hr]
  refine congrArg (H2 V c) (funext fun a => Fin.ext ?_)
  obtain ⟨-, -, e0, e1⟩ := idx2 t
  match a with
  | ⟨0, _⟩ => show t.val * 2000 + p.val = win2_5.index t (0 : Fin 2) * 2000 + 1 * p.val; rw [e0]; omega
  | ⟨1, _⟩ => show q.val = win2_5.index t (1 : Fin 2) * 256 + 1 * q.val; rw [e1]; omega

theorem final2_h : (Gen.dat2 (F := Ideal) V c).arrAt 5 cfg2.N
    = Cert.Vn.nrp (V c main_v43_0) (V c main_v45) (V c main_v49) (V c main_v50) (V c main_v51) :=
  (dat2 (F := Ideal) V c).arrAt_eq_of_cover 5 (H2 V c) (flushed2_5_eq V c) fun i => by
    have hi0 : (i 0).val < 100000 := (i 0).isLt
    have hi1 : (i 1).val < 256 := (i 1).isLt
    obtain ⟨t, ht⟩ : ∃ t : Fin cfg2.N, t.val = (i 0).val / 2000 := ⟨⟨(i 0).val / 2000, by rw [N2]; omega⟩, rfl⟩
    refine ⟨t, flush2_5 t, ?_⟩
    show i ∈ ((View.whole main_v52_0).slice (win2_5.rect t)).set
    rw [View.set_slice_whole, Rect.mem_set_unit]
    intro a
    obtain ⟨-, -, e0, e1⟩ := idx2 t
    match a with
    | ⟨0, _⟩ => show win2_5.index t (0 : Fin 2) * 2000 ≤ (i 0).val ∧ (i 0).val < win2_5.index t (0 : Fin 2) * 2000 + 2000; rw [e0, ht]; omega
    | ⟨1, _⟩ => show win2_5.index t (1 : Fin 2) * 256 ≤ (i 1).val ∧ (i 1).val < win2_5.index t (1 : Fin 2) * 256 + 256; rw [e1]; omega

/-- The one write-back of the pooled row, at the last point, writes the column sums of the whole function. -/
theorem flushed2_6_eq (t : Fin cfg2.N) (hf : (cfg2.win 6).flush t = true) :
    (dat2 (F := Ideal) V c).flushed 6 t = ((cfg2.win 6).blk t).view.read (Elt Ideal) (colsum (H2 V c)) := by
  have hN : t.val < 50 := lt_of_lt_of_eq t.isLt N2
  have h50 : t.val + 1 = 50 := by have := (flush2_6 t).mp hf; omega
  show (cfg2.win 6).cut (grid2.coords t) ((dat2 V c).after 6 t) = _
  rw [after2_6]
  funext j
  obtain ⟨u, q, rfl⟩ : ∃ (u : Fin 1) (q : Fin 256), j = ix2 u q := ⟨j 0, j 1, eq_ix2 j⟩
  obtain rfl : u = 0 := Subsingleton.elim _ _
  have hemb : ((cfg2.win 6).blk t).view.emb (ix2 (0 : Fin 1) q) = ix2 (0 : Fin 1) q := funext fun a => Fin.ext (by
    match a with
    | ⟨0, _⟩ => show win2_6.index t (0 : Fin 2) * 1 + 1 * 0 = 0; rw [(idxrow2 t 0).2.2.2.2]
    | ⟨1, _⟩ => show win2_6.index t (1 : Fin 2) * 256 + 1 * q.val = q.val; rw [(idxrow2 t 1).2.2.2.2]; omega)
  generalize hC : colsum (H2 V c) = C
  show (outsAt2 V c t.val t.isLt).2 (ix2 0 q) = C (((cfg2.win 6).blk t).view.emb (ix2 0 q))
  rw [hemb, ← hC, colsum_apply, outsAt2_snd V c q t.val t.isLt, h50, Finset.sum_range]
  refine Eq.trans ?_ (LibBlockSum.sum_blocks_of_eq 50 2000 (by norm_num) (fun r : Fin 100000 => H2 V c (ix2 r q))).symm
  refine Finset.sum_congr rfl fun k _ => Finset.sum_congr rfl fun y _ => ?_
  have hlt : k.val * 2000 + y.val < 100000 := by have := k.isLt; have := y.isLt; omega
  unfold Hrow2
  exact dif_pos hlt

theorem final2_pool : (Gen.dat2 (F := Ideal) V c).arrAt 6 cfg2.N
    = Cert.Vn.colsum (Cert.Vn.nrp (V c main_v43_0) (V c main_v45) (V c main_v49) (V c main_v50) (V c main_v51)) :=
  (dat2 (F := Ideal) V c).arrAt_eq_of_cover 6 (colsum (H2 V c)) (flushed2_6_eq V c) fun i => by
    have hi0 : (i 0).val < 1 := (i 0).isLt
    have hi1 : (i 1).val < 256 := (i 1).isLt
    obtain ⟨t, ht⟩ : ∃ t : Fin cfg2.N, t.val = 49 := ⟨⟨49, by rw [N2]; omega⟩, rfl⟩
    refine ⟨t, (flush2_6 t).mpr (by rw [ht]), ?_⟩
    show i ∈ ((View.whole main_v52_1).slice (win2_6.rect t)).set
    rw [View.set_slice_whole, Rect.mem_set_unit]
    intro a
    match a with
    | ⟨0, _⟩ => show win2_6.index t (0 : Fin 2) * 1 ≤ (i 0).val ∧ (i 0).val < win2_6.index t (0 : Fin 2) * 1 + 1; rw [(idxrow2 t 0).2.2.2.2]; omega
    | ⟨1, _⟩ => show win2_6.index t (1 : Fin 2) * 256 ≤ (i 1).val ∧ (i 1).val < win2_6.index t (1 : Fin 2) * 256 + 256; rw [(idxrow2 t 1).2.2.2.2]; omega

section pieces5
variable {F : FTy → Type} [FloatOps F]

/-- First point: the block of h the body leaves is the payload of the five input blocks. -/
theorem out5_A_5_eq (c : Dev nD) (i : grid5.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : cond5_0 i)
    (x0 : Vec F S2000x256 .f32) (x1 x2 x3 x4 : Vec F S1x256 .f32) :
    out5_A_5 c i a1 h1 a2 h2 a3 h3 a4 h4 a5 h5 a6 h6 a7 h7 hc x0 x1 x2 x3 x4 = k5_pay1 x2 x0 x1 x3 x4 := by
  unfold out5_A_5
  rw [View.read_writes_eq_canon _ _ _ (cover5_A_5 c i a1 h1 a2 h2 a3 h3 a4 h4 a5 h5 a6 h6 a7 h7 hc x0 x1 x2 x3 x4)]
  unfold kernelRun5_A
  dsimp only
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

/-- Later points: the same block of h. -/
theorem out5_B_5_eq (c : Dev nD) (i : grid5.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : ¬cond5_0 i)
    (x0 : Vec F S2000x256 .f32) (x1 x2 x3 x4 xo : Vec F S1x256 .f32) :
    out5_B_5 c i a1 h1 a2 h2 a3 h3 a4 h4 a5 h5 a6 h6 a7 h7 hc x0 x1 x2 x3 x4 xo = k5_pay1 x2 x0 x1 x3 x4 := by
  unfold out5_B_5
  rw [View.read_writes_eq_canon _ _ _ (cover5_B_5 c i a1 h1 a2 h2 a3 h3 a4 h4 a5 h5 a6 h6 a7 h7 hc x0 x1 x2 x3 x4 xo)]
  unfold kernelRun5_B
  dsimp only
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

/-- First point: the pooled row is the zero row plus the block's column sums. -/
theorem out5_A_6_eq (c : Dev nD) (i : grid5.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : cond5_0 i)
    (x0 : Vec F S2000x256 .f32) (x1 x2 x3 x4 : Vec F S1x256 .f32) :
    out5_A_6 c i a1 h1 a2 h2 a3 h3 a4 h4 a5 h5 a6 h6 a7 h7 hc x0 x1 x2 x3 x4 = k5_pay3 x2 x0 x1 x3 x4 (k5_pay2 (F := F)) := by
  unfold out5_A_6
  rw [View.read_writes_eq_canon _ _ _ (cover5_A_6 c i a1 h1 a2 h2 a3 h3 a4 h4 a5 h5 a6 h6 a7 h7 hc x0 x1 x2 x3 x4)]
  unfold kernelRun5_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread,
    View.ld_unit_zero (S := S2000x256) hz2, View.ld_unit_zero (S := S1x256) hz2]

/-- Later points: the pooled row is the row the point before left plus the block's column sums. -/
theorem out5_B_6_eq (c : Dev nD) (i : grid5.Coords) (a1 : Memref sig .tc .vmem S2000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (hc : ¬cond5_0 i)
    (x0 : Vec F S2000x256 .f32) (x1 x2 x3 x4 xo : Vec F S1x256 .f32) :
    out5_B_6 c i a1 h1 a2 h2 a3 h3 a4 h4 a5 h5 a6 h6 a7 h7 hc x0 x1 x2 x3 x4 xo = k5_pay3 x2 x0 x1 x3 x4 xo := by
  unfold out5_B_6
  rw [View.read_writes_eq_canon _ _ _ (cover5_B_6 c i a1 h1 a2 h2 a3 h3 a4 h4 a5 h5 a6 h6 a7 h7 hc x0 x1 x2 x3 x4 xo)]
  unfold kernelRun5_B
  dsimp only
  sl_unfold_words
  rw [View.canon_unit_zero hz2]
  simp only [View.readAt_eq_ld, h1.read_unread, h2.read_unread, h3.read_unread, h4.read_unread, h5.read_unread, h7.read_unread,
    View.ld_unit_zero (S := S2000x256) hz2, View.ld_unit_zero (S := S1x256) hz2]

end pieces5

/-- The normalised, rectified entry of a block at row p, column q. -/
theorem pay5_1_apply (v0 : Vec Ideal S1x256 .f32) (v7 : Vec Ideal S2000x256 .f32) (v9 v15 v19 : Vec Ideal S1x256 .f32)
    (p : Fin 2000) (q : Fin 256) :
    k5_pay1 (F := Ideal) v0 v7 v9 v15 v19 (ix2 p q)
      = max ((v7 (ix2 p q) - v9 (ix2 0 q)) * Ideal.rsqrt (max (v0 (ix2 0 q)) 0 + Cert.Vn.eps) * v15 (ix2 0 q)
          + v19 (ix2 0 q)) 0 := by
  unfold k5_pay1
  simp only [shapeCast_self, maximumf_apply, addf_apply, mulf_apply, subf_apply, broadcast_apply, broadcastTo_1b_ab_apply,
    Ideal.ofBits_def]
  rw [Ideal.ofBits_zero_f32]
  rfl

/-- The pooled row after a point: the row before plus the column sums of the point's block of h. -/
theorem pay5_3_apply (v0 : Vec Ideal S1x256 .f32) (v7 : Vec Ideal S2000x256 .f32) (v9 v15 v19 v29 : Vec Ideal S1x256 .f32)
    (u : Fin 1) (q : Fin 256) :
    k5_pay3 (F := Ideal) v0 v7 v9 v15 v19 v29 (ix2 u q)
      = v29 (ix2 u q) + ∑ k : Fin 2000, k5_pay1 (F := Ideal) v0 v7 v9 v15 v19 (ix2 k q) := by
  unfold k5_pay3
  simp only [shapeCast_self, addf_apply]
  rw [shapeCast_a_1a_apply]
  refine congrArg (v29 (ix2 u q) + ·) ?_
  refine (Ideal.multiReduction_add_single _ _ reduces_S2000x256_S256 (.inl rfl) rfl (ix1 q)).trans ?_
  show ∑ k : Fin 2000, _ = _
  refine Finset.sum_congr rfl fun k _ => congrArg _ (funext fun a => ?_)
  match a with
  | ⟨0, _⟩ => rfl
  | ⟨1, _⟩ => rfl

/-- The zero row. -/
theorem pay5_2_apply (u : Fin 1) (q : Fin 256) : k5_pay2 (F := Ideal) (ix2 u q) = 0 := by
  unfold k5_pay2
  simp only [broadcast_apply, Ideal.ofBits_def]
  exact Ideal.ofBits_zero_f32

/-! ## Region 5: where each window's block sits -/

/-- The printed index maps over the grid: the two row-block windows are at block t. -/
theorem idx5 : ∀ t : Fin cfg5.N, win5_0.index t (0 : Fin 2) = t.val ∧ win5_0.index t (1 : Fin 2) = 0
    ∧ win5_5.index t (0 : Fin 2) = t.val ∧ win5_5.index t (1 : Fin 2) = 0 :=
  (by decide +kernel : ∀ t : Fin grid5.N, _)

/-- Every row window is at block 0 at every point. -/
theorem idxrow5 : ∀ (t : Fin cfg5.N) (a : Fin 2), win5_1.index t a = 0 ∧ win5_2.index t a = 0
    ∧ win5_3.index t a = 0 ∧ win5_4.index t a = 0 ∧ win5_6.index t a = 0 :=
  (by decide +kernel : ∀ (t : Fin grid5.N) (a : Fin 2), _)

theorem N5 : cfg5.N = 50 := N_5

/-- Row p of block t of the input is row 2000 t + p of the array. -/
theorem iblk5_0_apply (t : Fin cfg5.N) (p : Fin 2000) (q : Fin 256) (r : Fin 100000) (hr : r.val = t.val * 2000 + p.val) :
    (iblk5 V c 0 t : Vec Ideal S2000x256 .f32) (ix2 p q) = V c main_v94_0 (ix2 r q) := by
  obtain ⟨e0, e1, -⟩ := idx5 t
  show V c main_v94_0 (((cfg5.win 0).blk t).view.emb (ix2 p q)) = V c main_v94_0 (ix2 r q)
  refine congrArg (V c main_v94_0) (funext fun a => Fin.ext ?_)
  match a with
  | ⟨0, _⟩ => show win5_0.index t (0 : Fin 2) * 2000 + 1 * p.val = r.val; rw [e0, hr]; omega
  | ⟨1, _⟩ => show win5_0.index t (1 : Fin 2) * 256 + 1 * q.val = q.val; rw [e1]; omega

/-- Every point reads the whole mean row. -/
theorem iblk5_1_apply (t : Fin cfg5.N) (u : Fin 1) (q : Fin 256) :
    (iblk5 V c 1 t : Vec Ideal S1x256 .f32) (ix2 u q) = V c main_v96 (ix2 0 q) := by
  show V c main_v96 (((cfg5.win 1).blk t).view.emb (ix2 u q)) = V c main_v96 (ix2 0 q)
  refine congrArg (V c main_v96) (funext fun a => Fin.ext ?_)
  have hu : u.val = 0 := by omega
  match a with
  | ⟨0, _⟩ => show win5_1.index t (0 : Fin 2) * 1 + 1 * u.val = 0; rw [(idxrow5 t 0).1]; omega
  | ⟨1, _⟩ => show win5_1.index t (1 : Fin 2) * 256 + 1 * q.val = q.val; rw [(idxrow5 t 1).1]; omega

/-- Every point reads the whole variance row. -/
theorem iblk5_2_apply (t : Fin cfg5.N) (u : Fin 1) (q : Fin 256) :
    (iblk5 V c 2 t : Vec Ideal S1x256 .f32) (ix2 u q) = V c main_v100 (ix2 0 q) := by
  show V c main_v100 (((cfg5.win 2).blk t).view.emb (ix2 u q)) = V c main_v100 (ix2 0 q)
  refine congrArg (V c main_v100) (funext fun a => Fin.ext ?_)
  have hu : u.val = 0 := by omega
  match a with
  | ⟨0, _⟩ => show win5_2.index t (0 : Fin 2) * 1 + 1 * u.val = 0; rw [(idxrow5 t 0).2.1]; omega
  | ⟨1, _⟩ => show win5_2.index t (1 : Fin 2) * 256 + 1 * q.val = q.val; rw [(idxrow5 t 1).2.1]; omega

/-- Every point reads the whole scale row. -/
theorem iblk5_3_apply (t : Fin cfg5.N) (u : Fin 1) (q : Fin 256) :
    (iblk5 V c 3 t : Vec Ideal S1x256 .f32) (ix2 u q) = V c main_v101 (ix2 0 q) := by
  show V c main_v101 (((cfg5.win 3).blk t).view.emb (ix2 u q)) = V c main_v101 (ix2 0 q)
  refine congrArg (V c main_v101) (funext fun a => Fin.ext ?_)
  have hu : u.val = 0 := by omega
  match a with
  | ⟨0, _⟩ => show win5_3.index t (0 : Fin 2) * 1 + 1 * u.val = 0; rw [(idxrow5 t 0).2.2.1]; omega
  | ⟨1, _⟩ => show win5_3.index t (1 : Fin 2) * 256 + 1 * q.val = q.val; rw [(idxrow5 t 1).2.2.1]; omega

/-- Every point reads the whole shift row. -/
theorem iblk5_4_apply (t : Fin cfg5.N) (u : Fin 1) (q : Fin 256) :
    (iblk5 V c 4 t : Vec Ideal S1x256 .f32) (ix2 u q) = V c main_v102 (ix2 0 q) := by
  show V c main_v102 (((cfg5.win 4).blk t).view.emb (ix2 u q)) = V c main_v102 (ix2 0 q)
  refine congrArg (V c main_v102) (funext fun a => Fin.ext ?_)
  have hu : u.val = 0 := by omega
  match a with
  | ⟨0, _⟩ => show win5_4.index t (0 : Fin 2) * 1 + 1 * u.val = 0; rw [(idxrow5 t 0).2.2.2.1]; omega
  | ⟨1, _⟩ => show win5_4.index t (1 : Fin 2) * 256 + 1 * q.val = q.val; rw [(idxrow5 t 1).2.2.2.1]; omega

/-! ## Region 5: what the points leave -/

/-- The region's first output as a function of its five input arrays. -/
abbrev H5 : Mat 100000 256 := nrp (V c main_v94_0) (V c main_v96) (V c main_v100) (V c main_v101) (V c main_v102)

/-- Its entry in row r by a natural-number row index (zero past the last row). -/
def Hrow5 (r : ℕ) (q : Fin 256) : EReal := if h : r < 100000 then H5 V c (ix2 ⟨r, h⟩ q) else 0

/-- The payload of point t's blocks at (p, q) is the function at row 2000 t + p. -/
theorem block5_apply (t : Fin cfg5.N) (p : Fin 2000) (q : Fin 256) :
    k5_pay1 (F := Ideal) (iblk5 V c 2 t) (iblk5 V c 0 t) (iblk5 V c 1 t) (iblk5 V c 3 t) (iblk5 V c 4 t) (ix2 p q) = Hrow5 V c (t.val * 2000 + p.val) q := by
  have hN : t.val < 50 := lt_of_lt_of_eq t.isLt N5
  have hr : t.val * 2000 + p.val < 100000 := by have := p.isLt; omega
  unfold Hrow5
  rw [dif_pos hr]
  refine (pay5_1_apply (iblk5 V c 2 t) (iblk5 V c 0 t) (iblk5 V c 1 t) (iblk5 V c 3 t) (iblk5 V c 4 t) p q).trans ?_
  rw [iblk5_0_apply V c t p q ⟨_, hr⟩ rfl, iblk5_1_apply V c t 0 q, iblk5_2_apply V c t 0 q,
    iblk5_3_apply V c t 0 q, iblk5_4_apply V c t 0 q]
  rfl

/-- After every point the first output's buffer holds the payload of the point's blocks. -/
theorem outsAt5_fst (t : Fin cfg5.N) :
    (outsAt5 V c t.val t.isLt).1 = k5_pay1 (F := Ideal) (iblk5 V c 2 t) (iblk5 V c 0 t) (iblk5 V c 1 t) (iblk5 V c 3 t) (iblk5 V c 4 t) := by
  by_cases h0 : t.val % 50 = 0
  · rw [outsAt5_A V c t h0]
    dsimp only
    exact out5_A_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)
  · rw [outsAt5_B V c t h0]
    dsimp only
    exact out5_B_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) _

/-- After point n the pooled row holds the column sums of the first n + 1 blocks. -/
theorem outsAt5_snd (q : Fin 256) : ∀ (n : ℕ) (hn : n < cfg5.N),
    (outsAt5 V c n hn).2 (ix2 0 q) = ∑ k ∈ Finset.range (n + 1), ∑ y : Fin 2000, Hrow5 V c (k * 2000 + y.val) q
  | 0, hn => by
    rw [outsAt5_A V c ⟨0, hn⟩ (Nat.zero_mod _)]
    dsimp only
    refine (congrFun (out5_A_6_eq (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩)) (ix2 0 q)).trans ?_
    refine (pay5_3_apply (iblk5 V c 2 ⟨0, hn⟩) (iblk5 V c 0 ⟨0, hn⟩) (iblk5 V c 1 ⟨0, hn⟩) (iblk5 V c 3 ⟨0, hn⟩) (iblk5 V c 4 ⟨0, hn⟩) (k5_pay2 (F := Ideal)) 0 q).trans ?_
    rw [pay5_2_apply, zero_add, Finset.sum_range_one]
    exact Finset.sum_congr rfl fun y _ => block5_apply V c ⟨0, hn⟩ y q
  | n + 1, hn => by
    have hN : cfg5.N = 50 := N5
    have hB : ¬(⟨n + 1, hn⟩ : Fin cfg5.N).val % 50 = 0 := by dsimp only; omega
    rw [outsAt5_B V c ⟨n + 1, hn⟩ hB]
    dsimp only
    refine (congrFun (out5_B_6_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => hB ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) _) (ix2 0 q)).trans ?_
    refine (pay5_3_apply (iblk5 V c 2 ⟨n + 1, hn⟩) (iblk5 V c 0 ⟨n + 1, hn⟩) (iblk5 V c 1 ⟨n + 1, hn⟩) (iblk5 V c 3 ⟨n + 1, hn⟩) (iblk5 V c 4 ⟨n + 1, hn⟩) _ 0 q).trans ?_
    rw [Finset.sum_range_succ _ (n + 1)]
    refine congrArg₂ (· + ·) ?_ ?_
    · exact outsAt5_snd q n (Nat.lt_of_succ_lt hn)
    · exact Finset.sum_congr rfl fun y _ => block5_apply V c ⟨n + 1, hn⟩ y q

/-! ## Region 5: the arrays after the region -/

/-- What point t writes back of the first output is block t of the function. -/
theorem flushed5_5_eq (t : Fin cfg5.N) (hf : (cfg5.win 5).flush t = true) :
    (dat5 (F := Ideal) V c).flushed 5 t = ((cfg5.win 5).blk t).view.read (Elt Ideal) (H5 V c) := by
  have hN : t.val < 50 := lt_of_lt_of_eq t.isLt N5
  show (cfg5.win 5).cut (grid5.coords t) ((dat5 V c).after 5 t) = _
  rw [after5_5, outsAt5_fst]
  funext j
  obtain ⟨p, q, rfl⟩ : ∃ (p : Fin 2000) (q : Fin 256), j = ix2 p q := ⟨j 0, j 1, eq_ix2 j⟩
  have hr : t.val * 2000 + p.val < 100000 := by have := p.isLt; omega
  show k5_pay1 (F := Ideal) (iblk5 V c 2 t) (iblk5 V c 0 t) (iblk5 V c 1 t) (iblk5 V c 3 t) (iblk5 V c 4 t) (ix2 p q) = H5 V c (((cfg5.win 5).blk t).view.emb (ix2 p q))
  rw [block5_apply, Hrow5, dif_pos hr]
  refine congrArg (H5 V c) (funext fun a => Fin.ext ?_)
  obtain ⟨-, -, e0, e1⟩ := idx5 t
  match a with
  | ⟨0, _⟩ => show t.val * 2000 + p.val = win5_5.index t (0 : Fin 2) * 2000 + 1 * p.val; rw [e0]; omega
  | ⟨1, _⟩ => show q.val = win5_5.index t (1 : Fin 2) * 256 + 1 * q.val; rw [e1]; omega

theorem final5_h : (Gen.dat5 (F := Ideal) V c).arrAt 5 cfg5.N
    = Cert.Vn.nrp (V c main_v94_0) (V c main_v96) (V c main_v100) (V c main_v101) (V c main_v102) :=
  (dat5 (F := Ideal) V c).arrAt_eq_of_cover 5 (H5 V c) (flushed5_5_eq V c) fun i => by
    have hi0 : (i 0).val < 100000 := (i 0).isLt
    have hi1 : (i 1).val < 256 := (i 1).isLt
    obtain ⟨t, ht⟩ : ∃ t : Fin cfg5.N, t.val = (i 0).val / 2000 := ⟨⟨(i 0).val / 2000, by rw [N5]; omega⟩, rfl⟩
    refine ⟨t, flush5_5 t, ?_⟩
    show i ∈ ((View.whole main_v103_0).slice (win5_5.rect t)).set
    rw [View.set_slice_whole, Rect.mem_set_unit]
    intro a
    obtain ⟨-, -, e0, e1⟩ := idx5 t
    match a with
    | ⟨0, _⟩ => show win5_5.index t (0 : Fin 2) * 2000 ≤ (i 0).val ∧ (i 0).val < win5_5.index t (0 : Fin 2) * 2000 + 2000; rw [e0, ht]; omega
    | ⟨1, _⟩ => show win5_5.index t (1 : Fin 2) * 256 ≤ (i 1).val ∧ (i 1).val < win5_5.index t (1 : Fin 2) * 256 + 256; rw [e1]; omega

/-- The one write-back of the pooled row, at the last point, writes the column sums of the whole function. -/
theorem flushed5_6_eq (t : Fin cfg5.N) (hf : (cfg5.win 6).flush t = true) :
    (dat5 (F := Ideal) V c).flushed 6 t = ((cfg5.win 6).blk t).view.read (Elt Ideal) (colsum (H5 V c)) := by
  have hN : t.val < 50 := lt_of_lt_of_eq t.isLt N5
  have h50 : t.val + 1 = 50 := by have := (flush5_6 t).mp hf; omega
  show (cfg5.win 6).cut (grid5.coords t) ((dat5 V c).after 6 t) = _
  rw [after5_6]
  funext j
  obtain ⟨u, q, rfl⟩ : ∃ (u : Fin 1) (q : Fin 256), j = ix2 u q := ⟨j 0, j 1, eq_ix2 j⟩
  obtain rfl : u = 0 := Subsingleton.elim _ _
  have hemb : ((cfg5.win 6).blk t).view.emb (ix2 (0 : Fin 1) q) = ix2 (0 : Fin 1) q := funext fun a => Fin.ext (by
    match a with
    | ⟨0, _⟩ => show win5_6.index t (0 : Fin 2) * 1 + 1 * 0 = 0; rw [(idxrow5 t 0).2.2.2.2]
    | ⟨1, _⟩ => show win5_6.index t (1 : Fin 2) * 256 + 1 * q.val = q.val; rw [(idxrow5 t 1).2.2.2.2]; omega)
  generalize hC : colsum (H5 V c) = C
  show (outsAt5 V c t.val t.isLt).2 (ix2 0 q) = C (((cfg5.win 6).blk t).view.emb (ix2 0 q))
  rw [hemb, ← hC, colsum_apply, outsAt5_snd V c q t.val t.isLt, h50, Finset.sum_range]
  refine Eq.trans ?_ (LibBlockSum.sum_blocks_of_eq 50 2000 (by norm_num) (fun r : Fin 100000 => H5 V c (ix2 r q))).symm
  refine Finset.sum_congr rfl fun k _ => Finset.sum_congr rfl fun y _ => ?_
  have hlt : k.val * 2000 + y.val < 100000 := by have := k.isLt; have := y.isLt; omega
  unfold Hrow5
  exact dif_pos hlt

theorem final5_pool : (Gen.dat5 (F := Ideal) V c).arrAt 6 cfg5.N
    = Cert.Vn.colsum (Cert.Vn.nrp (V c main_v94_0) (V c main_v96) (V c main_v100) (V c main_v101) (V c main_v102)) :=
  (dat5 (F := Ideal) V c).arrAt_eq_of_cover 6 (colsum (H5 V c)) (flushed5_6_eq V c) fun i => by
    have hi0 : (i 0).val < 1 := (i 0).isLt
    have hi1 : (i 1).val < 256 := (i 1).isLt
    obtain ⟨t, ht⟩ : ∃ t : Fin cfg5.N, t.val = 49 := ⟨⟨49, by rw [N5]; omega⟩, rfl⟩
    refine ⟨t, (flush5_6 t).mpr (by rw [ht]), ?_⟩
    show i ∈ ((View.whole main_v103_1).slice (win5_6.rect t)).set
    rw [View.set_slice_whole, Rect.mem_set_unit]
    intro a
    match a with
    | ⟨0, _⟩ => show win5_6.index t (0 : Fin 2) * 1 ≤ (i 0).val ∧ (i 0).val < win5_6.index t (0 : Fin 2) * 1 + 1; rw [(idxrow5 t 0).2.2.2.2]; omega
    | ⟨1, _⟩ => show win5_6.index t (1 : Fin 2) * 256 ≤ (i 1).val ∧ (i 1).val < win5_6.index t (1 : Fin 2) * 256 + 256; rw [(idxrow5 t 1).2.2.2.2]; omega

end Norm

theorem nrp2_h : (Gen.dat2 (F := Ideal) V c).arrAt 5 cfg2.N
    = Cert.Vn.nrp (V c main_v43_0) (V c main_v45) (V c main_v49) (V c main_v50) (V c main_v51) :=
  Norm.final2_h V c

theorem nrp2_pool : (Gen.dat2 (F := Ideal) V c).arrAt 6 cfg2.N
    = Cert.Vn.colsum (Cert.Vn.nrp (V c main_v43_0) (V c main_v45) (V c main_v49) (V c main_v50) (V c main_v51)) :=
  Norm.final2_pool V c

theorem nrp5_h : (Gen.dat5 (F := Ideal) V c).arrAt 5 cfg5.N
    = Cert.Vn.nrp (V c main_v94_0) (V c main_v96) (V c main_v100) (V c main_v101) (V c main_v102) :=
  Norm.final5_h V c

theorem nrp5_pool : (Gen.dat5 (F := Ideal) V c).arrAt 6 cfg5.N
    = Cert.Vn.colsum (Cert.Vn.nrp (V c main_v94_0) (V c main_v96) (V c main_v100) (V c main_v101) (V c main_v102)) :=
  Norm.final5_pool V c

end Cert.KernelIdeal.Regions

end
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.RegionTail.lean ====
/-
  The last two kernel regions read as functions of whole arrays.

  Region 7 (the combine step of the last layer): the output array is, entry by entry, the neighbours' aggregate plus
  the node's own projection scaled by its self-loop coefficient plus the bias row.
  Region 8 (the log-softmax of every row): the output array is, entry by entry, the shifted entry minus the logarithm
  of the row's sum of exponentials of shifted entries, the shift being the row's largest entry.

  Both regions walk 50 grid points; point t reads and writes rows 2000·t … 2000·t+1999 of each [100000, 40] array
  (and of the [100000, 1] coefficient column; the [1, 40] bias row is read whole at every point), so an entry (r, j)
  of the output is written once, by point r / 2000, from row r of the inputs, and the written blocks tile the output.
-/
import proofs.«161332_j44100724195822_1_alg».proof.Proof.Gen.KernelIdeal.Frame
import proofs.«161332_j44100724195822_1_alg».proof.Proof.Spec
import Idealize.ShloMosaic.Lib.ValueLayout
import proofs.«161332_j44100724195822_1_alg».proof.Proof.LibKeepdims
import proofs.«161332_j44100724195822_1_alg».proof.Proof.LibRowReduce

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen Cert.Vn
open Idealize.ShloMosaic.Pipeline (Dat Cfg Window)

variable (V : (c : Dev nD) → (b : Ref sig .tc) → Buf (Elt Ideal) ((c : Thread nD τ).loc b)) (c : Dev nD)

open scoped BigOperators

namespace Tail

/-- A block that starts at the origin of its buffer has zero offsets. -/
theorem hz2 : (![0, 0] : Fin 2 → Nat) = fun _ => 0 := funext fun a => by fin_cases a <;> rfl

/-! ## Region 7: the combine step -/

/-- The combine payload at entry (p, q) of a block: the aggregate's entry, plus the projection's entry times the
    coefficient of row p, plus the bias of column q. -/
theorem pay7_apply (x0 x1 : Vec Ideal S2000x40 .f32) (x2 : Vec Ideal S2000x1 .f32) (x3 : Vec Ideal S1x40 .f32)
    (p : Fin 2000) (q : Fin 40) :
    k7_pay1 (F := Ideal) x0 x1 x2 x3 (ix2 p q) = x0 (ix2 p q) + x1 (ix2 p q) * x2 (ix2 p (0 : Fin 1)) + x3 (ix2 (0 : Fin 1) q) := by
  unfold k7_pay1
  simp only [shapeCast_self]
  rw [addf_apply, addf_apply, mulf_apply]
  rw [Keepdims.broadcastTo_a1_ab_apply _ _ p q (0 : Fin 1), broadcastTo_1b_ab_apply]

/-- The block indices of region 7's windows at grid point t: the three row-blocked inputs and the output sit at
    block row t, block column 0; the bias row sits at block (0, 0) at every point. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The combine step assembled from its four reads, when each read sits where the output entry says: the two
    matrices at the entry itself, the coefficient column at the entry's row, the bias row at the entry's column. -/
theorem comb_of_reads {N D : ℕ} (A H : Mat N D) (S : Mat N 1) (B : Mat 1 D)
    (i0 i1 : (⟨2, ![N, D]⟩ : Shape).Idx) (i2 : (⟨2, ![N, 1]⟩ : Shape).Idx) (i3 : (⟨2, ![1, D]⟩ : Shape).Idx)
    (i : (⟨2, ![N, D]⟩ : Shape).Idx) (h0 : i0 = i) (h1 : i1 = i) (h2 : i2 = ix2 (row i) (0 : Fin 1))
    (h3 : i3 = ix2 (0 : Fin 1) (col i)) :
    A i0 + H i1 * S i2 + B i3 = comb A H S B i := by
  subst h0 h1 h2 h3; rfl

/-- What grid point t writes back is block t of the combine step of the four input arrays: entry (p, q) of the
    block is row 2000·t + p of the arrays, the same row in every row-blocked window. -/
theorem flushed7_eq (t : Fin cfg7.N) :
    (dat7 (F := Ideal) V c).flushed 4 t
      = ((cfg7.win 4).blk t).view.read (Elt Ideal) (comb (V c main_v143) (V c main_v131) (V c main_v28) (V c main_v144)) := by
  show (cfg7.win 4).cut (grid7.coords t) ((dat7 (F := Ideal) V c).after 4 t) = _
  rw [after7_4]
  unfold out7_4
  rw [View.canon_unit_zero hz2]
  simp only [View.ld_unit_zero (S := S2000x40) hz2, View.ld_unit_zero (S := S2000x1) hz2, View.ld_unit_zero (S := S1x40) hz2]
  obtain ⟨e00, e01, e10, e11, e20, e21, e30, e31, e40, e41⟩ := idx_facts7 t
  funext j
  obtain ⟨p, q, rfl⟩ : ∃ (p : Fin 2000) (q : Fin 40), j = ix2 p q := ⟨j 0, j 1, eq_ix2 j⟩
  show k7_pay1 (F := Ideal) (iblk7 V c 0 t) (iblk7 V c 1 t) (iblk7 V c 2 t) (iblk7 V c 3 t) (ix2 p q)
    = comb (V c main_v143) (V c main_v131) (V c main_v28) (V c main_v144) (((cfg7.win 4).blk t).view.emb (ix2 p q))
  refine (pay7_apply (iblk7 V c 0 t) (iblk7 V c 1 t) (iblk7 V c 2 t) (iblk7 V c 3 t) p q).trans ?_
  refine comb_of_reads (V c main_v143) (V c main_v131) (V c main_v28) (V c main_v144)
    (((cfg7.win 0).blk t).view.emb (ix2 p q)) (((cfg7.win 1).blk t).view.emb (ix2 p q))
    (((cfg7.win 2).blk t).view.emb (ix2 p (0 : Fin 1))) (((cfg7.win 3).blk t).view.emb (ix2 (0 : Fin 1) q))
    (((cfg7.win 4).blk t).view.emb (ix2 p q)) ?_ ?_ ?_ ?_
  · funext a; apply Fin.ext
    match a with
    | ⟨0, _⟩ => show win7_0.index t (0 : Fin 2) * 2000 + 1 * p.val = win7_4.index t (0 : Fin 2) * 2000 + 1 * p.val; omega
    | ⟨1, _⟩ => show win7_0.index t (1 : Fin 2) * 40 + 1 * q.val = win7_4.index t (1 : Fin 2) * 40 + 1 * q.val; omega
  · funext a; apply Fin.ext
    match a with
    | ⟨0, _⟩ => show win7_1.index t (0 : Fin 2) * 2000 + 1 * p.val = win7_4.index t (0 : Fin 2) * 2000 + 1 * p.val; omega
    | ⟨1, _⟩ => show win7_1.index t (1 : Fin 2) * 40 + 1 * q.val = win7_4.index t (1 : Fin 2) * 40 + 1 * q.val; omega
  · funext a; apply Fin.ext
    match a with
    | ⟨0, _⟩ => show win7_2.index t (0 : Fin 2) * 2000 + 1 * p.val = win7_4.index t (0 : Fin 2) * 2000 + 1 * p.val; omega
    | ⟨1, _⟩ => show win7_2.index t (1 : Fin 2) * 1 + 1 * 0 = 0; omega
  · funext a; apply Fin.ext
    match a with
    | ⟨0, _⟩ => show win7_3.index t (0 : Fin 2) * 1 + 1 * 0 = 0; omega
    | ⟨1, _⟩ => show win7_3.index t (1 : Fin 2) * 40 + 1 * q.val = win7_4.index t (1 : Fin 2) * 40 + 1 * q.val; omega

/-- An index of the output array lies in point t's block iff each coordinate lies in the block's range. -/
theorem mem_blk7 (t : Fin cfg7.N) (i : S100000x40.Idx) :
    i ∈ ((cfg7.win 4).blk t).view.set ↔ ∀ a : Fin 2, win7_4.index t a * S2000x40.size a ≤ (i a).val ∧ (i a).val < win7_4.index t a * S2000x40.size a + S2000x40.size a := by
  show i ∈ ((View.whole main_v145).slice (win7_4.rect t)).set ↔ _
  rw [View.set_slice_whole, Rect.mem_set_unit]
  exact Iff.rfl

/-- Every entry (r, j) of the output array lies in the block of the point that handles its row: point r / 2000. -/
theorem cover7 (i : S100000x40.Idx) :
    ∃ t : Fin cfg7.N, (cfg7.win 4).flush t = true ∧ i ∈ ((cfg7.win 4).blk t).view.set := by
  have hi0 : (i 0).val < 100000 := (i 0).isLt
  have hi1 : (i 1).val < 40 := (i 1).isLt
  have hN : grid7.N = 50 := N_7
  let t : Fin cfg7.N := ⟨(i 0).val / 2000, by show (i 0).val / 2000 < grid7.N; omega⟩
  obtain ⟨-, -, -, -, -, -, -, -, e40, e41⟩ := idx_facts7 t
  have ht : t.val = (i 0).val / 2000 := rfl
  refine ⟨t, flush7_4 t, ?_⟩
  rw [mem_blk7]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 40 ≤ (i 1).val ∧ (i 1).val < win7_4.index t (1 : Fin 2) * 40 + 40; omega

/-! ## Region 8: the log-softmax of every row -/

/-- The row maximum kept as a column and copied along the row: at (p, q) it is the largest entry of row p. -/
theorem rowmax_col (x : FVec Ideal S2000x40 .f32) (p : Fin 2000) (q : Fin 40) :
    broadcastTo S2000x40 (shapeCast S2000x1
        (multiReduction (F := Ideal) .maximumf [1] S2000 x 0xFF800000#32 reduces_S2000x40_S2000 (.inl rfl) rfl)
        shapeCasts_S2000_S2000x1) broadcasts_S2000x1_S2000x40 (ix2 p q)
      = Finset.univ.sup fun b : Fin 40 => x (ix2 p b) :=
  (Keepdims.broadcastTo_a1_ab_apply _ _ p q (0 : Fin 1)).trans
    ((Keepdims.shapeCast_a_a1_apply _ _ p (0 : Fin 1)).trans
      (Cert.LibRowReduce.multiReduction_maximumf_row x _ _ _ p))

/-- The logarithm of the row sum kept as a column and copied along the row: at (p, q) it is the logarithm of the sum
    of row p. -/
theorem logsum_col (y : FVec Ideal S2000x40 .f32) (p : Fin 2000) (q : Fin 40) :
    broadcastTo S2000x40 (log (shapeCast S2000x1
        (multiReduction (F := Ideal) .add [1] S2000 y 0x00000000#32 reduces_S2000x40_S2000 (.inl rfl) rfl)
        shapeCasts_S2000_S2000x1)) broadcasts_S2000x1_S2000x40 (ix2 p q)
      = Ideal.log (∑ b : Fin 40, y (ix2 p b)) :=
  (Keepdims.broadcastTo_a1_ab_apply _ _ p q (0 : Fin 1)).trans
    (congrArg Ideal.log ((Keepdims.shapeCast_a_a1_apply _ _ p (0 : Fin 1)).trans
      (Cert.LibRowReduce.multiReduction_add_row y _ _ _ p)))

/-- The log-softmax payload at entry (p, q) of a block: the entry shifted by its row's maximum, minus the logarithm
    of the row's sum of exponentials of shifted entries. -/
theorem pay8_apply (x0 : Vec Ideal S2000x40 .f32) (p : Fin 2000) (q : Fin 40) :
    k8_pay1 (F := Ideal) x0 (ix2 p q)
      = (x0 (ix2 p q) - Finset.univ.sup fun b : Fin 40 => x0 (ix2 p b))
        - Ideal.log (∑ j : Fin 40, Ideal.exp (x0 (ix2 p j) - Finset.univ.sup fun b : Fin 40 => x0 (ix2 p b))) := by
  unfold k8_pay1
  simp only [shapeCast_self]
  rw [subf_apply, subf_apply, rowmax_col x0 p q, logsum_col _ p q]
  refine congrArg (fun s => x0 (ix2 p q) - (Finset.univ.sup fun b : Fin 40 => x0 (ix2 p b)) - Ideal.log s)
    (Finset.sum_congr rfl fun b _ => ?_)
  show Ideal.exp (x0 (ix2 p b) - _) = _
  rw [rowmax_col x0 p b]

/-- The block indices of region 8's windows at grid point t: input and output sit at block row t, block column 0. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

/-- The log-softmax of a matrix at entry i, from the entries x of i's row: the row's entry at i's column shifted by
    the row's largest entry, minus the logarithm of the sum of exponentials of the shifted row. -/
theorem lsm_of_row {N D : ℕ} (Y : Mat N D) (i : (⟨2, ![N, D]⟩ : Shape).Idx) (q : Fin D) (x : Fin D → EReal)
    (hx : ∀ b, x b = Y (ix2 (row i) b)) (hq : ix2 (row i) q = i) :
    (x q - Finset.univ.sup fun b : Fin D => x b)
        - Ideal.log (∑ j : Fin D, Ideal.exp (x j - Finset.univ.sup fun b : Fin D => x b))
      = lsm Y i := by
  obtain rfl : x = fun b => Y (ix2 (row i) b) := funext hx
  show (Y (ix2 (row i) q) - Finset.univ.sup fun b : Fin D => Y (ix2 (row i) b))
        - Ideal.log (∑ j : Fin D, Ideal.exp (Y (ix2 (row i) j) - Finset.univ.sup fun b : Fin D => Y (ix2 (row i) b)))
      = lsm Y i
  rw [hq]
  rfl

/-- What grid point t writes back is block t of the log-softmax of the input array: entry (p, q) of the block is
    computed from row 2000·t + p of the array, all 40 columns of which lie in the same block. -/
theorem flushed8_eq (t : Fin cfg8.N) :
    (dat8 (F := Ideal) V c).flushed 1 t
      = ((cfg8.win 1).blk t).view.read (Elt Ideal) (lsm (V c main_v145)) := by
  show (cfg8.win 1).cut (grid8.coords t) ((dat8 (F := Ideal) V c).after 1 t) = _
  rw [after8_1]
  unfold out8_1
  rw [View.canon_unit_zero hz2]
  simp only [View.ld_unit_zero (S := S2000x40) hz2]
  obtain ⟨e00, e01, e10, e11⟩ := idx_facts8 t
  funext j
  obtain ⟨p, q, rfl⟩ : ∃ (p : Fin 2000) (q : Fin 40), j = ix2 p q := ⟨j 0, j 1, eq_ix2 j⟩
  show k8_pay1 (F := Ideal) (iblk8 V c 0 t) (ix2 p q)
    = lsm (V c main_v145) (((cfg8.win 1).blk t).view.emb (ix2 p q))
  refine (pay8_apply (iblk8 V c 0 t) p q).trans ?_
  refine lsm_of_row (V c main_v145) (((cfg8.win 1).blk t).view.emb (ix2 p q)) q
    (fun b => iblk8 V c 0 t (ix2 p b)) (fun b => ?_) ?_
  · show V c main_v145 (((cfg8.win 0).blk t).view.emb (ix2 p b)) = _
    refine congrArg (V c main_v145) ?_
    funext a; apply Fin.ext
    match a with
    | ⟨0, _⟩ => show win8_0.index t (0 : Fin 2) * 2000 + 1 * p.val = win8_1.index t (0 : Fin 2) * 2000 + 1 * p.val; omega
    | ⟨1, _⟩ => show win8_0.index t (1 : Fin 2) * 40 + 1 * b.val = b.val; omega
  · funext a; apply Fin.ext
    match a with
    | ⟨0, _⟩ => rfl
    | ⟨1, _⟩ => show q.val = win8_1.index t (1 : Fin 2) * 40 + 1 * q.val; omega

/-- An index of the output array lies in point t's block iff each coordinate lies in the block's range. -/
theorem mem_blk8 (t : Fin cfg8.N) (i : S100000x40.Idx) :
    i ∈ ((cfg8.win 1).blk t).view.set ↔ ∀ a : Fin 2, win8_1.index t a * S2000x40.size a ≤ (i a).val ∧ (i a).val < win8_1.index t a * S2000x40.size a + S2000x40.size a := by
  show i ∈ ((View.whole main_v146).slice (win8_1.rect t)).set ↔ _
  rw [View.set_slice_whole, Rect.mem_set_unit]
  exact Iff.rfl

/-- Every entry (r, j) of the output array lies in the block of the point that handles its row: point r / 2000. -/
theorem cover8 (i : S100000x40.Idx) :
    ∃ t : Fin cfg8.N, (cfg8.win 1).flush t = true ∧ i ∈ ((cfg8.win 1).blk t).view.set := by
  have hi0 : (i 0).val < 100000 := (i 0).isLt
  have hi1 : (i 1).val < 40 := (i 1).isLt
  have hN : grid8.N = 50 := N_8
  let t : Fin cfg8.N := ⟨(i 0).val / 2000, by show (i 0).val / 2000 < grid8.N; omega⟩
  obtain ⟨-, -, e10, e11⟩ := idx_facts8 t
  have ht : t.val = (i 0).val / 2000 := rfl
  refine ⟨t, flush8_1 t, ?_⟩
  rw [mem_blk8]
  intro a
  match a with
  | ⟨0, _⟩ => show win8_1.index t (0 : Fin 2) * 2000 ≤ (i 0).val ∧ (i 0).val < win8_1.index t (0 : Fin 2) * 2000 + 2000; omega
  | ⟨1, _⟩ => show win8_1.index t (1 : Fin 2) * 40 ≤ (i 1).val ∧ (i 1).val < win8_1.index t (1 : Fin 2) * 40 + 40; omega

end Tail

/-! ## The two regions' output arrays -/

/-- Region 7: the output array is the combine step of its four input arrays. -/
theorem comb7 : (Gen.dat7 (F := Ideal) V c).arrAt 4 cfg7.N
    = Cert.Vn.comb (V c main_v143) (V c main_v131) (V c main_v28) (V c main_v144) :=
  (Gen.dat7 (F := Ideal) V c).arrAt_eq_of_cover 4 _ (fun t _ => Tail.flushed7_eq V c t) Tail.cover7

/-- Region 8: the output array is the log-softmax of the rows of its input array. -/
theorem lsm8 : (Gen.dat8 (F := Ideal) V c).arrAt 1 cfg8.N = Cert.Vn.lsm (V c main_v145) :=
  (Gen.dat8 (F := Ideal) V c).arrAt_eq_of_cover 1 _ (fun t _ => Tail.flushed8_eq V c t) Tail.cover8

end Cert.KernelIdeal.Regions

end
-- ==== Proof.KChainA.lean ====
/-
  The idealized kernel's buffers, boundary by boundary, as the value functions of the argument arrays: first part,
  from the launch through layer 0 (the edge coefficients, the first linear layer, its aggregation, the combine step
  with its column sums, mean and variance, the normalised features and their pooled row, the virtual node's update).
-/
import proofs.«161332_j44100724195822_1_alg».proof.Proof.KSteps
import proofs.«161332_j44100724195822_1_alg».proof.Proof.KVal
import proofs.«161332_j44100724195822_1_alg».proof.Proof.KSeg
import proofs.«161332_j44100724195822_1_alg».proof.Proof.RegionLin
import proofs.«161332_j44100724195822_1_alg».proof.Proof.RegionComb
import proofs.«161332_j44100724195822_1_alg».proof.Proof.RegionNorm
import proofs.«161332_j44100724195822_1_alg».proof.Proof.RegionTail
import Idealize.ShloMosaic.Lib.StableHlo.Run

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.KernelIdeal.Steps Cert.KernelIdeal.Regions Cert.KernelIdeal.KVal Cert.KernelIdeal.KSeg

variable (m : (ℓ : Loc nD τ sig) → Buf (Elt Ideal) ℓ) (ρ : Dev nD → PrngReg) (c : Dev nD)

/-! ## The first host stretch: the edge list's pieces -/

theorem W1_v1 : W1 m ρ c (Proc.devRef .tc main_v1) = Chain.src (m ((c : Thread nD τ).loc main_arg1)) := by
  exact seg0_v1 (W0 m ρ c)

theorem W1_v3 : W1 m ρ c (Proc.devRef .tc main_v3) = Chain.dst (m ((c : Thread nD τ).loc main_arg1)) := by
  exact seg0_v3 (W0 m ρ c)

theorem W1_v26 : W1 m ρ c (Proc.devRef .tc main_v26) = Chain.coefc (m ((c : Thread nD τ).loc main_arg1)) := by
  exact seg0_v26 (W0 m ρ c)

theorem W1_v28 : W1 m ρ c (Proc.devRef .tc main_v28) = Chain.selfc (m ((c : Thread nD τ).loc main_arg1)) := by
  exact seg0_v28 (W0 m ρ c)

/-! ## Region 0 and the second host stretch: the first linear layer and its aggregation -/

theorem W2_v29 : W2 m ρ c (Proc.devRef .tc main_v29) = (Cert.Vn.lin (m ((c : Thread nD τ).loc main_arg0)) (m ((c : Thread nD τ).loc main_arg12)) (m ((c : Thread nD τ).loc main_arg2))) :=
  (W2_arr m ρ c 3).trans ((lin0 (V1 m ρ) c).trans (by
    rw [show V1 m ρ c main_arg0 = _ from A1 m ρ c free_arg0, show V1 m ρ c main_arg12 = _ from A1 m ρ c free_arg12,
      show V1 m ρ c main_arg2 = _ from A1 m ρ c free_arg2]))

theorem W3_v41 : W3 m ρ c (Proc.devRef .tc main_v41) = Chain.agg256 (Cert.Vn.lin (m ((c : Thread nD τ).loc main_arg0)) (m ((c : Thread nD τ).loc main_arg12)) (m ((c : Thread nD τ).loc main_arg2))) (m ((c : Thread nD τ).loc main_arg1)) := by
  rw [show W3 m ρ c _ = _ from seg1_v41 (W2 m ρ c), W2_v29 m ρ c, (B2 m ρ c free1_v1).trans (W1_v1 m ρ c), (B2 m ρ c free1_v3).trans (W1_v3 m ρ c), (B2 m ρ c free1_v26).trans (W1_v26 m ρ c), aggOf256_eq]

theorem W3_v42 : W3 m ρ c (Proc.devRef .tc main_v42) = rowv (m ((c : Thread nD τ).loc main_arg3)) := by
  rw [show W3 m ρ c _ = _ from seg1_v42 (W2 m ρ c), A2 m ρ c free_arg3]

theorem W3_v29 : W3 m ρ c (Proc.devRef .tc main_v29) = (Cert.Vn.lin (m ((c : Thread nD τ).loc main_arg0)) (m ((c : Thread nD τ).loc main_arg12)) (m ((c : Thread nD τ).loc main_arg2))) :=
  (step3 m ρ c main_v29 (by hostfree)).trans (W2_v29 m ρ c)
theorem W3_v28 : W3 m ρ c (Proc.devRef .tc main_v28) = Chain.selfc (m ((c : Thread nD τ).loc main_arg1)) :=
  (B3 m ρ c free1_v28).trans (W1_v28 m ρ c)

/-! ## Region 1: the combine step and its column sums -/

theorem V3_reads : Cert.Vn.comb (V3 m ρ c main_v41) (V3 m ρ c main_v29) (V3 m ρ c main_v28) (V3 m ρ c main_v42) = (yK (m ((c : Thread nD τ).loc main_arg0)) (m ((c : Thread nD τ).loc main_arg12)) (m ((c : Thread nD τ).loc main_arg2)) (m ((c : Thread nD τ).loc main_arg3)) (m ((c : Thread nD τ).loc main_arg1))) := by
  rw [show V3 m ρ c main_v41 = _ from W3_v41 m ρ c, show V3 m ρ c main_v29 = _ from W3_v29 m ρ c,
    show V3 m ρ c main_v28 = _ from W3_v28 m ρ c, show V3 m ρ c main_v42 = _ from W3_v42 m ρ c]
  rfl
theorem W4_v43_0 : W4 m ρ c (Proc.devRef .tc main_v43_0) = (yK (m ((c : Thread nD τ).loc main_arg0)) (m ((c : Thread nD τ).loc main_arg12)) (m ((c : Thread nD τ).loc main_arg2)) (m ((c : Thread nD τ).loc main_arg3)) (m ((c : Thread nD τ).loc main_arg1))) :=
  (W4_arr m ρ c 4).trans ((comb1_y (V3 m ρ) c).trans (V3_reads m ρ c))
theorem W4_v43_1 : W4 m ρ c (Proc.devRef .tc main_v43_1) = Cert.Vn.colsum (yK (m ((c : Thread nD τ).loc main_arg0)) (m ((c : Thread nD τ).loc main_arg12)) (m ((c : Thread nD τ).loc main_arg2)) (m ((c : Thread nD τ).loc main_arg3)) (m ((c : Thread nD τ).loc main_arg1))) :=
  (W4_arr m ρ c 5).trans ((comb1_s (V3 m ρ) c).trans (congrArg Cert.Vn.colsum (V3_reads m ρ c)))
theorem W4_v43_2 : W4 m ρ c (Proc.devRef .tc main_v43_2) = Cert.Vn.colsum (Cert.Vn.sq (yK (m ((c : Thread nD τ).loc main_arg0)) (m ((c : Thread nD τ).loc main_arg12)) (m ((c : Thread nD τ).loc main_arg2)) (m ((c : Thread nD τ).loc main_arg3)) (m ((c : Thread nD τ).loc main_arg1)))) :=
  (W4_arr m ρ c 6).trans ((comb1_ss (V3 m ρ) c).trans (congrArg (fun y => Cert.Vn.colsum (Cert.Vn.sq y)) (V3_reads m ρ c)))

/-! ## The third host stretch: mean and variance -/

theorem W5_v45 : W5 m ρ c (Proc.devRef .tc main_v45) = meanK (Cert.Vn.colsum (yK (m ((c : Thread nD τ).loc main_arg0)) (m ((c : Thread nD τ).loc main_arg12)) (m ((c : Thread nD τ).loc main_arg2)) (m ((c : Thread nD τ).loc main_arg3)) (m ((c : Thread nD τ).loc main_arg1)))) := by
  rw [show W5 m ρ c _ = _ from seg2_v45 (W4 m ρ c), W4_v43_1 m ρ c]

theorem W5_v49 : W5 m ρ c (Proc.devRef .tc main_v49) = varK (Cert.Vn.colsum (Cert.Vn.sq (yK (m ((c : Thread nD τ).loc main_arg0)) (m ((c : Thread nD τ).loc main_arg12)) (m ((c : Thread nD τ).loc main_arg2)) (m ((c : Thread nD τ).loc main_arg3)) (m ((c : Thread nD τ).loc main_arg1))))) (meanK (Cert.Vn.colsum (yK (m ((c : Thread nD τ).loc main_arg0)) (m ((c : Thread nD τ).loc main_arg12)) (m ((c : Thread nD τ).loc main_arg2)) (m ((c : Thread nD τ).loc main_arg3)) (m ((c : Thread nD τ).loc main_arg1))))) := by
  rw [show W5 m ρ c _ = _ from seg2_v49 (W4 m ρ c), W4_v43_1 m ρ c, W4_v43_2 m ρ c]

theorem W5_v50 : W5 m ρ c (Proc.devRef .tc main_v50) = rowv (m ((c : Thread nD τ).loc main_arg8)) := by
  rw [show W5 m ρ c _ = _ from seg2_v50 (W4 m ρ c), A4 m ρ c free_arg8]

theorem W5_v51 : W5 m ρ c (Proc.devRef .tc main_v51) = rowv (m ((c : Thread nD τ).loc main_arg9)) := by
  rw [show W5 m ρ c _ = _ from seg2_v51 (W4 m ρ c), A4 m ρ c free_arg9]

theorem W5_v43_0 : W5 m ρ c (Proc.devRef .tc main_v43_0) = (yK (m ((c : Thread nD τ).loc main_arg0)) (m ((c : Thread nD τ).loc main_arg12)) (m ((c : Thread nD τ).loc main_arg2)) (m ((c : Thread nD τ).loc main_arg3)) (m ((c : Thread nD τ).loc main_arg1))) :=
  (step5 m ρ c main_v43_0 (by hostfree)).trans (W4_v43_0 m ρ c)

/-! ## Region 2: the normalised, rectified features and their pooled row -/

theorem V5_reads : Cert.Vn.nrp (V5 m ρ c main_v43_0) (V5 m ρ c main_v45) (V5 m ρ c main_v49) (V5 m ρ c main_v50) (V5 m ρ c main_v51) = (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) := by
  rw [show V5 m ρ c main_v43_0 = _ from W5_v43_0 m ρ c, show V5 m ρ c main_v45 = _ from W5_v45 m ρ c,
    show V5 m ρ c main_v49 = _ from W5_v49 m ρ c, show V5 m ρ c main_v50 = _ from W5_v50 m ρ c,
    show V5 m ρ c main_v51 = _ from W5_v51 m ρ c]
  rfl
theorem W6_v52_0 : W6 m ρ c (Proc.devRef .tc main_v52_0) = (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) :=
  (W6_arr m ρ c 5).trans ((nrp2_h (V5 m ρ) c).trans (V5_reads m ρ c))
theorem W6_v52_1 : W6 m ρ c (Proc.devRef .tc main_v52_1) = Cert.Vn.colsum (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) :=
  (W6_arr m ρ c 6).trans ((nrp2_pool (V5 m ρ) c).trans (congrArg Cert.Vn.colsum (V5_reads m ρ c)))

/-! ## The fourth host stretch: the virtual node's update -/

theorem W8_v79 : W8 m ρ c (Proc.devRef .tc main_v79) = (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) := by
  rw [show W8 m ρ c _ = _ from seg3_v79 (W6 m ρ c), W6_v52_1 m ρ c, A6 m ρ c free_arg12, A6 m ρ c free_arg13, A6 m ρ c free_arg14, A6 m ρ c free_arg15, A6 m ρ c free_arg16]
  rfl

theorem W8_v52_0 : W8 m ρ c (Proc.devRef .tc main_v52_0) = (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) :=
  (step8 m ρ c main_v52_0 (by hostfree)).trans ((step7 m ρ c main_v52_0 (by hostfree)).trans (W6_v52_0 m ρ c))

end Cert.KernelIdeal.KChain

end
-- ==== Proof.KChainB.lean ====
/-
  The idealized kernel's buffers, boundary by boundary, as the value functions of the argument arrays: second part,
  layer 1 (the linear layer on layer 0's features shifted by the updated virtual node, its aggregation, the combine
  step with its column sums, mean and variance, the normalised features, their pooled row, the second update).
-/
import proofs.«161332_j44100724195822_1_alg».proof.Proof.KChainA

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.KernelIdeal.Steps Cert.KernelIdeal.Regions Cert.KernelIdeal.KVal Cert.KernelIdeal.KSeg

variable (m : (ℓ : Loc nD τ sig) → Buf (Elt Ideal) ℓ) (ρ : Dev nD → PrngReg) (c : Dev nD)

/-! ## Region 3 and the host stretch after it -/

theorem W9_v80 : W9 m ρ c (Proc.devRef .tc main_v80) = (Cert.Vn.lin (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4))) :=
  (W9_arr m ρ c 3).trans ((lin3 (V8 m ρ) c).trans (by
    rw [show V8 m ρ c main_v52_0 = _ from W8_v52_0 m ρ c, show V8 m ρ c main_v79 = _ from W8_v79 m ρ c,
      show V8 m ρ c main_arg4 = _ from A8 m ρ c free_arg4]))

theorem W10_v92 : W10 m ρ c (Proc.devRef .tc main_v92) = Chain.agg256 (Cert.Vn.lin (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4))) (m ((c : Thread nD τ).loc main_arg1)) := by
  rw [show W10 m ρ c _ = _ from seg4_v92 (W9 m ρ c), W9_v80 m ρ c, (B9 m ρ c free1_v1).trans (W1_v1 m ρ c), (B9 m ρ c free1_v3).trans (W1_v3 m ρ c), (B9 m ρ c free1_v26).trans (W1_v26 m ρ c), aggOf256_eq]

theorem W10_v93 : W10 m ρ c (Proc.devRef .tc main_v93) = rowv (m ((c : Thread nD τ).loc main_arg5)) := by
  rw [show W10 m ρ c _ = _ from seg4_v93 (W9 m ρ c), A9 m ρ c free_arg5]

theorem W10_v80 : W10 m ρ c (Proc.devRef .tc main_v80) = (Cert.Vn.lin (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4))) :=
  (step10 m ρ c main_v80 (by hostfree)).trans (W9_v80 m ρ c)
theorem W10_v28 : W10 m ρ c (Proc.devRef .tc main_v28) = Chain.selfc (m ((c : Thread nD τ).loc main_arg1)) :=
  (B10 m ρ c free1_v28).trans (W1_v28 m ρ c)

/-! ## Region 4 -/

theorem V10_reads : Cert.Vn.comb (V10 m ρ c main_v92) (V10 m ρ c main_v80) (V10 m ρ c main_v28) (V10 m ρ c main_v93) = (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) := by
  rw [show V10 m ρ c main_v92 = _ from W10_v92 m ρ c, show V10 m ρ c main_v80 = _ from W10_v80 m ρ c,
    show V10 m ρ c main_v28 = _ from W10_v28 m ρ c, show V10 m ρ c main_v93 = _ from W10_v93 m ρ c]
  rfl
theorem W11_v94_0 : W11 m ρ c (Proc.devRef .tc main_v94_0) = (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) :=
  (W11_arr m ρ c 4).trans ((comb4_y (V10 m ρ) c).trans (V10_reads m ρ c))
theorem W11_v94_1 : W11 m ρ c (Proc.devRef .tc main_v94_1) = Cert.Vn.colsum (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) :=
  (W11_arr m ρ c 5).trans ((comb4_s (V10 m ρ) c).trans (congrArg Cert.Vn.colsum (V10_reads m ρ c)))
theorem W11_v94_2 : W11 m ρ c (Proc.devRef .tc main_v94_2) = Cert.Vn.colsum (Cert.Vn.sq (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1)))) :=
  (W11_arr m ρ c 6).trans ((comb4_ss (V10 m ρ) c).trans (congrArg (fun y => Cert.Vn.colsum (Cert.Vn.sq y)) (V10_reads m ρ c)))

/-! ## Mean and variance of layer 1 -/

theorem W12_v96 : W12 m ρ c (Proc.devRef .tc main_v96) = meanK (Cert.Vn.colsum (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1)))) := by
  rw [show W12 m ρ c _ = _ from seg5_v96 (W11 m ρ c), W11_v94_1 m ρ c]

theorem W12_v100 : W12 m ρ c (Proc.devRef .tc main_v100) = varK (Cert.Vn.colsum (Cert.Vn.sq (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))))) (meanK (Cert.Vn.colsum (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))))) := by
  rw [show W12 m ρ c _ = _ from seg5_v100 (W11 m ρ c), W11_v94_1 m ρ c, W11_v94_2 m ρ c]

theorem W12_v101 : W12 m ρ c (Proc.devRef .tc main_v101) = rowv (m ((c : Thread nD τ).loc main_arg10)) := by
  rw [show W12 m ρ c _ = _ from seg5_v101 (W11 m ρ c), A11 m ρ c free_arg10]

theorem W12_v102 : W12 m ρ c (Proc.devRef .tc main_v102) = rowv (m ((c : Thread nD τ).loc main_arg11)) := by
  rw [show W12 m ρ c _ = _ from seg5_v102 (W11 m ρ c), A11 m ρ c free_arg11]

theorem W12_v94_0 : W12 m ρ c (Proc.devRef .tc main_v94_0) = (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) :=
  (step12 m ρ c main_v94_0 (by hostfree)).trans (W11_v94_0 m ρ c)

/-! ## Region 5 -/

theorem V12_reads : Cert.Vn.nrp (V12 m ρ c main_v94_0) (V12 m ρ c main_v96) (V12 m ρ c main_v100) (V12 m ρ c main_v101) (V12 m ρ c main_v102) = (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) := by
  rw [show V12 m ρ c main_v94_0 = _ from W12_v94_0 m ρ c, show V12 m ρ c main_v96 = _ from W12_v96 m ρ c,
    show V12 m ρ c main_v100 = _ from W12_v100 m ρ c, show V12 m ρ c main_v101 = _ from W12_v101 m ρ c,
    show V12 m ρ c main_v102 = _ from W12_v102 m ρ c]
  rfl
theorem W13_v103_0 : W13 m ρ c (Proc.devRef .tc main_v103_0) = (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) :=
  (W13_arr m ρ c 5).trans ((nrp5_h (V12 m ρ) c).trans (V12_reads m ρ c))
theorem W13_v103_1 : W13 m ρ c (Proc.devRef .tc main_v103_1) = Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) :=
  (W13_arr m ρ c 6).trans ((nrp5_pool (V12 m ρ) c).trans (congrArg Cert.Vn.colsum (V12_reads m ρ c)))

/-! ## The second update of the virtual node -/

theorem W13_v79 : W13 m ρ c (Proc.devRef .tc main_v79) = (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) :=
  (step13 m ρ c main_v79 (by decide)).trans ((step12 m ρ c main_v79 (by hostfree)).trans ((step11 m ρ c main_v79 (by decide)).trans
    ((step10 m ρ c main_v79 (by hostfree)).trans ((step9 m ρ c main_v79 (by decide)).trans (W8_v79 m ρ c)))))

theorem W15_v130 : W15 m ρ c (Proc.devRef .tc main_v130) = (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) := by
  rw [show W15 m ρ c _ = _ from seg6_v130 (W13 m ρ c), W13_v103_1 m ρ c, W13_v79 m ρ c, A13 m ρ c free_arg17, A13 m ρ c free_arg18, A13 m ρ c free_arg19, A13 m ρ c free_arg20]

theorem W15_v103_0 : W15 m ρ c (Proc.devRef .tc main_v103_0) = (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) :=
  (step15 m ρ c main_v103_0 (by hostfree)).trans ((step14 m ρ c main_v103_0 (by hostfree)).trans (W13_v103_0 m ρ c))

end Cert.KernelIdeal.KChain

end
-- ==== Proof.KChainC.lean ====
/-
  The idealized kernel's buffers, boundary by boundary, as the value functions of the argument arrays: last part,
  layer 2 (the linear layer onto 40 columns, its aggregation, the combine step, the log-softmax), and the result
  array after the whole run as the kernel's value function of the argument arrays.
-/
import proofs.«161332_j44100724195822_1_alg».proof.Proof.KChainB

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.KernelIdeal.Steps Cert.KernelIdeal.Regions Cert.KernelIdeal.KVal Cert.KernelIdeal.KSeg

variable (m : (ℓ : Loc nD τ sig) → Buf (Elt Ideal) ℓ) (ρ : Dev nD → PrngReg) (c : Dev nD)

theorem W16_v131 : W16 m ρ c (Proc.devRef .tc main_v131) = (Cert.Vn.lin (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) (m ((c : Thread nD τ).loc main_arg6))) :=
  (W16_arr m ρ c 3).trans ((lin6 (V15 m ρ) c).trans (by
    rw [show V15 m ρ c main_v103_0 = _ from W15_v103_0 m ρ c, show V15 m ρ c main_v130 = _ from W15_v130 m ρ c,
      show V15 m ρ c main_arg6 = _ from A15 m ρ c free_arg6]))

theorem W17_v143 : W17 m ρ c (Proc.devRef .tc main_v143) = Chain.agg40 (Cert.Vn.lin (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) (m ((c : Thread nD τ).loc main_arg6))) (m ((c : Thread nD τ).loc main_arg1)) := by
  rw [show W17 m ρ c _ = _ from seg7_v143 (W16 m ρ c), W16_v131 m ρ c, (B16 m ρ c free1_v1).trans (W1_v1 m ρ c), (B16 m ρ c free1_v3).trans (W1_v3 m ρ c), (B16 m ρ c free1_v26).trans (W1_v26 m ρ c), aggOf40_eq]

theorem W17_v144 : W17 m ρ c (Proc.devRef .tc main_v144) = rowv40 (m ((c : Thread nD τ).loc main_arg7)) := by
  rw [show W17 m ρ c _ = _ from seg7_v144 (W16 m ρ c), A16 m ρ c free_arg7]

theorem W17_v131 : W17 m ρ c (Proc.devRef .tc main_v131) = (Cert.Vn.lin (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) (m ((c : Thread nD τ).loc main_arg6))) :=
  (step17 m ρ c main_v131 (by hostfree)).trans (W16_v131 m ρ c)
theorem W17_v28 : W17 m ρ c (Proc.devRef .tc main_v28) = Chain.selfc (m ((c : Thread nD τ).loc main_arg1)) :=
  (B17 m ρ c free1_v28).trans (W1_v28 m ρ c)

theorem W18_v145 : W18 m ρ c (Proc.devRef .tc main_v145) = (Cert.Vn.comb (Chain.agg40 (Cert.Vn.lin (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) (m ((c : Thread nD τ).loc main_arg6))) (m ((c : Thread nD τ).loc main_arg1))) (Cert.Vn.lin (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11))) (Chain.vn (Cert.Vn.colsum (hK (yK (h0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg4)) (m ((c : Thread nD τ).loc main_arg5)) (m ((c : Thread nD τ).loc main_arg1))) (m ((c : Thread nD τ).loc main_arg10)) (m ((c : Thread nD τ).loc main_arg11)))) (vx1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20))) (m ((c : Thread nD τ).loc main_arg6))) (Chain.selfc (m ((c : Thread nD τ).loc main_arg1))) (rowv40 (m ((c : Thread nD τ).loc main_arg7)))) :=
  (W18_arr m ρ c 4).trans ((comb7 (V17 m ρ) c).trans (by
    rw [show V17 m ρ c main_v143 = _ from W17_v143 m ρ c, show V17 m ρ c main_v131 = _ from W17_v131 m ρ c,
      show V17 m ρ c main_v28 = _ from W17_v28 m ρ c, show V17 m ρ c main_v144 = _ from W17_v144 m ρ c]))

/-- The result array after the whole run is the kernel's value function of the argument arrays. -/
theorem W19_out : W19 m ρ c (Proc.devRef .tc main_v146) = (KVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W19_arr m ρ c 1).trans ((lsm8 (V18 m ρ) c).trans (by
    rw [show V18 m ρ c main_v145 = _ from W18_v145 m ρ c]
    rfl))

end Cert.KernelIdeal.KChain

end
-- ==== Proof.RefRunW.lean ====
import proofs.«161332_j44100724195822_1_alg».proof.Proof.RefRunBase
import proofs.«161332_j44100724195822_1_alg».proof.Proof.LibAfterAssign

/-!
# The reference line is in single-assignment form

`ws` lists, in program order, the buffer each of the 263 operations writes; no argument buffer occurs in it. `writesAre` states that the `k`-th operation writes exactly the `k`-th entry: each conjunct is the
operation's own `writes` set, a singleton by computation. With it, any segment of the line can be read at the FINAL
contents of the buffers.
-/

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-- The buffer each operation writes, in program order. -/
def ws : List (Ref sig .tc) :=
  [
    main_v0, main_v1, main_v2, main_v3, main_cst, main_v4, main_cst_0, main_v5,
    main_v6, main_v7, main_cst_1, main_v8, main_v9, main_v10, main_c, main_v11,
    main_v12, main_c_2, main_v13, main_v14, main_v15, main_v16, main_v17, main_c_3,
    main_v18, main_v19, main_c_4, main_v20, main_v21, main_v22, main_v23, main_v24,
    main_v25, main_v26, main_v27, main_v28, main_v29, main_v30, main_v31, main_c_5,
    main_v32, main_v33, main_c_6, main_v34, main_v35, main_v36, main_v37, main_v38,
    main_v39, main_v40, main_cst_7, main_v41, main_v42, main_v43, main_v44, main_v45,
    main_v46, main_v47, main_v48, main_v49, main_cst_8, main_v50, main_cst_9, main_v51,
    main_v52, main_v53, main_v54, main_v55, main_v56, main_cst_10, main_v57, main_cst_11,
    main_v58, main_v59, main_v60, main_v61, main_v62, main_cst_12, main_v63, main_v64,
    main_v65, main_v66, main_v67, main_v68, main_v69, main_v70, main_v71, main_v72,
    main_v73, main_v74, main_call0_cst, main_call0_v0, main_v75, main_cst_13, main_v76, main_v77,
    main_v78, main_v79, main_v80, main_v81, main_cst_14, main_v82, main_v83, main_cst_15,
    main_v84, main_v85, main_v86, main_v87, main_v88, main_cst_16, main_v89, main_v90,
    main_cst_17, main_v91, main_v92, main_v93, main_v94, main_cst_18, main_v95, main_v96,
    main_v97, main_v98, main_v99, main_v100, main_v101, main_v102, main_v103, main_call1_cst,
    main_call1_v0, main_v104, main_v105, main_v106, main_v107, main_c_19, main_v108, main_v109,
    main_c_20, main_v110, main_v111, main_v112, main_v113, main_v114, main_v115, main_v116,
    main_cst_21, main_v117, main_v118, main_v119, main_v120, main_v121, main_v122, main_v123,
    main_v124, main_v125, main_cst_22, main_v126, main_cst_23, main_v127, main_v128, main_v129,
    main_v130, main_v131, main_v132, main_cst_24, main_v133, main_cst_25, main_v134, main_v135,
    main_v136, main_v137, main_v138, main_cst_26, main_v139, main_v140, main_v141, main_v142,
    main_v143, main_v144, main_v145, main_v146, main_v147, main_v148, main_v149, main_v150,
    main_call2_cst, main_call2_v0, main_v151, main_cst_27, main_v152, main_v153, main_v154, main_v155,
    main_v156, main_v157, main_cst_28, main_v158, main_v159, main_cst_29, main_v160, main_v161,
    main_v162, main_v163, main_v164, main_cst_30, main_v165, main_v166, main_cst_31, main_v167,
    main_v168, main_v169, main_v170, main_cst_32, main_v171, main_v172, main_v173, main_v174,
    main_v175, main_v176, main_v177, main_v178, main_v179, main_call3_cst, main_call3_v0, main_v180,
    main_v181, main_v182, main_v183, main_c_33, main_v184, main_v185, main_c_34, main_v186,
    main_v187, main_v188, main_v189, main_v190, main_v191, main_v192, main_cst_35, main_v193,
    main_v194, main_v195, main_v196, main_v197, main_v198, main_v199, main_v200, main_v201,
    main_call4_cst, main_call4_v0, main_call4_cst_0, main_call4_v1, main_call4_v2, main_call4_v3, main_call4_v4, main_call4_v5,
    main_call4_v6, main_call4_cst_1, main_call4_v7, main_call4_v8, main_call4_v9, main_call4_v10, main_v202
  ]

theorem ws_length : ws.length = 263 := rfl

set_option maxRecDepth 8192 in
/-- The `k`-th operation writes exactly the `k`-th buffer of `ws`. -/
theorem writesAre : WritesAre (ops (F := F)) ws :=
  ⟨
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    trivial⟩

end Cert.ReferenceIdeal.ValueP

end
-- ==== Proof.RefVal.lean ====
/-
  The reference program's host operations, named stage by stage as functions of whole arrays (floats read as exact
  extended reals): the edge-list pieces and the neighbour aggregation, the linear layer (shift every row by the
  virtual-node row, multiply by the weights), the combine step, batch normalisation with the rectifier, the pooled
  row, the virtual node's update, the log-softmax, and `out`, their composition over the three layers.
-/
import proofs.«161332_j44100724195822_1_alg».proof.ReferenceIdeal
import proofs.«161332_j44100724195822_1_alg».proof.Proof.Gen.ReferenceIdeal
import Idealize.ShloMosaic.PureOps.Ideal

noncomputable section

namespace Cert.ReferenceIdeal.RefVal

open Idealize.ShloMosaic Cert.ReferenceIdeal Cert.ReferenceIdeal.Facts₀ Cert.ReferenceIdeal.Facts

/-- The edge list's first row: the source node of every edge. -/
def src (ei : IVec S2x800000 32) : IVec S800000 32 :=
  shapeCast S800000 (extractStridedSlice S1x800000 ![0, 0] ei slices_S2x800000_S1x800000_0_0) shapeCasts_S1x800000_S800000

/-- The edge list's second row: the destination node of every edge. -/
def dst (ei : IVec S2x800000 32) : IVec S800000 32 :=
  shapeCast S800000 (extractStridedSlice S1x800000 ![1, 0] ei slices_S2x800000_S1x800000_1_0) shapeCasts_S1x800000_S800000

/-- (in-degree + 1)^(-1/2) per node: ones added into the destination nodes, plus one, inverse square root. -/
def dis (ei : IVec S2x800000 32) : FVec Ideal S100000 .f32 :=
  Host.rsqrt (addf
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 (dst ei))
      (broadcastInDim S800000 ![] bcast_S_S800000 (constant (F := Ideal) S_ .f32 0x3F800000#32)))
    (broadcastInDim S100000 ![] bcast_S_S100000 (constant (F := Ideal) S_ .f32 0x3F800000#32)))

/-- Index words as a column, a negative word first wrapped by the number of nodes. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The per-edge coefficient dis[src]·dis[dst], as a column. -/
def coefc (ei : IVec S2x800000 32) : FVec Ideal S800000x1 .f32 :=
  broadcastInDim S800000x1 ![0] bcast_S800000_S800000x1_0
    (mulf (Host.gather gather_S100000_S800000x1_S800000_n_0_n_n_0_1_1 (dis ei) (wrapCol (src ei)))
          (Host.gather gather_S100000_S800000x1_S800000_n_0_n_n_0_1_1 (dis ei) (wrapCol (dst ei))))

/-- The per-node self-loop coefficient dis·dis, as a column. -/
def selfc (ei : IVec S2x800000 32) : FVec Ideal S100000x1 .f32 :=
  broadcastInDim S100000x1 ![0] bcast_S100000_S100000x1_0 (mulf (dis ei) (dis ei))

/-- The neighbour aggregation of a 256-column matrix. -/
def agg256 (hp : FVec Ideal S100000x256 .f32) (ei : IVec S2x800000 32) : FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 (dst ei))
    (mulf (Host.gather gather_S100000x256_S800000x1_S800000x256_1_0_n_n_0_1_1256 hp (wrapCol (src ei)))
          (broadcastInDim S800000x256 ![0, 1] bcast_S800000x1_S800000x256_0_1 (coefc ei)))

/-- The neighbour aggregation of a 40-column matrix. -/
def agg40 (hp : FVec Ideal S100000x40 .f32) (ei : IVec S2x800000 32) : FVec Ideal S100000x40 .f32 :=
  Host.scatterAdd scatter_S100000x40_S800000x1_S800000x40_1_0_0_1
    (broadcastInDim S100000x40 ![] bcast_S_S100000x40 (constant (F := Ideal) S_ .f32 0x00000000#32))
    (broadcastInDim S800000x1 ![0] bcast_S800000_S800000x1_0 (dst ei))
    (mulf (Host.gather gather_S100000x40_S800000x1_S800000x40_1_0_n_n_0_1_140 hp (wrapCol (src ei)))
          (broadcastInDim S800000x40 ![0, 1] bcast_S800000x1_S800000x40_0_1 (coefc ei)))

/-- The layer normalisation of one row z with scale g and shift bb (vectors), then the rectifier. -/
def lnRelu (z : FVec Ideal S1x256 .f32) (g bb : FVec Ideal S256 .f32) : FVec Ideal S1x256 .f32 :=
  let mu : FVec Ideal S1x1 .f32 :=
    Host.divf (broadcastInDim S1x1 ![0] bcast_S1_S1x1_0
        (Host.reduceAdd z (constant (F := Ideal) S_ .f32 0x00000000#32) reducesTo_S1x256_S1_d1 h_S_))
      (broadcastInDim S1x1 ![] bcast_S_S1x1 (constant (F := Ideal) S_ .f32 0x43800000#32))
  let d : FVec Ideal S1x256 .f32 := subf z (broadcastInDim S1x256 ![0, 1] bcast_S1x1_S1x256_0_1 mu)
  let var : FVec Ideal S1x1 .f32 :=
    Host.divf (broadcastInDim S1x1 ![0] bcast_S1_S1x1_0
        (Host.reduceAdd (mulf d d) (constant (F := Ideal) S_ .f32 0x00000000#32) reducesTo_S1x256_S1_d1 h_S_))
      (broadcastInDim S1x1 ![] bcast_S_S1x1 (constant (F := Ideal) S_ .f32 0x43800000#32))
  let inv : FVec Ideal S1x1 .f32 :=
    Host.rsqrt (addf var (broadcastInDim S1x1 ![] bcast_S_S1x1 (constant (F := Ideal) S_ .f32 0x3727C5AC#32)))
  maximumf
    (addf (mulf (mulf d (broadcastInDim S1x256 ![0, 1] bcast_S1x1_S1x256_0_1 inv))
                (broadcastInDim S1x256 ![1] bcast_S256_S1x256_1 g))
          (broadcastInDim S1x256 ![1] bcast_S256_S1x256_1 bb))
    (broadcastInDim S1x256 ![] bcast_S_S1x256 (constant (F := Ideal) S_ .f32 0x00000000#32))

/-- The virtual node's update: (pool + vx) through the linear map W, b, then normalised and rectified. -/
def vn (pool vx : FVec Ideal S1x256 .f32) (W : FVec Ideal S256x256 .f32) (b g bb : FVec Ideal S256 .f32) :
    FVec Ideal S1x256 .f32 :=
  lnRelu (addf (Host.dotGeneral dot_S1x256_S256x256_S1x256_1_0_0_1_n_n none (addf pool vx) W)
               (broadcastInDim S1x256 ![1] bcast_S256_S1x256_1 b)) g bb

/-- The linear layer on 256 output columns: (x + vx broadcast over the rows) times W. -/
def lin256 (x : FVec Ideal S100000x256 .f32) (vx : FVec Ideal S1x256 .f32) (W : FVec Ideal S256x256 .f32) :
    FVec Ideal S100000x256 .f32 :=
  Host.dotGeneral dot_S100000x256_S256x256_S100000x256_1_0_0_1_n_n none
    (addf x (broadcastInDim S100000x256 ![0, 1] bcast_S1x256_S100000x256_0_1 vx)) W

/-- The linear layer on 40 output columns. -/
def lin40 (x : FVec Ideal S100000x256 .f32) (vx : FVec Ideal S1x256 .f32) (W : FVec Ideal S256x40 .f32) :
    FVec Ideal S100000x40 .f32 :=
  Host.dotGeneral dot_S100000x256_S256x40_S100000x40_1_0_0_1_n_n none
    (addf x (broadcastInDim S100000x256 ![0, 1] bcast_S1x256_S100000x256_0_1 vx)) W

/-- The combine step on 256 columns: agg + hp · (self coefficient column) + bias vector. -/
def comb256 (agg hp : FVec Ideal S100000x256 .f32) (sc : FVec Ideal S100000x1 .f32) (b : FVec Ideal S256 .f32) :
    FVec Ideal S100000x256 .f32 :=
  addf (addf agg (mulf hp (broadcastInDim S100000x256 ![0, 1] bcast_S100000x1_S100000x256_0_1 sc)))
    (broadcastInDim S100000x256 ![0, 1] bcast_S1x256_S100000x256_0_1 (broadcastInDim S1x256 ![1] bcast_S256_S1x256_1 b))

/-- The combine step on 40 columns. -/
def comb40 (agg hp : FVec Ideal S100000x40 .f32) (sc : FVec Ideal S100000x1 .f32) (b : FVec Ideal S40 .f32) :
    FVec Ideal S100000x40 .f32 :=
  addf (addf agg (mulf hp (broadcastInDim S100000x40 ![0, 1] bcast_S100000x1_S100000x40_0_1 sc)))
    (broadcastInDim S100000x40 ![0, 1] bcast_S1x40_S100000x40_0_1 (broadcastInDim S1x40 ![1] bcast_S40_S1x40_1 b))

/-- A vector of 256 entries repeated over the 100000 rows. -/
def rows (v : FVec Ideal S256 .f32) : FVec Ideal S100000x256 .f32 :=
  broadcastInDim S100000x256 ![0, 1] bcast_S1x256_S100000x256_0_1 (broadcastInDim S1x256 ![1] bcast_S256_S1x256_1 v)

/-- The per-column mean over the 100000 rows. -/
def bnMean (y : FVec Ideal S100000x256 .f32) : FVec Ideal S256 .f32 :=
  Host.divf (Host.reduceAdd y (constant (F := Ideal) S_ .f32 0x00000000#32) reducesTo_S100000x256_S256_d0 h_S_)
    (broadcastInDim S256 ![] bcast_S_S256 (constant (F := Ideal) S_ .f32 0x47C35000#32))

/-- The per-column mean of the squared deviations from the mean. -/
def bnVar (y : FVec Ideal S100000x256 .f32) : FVec Ideal S256 .f32 :=
  Host.divf (Host.reduceAdd (mulf (subf y (rows (bnMean y))) (subf y (rows (bnMean y))))
      (constant (F := Ideal) S_ .f32 0x00000000#32) reducesTo_S100000x256_S256_d0 h_S_)
    (broadcastInDim S256 ![] bcast_S_S256 (constant (F := Ideal) S_ .f32 0x47C35000#32))

/-- Batch normalisation over the rows with scale g and shift b, then the rectifier. -/
def bnRelu (y : FVec Ideal S100000x256 .f32) (g b : FVec Ideal S256 .f32) : FVec Ideal S100000x256 .f32 :=
  maximumf
    (addf (mulf (mulf (subf y (rows (bnMean y)))
                      (rows (Host.rsqrt (addf (bnVar y) (broadcastInDim S256 ![] bcast_S_S256 (constant (F := Ideal) S_ .f32 0x3727C5AC#32))))))
                (rows g))
          (rows b))
    (broadcastInDim S100000x256 ![] bcast_S_S100000x256 (constant (F := Ideal) S_ .f32 0x00000000#32))

/-- The column sums as one row. -/
def pool (h : FVec Ideal S100000x256 .f32) : FVec Ideal S1x256 .f32 :=
  broadcastInDim S1x256 ![1] bcast_S256_S1x256_1
    (Host.reduceAdd h (constant (F := Ideal) S_ .f32 0x00000000#32) reducesTo_S100000x256_S256_d0 h_S_)

/-- A vector of 100000 entries repeated over the 40 columns. -/
def cols40 (v : FVec Ideal S100000 .f32) : FVec Ideal S100000x40 .f32 :=
  broadcastInDim S100000x40 ![0, 1] bcast_S100000x1_S100000x40_0_1 (broadcastInDim S100000x1 ![0] bcast_S100000_S100000x1_0 v)

/-- Every row shifted by its largest entry. -/
def shifted (y : FVec Ideal S100000x40 .f32) : FVec Ideal S100000x40 .f32 :=
  subf y (cols40 (maximumf (broadcastInDim S100000 ![] bcast_S_S100000 (constant (F := Ideal) S_ .f32 0xFF800000#32))
    (Host.reduce FloatOps.maximumf y (constant (F := Ideal) S_ .f32 0xFF800000#32) reducesTo_S100000x40_S100000_d1 h_S_)))

/-- The log-softmax of every row. -/
def lsm (y : FVec Ideal S100000x40 .f32) : FVec Ideal S100000x40 .f32 :=
  subf (shifted y)
    (broadcastInDim S100000x40 ![0, 1] bcast_S100000x1_S100000x40_0_1
      (Host.log (broadcastInDim S100000x1 ![0] bcast_S100000_S100000x1_0
        (Host.reduceAdd (Host.exp (shifted y)) (constant (F := Ideal) S_ .f32 0x00000000#32) reducesTo_S100000x40_S100000_d1 h_S_))))

/-- Layer 0's rectified, normalised features. -/
def h0 (a0 : FVec Ideal S100000x256 .f32) (a1 : IVec S2x800000 32) (a2 : FVec Ideal S256x256 .f32) (a3 : FVec Ideal S256 .f32)
    (a8 a9 : FVec Ideal S256 .f32) (a12 : FVec Ideal S1x256 .f32) : FVec Ideal S100000x256 .f32 :=
  bnRelu (comb256 (agg256 (lin256 a0 a12 a2) a1) (lin256 a0 a12 a2) (selfc a1) a3) a8 a9

/-- The whole forward pass. -/
def out (a0 : FVec Ideal S100000x256 .f32) (a1 : IVec S2x800000 32) (a2 : FVec Ideal S256x256 .f32) (a3 : FVec Ideal S256 .f32)
    (a4 : FVec Ideal S256x256 .f32) (a5 : FVec Ideal S256 .f32) (a6 : FVec Ideal S256x40 .f32) (a7 : FVec Ideal S40 .f32)
    (a8 a9 a10 a11 : FVec Ideal S256 .f32) (a12 : FVec Ideal S1x256 .f32) (a13 : FVec Ideal S256x256 .f32)
    (a14 a15 a16 : FVec Ideal S256 .f32) (a17 : FVec Ideal S256x256 .f32) (a18 a19 a20 : FVec Ideal S256 .f32) :
    FVec Ideal S100000x40 .f32 :=
  let hh0 := h0 a0 a1 a2 a3 a8 a9 a12
  let vx1 := vn (pool hh0) a12 a13 a14 a15 a16
  let hp1 := lin256 hh0 vx1 a4
  let hh1 := bnRelu (comb256 (agg256 hp1 a1) hp1 (selfc a1) a5) a10 a11
  let vx2 := vn (pool hh1) vx1 a17 a18 a19 a20
  let hp2 := lin40 hh1 vx2 a6
  lsm (comb40 (agg40 hp2 a1) hp2 (selfc a1) a7)

end Cert.ReferenceIdeal.RefVal

end
-- ==== Proof.LibAfterSegment.lean ====
import proofs.«161332_j44100724195822_1_alg».proof.Proof.LibAfterAssign

/-!
# Reading a long straight line of operations one SEGMENT at a time

A line of operations in single-assignment form (`WritesAre ops ws`: the `k`-th operation writes exactly the `k`-th
reference of `ws`) is cut at positions `k` and `k + n`. If no operation from position `k + n` on writes the reference
`y`, the whole line leaves at `y` what the `n` operations from position `k` leave there, run from the contents after the
first `k` operations (`after_segment`). Together with `after_take_at_unwritten` — a reference that no operation from
position `k` on writes holds after the first `k` operations what it holds at the end — a segment's own reading, "its
result is this function of what it found at these references", becomes an equation between the FINAL contents of its
result and the FINAL contents of the references it reads. The segments' equations can then be used in program order,
and no contents at an intermediate position are ever named.
-/

namespace Cert.Lib.AfterAssign

open Idealize.ShloMosaic Idealize.ShloMosaic.StableHlo

variable {τ : Topo} {sig : RefSig} {Val : EltTy → Type}

/-- If no operation from position `k + n` on writes `y`, the whole line leaves at `y` what the segment of `n`
    operations from position `k` leaves there, from the contents after the first `k` operations. -/
theorem after_segment {ops : List (HloOp τ sig Val)} {ws : List (Ref sig .tc)} (h : WritesAre ops ws)
    (k n : Nat) (V : Valuation τ sig Val) {y : Ref sig .tc} (hy : y ∉ ws.drop (k + n)) :
    after ops V (Proc.devRef .tc y)
      = after ((ops.drop k).take n) (after (ops.take k) V) (Proc.devRef .tc y) := by
  have e : after ops V = after (ops.drop (k + n)) (after ((ops.drop k).take n) (after (ops.take k) V)) := by
    rw [after_take_drop k ops V, after_take_drop n (ops.drop k) (after (ops.take k) V), List.drop_drop]
  rw [e]
  exact after_of_not_written (WritesAre.drop (k + n) h) _ hy

end Cert.Lib.AfterAssign
-- ==== Proof.RefRunA.lean ====
/-
  The reference program's run, read back stage by stage: the edge-list pieces and layer 0.

  The line of 263 host operations is in single-assignment form, so each stage — a block of consecutive operations — can
  be read on its own: run from whatever the earlier operations left, the block leaves at its result the stage's function
  (the whole-array functions of RefVal.lean) of the contents of the few references it reads; and since no later operation
  writes those references or the result, the same equation holds between the FINAL contents. The stages here are the
  edges' source and destination nodes, the degree normalisation and the two coefficients built from it, and layer 0: its
  linear step, neighbour aggregation, combine step, batch normalisation with the rectifier, and the virtual node's
  first update.
-/
import proofs.«161332_j44100724195822_1_alg».proof.Proof.RefRunBase
import proofs.«161332_j44100724195822_1_alg».proof.Proof.RefRunW
import proofs.«161332_j44100724195822_1_alg».proof.Proof.RefVal
import proofs.«161332_j44100724195822_1_alg».proof.Proof.LibAfterAssign
import proofs.«161332_j44100724195822_1_alg».proof.Proof.LibAfterSegment
import proofs.«161332_j44100724195822_1_alg».proof.Proof.LibTypedRef

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-! ## The edges' source nodes (operations 0 to 1) -/

/-- The 2 operations from position 0: the edge list's first row as a vector. -/
abbrev segL_v1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000 ]

/-- They are the line's operations at positions 0 to 1. -/
theorem seg_v1 : ((ops (F := F)).drop 0).take 2 = segL_v1 := rfl

set_option maxHeartbeats 1000000 in
/-- Run from any contents, the segment leaves at its result the stage's function of what it found at the references it reads. -/
theorem segval_v1 (W : Valuation τ sig (Elt Ideal)) :
    after (segL_v1 (F := Ideal)) W (Proc.devRef .tc main_v1)
      = RefVal.src (W (Proc.devRef .tc main_arg1)) := by
  after_results_simp
  rfl

/-- After the whole line, from any contents: the stage's equation between the final contents of its result and of the references it reads. -/
theorem v1_eq (V : Valuation τ sig (Elt Ideal)) :
    after (ops (F := Ideal)) V (Proc.devRef .tc main_v1)
      = RefVal.src (after (ops (F := Ideal)) V (Proc.devRef .tc main_arg1)) := by
  rw [after_segment writesAre 0 2 V (y := main_v1) (by decide),
    seg_v1,
    segval_v1 _,
    after_take_at_unwritten writesAre 0 V (a := main_arg1) (by decide)]

/-! ## The edges' destination nodes (operations 2 to 3) -/

/-- The 2 operations from position 2: the edge list's second row as a vector. -/
abbrev segL_v3 : List (HloOp τ sig (Elt F)) :=
  [ unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- They are the line's operations at positions 2 to 3. -/
theorem seg_v3 : ((ops (F := F)).drop 2).take 2 = segL_v3 := rfl

set_option maxHeartbeats 1000000 in
/-- Run from any contents, the segment leaves at its result the stage's function of what it found at the references it reads. -/
theorem segval_v3 (W : Valuation τ sig (Elt Ideal)) :
    after (segL_v3 (F := Ideal)) W (Proc.devRef .tc main_v3)
      = RefVal.dst (W (Proc.devRef .tc main_arg1)) := by
  after_results_simp
  rfl

/-- After the whole line, from any contents: the stage's equation between the final contents of its result and of the references it reads. -/
theorem v3_eq (V : Valuation τ sig (Elt Ideal)) :
    after (ops (F := Ideal)) V (Proc.devRef .tc main_v3)
      = RefVal.dst (after (ops (F := Ideal)) V (Proc.devRef .tc main_arg1)) := by
  rw [after_segment writesAre 2 2 V (y := main_v3) (by decide),
    seg_v3,
    segval_v3 _,
    after_take_at_unwritten writesAre 2 V (a := main_arg1) (by decide)]

/-! ## The degree normalisation (operations 4 to 13) -/

/-- The 10 operations from position 4: ones added into the destination nodes, plus one, inverse square root. -/
abbrev segL_v10 : List (HloOp τ sig (Elt F)) :=
  [ nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

/-- They are the line's operations at positions 4 to 13. -/
theorem seg_v10 : ((ops (F := F)).drop 4).take 10 = segL_v10 := rfl

set_option maxHeartbeats 1000000 in
/-- Run from any contents, the segment leaves at its result the stage's function of what it found at the references it reads. -/
theorem segval_v10 (W : Valuation τ sig (Elt Ideal)) (ei : IVec S2x800000 32)
    (h3 : W (Proc.devRef .tc main_v3) = RefVal.dst ei) :
    after (segL_v10 (F := Ideal)) W (Proc.devRef .tc main_v10)
      = RefVal.dis ei := by
  after_results_simp
  rw [h3]
  rfl

/-- After the whole line, from any contents: the stage's equation between the final contents of its result and of the references it reads. -/
theorem v10_eq (V : Valuation τ sig (Elt Ideal)) (ei : IVec S2x800000 32)
    (h3 : after (ops (F := Ideal)) V (Proc.devRef .tc main_v3) = RefVal.dst ei) :
    after (ops (F := Ideal)) V (Proc.devRef .tc main_v10)
      = RefVal.dis ei := by
  rw [after_segment writesAre 4 10 V (y := main_v10) (by decide),
    seg_v10,
    segval_v10 _ ei
      ((after_take_at_unwritten writesAre 4 V (a := main_v3) (by decide)).trans h3)]

/-! ## The per-edge coefficient (operations 14 to 33) -/

/-- The 20 operations from position 14: the normalisation gathered at the wrapped source and destination indices, multiplied, as a column. -/
abbrev segL_v26 : List (HloOp τ sig (Elt F)) :=
  [ nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    unary main_v25 main_v26 (broadcastInDim S800000x1 ![0] bcast_S800000_S800000x1_0 : (⟨S800000, .f32⟩ : BufTy).Contents (Elt F) → (⟨S800000x1, .f32⟩ : BufTy).Contents (Elt F)) ]

/-- They are the line's operations at positions 14 to 33. -/
theorem seg_v26 : ((ops (F := F)).drop 14).take 20 = segL_v26 := rfl

set_option maxHeartbeats 1000000 in
/-- Run from any contents, the segment leaves at its result the stage's function of what it found at the references it reads. -/
theorem segval_v26 (W : Valuation τ sig (Elt Ideal)) (ei : IVec S2x800000 32)
    (h1 : W (Proc.devRef .tc main_v1) = RefVal.src ei)
    (h3 : W (Proc.devRef .tc main_v3) = RefVal.dst ei)
    (h10 : W (Proc.devRef .tc main_v10) = RefVal.dis ei) :
    after (segL_v26 (F := Ideal)) W (Proc.devRef .tc main_v26)
      = RefVal.coefc ei := by
  after_results_simp
  rw [h1, h3, h10]
  rfl

/-- After the whole line, from any contents: the stage's equation between the final contents of its result and of the references it reads. -/
theorem v26_eq (V : Valuation τ sig (Elt Ideal)) (ei : IVec S2x800000 32)
    (h1 : after (ops (F := Ideal)) V (Proc.devRef .tc main_v1) = RefVal.src ei)
    (h3 : after (ops (F := Ideal)) V (Proc.devRef .tc main_v3) = RefVal.dst ei)
    (h10 : after (ops (F := Ideal)) V (Proc.devRef .tc main_v10) = RefVal.dis ei) :
    after (ops (F := Ideal)) V (Proc.devRef .tc main_v26)
      = RefVal.coefc ei := by
  rw [after_segment writesAre 14 20 V (y := main_v26) (by decide),
    seg_v26,
    segval_v26 _ ei
      ((after_take_at_unwritten writesAre 14 V (a := main_v1) (by decide)).trans h1)
      ((after_take_at_unwritten writesAre 14 V (a := main_v3) (by decide)).trans h3)
      ((after_take_at_unwritten writesAre 14 V (a := main_v10) (by decide)).trans h10)]

/-! ## The self-loop coefficient (operations 34 to 35) -/

/-- The 2 operations from position 34: the normalisation squared, as a column. -/
abbrev segL_v28 : List (HloOp τ sig (Elt F)) :=
  [ binary main_v10 main_v10 main_v27 (mulf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)) ]

/-- They are the line's operations at positions 34 to 35. -/
theorem seg_v28 : ((ops (F := F)).drop 34).take 2 = segL_v28 := rfl

set_option maxHeartbeats 1000000 in
/-- Run from any contents, the segment leaves at its result the stage's function of what it found at the references it reads. -/
theorem segval_v28 (W : Valuation τ sig (Elt Ideal)) (ei : IVec S2x800000 32)
    (h10 : W (Proc.devRef .tc main_v10) = RefVal.dis ei) :
    after (segL_v28 (F := Ideal)) W (Proc.devRef .tc main_v28)
      = RefVal.selfc ei := by
  after_results_simp
  rw [h10]
  rfl

/-- After the whole line, from any contents: the stage's equation between the final contents of its result and of the references it reads. -/
theorem v28_eq (V : Valuation τ sig (Elt Ideal)) (ei : IVec S2x800000 32)
    (h10 : after (ops (F := Ideal)) V (Proc.devRef .tc main_v10) = RefVal.dis ei) :
    after (ops (F := Ideal)) V (Proc.devRef .tc main_v28)
      = RefVal.selfc ei := by
  rw [after_segment writesAre 34 2 V (y := main_v28) (by decide),
    seg_v28,
    segval_v28 _ ei
      ((after_take_at_unwritten writesAre 34 V (a := main_v10) (by decide)).trans h10)]

/-! ## Layer 0's linear step (operations 36 to 38) -/

/-- The 3 operations from position 36: the features shifted by the virtual-node row, times the weights. -/
abbrev segL_v31 : List (HloOp τ sig (Elt F)) :=
  [ unary main_arg12 main_v29 (broadcastInDim S100000x256 ![0, 1] bcast_S1x256_S100000x256_0_1 : (⟨S1x256, .f32⟩ : BufTy).Contents (Elt F) → (⟨S100000x256, .f32⟩ : BufTy).Contents (Elt F)),
    binary main_arg0 main_v29 main_v30 (addf : (⟨S100000x256, .f32⟩ : BufTy).Contents (Elt F) → (⟨S100000x256, .f32⟩ : BufTy).Contents (Elt F) → (⟨S100000x256, .f32⟩ : BufTy).Contents (Elt F)),
    binary main_v30 main_arg2 main_v31 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)) ]

/-- They are the line's operations at positions 36 to 38. -/
theorem seg_v31 : ((ops (F := F)).drop 36).take 3 = segL_v31 := rfl

set_option maxHeartbeats 1000000 in
/-- Run from any contents, the segment leaves at its result the stage's function of what it found at the references it reads. -/
theorem segval_v31 (W : Valuation τ sig (Elt Ideal)) :
    after (segL_v31 (F := Ideal)) W (Proc.devRef .tc main_v31)
      = RefVal.lin256 (W (Proc.devRef .tc main_arg0)) (W (Proc.devRef .tc main_arg12)) (W (Proc.devRef .tc main_arg2)) := by
  after_results_simp
  rfl

/-- After the whole line, from any contents: the stage's equation between the final contents of its result and of the references it reads. -/
theorem v31_eq (V : Valuation τ sig (Elt Ideal)) :
    after (ops (F := Ideal)) V (Proc.devRef .tc main_v31)
      = RefVal.lin256 (after (ops (F := Ideal)) V (Proc.devRef .tc main_arg0)) (after (ops (F := Ideal)) V (Proc.devRef .tc main_arg12)) (after (ops (F := Ideal)) V (Proc.devRef .tc main_arg2)) := by
  rw [after_segment writesAre 36 3 V (y := main_v31) (by decide),
    seg_v31,
    segval_v31 _,
    after_take_at_unwritten writesAre 36 V (a := main_arg0) (by decide),
    after_take_at_unwritten writesAre 36 V (a := main_arg12) (by decide),
    after_take_at_unwritten writesAre 36 V (a := main_arg2) (by decide)]

/-! ## Layer 0's neighbour aggregation (operations 39 to 53) -/

/-- The 15 operations from position 39: layer 0's neighbour aggregation. -/
abbrev segL_v43 : List (HloOp τ sig (Elt F)) :=
  [ nullary main_c_5 (constantI S_ 32 0#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    unary main_v26 main_v39 (broadcastInDim S800000x256 ![0, 1] bcast_S800000x1_S800000x256_0_1 : (⟨S800000x1, .f32⟩ : BufTy).Contents (Elt F) → (⟨S800000x256, .f32⟩ : BufTy).Contents (Elt F)),
    binary main_v38 main_v39 main_v40 (mulf : (⟨S800000x256, .f32⟩ : BufTy).Contents (Elt F) → (⟨S800000x256, .f32⟩ : BufTy).Contents (Elt F) → (⟨S800000x256, .f32⟩ : BufTy).Contents (Elt F)),
    nullary main_cst_7 (constant S_ .f32 0x00000000#32),
    unary main_cst_7 main_v41 (broadcastInDim S100000x256 ![] bcast_S_S100000x256 : (⟨S_, .f32⟩ : BufTy).Contents (Elt F) → (⟨S100000x256, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)) ]

/-- They are the line's operations at positions 39 to 53. -/
theorem seg_v43 : ((ops (F := F)).drop 39).take 15 = segL_v43 := rfl

set_option maxHeartbeats 1000000 in
/-- Run from any contents, the segment leaves at its result the stage's function of what it found at the references it reads. -/
theorem segval_v43 (W : Valuation τ sig (Elt Ideal)) (ei : IVec S2x800000 32)
    (h1 : W (Proc.devRef .tc main_v1) = RefVal.src ei)
    (h3 : W (Proc.devRef .tc main_v3) = RefVal.dst ei)
    (h26 : W (Proc.devRef .tc main_v26) = RefVal.coefc ei) :
    after (segL_v43 (F := Ideal)) W (Proc.devRef .tc main_v43)
      = RefVal.agg256 (W (Proc.devRef .tc main_v31)) ei := by
  after_results_simp
  rw [h1, h3, h26]
  rfl

/-- After the whole line, from any contents: the stage's equation between the final contents of its result and of the references it reads. -/
theorem v43_eq (V : Valuation τ sig (Elt Ideal)) (ei : IVec S2x800000 32)
    (h1 : after (ops (F := Ideal)) V (Proc.devRef .tc main_v1) = RefVal.src ei)
    (h3 : after (ops (F := Ideal)) V (Proc.devRef .tc main_v3) = RefVal.dst ei)
    (h26 : after (ops (F := Ideal)) V (Proc.devRef .tc main_v26) = RefVal.coefc ei) :
    after (ops (F := Ideal)) V (Proc.devRef .tc main_v43)
      = RefVal.agg256 (after (ops (F := Ideal)) V (Proc.devRef .tc main_v31)) ei := by
  rw [after_segment writesAre 39 15 V (y := main_v43) (by decide),
    seg_v43,
    segval_v43 _ ei
      ((after_take_at_unwritten writesAre 39 V (a := main_v1) (by decide)).trans h1)
      ((after_take_at_unwritten writesAre 39 V (a := main_v3) (by decide)).trans h3)
      ((after_take_at_unwritten writesAre 39 V (a := main_v26) (by decide)).trans h26),
    after_take_at_unwritten writesAre 39 V (a := main_v31) (by decide)]

/-! ## Layer 0's combine step (operations 54 to 59) -/

/-- The 6 operations from position 54: aggregate plus self term plus bias. -/
abbrev segL_v49 : List (HloOp τ sig (Elt F)) :=
  [ unary main_v28 main_v44 (broadcastInDim S100000x256 ![0, 1] bcast_S100000x1_S100000x256_0_1 : (⟨S100000x1, .f32⟩ : BufTy).Contents (Elt F) → (⟨S100000x256, .f32⟩ : BufTy).Contents (Elt F)),
    binary main_v31 main_v44 main_v45 (mulf : (⟨S100000x256, .f32⟩ : BufTy).Contents (Elt F) → (⟨S100000x256, .f32⟩ : BufTy).Contents (Elt F) → (⟨S100000x256, .f32⟩ : BufTy).Contents (Elt F)),
    binary main_v43 main_v45 main_v46 (addf : (⟨S100000x256, .f32⟩ : BufTy).Contents (Elt F) → (⟨S100000x256, .f32⟩ : BufTy).Contents (Elt F) → (⟨S100000x256, .f32⟩ : BufTy).Contents (Elt F)),
    unary main_arg3 main_v47 (broadcastInDim S1x256 ![1] bcast_S256_S1x256_1 : (⟨S256, .f32⟩ : BufTy).Contents (Elt F) → (⟨S1x256, .f32⟩ : BufTy).Contents (Elt F)),
    unary main_v47 main_v48 (broadcastInDim S100000x256 ![0, 1] bcast_S1x256_S100000x256_0_1 : (⟨S1x256, .f32⟩ : BufTy).Contents (Elt F) → (⟨S100000x256, .f32⟩ : BufTy).Contents (Elt F)),
    binary main_v46 main_v48 main_v49 (addf : (⟨S100000x256, .f32⟩ : BufTy).Contents (Elt F) → (⟨S100000x256, .f32⟩ : BufTy).Contents (Elt F) → (⟨S100000x256, .f32⟩ : BufTy).Contents (Elt F)) ]

/-- They are the line's operations at positions 54 to 59. -/
theorem seg_v49 : ((ops (F := F)).drop 54).take 6 = segL_v49 := rfl

set_option maxHeartbeats 1000000 in
/-- Run from any contents, the segment leaves at its result the stage's function of what it found at the references it reads. -/
theorem segval_v49 (W : Valuation τ sig (Elt Ideal)) (ei : IVec S2x800000 32)
    (h28 : W (Proc.devRef .tc main_v28) = RefVal.selfc ei) :
    after (segL_v49 (F := Ideal)) W (Proc.devRef .tc main_v49)
      = RefVal.comb256 (W (Proc.devRef .tc main_v43)) (W (Proc.devRef .tc main_v31)) (RefVal.selfc ei) (W (Proc.devRef .tc main_arg3)) := by
  after_results_simp
  rw [h28]
  rfl

/-- After the whole line, from any contents: the stage's equation between the final contents of its result and of the references it reads. -/
theorem v49_eq (V : Valuation τ sig (Elt Ideal)) (ei : IVec S2x800000 32)
    (h28 : after (ops (F := Ideal)) V (Proc.devRef .tc main_v28) = RefVal.selfc ei) :
    after (ops (F := Ideal)) V (Proc.devRef .tc main_v49)
      = RefVal.comb256 (after (ops (F := Ideal)) V (Proc.devRef .tc main_v43)) (after (ops (F := Ideal)) V (Proc.devRef .tc main_v31)) (RefVal.selfc ei) (after (ops (F := Ideal)) V (Proc.devRef .tc main_arg3)) := by
  rw [after_segment writesAre 54 6 V (y := main_v49) (by decide),
    seg_v49,
    segval_v49 _ ei
      ((after_take_at_unwritten writesAre 54 V (a := main_v28) (by decide)).trans h28),
    after_take_at_unwritten writesAre 54 V (a := main_v43) (by decide),
    after_take_at_unwritten writesAre 54 V (a := main_v31) (by decide),
    after_take_at_unwritten writesAre 54 V (a := main_arg3) (by decide)]

/-! ## Layer 0's batch normalisation and rectifier (operations 60 to 92) -/

/-- The 33 operations from position 60: layer 0's batch normalisation and rectifier. -/
abbrev segL_v75 : List (HloOp τ sig (Elt F)) :=
  [ nullary main_cst_8 (constant S_ .f32 0x00000000#32),
    binary main_v49 main_cst_8 main_v50 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_9 (constant S_ .f32 0x47C35000#32),
    unary main_cst_9 main_v51 (broadcastInDim S256 ![] bcast_S_S256 : (⟨S_, .f32⟩ : BufTy).Contents (Elt F) → (⟨S256, .f32⟩ : BufTy).Contents (Elt F)),
    binary main_v50 main_v51 main_v52 (Host.divf : (⟨S256, .f32⟩ : BufTy).Contents (Elt F) → (⟨S256, .f32⟩ : BufTy).Contents (Elt F) → (⟨S256, .f32⟩ : BufTy).Contents (Elt F)),
    unary main_v52 main_v53 (broadcastInDim S1x256 ![1] bcast_S256_S1x256_1 : (⟨S256, .f32⟩ : BufTy).Contents (Elt F) → (⟨S1x256, .f32⟩ : BufTy).Contents (Elt F)),
    unary main_v53 main_v54 (broadcastInDim S100000x256 ![0, 1] bcast_S1x256_S100000x256_0_1 : (⟨S1x256, .f32⟩ : BufTy).Contents (Elt F) → (⟨S100000x256, .f32⟩ : BufTy).Contents (Elt F)),
    binary main_v49 main_v54 main_v55 (subf : (⟨S100000x256, .f32⟩ : BufTy).Contents (Elt F) → (⟨S100000x256, .f32⟩ : BufTy).Contents (Elt F) → (⟨S100000x256, .f32⟩ : BufTy).Contents (Elt F)),
    binary main_v55 main_v55 main_v56 (mulf : (⟨S100000x256, .f32⟩ : BufTy).Contents (Elt F) → (⟨S100000x256, .f32⟩ : BufTy).Contents (Elt F) → (⟨S100000x256, .f32⟩ : BufTy).Contents (Elt F)),
    nullary main_cst_10 (constant S_ .f32 0x00000000#32),
    binary main_v56 main_cst_10 main_v57 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_11 (constant S_ .f32 0x47C35000#32),
    unary main_cst_11 main_v58 (broadcastInDim S256 ![] bcast_S_S256 : (⟨S_, .f32⟩ : BufTy).Contents (Elt F) → (⟨S256, .f32⟩ : BufTy).Contents (Elt F)),
    binary main_v57 main_v58 main_v59 (Host.divf : (⟨S256, .f32⟩ : BufTy).Contents (Elt F) → (⟨S256, .f32⟩ : BufTy).Contents (Elt F) → (⟨S256, .f32⟩ : BufTy).Contents (Elt F)),
    unary main_v52 main_v60 (broadcastInDim S1x256 ![1] bcast_S256_S1x256_1 : (⟨S256, .f32⟩ : BufTy).Contents (Elt F) → (⟨S1x256, .f32⟩ : BufTy).Contents (Elt F)),
    unary main_v60 main_v61 (broadcastInDim S100000x256 ![0, 1] bcast_S1x256_S100000x256_0_1 : (⟨S1x256, .f32⟩ : BufTy).Contents (Elt F) → (⟨S100000x256, .f32⟩ : BufTy).Contents (Elt F)),
    binary main_v49 main_v61 main_v62 (subf : (⟨S100000x256, .f32⟩ : BufTy).Contents (Elt F) → (⟨S100000x256, .f32⟩ : BufTy).Contents (Elt F) → (⟨S100000x256, .f32⟩ : BufTy).Contents (Elt F)),
    nullary main_cst_12 (constant S_ .f32 0x3727C5AC#32),
    unary main_cst_12 main_v63 (broadcastInDim S256 ![] bcast_S_S256 : (⟨S_, .f32⟩ : BufTy).Contents (Elt F) → (⟨S256, .f32⟩ : BufTy).Contents (Elt F)),
    binary main_v59 main_v63 main_v64 (addf : (⟨S256, .f32⟩ : BufTy).Contents (Elt F) → (⟨S256, .f32⟩ : BufTy).Contents (Elt F) → (⟨S256, .f32⟩ : BufTy).Contents (Elt F)),
    unary main_v64 main_v65 (Host.rsqrt : (⟨S256, .f32⟩ : BufTy).Contents (Elt F) → (⟨S256, .f32⟩ : BufTy).Contents (Elt F)),
    unary main_v65 main_v66 (broadcastInDim S1x256 ![1] bcast_S256_S1x256_1 : (⟨S256, .f32⟩ : BufTy).Contents (Elt F) → (⟨S1x256, .f32⟩ : BufTy).Contents (Elt F)),
    unary main_v66 main_v67 (broadcastInDim S100000x256 ![0, 1] bcast_S1x256_S100000x256_0_1 : (⟨S1x256, .f32⟩ : BufTy).Contents (Elt F) → (⟨S100000x256, .f32⟩ : BufTy).Contents (Elt F)),
    binary main_v62 main_v67 main_v68 (mulf : (⟨S100000x256, .f32⟩ : BufTy).Contents (Elt F) → (⟨S100000x256, .f32⟩ : BufTy).Contents (Elt F) → (⟨S100000x256, .f32⟩ : BufTy).Contents (Elt F)),
    unary main_arg8 main_v69 (broadcastInDim S1x256 ![1] bcast_S256_S1x256_1 : (⟨S256, .f32⟩ : BufTy).Contents (Elt F) → (⟨S1x256, .f32⟩ : BufTy).Contents (Elt F)),
    unary main_v69 main_v70 (broadcastInDim S100000x256 ![0, 1] bcast_S1x256_S100000x256_0_1 : (⟨S1x256, .f32⟩ : BufTy).Contents (Elt F) → (⟨S100000x256, .f32⟩ : BufTy).Contents (Elt F)),
    binary main_v68 main_v70 main_v71 (mulf : (⟨S100000x256, .f32⟩ : BufTy).Contents (Elt F) → (⟨S100000x256, .f32⟩ : BufTy).Contents (Elt F) → (⟨S100000x256, .f32⟩ : BufTy).Contents (Elt F)),
    unary main_arg9 main_v72 (broadcastInDim S1x256 ![1] bcast_S256_S1x256_1 : (⟨S256, .f32⟩ : BufTy).Contents (Elt F) → (⟨S1x256, .f32⟩ : BufTy).Contents (Elt F)),
    unary main_v72 main_v73 (broadcastInDim S100000x256 ![0, 1] bcast_S1x256_S100000x256_0_1 : (⟨S1x256, .f32⟩ : BufTy).Contents (Elt F) → (⟨S100000x256, .f32⟩ : BufTy).Contents (Elt F)),
    binary main_v71 main_v73 main_v74 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v74) (TRef.of (T := ⟨S100000x256, .f32⟩) main_call0_v0) (TRef.of (T := ⟨S100000x256, .f32⟩) main_v75) maximumf ]

/-- They are the line's operations at positions 60 to 92. -/
theorem seg_v75 : ((ops (F := F)).drop 60).take 33 = segL_v75 := rfl

set_option maxHeartbeats 1000000 in
/-- Run from any contents, the segment leaves at its result the stage's function of what it found at the references it reads. -/
theorem segval_v75 (W : Valuation τ sig (Elt Ideal)) :
    after (segL_v75 (F := Ideal)) W (Proc.devRef .tc main_v75)
      = RefVal.bnRelu (W (Proc.devRef .tc main_v49)) (W (Proc.devRef .tc main_arg8)) (W (Proc.devRef .tc main_arg9)) := by
  after_results_simp
  simp only [Cert.Lib.TypedRef.ofBuf_toBuf]
  rfl

/-- After the whole line, from any contents: the stage's equation between the final contents of its result and of the references it reads. -/
theorem v75_eq (V : Valuation τ sig (Elt Ideal)) :
    after (ops (F := Ideal)) V (Proc.devRef .tc main_v75)
      = RefVal.bnRelu (after (ops (F := Ideal)) V (Proc.devRef .tc main_v49)) (after (ops (F := Ideal)) V (Proc.devRef .tc main_arg8)) (after (ops (F := Ideal)) V (Proc.devRef .tc main_arg9)) := by
  rw [after_segment writesAre 60 33 V (y := main_v75) (by decide),
    seg_v75,
    segval_v75 _,
    after_take_at_unwritten writesAre 60 V (a := main_v49) (by decide),
    after_take_at_unwritten writesAre 60 V (a := main_arg8) (by decide),
    after_take_at_unwritten writesAre 60 V (a := main_arg9) (by decide)]

/-! ## The virtual node's first update (operations 93 to 129) -/

/-- The 37 operations from position 93: pooled features plus the old row, through the linear map, normalised and rectified. -/
abbrev segL_v104 : List (HloOp τ sig (Elt F)) :=
  [ nullary main_cst_13 (constant S_ .f32 0x00000000#32),
    binary main_v75 main_cst_13 main_v76 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    unary main_v76 main_v77 (broadcastInDim S1x256 ![1] bcast_S256_S1x256_1 : (⟨S256, .f32⟩ : BufTy).Contents (Elt F) → (⟨S1x256, .f32⟩ : BufTy).Contents (Elt F)),
    binary main_v77 main_arg12 main_v78 (addf : (⟨S1x256, .f32⟩ : BufTy).Contents (Elt F) → (⟨S1x256, .f32⟩ : BufTy).Contents (Elt F) → (⟨S1x256, .f32⟩ : BufTy).Contents (Elt F)),
    binary main_v78 main_arg13 main_v79 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg14 main_v80 (broadcastInDim S1x256 ![1] bcast_S256_S1x256_1 : (⟨S256, .f32⟩ : BufTy).Contents (Elt F) → (⟨S1x256, .f32⟩ : BufTy).Contents (Elt F)),
    binary main_v79 main_v80 main_v81 (addf : (⟨S1x256, .f32⟩ : BufTy).Contents (Elt F) → (⟨S1x256, .f32⟩ : BufTy).Contents (Elt F) → (⟨S1x256, .f32⟩ : BufTy).Contents (Elt F)),
    nullary main_cst_14 (constant S_ .f32 0x00000000#32),
    binary main_v81 main_cst_14 main_v82 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v82 main_v83 (broadcastInDim S1x1 ![0] bcast_S1_S1x1_0 : (⟨S1, .f32⟩ : BufTy).Contents (Elt F) → (⟨S1x1, .f32⟩ : BufTy).Contents (Elt F)),
    nullary main_cst_15 (constant S_ .f32 0x43800000#32),
    unary main_cst_15 main_v84 (broadcastInDim S1x1 ![] bcast_S_S1x1 : (⟨S_, .f32⟩ : BufTy).Contents (Elt F) → (⟨S1x1, .f32⟩ : BufTy).Contents (Elt F)),
    binary main_v83 main_v84 main_v85 (Host.divf : (⟨S1x1, .f32⟩ : BufTy).Contents (Elt F) → (⟨S1x1, .f32⟩ : BufTy).Contents (Elt F) → (⟨S1x1, .f32⟩ : BufTy).Contents (Elt F)),
    unary main_v85 main_v86 (broadcastInDim S1x256 ![0, 1] bcast_S1x1_S1x256_0_1 : (⟨S1x1, .f32⟩ : BufTy).Contents (Elt F) → (⟨S1x256, .f32⟩ : BufTy).Contents (Elt F)),
    binary main_v81 main_v86 main_v87 (subf : (⟨S1x256, .f32⟩ : BufTy).Contents (Elt F) → (⟨S1x256, .f32⟩ : BufTy).Contents (Elt F) → (⟨S1x256, .f32⟩ : BufTy).Contents (Elt F)),
    binary main_v87 main_v87 main_v88 (mulf : (⟨S1x256, .f32⟩ : BufTy).Contents (Elt F) → (⟨S1x256, .f32⟩ : BufTy).Contents (Elt F) → (⟨S1x256, .f32⟩ : BufTy).Contents (Elt F)),
    nullary main_cst_16 (constant S_ .f32 0x00000000#32),
    binary main_v88 main_cst_16 main_v89 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v89 main_v90 (broadcastInDim S1x1 ![0] bcast_S1_S1x1_0 : (⟨S1, .f32⟩ : BufTy).Contents (Elt F) → (⟨S1x1, .f32⟩ : BufTy).Contents (Elt F)),
    nullary main_cst_17 (constant S_ .f32 0x43800000#32),
    unary main_cst_17 main_v91 (broadcastInDim S1x1 ![] bcast_S_S1x1 : (⟨S_, .f32⟩ : BufTy).Contents (Elt F) → (⟨S1x1, .f32⟩ : BufTy).Contents (Elt F)),
    binary main_v90 main_v91 main_v92 (Host.divf : (⟨S1x1, .f32⟩ : BufTy).Contents (Elt F) → (⟨S1x1, .f32⟩ : BufTy).Contents (Elt F) → (⟨S1x1, .f32⟩ : BufTy).Contents (Elt F)),
    unary main_v85 main_v93 (broadcastInDim S1x256 ![0, 1] bcast_S1x1_S1x256_0_1 : (⟨S1x1, .f32⟩ : BufTy).Contents (Elt F) → (⟨S1x256, .f32⟩ : BufTy).Contents (Elt F)),
    binary main_v81 main_v93 main_v94 (subf : (⟨S1x256, .f32⟩ : BufTy).Contents (Elt F) → (⟨S1x256, .f32⟩ : BufTy).Contents (Elt F) → (⟨S1x256, .f32⟩ : BufTy).Contents (Elt F)),
    nullary main_cst_18 (constant S_ .f32 0x3727C5AC#32),
    unary main_cst_18 main_v95 (broadcastInDim S1x1 ![] bcast_S_S1x1 : (⟨S_, .f32⟩ : BufTy).Contents (Elt F) → (⟨S1x1, .f32⟩ : BufTy).Contents (Elt F)),
    binary main_v92 main_v95 main_v96 (addf : (⟨S1x1, .f32⟩ : BufTy).Contents (Elt F) → (⟨S1x1, .f32⟩ : BufTy).Contents (Elt F) → (⟨S1x1, .f32⟩ : BufTy).Contents (Elt F)),
    unary main_v96 main_v97 (Host.rsqrt : (⟨S1x1, .f32⟩ : BufTy).Contents (Elt F) → (⟨S1x1, .f32⟩ : BufTy).Contents (Elt F)),
    unary main_v97 main_v98 (broadcastInDim S1x256 ![0, 1] bcast_S1x1_S1x256_0_1 : (⟨S1x1, .f32⟩ : BufTy).Contents (Elt F) → (⟨S1x256, .f32⟩ : BufTy).Contents (Elt F)),
    binary main_v94 main_v98 main_v99 (mulf : (⟨S1x256, .f32⟩ : BufTy).Contents (Elt F) → (⟨S1x256, .f32⟩ : BufTy).Contents (Elt F) → (⟨S1x256, .f32⟩ : BufTy).Contents (Elt F)),
    unary main_arg15 main_v100 (broadcastInDim S1x256 ![1] bcast_S256_S1x256_1 : (⟨S256, .f32⟩ : BufTy).Contents (Elt F) → (⟨S1x256, .f32⟩ : BufTy).Contents (Elt F)),
    binary main_v99 main_v100 main_v101 (mulf : (⟨S1x256, .f32⟩ : BufTy).Contents (Elt F) → (⟨S1x256, .f32⟩ : BufTy).Contents (Elt F) → (⟨S1x256, .f32⟩ : BufTy).Contents (Elt F)),
    unary main_arg16 main_v102 (broadcastInDim S1x256 ![1] bcast_S256_S1x256_1 : (⟨S256, .f32⟩ : BufTy).Contents (Elt F) → (⟨S1x256, .f32⟩ : BufTy).Contents (Elt F)),
    binary main_v101 main_v102 main_v103 (addf : (⟨S1x256, .f32⟩ : BufTy).Contents (Elt F) → (⟨S1x256, .f32⟩ : BufTy).Contents (Elt F) → (⟨S1x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x256, .f32⟩) main_call1_v0) (broadcastInDim S1x256 ![] bcast_S_S1x256),
    TRef.binary (TRef.of (T := ⟨S1x256, .f32⟩) main_v103) (TRef.of (T := ⟨S1x256, .f32⟩) main_call1_v0) (TRef.of (T := ⟨S1x256, .f32⟩) main_v104) maximumf ]

/-- They are the line's operations at positions 93 to 129. -/
theorem seg_v104 : ((ops (F := F)).drop 93).take 37 = segL_v104 := rfl

set_option maxHeartbeats 1000000 in
/-- Run from any contents, the segment leaves at its result the stage's function of what it found at the references it reads. -/
theorem segval_v104 (W : Valuation τ sig (Elt Ideal)) :
    after (segL_v104 (F := Ideal)) W (Proc.devRef .tc main_v104)
      = RefVal.vn (RefVal.pool (W (Proc.devRef .tc main_v75))) (W (Proc.devRef .tc main_arg12)) (W (Proc.devRef .tc main_arg13)) (W (Proc.devRef .tc main_arg14)) (W (Proc.devRef .tc main_arg15)) (W (Proc.devRef .tc main_arg16)) := by
  after_results_simp
  simp only [Cert.Lib.TypedRef.ofBuf_toBuf]
  rfl

/-- After the whole line, from any contents: the stage's equation between the final contents of its result and of the references it reads. -/
theorem v104_eq (V : Valuation τ sig (Elt Ideal)) :
    after (ops (F := Ideal)) V (Proc.devRef .tc main_v104)
      = RefVal.vn (RefVal.pool (after (ops (F := Ideal)) V (Proc.devRef .tc main_v75))) (after (ops (F := Ideal)) V (Proc.devRef .tc main_arg12)) (after (ops (F := Ideal)) V (Proc.devRef .tc main_arg13)) (after (ops (F := Ideal)) V (Proc.devRef .tc main_arg14)) (after (ops (F := Ideal)) V (Proc.devRef .tc main_arg15)) (after (ops (F := Ideal)) V (Proc.devRef .tc main_arg16)) := by
  rw [after_segment writesAre 93 37 V (y := main_v104) (by decide),
    seg_v104,
    segval_v104 _,
    after_take_at_unwritten writesAre 93 V (a := main_v75) (by decide),
    after_take_at_unwritten writesAre 93 V (a := main_arg12) (by decide),
    after_take_at_unwritten writesAre 93 V (a := main_arg13) (by decide),
    after_take_at_unwritten writesAre 93 V (a := main_arg14) (by decide),
    after_take_at_unwritten writesAre 93 V (a := main_arg15) (by decide),
    after_take_at_unwritten writesAre 93 V (a := main_arg16) (by decide)]

end Cert.ReferenceIdeal.ValueP

end
-- ==== Proof.RefRunB.lean ====
/-
  The reference program's run, read back stage by stage: layers 1 and 2.

  The line of 263 host operations is in single-assignment form, so each stage — a block of consecutive operations — can
  be read on its own: run from whatever the earlier operations left, the block leaves at its result the stage's function
  (the whole-array functions of RefVal.lean) of the contents of the few references it reads; and since no later operation
  writes those references or the result, the same equation holds between the FINAL contents. Chaining the stages'
  equations in program order gives the final contents of the returned value as `RefVal.out` of the arguments.
-/
import proofs.«161332_j44100724195822_1_alg».proof.Proof.RefRunBase
import proofs.«161332_j44100724195822_1_alg».proof.Proof.RefRunW
import proofs.«161332_j44100724195822_1_alg».proof.Proof.RefVal
import proofs.«161332_j44100724195822_1_alg».proof.Proof.LibAfterAssign
import proofs.«161332_j44100724195822_1_alg».proof.Proof.LibAfterSegment
import proofs.«161332_j44100724195822_1_alg».proof.Proof.LibTypedRef

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-- A reference no operation writes (an argument) holds, after the whole line, its launch contents. -/
theorem arg_final (m : (ℓ : Loc nD τ sig) → Buf (Elt F) ℓ) (c : Dev nD) {r : Ref sig .tc} (hr : r ∉ ws) :
    after (ops (F := F)) (launchContents m c) (Proc.devRef .tc r) = m ((c.tc : Thread nD τ).loc r) :=
  after_of_not_written writesAre _ hr

/-! ## Layer 1's linear step (operations 130 to 132) -/

/-- The 3 operations from position 130: layer 1's linear step: the features shifted by the virtual-node row, times the weights. -/
abbrev segL_v107 : List (HloOp τ sig (Elt F)) :=
  [
    unary main_v104 main_v105 (broadcastInDim S100000x256 ![0, 1] bcast_S1x256_S100000x256_0_1 : (⟨S1x256, .f32⟩ : BufTy).Contents (Elt F) → (⟨S100000x256, .f32⟩ : BufTy).Contents (Elt F)),
    binary main_v75 main_v105 main_v106 (addf : (⟨S100000x256, .f32⟩ : BufTy).Contents (Elt F) → (⟨S100000x256, .f32⟩ : BufTy).Contents (Elt F) → (⟨S100000x256, .f32⟩ : BufTy).Contents (Elt F)),
    binary main_v106 main_arg4 main_v107 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)) ]

/-- They are the line's operations at positions 130 to 132. -/
theorem seg_v107 : ((ops (F := F)).drop 130).take 3 = segL_v107 := rfl

/-- Run from any contents, the segment leaves at its result the stage's function of what it found at the references it reads. -/
theorem segval_v107 (W : Valuation τ sig (Elt Ideal)) :
    after (segL_v107 (F := Ideal)) W (Proc.devRef .tc main_v107)
      = RefVal.lin256 (W (Proc.devRef .tc main_v75)) (W (Proc.devRef .tc main_v104)) (W (Proc.devRef .tc main_arg4)) := by
  after_results_simp
  rfl

/-- After the whole line, from any contents: the stage's equation between the final contents of its result and of the references it reads. -/
theorem v107_eq (V : Valuation τ sig (Elt Ideal)) :
    after (ops (F := Ideal)) V (Proc.devRef .tc main_v107)
      = RefVal.lin256 (after (ops (F := Ideal)) V (Proc.devRef .tc main_v75)) (after (ops (F := Ideal)) V (Proc.devRef .tc main_v104)) (after (ops (F := Ideal)) V (Proc.devRef .tc main_arg4)) := by
  rw [after_segment writesAre 130 3 V (y := main_v107) (by decide), seg_v107,
    segval_v107 _,
    after_take_at_unwritten writesAre 130 V (a := main_v104) (by decide),
    after_take_at_unwritten writesAre 130 V (a := main_v75) (by decide),
    after_take_at_unwritten writesAre 130 V (a := main_arg4) (by decide)]

/-! ## Layer 1's neighbour aggregation (operations 133 to 147) -/

/-- The 15 operations from position 133: layer 1's neighbour aggregation. -/
abbrev segL_v119 : List (HloOp τ sig (Elt F)) :=
  [
    nullary main_c_19 (constantI S_ 32 0#32),
    unary main_c_19 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_20 (constantI S_ 32 100000#32),
    unary main_c_20 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v107 main_v113 main_v114 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    unary main_v26 main_v115 (broadcastInDim S800000x256 ![0, 1] bcast_S800000x1_S800000x256_0_1 : (⟨S800000x1, .f32⟩ : BufTy).Contents (Elt F) → (⟨S800000x256, .f32⟩ : BufTy).Contents (Elt F)),
    binary main_v114 main_v115 main_v116 (mulf : (⟨S800000x256, .f32⟩ : BufTy).Contents (Elt F) → (⟨S800000x256, .f32⟩ : BufTy).Contents (Elt F) → (⟨S800000x256, .f32⟩ : BufTy).Contents (Elt F)),
    nullary main_cst_21 (constant S_ .f32 0x00000000#32),
    unary main_cst_21 main_v117 (broadcastInDim S100000x256 ![] bcast_S_S100000x256 : (⟨S_, .f32⟩ : BufTy).Contents (Elt F) → (⟨S100000x256, .f32⟩ : BufTy).Contents (Elt F)),
    unary main_v3 main_v118 (broadcastInDim S800000x1 ![0] bcast_S800000_S800000x1_0 : (⟨S800000, .i32⟩ : BufTy).Contents (Elt F) → (⟨S800000x1, .i32⟩ : BufTy).Contents (Elt F)),
    ternary main_v117 main_v118 main_v116 main_v119 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)) ]

/-- They are the line's operations at positions 133 to 147. -/
theorem seg_v119 : ((ops (F := F)).drop 133).take 15 = segL_v119 := rfl

/-- Run from any contents, the segment leaves at its result the stage's function of what it found at the references it reads. -/
theorem segval_v119 (W : Valuation τ sig (Elt Ideal)) (ei : IVec S2x800000 32)
    (h1 : W (Proc.devRef .tc main_v1) = RefVal.src ei)
    (h3 : W (Proc.devRef .tc main_v3) = RefVal.dst ei)
    (h26 : W (Proc.devRef .tc main_v26) = RefVal.coefc ei) :
    after (segL_v119 (F := Ideal)) W (Proc.devRef .tc main_v119)
      = RefVal.agg256 (W (Proc.devRef .tc main_v107)) ei := by
  after_results_simp
  rw [h1, h3, h26]
  rfl

/-- After the whole line, from any contents: the stage's equation between the final contents of its result and of the references it reads. -/
theorem v119_eq (V : Valuation τ sig (Elt Ideal)) (ei : IVec S2x800000 32)
    (h1 : after (ops (F := Ideal)) V (Proc.devRef .tc main_v1) = RefVal.src ei)
    (h3 : after (ops (F := Ideal)) V (Proc.devRef .tc main_v3) = RefVal.dst ei)
    (h26 : after (ops (F := Ideal)) V (Proc.devRef .tc main_v26) = RefVal.coefc ei) :
    after (ops (F := Ideal)) V (Proc.devRef .tc main_v119)
      = RefVal.agg256 (after (ops (F := Ideal)) V (Proc.devRef .tc main_v107)) ei := by
  rw [after_segment writesAre 133 15 V (y := main_v119) (by decide), seg_v119,
    segval_v119 _ ei
      ((after_take_at_unwritten writesAre 133 V (a := main_v1) (by decide)).trans h1)
      ((after_take_at_unwritten writesAre 133 V (a := main_v3) (by decide)).trans h3)
      ((after_take_at_unwritten writesAre 133 V (a := main_v26) (by decide)).trans h26),
    after_take_at_unwritten writesAre 133 V (a := main_v107) (by decide)]

/-! ## Layer 1's combine step (operations 148 to 153) -/

/-- The 6 operations from position 148: layer 1's combine step: aggregate plus self term plus bias. -/
abbrev segL_v125 : List (HloOp τ sig (Elt F)) :=
  [
    unary main_v28 main_v120 (broadcastInDim S100000x256 ![0, 1] bcast_S100000x1_S100000x256_0_1 : (⟨S100000x1, .f32⟩ : BufTy).Contents (Elt F) → (⟨S100000x256, .f32⟩ : BufTy).Contents (Elt F)),
    binary main_v107 main_v120 main_v121 (mulf : (⟨S100000x256, .f32⟩ : BufTy).Contents (Elt F) → (⟨S100000x256, .f32⟩ : BufTy).Contents (Elt F) → (⟨S100000x256, .f32⟩ : BufTy).Contents (Elt F)),
    binary main_v119 main_v121 main_v122 (addf : (⟨S100000x256, .f32⟩ : BufTy).Contents (Elt F) → (⟨S100000x256, .f32⟩ : BufTy).Contents (Elt F) → (⟨S100000x256, .f32⟩ : BufTy).Contents (Elt F)),
    unary main_arg5 main_v123 (broadcastInDim S1x256 ![1] bcast_S256_S1x256_1 : (⟨S256, .f32⟩ : BufTy).Contents (Elt F) → (⟨S1x256, .f32⟩ : BufTy).Contents (Elt F)),
    unary main_v123 main_v124 (broadcastInDim S100000x256 ![0, 1] bcast_S1x256_S100000x256_0_1 : (⟨S1x256, .f32⟩ : BufTy).Contents (Elt F) → (⟨S100000x256, .f32⟩ : BufTy).Contents (Elt F)),
    binary main_v122 main_v124 main_v125 (addf : (⟨S100000x256, .f32⟩ : BufTy).Contents (Elt F) → (⟨S100000x256, .f32⟩ : BufTy).Contents (Elt F) → (⟨S100000x256, .f32⟩ : BufTy).Contents (Elt F)) ]

/-- They are the line's operations at positions 148 to 153. -/
theorem seg_v125 : ((ops (F := F)).drop 148).take 6 = segL_v125 := rfl

/-- Run from any contents, the segment leaves at its result the stage's function of what it found at the references it reads. -/
theorem segval_v125 (W : Valuation τ sig (Elt Ideal)) (ei : IVec S2x800000 32)
    (h28 : W (Proc.devRef .tc main_v28) = RefVal.selfc ei) :
    after (segL_v125 (F := Ideal)) W (Proc.devRef .tc main_v125)
      = RefVal.comb256 (W (Proc.devRef .tc main_v119)) (W (Proc.devRef .tc main_v107)) (RefVal.selfc ei) (W (Proc.devRef .tc main_arg5)) := by
  after_results_simp
  rw [h28]
  rfl

/-- After the whole line, from any contents: the stage's equation between the final contents of its result and of the references it reads. -/
theorem v125_eq (V : Valuation τ sig (Elt Ideal)) (ei : IVec S2x800000 32)
    (h28 : after (ops (F := Ideal)) V (Proc.devRef .tc main_v28) = RefVal.selfc ei) :
    after (ops (F := Ideal)) V (Proc.devRef .tc main_v125)
      = RefVal.comb256 (after (ops (F := Ideal)) V (Proc.devRef .tc main_v119)) (after (ops (F := Ideal)) V (Proc.devRef .tc main_v107)) (RefVal.selfc ei) (after (ops (F := Ideal)) V (Proc.devRef .tc main_arg5)) := by
  rw [after_segment writesAre 148 6 V (y := main_v125) (by decide), seg_v125,
    segval_v125 _ ei
      ((after_take_at_unwritten writesAre 148 V (a := main_v28) (by decide)).trans h28),
    after_take_at_unwritten writesAre 148 V (a := main_v107) (by decide),
    after_take_at_unwritten writesAre 148 V (a := main_v119) (by decide),
    after_take_at_unwritten writesAre 148 V (a := main_arg5) (by decide)]

/-! ## Layer 1's batch normalisation and rectifier (operations 154 to 186) -/

/-- The 33 operations from position 154: layer 1's batch normalisation and rectifier. -/
abbrev segL_v151 : List (HloOp τ sig (Elt F)) :=
  [
    nullary main_cst_22 (constant S_ .f32 0x00000000#32),
    binary main_v125 main_cst_22 main_v126 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_23 (constant S_ .f32 0x47C35000#32),
    unary main_cst_23 main_v127 (broadcastInDim S256 ![] bcast_S_S256 : (⟨S_, .f32⟩ : BufTy).Contents (Elt F) → (⟨S256, .f32⟩ : BufTy).Contents (Elt F)),
    binary main_v126 main_v127 main_v128 (Host.divf : (⟨S256, .f32⟩ : BufTy).Contents (Elt F) → (⟨S256, .f32⟩ : BufTy).Contents (Elt F) → (⟨S256, .f32⟩ : BufTy).Contents (Elt F)),
    unary main_v128 main_v129 (broadcastInDim S1x256 ![1] bcast_S256_S1x256_1 : (⟨S256, .f32⟩ : BufTy).Contents (Elt F) → (⟨S1x256, .f32⟩ : BufTy).Contents (Elt F)),
    unary main_v129 main_v130 (broadcastInDim S100000x256 ![0, 1] bcast_S1x256_S100000x256_0_1 : (⟨S1x256, .f32⟩ : BufTy).Contents (Elt F) → (⟨S100000x256, .f32⟩ : BufTy).Contents (Elt F)),
    binary main_v125 main_v130 main_v131 (subf : (⟨S100000x256, .f32⟩ : BufTy).Contents (Elt F) → (⟨S100000x256, .f32⟩ : BufTy).Contents (Elt F) → (⟨S100000x256, .f32⟩ : BufTy).Contents (Elt F)),
    binary main_v131 main_v131 main_v132 (mulf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x00000000#32),
    binary main_v132 main_cst_24 main_v133 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_25 (constant S_ .f32 0x47C35000#32),
    unary main_cst_25 main_v134 (broadcastInDim S256 ![] bcast_S_S256 : (⟨S_, .f32⟩ : BufTy).Contents (Elt F) → (⟨S256, .f32⟩ : BufTy).Contents (Elt F)),
    binary main_v133 main_v134 main_v135 (Host.divf : (⟨S256, .f32⟩ : BufTy).Contents (Elt F) → (⟨S256, .f32⟩ : BufTy).Contents (Elt F) → (⟨S256, .f32⟩ : BufTy).Contents (Elt F)),
    unary main_v128 main_v136 (broadcastInDim S1x256 ![1] bcast_S256_S1x256_1 : (⟨S256, .f32⟩ : BufTy).Contents (Elt F) → (⟨S1x256, .f32⟩ : BufTy).Contents (Elt F)),
    unary main_v136 main_v137 (broadcastInDim S100000x256 ![0, 1] bcast_S1x256_S100000x256_0_1 : (⟨S1x256, .f32⟩ : BufTy).Contents (Elt F) → (⟨S100000x256, .f32⟩ : BufTy).Contents (Elt F)),
    binary main_v125 main_v137 main_v138 (subf : (⟨S100000x256, .f32⟩ : BufTy).Contents (Elt F) → (⟨S100000x256, .f32⟩ : BufTy).Contents (Elt F) → (⟨S100000x256, .f32⟩ : BufTy).Contents (Elt F)),
    nullary main_cst_26 (constant S_ .f32 0x3727C5AC#32),
    unary main_cst_26 main_v139 (broadcastInDim S256 ![] bcast_S_S256 : (⟨S_, .f32⟩ : BufTy).Contents (Elt F) → (⟨S256, .f32⟩ : BufTy).Contents (Elt F)),
    binary main_v135 main_v139 main_v140 (addf : (⟨S256, .f32⟩ : BufTy).Contents (Elt F) → (⟨S256, .f32⟩ : BufTy).Contents (Elt F) → (⟨S256, .f32⟩ : BufTy).Contents (Elt F)),
    unary main_v140 main_v141 (Host.rsqrt : (⟨S256, .f32⟩ : BufTy).Contents (Elt F) → (⟨S256, .f32⟩ : BufTy).Contents (Elt F)),
    unary main_v141 main_v142 (broadcastInDim S1x256 ![1] bcast_S256_S1x256_1 : (⟨S256, .f32⟩ : BufTy).Contents (Elt F) → (⟨S1x256, .f32⟩ : BufTy).Contents (Elt F)),
    unary main_v142 main_v143 (broadcastInDim S100000x256 ![0, 1] bcast_S1x256_S100000x256_0_1 : (⟨S1x256, .f32⟩ : BufTy).Contents (Elt F) → (⟨S100000x256, .f32⟩ : BufTy).Contents (Elt F)),
    binary main_v138 main_v143 main_v144 (mulf : (⟨S100000x256, .f32⟩ : BufTy).Contents (Elt F) → (⟨S100000x256, .f32⟩ : BufTy).Contents (Elt F) → (⟨S100000x256, .f32⟩ : BufTy).Contents (Elt F)),
    unary main_arg10 main_v145 (broadcastInDim S1x256 ![1] bcast_S256_S1x256_1 : (⟨S256, .f32⟩ : BufTy).Contents (Elt F) → (⟨S1x256, .f32⟩ : BufTy).Contents (Elt F)),
    unary main_v145 main_v146 (broadcastInDim S100000x256 ![0, 1] bcast_S1x256_S100000x256_0_1 : (⟨S1x256, .f32⟩ : BufTy).Contents (Elt F) → (⟨S100000x256, .f32⟩ : BufTy).Contents (Elt F)),
    binary main_v144 main_v146 main_v147 (mulf : (⟨S100000x256, .f32⟩ : BufTy).Contents (Elt F) → (⟨S100000x256, .f32⟩ : BufTy).Contents (Elt F) → (⟨S100000x256, .f32⟩ : BufTy).Contents (Elt F)),
    unary main_arg11 main_v148 (broadcastInDim S1x256 ![1] bcast_S256_S1x256_1 : (⟨S256, .f32⟩ : BufTy).Contents (Elt F) → (⟨S1x256, .f32⟩ : BufTy).Contents (Elt F)),
    unary main_v148 main_v149 (broadcastInDim S100000x256 ![0, 1] bcast_S1x256_S100000x256_0_1 : (⟨S1x256, .f32⟩ : BufTy).Contents (Elt F) → (⟨S100000x256, .f32⟩ : BufTy).Contents (Elt F)),
    binary main_v147 main_v149 main_v150 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v150) (TRef.of (T := ⟨S100000x256, .f32⟩) main_call2_v0) (TRef.of (T := ⟨S100000x256, .f32⟩) main_v151) maximumf ]

/-- They are the line's operations at positions 154 to 186. -/
theorem seg_v151 : ((ops (F := F)).drop 154).take 33 = segL_v151 := rfl

/-- Run from any contents, the segment leaves at its result the stage's function of what it found at the references it reads. -/
theorem segval_v151 (W : Valuation τ sig (Elt Ideal)) :
    after (segL_v151 (F := Ideal)) W (Proc.devRef .tc main_v151)
      = RefVal.bnRelu (W (Proc.devRef .tc main_v125)) (W (Proc.devRef .tc main_arg10)) (W (Proc.devRef .tc main_arg11)) := by
  after_results_simp
  simp only [Cert.Lib.TypedRef.ofBuf_toBuf]
  rfl

/-- After the whole line, from any contents: the stage's equation between the final contents of its result and of the references it reads. -/
theorem v151_eq (V : Valuation τ sig (Elt Ideal)) :
    after (ops (F := Ideal)) V (Proc.devRef .tc main_v151)
      = RefVal.bnRelu (after (ops (F := Ideal)) V (Proc.devRef .tc main_v125)) (after (ops (F := Ideal)) V (Proc.devRef .tc main_arg10)) (after (ops (F := Ideal)) V (Proc.devRef .tc main_arg11)) := by
  rw [after_segment writesAre 154 33 V (y := main_v151) (by decide), seg_v151,
    segval_v151 _,
    after_take_at_unwritten writesAre 154 V (a := main_v125) (by decide),
    after_take_at_unwritten writesAre 154 V (a := main_arg10) (by decide),
    after_take_at_unwritten writesAre 154 V (a := main_arg11) (by decide)]

/-! ## The virtual node's second update (operations 187 to 223) -/

/-- The 37 operations from position 187: the virtual node's second update: pooled features plus the old row, through the linear map, normalised and rectified. -/
abbrev segL_v180 : List (HloOp τ sig (Elt F)) :=
  [
    nullary main_cst_27 (constant S_ .f32 0x00000000#32),
    binary main_v151 main_cst_27 main_v152 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    unary main_v152 main_v153 (broadcastInDim S1x256 ![1] bcast_S256_S1x256_1 : (⟨S256, .f32⟩ : BufTy).Contents (Elt F) → (⟨S1x256, .f32⟩ : BufTy).Contents (Elt F)),
    binary main_v153 main_v104 main_v154 (addf : (⟨S1x256, .f32⟩ : BufTy).Contents (Elt F) → (⟨S1x256, .f32⟩ : BufTy).Contents (Elt F) → (⟨S1x256, .f32⟩ : BufTy).Contents (Elt F)),
    binary main_v154 main_arg17 main_v155 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg18 main_v156 (broadcastInDim S1x256 ![1] bcast_S256_S1x256_1 : (⟨S256, .f32⟩ : BufTy).Contents (Elt F) → (⟨S1x256, .f32⟩ : BufTy).Contents (Elt F)),
    binary main_v155 main_v156 main_v157 (addf : (⟨S1x256, .f32⟩ : BufTy).Contents (Elt F) → (⟨S1x256, .f32⟩ : BufTy).Contents (Elt F) → (⟨S1x256, .f32⟩ : BufTy).Contents (Elt F)),
    nullary main_cst_28 (constant S_ .f32 0x00000000#32),
    binary main_v157 main_cst_28 main_v158 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v158 main_v159 (broadcastInDim S1x1 ![0] bcast_S1_S1x1_0 : (⟨S1, .f32⟩ : BufTy).Contents (Elt F) → (⟨S1x1, .f32⟩ : BufTy).Contents (Elt F)),
    nullary main_cst_29 (constant S_ .f32 0x43800000#32),
    unary main_cst_29 main_v160 (broadcastInDim S1x1 ![] bcast_S_S1x1 : (⟨S_, .f32⟩ : BufTy).Contents (Elt F) → (⟨S1x1, .f32⟩ : BufTy).Contents (Elt F)),
    binary main_v159 main_v160 main_v161 (Host.divf : (⟨S1x1, .f32⟩ : BufTy).Contents (Elt F) → (⟨S1x1, .f32⟩ : BufTy).Contents (Elt F) → (⟨S1x1, .f32⟩ : BufTy).Contents (Elt F)),
    unary main_v161 main_v162 (broadcastInDim S1x256 ![0, 1] bcast_S1x1_S1x256_0_1 : (⟨S1x1, .f32⟩ : BufTy).Contents (Elt F) → (⟨S1x256, .f32⟩ : BufTy).Contents (Elt F)),
    binary main_v157 main_v162 main_v163 (subf : (⟨S1x256, .f32⟩ : BufTy).Contents (Elt F) → (⟨S1x256, .f32⟩ : BufTy).Contents (Elt F) → (⟨S1x256, .f32⟩ : BufTy).Contents (Elt F)),
    binary main_v163 main_v163 main_v164 (mulf : (⟨S1x256, .f32⟩ : BufTy).Contents (Elt F) → (⟨S1x256, .f32⟩ : BufTy).Contents (Elt F) → (⟨S1x256, .f32⟩ : BufTy).Contents (Elt F)),
    nullary main_cst_30 (constant S_ .f32 0x00000000#32),
    binary main_v164 main_cst_30 main_v165 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v165 main_v166 (broadcastInDim S1x1 ![0] bcast_S1_S1x1_0 : (⟨S1, .f32⟩ : BufTy).Contents (Elt F) → (⟨S1x1, .f32⟩ : BufTy).Contents (Elt F)),
    nullary main_cst_31 (constant S_ .f32 0x43800000#32),
    unary main_cst_31 main_v167 (broadcastInDim S1x1 ![] bcast_S_S1x1 : (⟨S_, .f32⟩ : BufTy).Contents (Elt F) → (⟨S1x1, .f32⟩ : BufTy).Contents (Elt F)),
    binary main_v166 main_v167 main_v168 (Host.divf : (⟨S1x1, .f32⟩ : BufTy).Contents (Elt F) → (⟨S1x1, .f32⟩ : BufTy).Contents (Elt F) → (⟨S1x1, .f32⟩ : BufTy).Contents (Elt F)),
    unary main_v161 main_v169 (broadcastInDim S1x256 ![0, 1] bcast_S1x1_S1x256_0_1 : (⟨S1x1, .f32⟩ : BufTy).Contents (Elt F) → (⟨S1x256, .f32⟩ : BufTy).Contents (Elt F)),
    binary main_v157 main_v169 main_v170 (subf : (⟨S1x256, .f32⟩ : BufTy).Contents (Elt F) → (⟨S1x256, .f32⟩ : BufTy).Contents (Elt F) → (⟨S1x256, .f32⟩ : BufTy).Contents (Elt F)),
    nullary main_cst_32 (constant S_ .f32 0x3727C5AC#32),
    unary main_cst_32 main_v171 (broadcastInDim S1x1 ![] bcast_S_S1x1 : (⟨S_, .f32⟩ : BufTy).Contents (Elt F) → (⟨S1x1, .f32⟩ : BufTy).Contents (Elt F)),
    binary main_v168 main_v171 main_v172 (addf : (⟨S1x1, .f32⟩ : BufTy).Contents (Elt F) → (⟨S1x1, .f32⟩ : BufTy).Contents (Elt F) → (⟨S1x1, .f32⟩ : BufTy).Contents (Elt F)),
    unary main_v172 main_v173 (Host.rsqrt : (⟨S1x1, .f32⟩ : BufTy).Contents (Elt F) → (⟨S1x1, .f32⟩ : BufTy).Contents (Elt F)),
    unary main_v173 main_v174 (broadcastInDim S1x256 ![0, 1] bcast_S1x1_S1x256_0_1 : (⟨S1x1, .f32⟩ : BufTy).Contents (Elt F) → (⟨S1x256, .f32⟩ : BufTy).Contents (Elt F)),
    binary main_v170 main_v174 main_v175 (mulf : (⟨S1x256, .f32⟩ : BufTy).Contents (Elt F) → (⟨S1x256, .f32⟩ : BufTy).Contents (Elt F) → (⟨S1x256, .f32⟩ : BufTy).Contents (Elt F)),
    unary main_arg19 main_v176 (broadcastInDim S1x256 ![1] bcast_S256_S1x256_1 : (⟨S256, .f32⟩ : BufTy).Contents (Elt F) → (⟨S1x256, .f32⟩ : BufTy).Contents (Elt F)),
    binary main_v175 main_v176 main_v177 (mulf : (⟨S1x256, .f32⟩ : BufTy).Contents (Elt F) → (⟨S1x256, .f32⟩ : BufTy).Contents (Elt F) → (⟨S1x256, .f32⟩ : BufTy).Contents (Elt F)),
    unary main_arg20 main_v178 (broadcastInDim S1x256 ![1] bcast_S256_S1x256_1 : (⟨S256, .f32⟩ : BufTy).Contents (Elt F) → (⟨S1x256, .f32⟩ : BufTy).Contents (Elt F)),
    binary main_v177 main_v178 main_v179 (addf : (⟨S1x256, .f32⟩ : BufTy).Contents (Elt F) → (⟨S1x256, .f32⟩ : BufTy).Contents (Elt F) → (⟨S1x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x256, .f32⟩) main_call3_v0) (broadcastInDim S1x256 ![] bcast_S_S1x256),
    TRef.binary (TRef.of (T := ⟨S1x256, .f32⟩) main_v179) (TRef.of (T := ⟨S1x256, .f32⟩) main_call3_v0) (TRef.of (T := ⟨S1x256, .f32⟩) main_v180) maximumf ]

/-- They are the line's operations at positions 187 to 223. -/
theorem seg_v180 : ((ops (F := F)).drop 187).take 37 = segL_v180 := rfl

/-- Run from any contents, the segment leaves at its result the stage's function of what it found at the references it reads. -/
theorem segval_v180 (W : Valuation τ sig (Elt Ideal)) :
    after (segL_v180 (F := Ideal)) W (Proc.devRef .tc main_v180)
      = RefVal.vn (RefVal.pool (W (Proc.devRef .tc main_v151))) (W (Proc.devRef .tc main_v104)) (W (Proc.devRef .tc main_arg17)) (W (Proc.devRef .tc main_arg18)) (W (Proc.devRef .tc main_arg19)) (W (Proc.devRef .tc main_arg20)) := by
  after_results_simp
  simp only [Cert.Lib.TypedRef.ofBuf_toBuf]
  rfl

/-- After the whole line, from any contents: the stage's equation between the final contents of its result and of the references it reads. -/
theorem v180_eq (V : Valuation τ sig (Elt Ideal)) :
    after (ops (F := Ideal)) V (Proc.devRef .tc main_v180)
      = RefVal.vn (RefVal.pool (after (ops (F := Ideal)) V (Proc.devRef .tc main_v151))) (after (ops (F := Ideal)) V (Proc.devRef .tc main_v104)) (after (ops (F := Ideal)) V (Proc.devRef .tc main_arg17)) (after (ops (F := Ideal)) V (Proc.devRef .tc main_arg18)) (after (ops (F := Ideal)) V (Proc.devRef .tc main_arg19)) (after (ops (F := Ideal)) V (Proc.devRef .tc main_arg20)) := by
  rw [after_segment writesAre 187 37 V (y := main_v180) (by decide), seg_v180,
    segval_v180 _,
    after_take_at_unwritten writesAre 187 V (a := main_v151) (by decide),
    after_take_at_unwritten writesAre 187 V (a := main_v104) (by decide),
    after_take_at_unwritten writesAre 187 V (a := main_arg17) (by decide),
    after_take_at_unwritten writesAre 187 V (a := main_arg18) (by decide),
    after_take_at_unwritten writesAre 187 V (a := main_arg19) (by decide),
    after_take_at_unwritten writesAre 187 V (a := main_arg20) (by decide)]

/-! ## Layer 2's linear step (operations 224 to 226) -/

/-- The 3 operations from position 224: layer 2's linear step onto 40 columns. -/
abbrev segL_v183 : List (HloOp τ sig (Elt F)) :=
  [
    unary main_v180 main_v181 (broadcastInDim S100000x256 ![0, 1] bcast_S1x256_S100000x256_0_1 : (⟨S1x256, .f32⟩ : BufTy).Contents (Elt F) → (⟨S100000x256, .f32⟩ : BufTy).Contents (Elt F)),
    binary main_v151 main_v181 main_v182 (addf : (⟨S100000x256, .f32⟩ : BufTy).Contents (Elt F) → (⟨S100000x256, .f32⟩ : BufTy).Contents (Elt F) → (⟨S100000x256, .f32⟩ : BufTy).Contents (Elt F)),
    binary main_v182 main_arg6 main_v183 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)) ]

/-- They are the line's operations at positions 224 to 226. -/
theorem seg_v183 : ((ops (F := F)).drop 224).take 3 = segL_v183 := rfl

/-- Run from any contents, the segment leaves at its result the stage's function of what it found at the references it reads. -/
theorem segval_v183 (W : Valuation τ sig (Elt Ideal)) :
    after (segL_v183 (F := Ideal)) W (Proc.devRef .tc main_v183)
      = RefVal.lin40 (W (Proc.devRef .tc main_v151)) (W (Proc.devRef .tc main_v180)) (W (Proc.devRef .tc main_arg6)) := by
  after_results_simp
  rfl

/-- After the whole line, from any contents: the stage's equation between the final contents of its result and of the references it reads. -/
theorem v183_eq (V : Valuation τ sig (Elt Ideal)) :
    after (ops (F := Ideal)) V (Proc.devRef .tc main_v183)
      = RefVal.lin40 (after (ops (F := Ideal)) V (Proc.devRef .tc main_v151)) (after (ops (F := Ideal)) V (Proc.devRef .tc main_v180)) (after (ops (F := Ideal)) V (Proc.devRef .tc main_arg6)) := by
  rw [after_segment writesAre 224 3 V (y := main_v183) (by decide), seg_v183,
    segval_v183 _,
    after_take_at_unwritten writesAre 224 V (a := main_v180) (by decide),
    after_take_at_unwritten writesAre 224 V (a := main_v151) (by decide),
    after_take_at_unwritten writesAre 224 V (a := main_arg6) (by decide)]

/-! ## Layer 2's neighbour aggregation (operations 227 to 241) -/

/-- The 15 operations from position 227: layer 2's neighbour aggregation. -/
abbrev segL_v195 : List (HloOp τ sig (Elt F)) :=
  [
    nullary main_c_33 (constantI S_ 32 0#32),
    unary main_c_33 main_v184 (broadcastInDim S800000 ![] bcast_S_S800000 : (⟨S_, .i32⟩ : BufTy).Contents (Elt F) → (⟨S800000, .i32⟩ : BufTy).Contents (Elt F)),
    binary main_v1 main_v184 main_v185 (cmpi .slt : (⟨S800000, .i32⟩ : BufTy).Contents (Elt F) → (⟨S800000, .i32⟩ : BufTy).Contents (Elt F) → (⟨S800000, .i1⟩ : BufTy).Contents (Elt F)),
    nullary main_c_34 (constantI S_ 32 100000#32),
    unary main_c_34 main_v186 (broadcastInDim S800000 ![] bcast_S_S800000 : (⟨S_, .i32⟩ : BufTy).Contents (Elt F) → (⟨S800000, .i32⟩ : BufTy).Contents (Elt F)),
    binary main_v1 main_v186 main_v187 (addi : (⟨S800000, .i32⟩ : BufTy).Contents (Elt F) → (⟨S800000, .i32⟩ : BufTy).Contents (Elt F) → (⟨S800000, .i32⟩ : BufTy).Contents (Elt F)),
    ternary main_v185 main_v187 main_v1 main_v188 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v188 main_v189 (broadcastInDim S800000x1 ![0] bcast_S800000_S800000x1_0 : (⟨S800000, .i32⟩ : BufTy).Contents (Elt F) → (⟨S800000x1, .i32⟩ : BufTy).Contents (Elt F)),
    binary main_v183 main_v189 main_v190 ((fun x i => Host.gather gather_S100000x40_S800000x1_S800000x40_1_0_n_n_0_1_140 x i) : (⟨S100000x40, .f32⟩ : BufTy).Contents (Elt F) → (⟨S800000x1, .i32⟩ : BufTy).Contents (Elt F) → (⟨S800000x40, .f32⟩ : BufTy).Contents (Elt F)),
    unary main_v26 main_v191 (broadcastInDim S800000x40 ![0, 1] bcast_S800000x1_S800000x40_0_1 : (⟨S800000x1, .f32⟩ : BufTy).Contents (Elt F) → (⟨S800000x40, .f32⟩ : BufTy).Contents (Elt F)),
    binary main_v190 main_v191 main_v192 (mulf : (⟨S800000x40, .f32⟩ : BufTy).Contents (Elt F) → (⟨S800000x40, .f32⟩ : BufTy).Contents (Elt F) → (⟨S800000x40, .f32⟩ : BufTy).Contents (Elt F)),
    nullary main_cst_35 (constant S_ .f32 0x00000000#32),
    unary main_cst_35 main_v193 (broadcastInDim S100000x40 ![] bcast_S_S100000x40 : (⟨S_, .f32⟩ : BufTy).Contents (Elt F) → (⟨S100000x40, .f32⟩ : BufTy).Contents (Elt F)),
    unary main_v3 main_v194 (broadcastInDim S800000x1 ![0] bcast_S800000_S800000x1_0 : (⟨S800000, .i32⟩ : BufTy).Contents (Elt F) → (⟨S800000x1, .i32⟩ : BufTy).Contents (Elt F)),
    ternary main_v193 main_v194 main_v192 main_v195 ((fun x i u => Host.scatterAdd scatter_S100000x40_S800000x1_S800000x40_1_0_0_1 x i u) : (⟨S100000x40, .f32⟩ : BufTy).Contents (Elt F) → (⟨S800000x1, .i32⟩ : BufTy).Contents (Elt F) → (⟨S800000x40, .f32⟩ : BufTy).Contents (Elt F) → (⟨S100000x40, .f32⟩ : BufTy).Contents (Elt F)) ]

/-- They are the line's operations at positions 227 to 241. -/
theorem seg_v195 : ((ops (F := F)).drop 227).take 15 = segL_v195 := rfl

/-- Run from any contents, the segment leaves at its result the stage's function of what it found at the references it reads. -/
theorem segval_v195 (W : Valuation τ sig (Elt Ideal)) (ei : IVec S2x800000 32)
    (h1 : W (Proc.devRef .tc main_v1) = RefVal.src ei)
    (h3 : W (Proc.devRef .tc main_v3) = RefVal.dst ei)
    (h26 : W (Proc.devRef .tc main_v26) = RefVal.coefc ei) :
    after (segL_v195 (F := Ideal)) W (Proc.devRef .tc main_v195)
      = RefVal.agg40 (W (Proc.devRef .tc main_v183)) ei := by
  after_results_simp
  rw [h1, h3, h26]
  rfl

/-- After the whole line, from any contents: the stage's equation between the final contents of its result and of the references it reads. -/
theorem v195_eq (V : Valuation τ sig (Elt Ideal)) (ei : IVec S2x800000 32)
    (h1 : after (ops (F := Ideal)) V (Proc.devRef .tc main_v1) = RefVal.src ei)
    (h3 : after (ops (F := Ideal)) V (Proc.devRef .tc main_v3) = RefVal.dst ei)
    (h26 : after (ops (F := Ideal)) V (Proc.devRef .tc main_v26) = RefVal.coefc ei) :
    after (ops (F := Ideal)) V (Proc.devRef .tc main_v195)
      = RefVal.agg40 (after (ops (F := Ideal)) V (Proc.devRef .tc main_v183)) ei := by
  rw [after_segment writesAre 227 15 V (y := main_v195) (by decide), seg_v195,
    segval_v195 _ ei
      ((after_take_at_unwritten writesAre 227 V (a := main_v1) (by decide)).trans h1)
      ((after_take_at_unwritten writesAre 227 V (a := main_v3) (by decide)).trans h3)
      ((after_take_at_unwritten writesAre 227 V (a := main_v26) (by decide)).trans h26),
    after_take_at_unwritten writesAre 227 V (a := main_v183) (by decide)]

/-! ## Layer 2's combine step (operations 242 to 247) -/

/-- The 6 operations from position 242: layer 2's combine step. -/
abbrev segL_v201 : List (HloOp τ sig (Elt F)) :=
  [
    unary main_v28 main_v196 (broadcastInDim S100000x40 ![0, 1] bcast_S100000x1_S100000x40_0_1 : (⟨S100000x1, .f32⟩ : BufTy).Contents (Elt F) → (⟨S100000x40, .f32⟩ : BufTy).Contents (Elt F)),
    binary main_v183 main_v196 main_v197 (mulf : (⟨S100000x40, .f32⟩ : BufTy).Contents (Elt F) → (⟨S100000x40, .f32⟩ : BufTy).Contents (Elt F) → (⟨S100000x40, .f32⟩ : BufTy).Contents (Elt F)),
    binary main_v195 main_v197 main_v198 (addf : (⟨S100000x40, .f32⟩ : BufTy).Contents (Elt F) → (⟨S100000x40, .f32⟩ : BufTy).Contents (Elt F) → (⟨S100000x40, .f32⟩ : BufTy).Contents (Elt F)),
    unary main_arg7 main_v199 (broadcastInDim S1x40 ![1] bcast_S40_S1x40_1 : (⟨S40, .f32⟩ : BufTy).Contents (Elt F) → (⟨S1x40, .f32⟩ : BufTy).Contents (Elt F)),
    unary main_v199 main_v200 (broadcastInDim S100000x40 ![0, 1] bcast_S1x40_S100000x40_0_1 : (⟨S1x40, .f32⟩ : BufTy).Contents (Elt F) → (⟨S100000x40, .f32⟩ : BufTy).Contents (Elt F)),
    binary main_v198 main_v200 main_v201 (addf : (⟨S100000x40, .f32⟩ : BufTy).Contents (Elt F) → (⟨S100000x40, .f32⟩ : BufTy).Contents (Elt F) → (⟨S100000x40, .f32⟩ : BufTy).Contents (Elt F)) ]

/-- They are the line's operations at positions 242 to 247. -/
theorem seg_v201 : ((ops (F := F)).drop 242).take 6 = segL_v201 := rfl

/-- Run from any contents, the segment leaves at its result the stage's function of what it found at the references it reads. -/
theorem segval_v201 (W : Valuation τ sig (Elt Ideal)) (ei : IVec S2x800000 32)
    (h28 : W (Proc.devRef .tc main_v28) = RefVal.selfc ei) :
    after (segL_v201 (F := Ideal)) W (Proc.devRef .tc main_v201)
      = RefVal.comb40 (W (Proc.devRef .tc main_v195)) (W (Proc.devRef .tc main_v183)) (RefVal.selfc ei) (W (Proc.devRef .tc main_arg7)) := by
  after_results_simp
  rw [h28]
  rfl

/-- After the whole line, from any contents: the stage's equation between the final contents of its result and of the references it reads. -/
theorem v201_eq (V : Valuation τ sig (Elt Ideal)) (ei : IVec S2x800000 32)
    (h28 : after (ops (F := Ideal)) V (Proc.devRef .tc main_v28) = RefVal.selfc ei) :
    after (ops (F := Ideal)) V (Proc.devRef .tc main_v201)
      = RefVal.comb40 (after (ops (F := Ideal)) V (Proc.devRef .tc main_v195)) (after (ops (F := Ideal)) V (Proc.devRef .tc main_v183)) (RefVal.selfc ei) (after (ops (F := Ideal)) V (Proc.devRef .tc main_arg7)) := by
  rw [after_segment writesAre 242 6 V (y := main_v201) (by decide), seg_v201,
    segval_v201 _ ei
      ((after_take_at_unwritten writesAre 242 V (a := main_v28) (by decide)).trans h28),
    after_take_at_unwritten writesAre 242 V (a := main_v183) (by decide),
    after_take_at_unwritten writesAre 242 V (a := main_v195) (by decide),
    after_take_at_unwritten writesAre 242 V (a := main_arg7) (by decide)]

/-! ## The log-softmax (operations 248 to 262) -/

/-- The 15 operations from position 248: the log-softmax of every row. -/
abbrev segL_v202 : List (HloOp τ sig (Elt F)) :=
  [
    TRef.nullary (TRef.of (T := ⟨S_, .f32⟩) main_call4_cst) (constant S_ .f32 0xFF800000#32),
    TRef.binary (TRef.of (T := ⟨S100000x40, .f32⟩) main_v201) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v201) (TRef.of (T := ⟨S100000x40, .f32⟩) main_call4_v4) (TRef.of (T := ⟨S100000x40, .f32⟩) main_call4_v5) subf,
    TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v202) subf ]

/-- They are the line's operations at positions 248 to 262. -/
theorem seg_v202 : ((ops (F := F)).drop 248).take 15 = segL_v202 := rfl

/-- Run from any contents, the segment leaves at its result the stage's function of what it found at the references it reads. -/
theorem segval_v202 (W : Valuation τ sig (Elt Ideal)) :
    after (segL_v202 (F := Ideal)) W (Proc.devRef .tc main_v202)
      = RefVal.lsm (W (Proc.devRef .tc main_v201)) := by
  after_results_simp
  simp only [Cert.Lib.TypedRef.ofBuf_toBuf]
  rfl

/-- After the whole line, from any contents: the stage's equation between the final contents of its result and of the references it reads. -/
theorem v202_eq (V : Valuation τ sig (Elt Ideal)) :
    after (ops (F := Ideal)) V (Proc.devRef .tc main_v202)
      = RefVal.lsm (after (ops (F := Ideal)) V (Proc.devRef .tc main_v201)) := by
  rw [after_segment writesAre 248 15 V (y := main_v202) (by decide), seg_v202,
    segval_v202 _,
    after_take_at_unwritten writesAre 248 V (a := main_v201) (by decide)]

/-! ## The returned value -/

/-- The final contents of the returned value are the whole forward pass of the arguments' launch contents, given the
    edge-list pieces, layer 0's features and the virtual node's first update at the final contents. -/
theorem out_eq (m : (ℓ : Loc nD τ sig) → Buf (Elt Ideal) ℓ) (c : Dev nD)
    (h1 : after (ops (F := Ideal)) (launchContents m c) (Proc.devRef .tc main_v1) = RefVal.src (m ((c.tc : Thread nD τ).loc main_arg1)))
    (h3 : after (ops (F := Ideal)) (launchContents m c) (Proc.devRef .tc main_v3) = RefVal.dst (m ((c.tc : Thread nD τ).loc main_arg1)))
    (h26 : after (ops (F := Ideal)) (launchContents m c) (Proc.devRef .tc main_v26) = RefVal.coefc (m ((c.tc : Thread nD τ).loc main_arg1)))
    (h28 : after (ops (F := Ideal)) (launchContents m c) (Proc.devRef .tc main_v28) = RefVal.selfc (m ((c.tc : Thread nD τ).loc main_arg1)))
    (hh0 : after (ops (F := Ideal)) (launchContents m c) (Proc.devRef .tc main_v75)
      = RefVal.h0 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg8)) (m ((c.tc : Thread nD τ).loc main_arg9)) (m ((c.tc : Thread nD τ).loc main_arg12)))
    (hvx1 : after (ops (F := Ideal)) (launchContents m c) (Proc.devRef .tc main_v104)
      = RefVal.vn (RefVal.pool (after (ops (F := Ideal)) (launchContents m c) (Proc.devRef .tc main_v75)))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16))) :
    after (ops (F := Ideal)) (launchContents m c) (Proc.devRef .tc main_v202)
      = RefVal.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20)) := by
  rw [v202_eq, v201_eq _ _ h28, v195_eq _ _ h1 h3 h26, v183_eq, v180_eq, v151_eq, v125_eq _ _ h28, v119_eq _ _ h1 h3 h26,
    v107_eq, hvx1, hh0,
    arg_final m c (r := main_arg4) (by decide),
    arg_final m c (r := main_arg5) (by decide),
    arg_final m c (r := main_arg6) (by decide),
    arg_final m c (r := main_arg7) (by decide),
    arg_final m c (r := main_arg10) (by decide),
    arg_final m c (r := main_arg11) (by decide),
    arg_final m c (r := main_arg17) (by decide),
    arg_final m c (r := main_arg18) (by decide),
    arg_final m c (r := main_arg19) (by decide),
    arg_final m c (r := main_arg20) (by decide)]
  unfold RefVal.out
  rfl

end Cert.ReferenceIdeal.ValueP

end
-- ==== Proof.RefRunFinal.lean ====
/-
  The reference program's run, assembled: from any memory with zero counters, every weakly fair execution of the
  reference terminates with the returned value at the whole forward pass (`RefVal.out`) of the arguments' launch contents
  and with the arguments unchanged. The edge-list pieces, layer 0's features and the virtual node's first update are read
  at the launch contents first; the later layers' equations then give the returned value, and the run with every buffer
  at the fold of the operations carries the equation to the final memory.
-/
import proofs.«161332_j44100724195822_1_alg».proof.Proof.RefRunBase
import proofs.«161332_j44100724195822_1_alg».proof.Proof.RefRunW
import proofs.«161332_j44100724195822_1_alg».proof.Proof.RefRunA
import proofs.«161332_j44100724195822_1_alg».proof.Proof.RefRunB
import proofs.«161332_j44100724195822_1_alg».proof.Proof.RefVal

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.Lib.AfterAssign

section Launch

variable (m : (ℓ : Loc nD τ sig) → Buf (Elt Ideal) ℓ) (c : Dev nD)

/-! ## The edge-list pieces and layer 0, from the launch contents -/

/-- The edges' source nodes, of the edge list's launch contents. -/
theorem src_final : after (ops (F := Ideal)) (launchContents m c) (Proc.devRef .tc main_v1) = RefVal.src (m ((c.tc : Thread nD τ).loc main_arg1)) := by
  rw [v1_eq, arg_final m c (r := main_arg1) (by decide)]

/-- The edges' destination nodes. -/
theorem dst_final : after (ops (F := Ideal)) (launchContents m c) (Proc.devRef .tc main_v3) = RefVal.dst (m ((c.tc : Thread nD τ).loc main_arg1)) := by
  rw [v3_eq, arg_final m c (r := main_arg1) (by decide)]

/-- The degree normalisation. -/
theorem dis_final : after (ops (F := Ideal)) (launchContents m c) (Proc.devRef .tc main_v10) = RefVal.dis (m ((c.tc : Thread nD τ).loc main_arg1)) :=
  v10_eq _ _ (dst_final m c)

/-- The per-edge coefficient. -/
theorem coefc_final : after (ops (F := Ideal)) (launchContents m c) (Proc.devRef .tc main_v26) = RefVal.coefc (m ((c.tc : Thread nD τ).loc main_arg1)) :=
  v26_eq _ _ (src_final m c) (dst_final m c) (dis_final m c)

/-- The self-loop coefficient. -/
theorem selfc_final : after (ops (F := Ideal)) (launchContents m c) (Proc.devRef .tc main_v28) = RefVal.selfc (m ((c.tc : Thread nD τ).loc main_arg1)) :=
  v28_eq _ _ (dis_final m c)

/-- Layer 0's linear step. -/
theorem lin0_final : after (ops (F := Ideal)) (launchContents m c) (Proc.devRef .tc main_v31) = RefVal.lin256 (m ((c.tc : Thread nD τ).loc main_arg0)) (m ((c.tc : Thread nD τ).loc main_arg12)) (m ((c.tc : Thread nD τ).loc main_arg2)) := by
  rw [v31_eq, arg_final m c (r := main_arg0) (by decide), arg_final m c (r := main_arg12) (by decide), arg_final m c (r := main_arg2) (by decide)]

/-- Layer 0's neighbour aggregation, of the linear step's final contents. -/
theorem agg0_final : after (ops (F := Ideal)) (launchContents m c) (Proc.devRef .tc main_v43) = RefVal.agg256 (after (ops (F := Ideal)) (launchContents m c) (Proc.devRef .tc main_v31)) (m ((c.tc : Thread nD τ).loc main_arg1)) :=
  v43_eq _ _ (src_final m c) (dst_final m c) (coefc_final m c)

/-- Layer 0's combine step, of the aggregation's and the linear step's final contents. -/
theorem comb0_final : after (ops (F := Ideal)) (launchContents m c) (Proc.devRef .tc main_v49)
    = RefVal.comb256 (after (ops (F := Ideal)) (launchContents m c) (Proc.devRef .tc main_v43)) (after (ops (F := Ideal)) (launchContents m c) (Proc.devRef .tc main_v31)) (RefVal.selfc (m ((c.tc : Thread nD τ).loc main_arg1))) (m ((c.tc : Thread nD τ).loc main_arg3)) := by
  rw [v49_eq _ _ (selfc_final m c), arg_final m c (r := main_arg3) (by decide)]

/-- Layer 0's batch normalisation and rectifier, of the combine step's final contents. -/
theorem bn0_final : after (ops (F := Ideal)) (launchContents m c) (Proc.devRef .tc main_v75) = RefVal.bnRelu (after (ops (F := Ideal)) (launchContents m c) (Proc.devRef .tc main_v49)) (m ((c.tc : Thread nD τ).loc main_arg8)) (m ((c.tc : Thread nD τ).loc main_arg9)) := by
  rw [v75_eq, arg_final m c (r := main_arg8) (by decide), arg_final m c (r := main_arg9) (by decide)]

/-- Layer 0's features as a function of the arguments. -/
theorem h0_final : after (ops (F := Ideal)) (launchContents m c) (Proc.devRef .tc main_v75)
    = RefVal.h0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg12)) := by
  rw [bn0_final, comb0_final, agg0_final, lin0_final]
  rfl

/-- The virtual node's first update, of layer 0's features' final contents. -/
theorem vx1_final : after (ops (F := Ideal)) (launchContents m c) (Proc.devRef .tc main_v104)
    = RefVal.vn (RefVal.pool (after (ops (F := Ideal)) (launchContents m c) (Proc.devRef .tc main_v75))) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [v104_eq, arg_final m c (r := main_arg12) (by decide), arg_final m c (r := main_arg13) (by decide), arg_final m c (r := main_arg14) (by decide), arg_final m c (r := main_arg15) (by decide), arg_final m c (r := main_arg16) (by decide)]

/-! ## The returned value -/

/-- The final contents of the returned value: the whole forward pass of the arguments' launch contents. -/
theorem out_final : after (ops (F := Ideal)) (launchContents m c) (Proc.devRef .tc main_v202)
    = RefVal.out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20)) :=
  out_eq m c (src_final m c) (dst_final m c) (coefc_final m c) (selfc_final m c) (h0_final m c) (vx1_final m c)

end Launch

/-! ## The run -/

/-- On every device, from any memory with zero counters: every weakly fair execution of the reference terminates with
    the returned value at the whole forward pass of the arguments' launch contents and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v202)
        = RefVal.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v202).trans (out_final m c),
      (h c main_arg0).trans (arg_final m c (by decide)),
      (h c main_arg1).trans (arg_final m c (by decide)),
      (h c main_arg2).trans (arg_final m c (by decide)),
      (h c main_arg3).trans (arg_final m c (by decide)),
      (h c main_arg4).trans (arg_final m c (by decide)),
      (h c main_arg5).trans (arg_final m c (by decide)),
      (h c main_arg6).trans (arg_final m c (by decide)),
      (h c main_arg7).trans (arg_final m c (by decide)),
      (h c main_arg8).trans (arg_final m c (by decide)),
      (h c main_arg9).trans (arg_final m c (by decide)),
      (h c main_arg10).trans (arg_final m c (by decide)),
      (h c main_arg11).trans (arg_final m c (by decide)),
      (h c main_arg12).trans (arg_final m c (by decide)),
      (h c main_arg13).trans (arg_final m c (by decide)),
      (h c main_arg14).trans (arg_final m c (by decide)),
      (h c main_arg15).trans (arg_final m c (by decide)),
      (h c main_arg16).trans (arg_final m c (by decide)),
      (h c main_arg17).trans (arg_final m c (by decide)),
      (h c main_arg18).trans (arg_final m c (by decide)),
      (h c main_arg19).trans (arg_final m c (by decide)),
      (h c main_arg20).trans (arg_final m c (by decide))⟩)
    (run_after m ρ)

end Cert.ReferenceIdeal.ValueP

end
-- ==== Proof.LibMoments.lean ====
import Idealize.ShloMosaic.PureOps.Ideal

/-!
# Two spellings of the variance

For finitely many reals `x i` (`i` in a finite set `s` of `n` elements, `n ≠ 0`) with mean
`m = (∑ x i) / n`, the "mean of squares minus square of the mean" and the "mean of the squared
deviations" are the same number:

  `(∑ x i * x i) / n - m * m = (∑ (x i - m) * (x i - m)) / n`.

Expanding the square gives `∑ x i * x i - 2 m ∑ x i + n m * m`, and `∑ x i = n m`.

The same identity is then stated on the extended reals, for values that are all real, with the
operations spelled as the ideal float instance spells them: sums and products and differences
in `EReal`, and the quotient `Ideal.div` by the real `n`. Both sides are then real.
-/

namespace LibMoments

open Idealize.ShloMosaic
open scoped BigOperators

variable {ι : Type*}

/-! ### On the reals -/

/-- The sum of squared deviations from `m`, expanded. -/
theorem sum_dev_mul (s : Finset ι) (x : ι → ℝ) (m : ℝ) :
    ∑ i ∈ s, (x i - m) * (x i - m)
      = (∑ i ∈ s, x i * x i) - 2 * m * (∑ i ∈ s, x i) + (s.card : ℝ) * (m * m) := by
  have h : ∀ i, (x i - m) * (x i - m) = x i * x i - 2 * m * x i + m * m := fun i => by ring
  simp only [h, Finset.sum_add_distrib, Finset.sum_sub_distrib, ← Finset.mul_sum,
    Finset.sum_const, nsmul_eq_mul]
  ring

/-- Mean of squares minus squared mean is the mean of squared deviations (finite set form). -/
theorem real_moments_finset (s : Finset ι) (x : ι → ℝ) (n : ℝ) (hn : n ≠ 0)
    (hcard : n = (s.card : ℝ)) :
    (∑ i ∈ s, x i * x i) / n - ((∑ i ∈ s, x i) / n) * ((∑ i ∈ s, x i) / n)
      = (∑ i ∈ s, (x i - (∑ k ∈ s, x k) / n) * (x i - (∑ k ∈ s, x k) / n)) / n := by
  rw [sum_dev_mul, ← hcard]
  field_simp
  ring

/-- Mean of squares minus squared mean is the mean of squared deviations (whole finite type). -/
theorem real_moments [Fintype ι] (x : ι → ℝ) (n : ℝ) (hn : n ≠ 0)
    (hcard : n = (Fintype.card ι : ℝ)) :
    (∑ i, x i * x i) / n - ((∑ i, x i) / n) * ((∑ i, x i) / n)
      = (∑ i, (x i - (∑ k, x k) / n) * (x i - (∑ k, x k) / n)) / n :=
  real_moments_finset Finset.univ x n hn (by simpa [Finset.card_univ] using hcard)

/-- The same with the squares written as powers. -/
theorem real_moments_sq [Fintype ι] (x : ι → ℝ) (n : ℝ) (hn : n ≠ 0)
    (hcard : n = (Fintype.card ι : ℝ)) :
    (∑ i, x i ^ 2) / n - ((∑ i, x i) / n) * ((∑ i, x i) / n)
      = (∑ i, (x i - (∑ k, x k) / n) * (x i - (∑ k, x k) / n)) / n := by
  simpa only [pow_two] using real_moments x n hn hcard

/-! ### On the extended reals -/

/-- The embedding of the reals commutes with finite sums. -/
theorem coe_finset_sum (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe (a n : ℝ) (hn : n ≠ 0) : Ideal.div (a : EReal) (n : EReal) = ((a / n : ℝ) : EReal) := by
  have h0 : (n : EReal) ≠ 0 := EReal.coe_ne_zero.mpr hn
  rw [Ideal.div, if_neg h0, ← EReal.coe_inv, ← EReal.coe_mul, div_eq_mul_inv]

/-- Variance identity on extended reals, values given as embedded reals (finite set form). -/
theorem ereal_moments_coe_finset (s : Finset ι) (r : ι → ℝ) (n : ℝ) (hn : n ≠ 0)
    (hcard : n = (s.card : ℝ)) :
    Ideal.div (∑ i ∈ s, (r i : EReal) * (r i : EReal)) (n : EReal)
        - Ideal.div (∑ i ∈ s, (r i : EReal)) (n : EReal) * Ideal.div (∑ i ∈ s, (r i : EReal)) (n : EReal)
      = Ideal.div (∑ i ∈ s, ((r i : EReal) - Ideal.div (∑ k ∈ s, (r k : EReal)) (n : EReal))
            * ((r i : EReal) - Ideal.div (∑ k ∈ s, (r k : EReal)) (n : EReal))) (n : EReal) := by
  simp only [← EReal.coe_mul, ← coe_finset_sum, div_coe _ _ hn, ← EReal.coe_sub]
  exact congrArg _ (real_moments_finset s r n hn hcard)

/-- Both sides of the identity are real: the value, as a real number. -/
theorem ereal_moments_coe_finset_value (s : Finset ι) (r : ι → ℝ) (n : ℝ) (hn : n ≠ 0) :
    Ideal.div (∑ i ∈ s, (r i : EReal) * (r i : EReal)) (n : EReal)
        - Ideal.div (∑ i ∈ s, (r i : EReal)) (n : EReal) * Ideal.div (∑ i ∈ s, (r i : EReal)) (n : EReal)
      = (((∑ i ∈ s, r i * r i) / n - ((∑ i ∈ s, r i) / n) * ((∑ i ∈ s, r i) / n) : ℝ) : EReal) := by
  simp only [← EReal.coe_mul, ← coe_finset_sum, div_coe _ _ hn, ← EReal.coe_sub]

/-- Variance identity on extended reals whose values are all real (finite set form):
    `E[x²] - E[x]² = E[(x - E[x])²]`, with the quotients by the count `n`. -/
theorem ereal_moments_finset (s : Finset ι) (x : ι → EReal) (hx : ∀ i ∈ s, ∃ r : ℝ, x i = r)
    (n : ℝ) (hn : n ≠ 0) (hcard : n = (s.card : ℝ)) :
    Ideal.div (∑ i ∈ s, x i * x i) (n : EReal)
        - Ideal.div (∑ i ∈ s, x i) (n : EReal) * Ideal.div (∑ i ∈ s, x i) (n : EReal)
      = Ideal.div (∑ i ∈ s, (x i - Ideal.div (∑ k ∈ s, x k) (n : EReal))
            * (x i - Ideal.div (∑ k ∈ s, x k) (n : EReal))) (n : EReal) := by
  classical
  have hx' : ∀ i ∈ s, x i = ((x i).toReal : EReal) := fun i hi => by
    obtain ⟨r, hr⟩ := hx i hi; rw [hr, EReal.toReal_coe]
  have e1 : ∑ i ∈ s, x i = ∑ i ∈ s, ((x i).toReal : EReal) := Finset.sum_congr rfl hx'
  have e2 : ∑ i ∈ s, x i * x i = ∑ i ∈ s, ((x i).toReal : EReal) * ((x i).toReal : EReal) :=
    Finset.sum_congr rfl fun i hi => by rw [← hx' i hi]
  have e3 : ∀ m : EReal, ∑ i ∈ s, (x i - m) * (x i - m)
      = ∑ i ∈ s, (((x i).toReal : EReal) - m) * (((x i).toReal : EReal) - m) :=
    fun m => Finset.sum_congr rfl fun i hi => by rw [← hx' i hi]
  rw [e3, e2, e1]
  exact ereal_moments_coe_finset s (fun i => (x i).toReal) n hn hcard

/-- The whole-type form of `ereal_moments_finset`. -/
theorem ereal_moments [Fintype ι] (x : ι → EReal) (hx : ∀ i, ∃ r : ℝ, x i = r)
    (n : ℝ) (hn : n ≠ 0) (hcard : n = (Fintype.card ι : ℝ)) :
    Ideal.div (∑ i, x i * x i) (n : EReal)
        - Ideal.div (∑ i, x i) (n : EReal) * Ideal.div (∑ i, x i) (n : EReal)
      = Ideal.div (∑ i, (x i - Ideal.div (∑ k, x k) (n : EReal))
            * (x i - Ideal.div (∑ k, x k) (n : EReal))) (n : EReal) :=
  ereal_moments_finset Finset.univ x (fun i _ => hx i) n hn
    (by simpa [Finset.card_univ] using hcard)

/-- The left side ("mean of squares minus squared mean") is a real number. -/
theorem ereal_moments_lhs_real [Fintype ι] (x : ι → EReal) (hx : ∀ i, ∃ r : ℝ, x i = r)
    (n : ℝ) (hn : n ≠ 0) :
    ∃ v : ℝ, Ideal.div (∑ i, x i * x i) (n : EReal)
        - Ideal.div (∑ i, x i) (n : EReal) * Ideal.div (∑ i, x i) (n : EReal) = (v : EReal) := by
  choose r hr using hx
  refine ⟨(∑ i, r i * r i) / n - ((∑ i, r i) / n) * ((∑ i, r i) / n), ?_⟩
  simp only [hr]
  exact ereal_moments_coe_finset_value Finset.univ r n hn

/-- The right side ("mean of squared deviations") is a real number. -/
theorem ereal_moments_rhs_real [Fintype ι] (x : ι → EReal) (hx : ∀ i, ∃ r : ℝ, x i = r)
    (n : ℝ) (hn : n ≠ 0) (hcard : n = (Fintype.card ι : ℝ)) :
    ∃ v : ℝ, Ideal.div (∑ i, (x i - Ideal.div (∑ k, x k) (n : EReal))
            * (x i - Ideal.div (∑ k, x k) (n : EReal))) (n : EReal) = (v : EReal) := by
  obtain ⟨v, hv⟩ := ereal_moments_lhs_real x hx n hn
  exact ⟨v, by rw [← ereal_moments x hx n hn hcard, hv]⟩

/-- The mean of real values is real. -/
theorem ereal_mean_real [Fintype ι] (x : ι → EReal) (hx : ∀ i, ∃ r : ℝ, x i = r)
    (n : ℝ) (hn : n ≠ 0) :
    ∃ v : ℝ, Ideal.div (∑ i, x i) (n : EReal) = (v : EReal) := by
  choose r hr using hx
  exact ⟨(∑ i, r i) / n, by simp only [hr, ← coe_finset_sum, div_coe _ _ hn]⟩

end LibMoments
-- ==== Proof.LibRealClosure.lean ====
import Idealize.ShloMosaic.PureOps.Ideal

/-!
# Extended reals that are real, and what keeps them real

`IsReal x` says that the extended real `x` is (the embedding of) a real number. The predicate is
closed under every operation of a dense layer followed by a batch normalisation, the inverse
square root excepted: finite sums, sums of products (a contraction), products, sums and
differences, the quotient `Ideal.div` by a nonzero real, a two-way choice (in particular the
leaky rectifier `if 0 ≤ x then x else c * x`, also in the form the ideal comparison and select
give it), and the maximum. A sum over `Fin (A * B)` of reals, regrouped as a double sum over
`A` blocks of `B` positions, is real as well.
-/

namespace LibRealClosure

open Idealize.ShloMosaic
open scoped BigOperators

/-- The extended real `x` is a real number. -/
def IsReal (x : EReal) : Prop := ∃ r : ℝ, x = r

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).1 h).1

theorem IsReal.ne_bot {x : EReal} (h : IsReal x) : x ≠ ⊥ := ((isReal_iff x).1 h).2

/-- A real extended real is the embedding of its real part. -/
theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A sum over a whole finite type of reals is real. -/
theorem IsReal.sum_univ {ι : Type*} [Fintype ι] (f : ι → EReal) (h : ∀ i, IsReal (f i)) :
    IsReal (∑ i, f i) := IsReal.sum Finset.univ f fun i _ => h i

/-- A contraction of reals, onto a real accumulator, is real. -/
theorem IsReal.dot {ι : Type*} [Fintype ι] (acc : EReal) (f g : ι → EReal) (ha : IsReal acc)
    (hf : ∀ i, IsReal (f i)) (hg : ∀ i, IsReal (g i)) : IsReal (acc + ∑ i, f i * g i) :=
  ha.add (IsReal.sum_univ _ fun i => (hf i).mul (hg i))

/-- The ideal quotient of a real by a nonzero real is real. -/
theorem IsReal.div {x : EReal} (hx : IsReal x) (n : ℝ) (hn : n ≠ 0) : IsReal (Ideal.div x (n : EReal)) := by
  obtain ⟨a, rfl⟩ := hx
  have h0 : (n : EReal) ≠ 0 := EReal.coe_ne_zero.mpr hn
  refine ⟨a / n, ?_⟩
  rw [Ideal.div, if_neg h0, ← EReal.coe_inv, ← EReal.coe_mul, div_eq_mul_inv]

/-- The ideal quotient of a real by a real extended real other than zero is real. -/
theorem IsReal.div' {x y : EReal} (hx : IsReal x) (hy : IsReal y) (h0 : y ≠ 0) : IsReal (Ideal.div x y) := by
  obtain ⟨b, rfl⟩ := hy
  exact hx.div b (EReal.coe_ne_zero.mp h0)

/-- A choice between two reals is real. -/
theorem IsReal.ite {p : Prop} [Decidable p] {x y : EReal} (hx : IsReal x) (hy : IsReal y) :
    IsReal (if p then x else y) := by
  split <;> assumption

/-- The leaky rectifier of a real, with a real slope, is real. -/
theorem IsReal.leaky {x c : EReal} (hx : IsReal x) (hc : IsReal c) :
    IsReal (if 0 ≤ x then x else c * x) := hx.ite (hc.mul hx)

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The maximum of a real with an embedded real is real. -/
theorem IsReal.max_coe {x : EReal} (hx : IsReal x) (c : ℝ) : IsReal (Max.max x (c : EReal)) :=
  hx.max (isReal_coe c)

/-! ### The comparison and the select of the ideal instance -/

/-- The ideal "greater or equal" comparison answers `1` exactly when the order says so. -/
theorem cmp_oge_eq_one (x z : EReal) : Ideal.cmp .oge x z = 1#1 ↔ z ≤ x := by
  unfold Ideal.cmp
  by_cases h : z ≤ x <;> simp [h]

/-- The same with the literal `1` of the one-bit words. -/
theorem cmp_oge_eq_one' (x z : EReal) : Ideal.cmp .oge x z = (1 : BitVec 1) ↔ z ≤ x :=
  cmp_oge_eq_one x z

/-- A select on the ideal "greater or equal" comparison is the choice on the order. -/
theorem select_cmp_oge {α : Type} (x z : EReal) (a b : α) :
    Scalar.select (Ideal.cmp .oge x z) a b = if z ≤ x then a else b := by
  unfold Scalar.select
  by_cases h : z ≤ x
  · rw [if_pos h, if_pos ((cmp_oge_eq_one' x z).2 h)]
  · rw [if_neg h, if_neg (fun hc => h ((cmp_oge_eq_one' x z).1 hc))]

/-- The leaky rectifier as the ideal comparison and select spell it. -/
theorem leaky_select (x c : EReal) :
    Scalar.select (Ideal.cmp .oge x 0) x (c * x) = if 0 ≤ x then x else c * x :=
  select_cmp_oge x 0 x (c * x)

theorem IsReal.leaky_select {x c : EReal} (hx : IsReal x) (hc : IsReal c) :
    IsReal (Scalar.select (Ideal.cmp .oge x 0) x (c * x)) := by
  rw [LibRealClosure.leaky_select]; exact hx.leaky hc

/-! ### Block sums stay real -/

/-- The double sum over `A` blocks of `B` positions of reals is real. -/
theorem IsReal.block_sum (A B : ℕ) (f : Fin A → Fin B → EReal) (h : ∀ t y, IsReal (f t y)) :
    IsReal (∑ t : Fin A, ∑ y : Fin B, f t y) :=
  IsReal.sum_univ _ fun t => IsReal.sum_univ _ fun y => h t y

/-- A running total of real partial sums, started from a real, is real at every step. -/
theorem IsReal.fold (a s : ℕ → EReal) (z : EReal) (hz : IsReal z) (hs : ∀ t, IsReal (s t))
    (h0 : a 0 = z + s 0) (hstep : ∀ t, a (t + 1) = a t + s (t + 1)) : ∀ t, IsReal (a t) := by
  intro t
  induction t with
  | zero => rw [h0]; exact hz.add (hs 0)
  | succ t ih => rw [hstep]; exact ih.add (hs (t + 1))

end LibRealClosure
-- ==== Proof.Moments.lean ====
import proofs.«161332_j44100724195822_1_alg».proof.Proof.Spec
import proofs.«161332_j44100724195822_1_alg».proof.Proof.LibMoments
import proofs.«161332_j44100724195822_1_alg».proof.Proof.LibRealClosure
import proofs.«161332_j44100724195822_1_alg».proof.Proof.LibWords
import Mathlib

/-!
# The two spellings of a batch normalisation agree on real data

A batch normalisation over N rows needs, for every column, the mean and the variance of the column.
The variance can be computed as "the mean of the squares minus the square of the mean" (from the two
column sums, clamped at zero from below against rounding), or as "the mean of the squared deviations
from the mean". For real entries both are the same nonnegative real number, so the clamp does nothing
and the two normalisations are equal entry by entry.

Also here: the float words of 100000 and 256 as real numbers, the stabiliser `eps` as a positive real,
and the inverse square root of a positive real as a real number.
-/

noncomputable section

namespace Cert.Vn

open Idealize.ShloMosaic Idealize.ShloMosaic.ValueIdx LibRealClosure
open scoped BigOperators

/-! ### Constants -/

/-- The float word of 100000, the number of rows. -/
abbrev n100k : EReal := Ideal.ofBits .f32 0x47C35000#32

/-- The word 0x47C35000 denotes 100000: exponent field 143, fraction field 0x435000, and
    (2^23 + 0x435000) · 2^(143 − 127 − 23) = 12800000 / 128. -/
theorem word_100000 : Ideal.ofBits .f32 0x47C35000#32 = ((100000 : ℝ) : EReal) := by
  simp [Ideal.ofBits, Ideal.ieee]
  rw [← EReal.coe_mul]
  norm_num

/-- The word 0x43800000 denotes 256 = 2^8. -/
theorem word_256 : Ideal.ofBits .f32 0x43800000#32 = ((256 : ℝ) : EReal) := by
  simp [Ideal.ofBits, Ideal.ieee]
  rw [← EReal.coe_mul]
  norm_num

theorem n100k_eq : n100k = ((100000 : ℝ) : EReal) := word_100000

/-- The stabiliser is a positive real number (10995116 · 2^(−40), the float nearest to 10⁻⁵). -/
theorem eps_pos : ∃ e : ℝ, 0 < e ∧ eps = (e : EReal) := by
  unfold eps
  simp [Ideal.ofBits, Ideal.ieee]
  exact ⟨_, by positivity, (EReal.coe_mul _ _).symm⟩

/-- The inverse square root of a positive real, as a real. -/
theorem rsqrt_pos_coe (r : ℝ) (hr : 0 < r) :
    Ideal.rsqrt (r : EReal) = (((Real.sqrt r)⁻¹ : ℝ) : EReal) := by
  rw [Ideal.rsqrt_coe, if_neg (not_lt.mpr hr.le), if_neg hr.ne']

/-- The inverse square root of a positive real is a real number. -/
theorem rsqrt_real : ∀ r : ℝ, 0 < r → IsReal (Ideal.rsqrt (r : EReal)) :=
  fun r hr => ⟨_, rsqrt_pos_coe r hr⟩

/-! ### The variance, twice -/

/-- The ideal quotient of a nonnegative extended real by a positive real is nonnegative. -/
theorem div_nonneg_pos {s : EReal} (hs : 0 ≤ s) (n : ℝ) (hn : 0 < n) : 0 ≤ Ideal.div s (n : EReal) := by
  have h0 : (n : EReal) ≠ 0 := EReal.coe_ne_zero.mpr hn.ne'
  rw [Ideal.div, if_neg h0, ← EReal.coe_inv]
  exact EReal.mul_nonneg hs (EReal.coe_nonneg.mpr (inv_nonneg.mpr hn.le))

/-- The square of a difference of two reals is nonnegative. -/
theorem dev_sq_nonneg {a m : EReal} (ha : IsReal a) (hm : IsReal m) : 0 ≤ (a - m) * (a - m) := by
  obtain ⟨a', rfl⟩ := ha
  obtain ⟨m', rfl⟩ := hm
  rw [← EReal.coe_sub, ← EReal.coe_mul]
  exact EReal.coe_nonneg.mpr (mul_self_nonneg _)

/-- The per-column variance as the mean of the squared deviations from the per-column mean:
    entry (0, j) is (Σ_r (y r j − mean j)²) / n, with mean = meanOf n (colsum y). -/
def varDev {N D : ℕ} (n : EReal) (y : Mat N D) : Mat 1 D :=
  fun j => Ideal.div (∑ r : Fin N, (y (ix2 r (col j)) - meanOf n (colsum y) j)
      * (y (ix2 r (col j)) - meanOf n (colsum y) j)) n

/-- The per-column mean of real entries is real. -/
theorem meanOf_colsum_real {N D : ℕ} (n : ℝ) (hn : n ≠ 0) (y : Mat N D) (hy : ∀ i, IsReal (y i))
    (j : (⟨2, ![1, D]⟩ : Shape).Idx) : IsReal (meanOf (n : EReal) (colsum y) j) :=
  (IsReal.sum_univ _ fun _ => hy _).div n hn

/-- The mean of squared deviations of real entries is nonnegative. -/
theorem varDev_nonneg {N D : ℕ} (n : ℝ) (hn : 0 < n) (y : Mat N D) (hy : ∀ i, IsReal (y i))
    (j : (⟨2, ![1, D]⟩ : Shape).Idx) : 0 ≤ varDev (n : EReal) y j :=
  div_nonneg_pos (Finset.sum_nonneg fun _ _ =>
    dev_sq_nonneg (hy _) (meanOf_colsum_real n hn.ne' y hy j)) n hn

/-- For real entries, with n the number of rows: the second moment minus the squared mean is the mean of
    the squared deviations. -/
theorem varOf_eq_varDev {N D : ℕ} (n : ℝ) (hN : n = (N : ℝ)) (hn : 0 < n) (y : Mat N D)
    (hy : ∀ i, IsReal (y i)) (j : (⟨2, ![1, D]⟩ : Shape).Idx) :
    varOf (n : EReal) (colsum (sq y)) (meanOf (n : EReal) (colsum y)) j = varDev (n : EReal) y j :=
  LibMoments.ereal_moments (fun r : Fin N => y (ix2 r (col j))) (fun _ => hy _) n hn.ne'
    (by rw [Fintype.card_fin]; exact hN)

/-- So clamping it at zero from below changes nothing. -/
theorem max_varOf_zero {N D : ℕ} (n : ℝ) (hN : n = (N : ℝ)) (hn : 0 < n) (y : Mat N D)
    (hy : ∀ i, IsReal (y i)) (j : (⟨2, ![1, D]⟩ : Shape).Idx) :
    max (varOf (n : EReal) (colsum (sq y)) (meanOf (n : EReal) (colsum y)) j) 0 = varDev (n : EReal) y j := by
  rw [varOf_eq_varDev n hN hn y hy j]
  exact max_eq_left (varDev_nonneg n hn y hy j)

/-! ### The bridge -/

/-- The normalisation by the clamped "second moment minus squared mean" is the normalisation by the
    "mean of squared deviations", for N rows of real entries (n the real number N, N ≠ 0). -/
theorem nrp_moments_of {N D : ℕ} (n : EReal) (nr : ℝ) (hn : n = (nr : EReal)) (hN : nr = (N : ℝ))
    (hpos : 0 < nr) (y : Mat N D) (g b : Mat 1 D) (hy : ∀ i, IsReal (y i)) :
    nrp y (meanOf n (colsum y)) (varOf n (colsum (sq y)) (meanOf n (colsum y))) g b
      = nrpPlain y (meanOf n (colsum y)) (varDev n y) g b := by
  subst hn
  funext i
  simp only [nrp, nrpPlain]
  rw [max_varOf_zero nr hN hpos y hy (ix2 0 (col i))]

/-- The kernel's batch normalisation (variance from the two column sums, clamped at zero) equals the
    reference's (variance as the mean of squared deviations) on 100000 rows of real entries. -/
theorem nrp_moments {D : ℕ} (y : Mat 100000 D) (g b : Mat 1 D) (hy : ∀ i, IsReal (y i)) :
    nrp y (meanOf n100k (colsum y)) (varOf n100k (colsum (sq y)) (meanOf n100k (colsum y))) g b
      = nrpPlain y (meanOf n100k (colsum y))
          (fun j => Ideal.div (∑ r : Fin 100000, (y (ix2 r (col j)) - meanOf n100k (colsum y) j)
            * (y (ix2 r (col j)) - meanOf n100k (colsum y) j)) n100k) g b :=
  nrp_moments_of n100k 100000 n100k_eq (by norm_num) (by norm_num) y g b hy

/-- The same, with the reference's variance named. -/
theorem nrp_moments_varDev {D : ℕ} (y : Mat 100000 D) (g b : Mat 1 D) (hy : ∀ i, IsReal (y i)) :
    nrp y (meanOf n100k (colsum y)) (varOf n100k (colsum (sq y)) (meanOf n100k (colsum y))) g b
      = nrpPlain y (meanOf n100k (colsum y)) (varDev n100k y) g b :=
  nrp_moments y g b hy

end Cert.Vn

end
-- ==== Proof.RefRead.lean ====
/-
  The reference program's stages, read index by index: each stage of the reference (a function of whole arrays built
  from host operations) is one of the specification's index-by-index functions.  The linear layer is a plain matrix
  product of the row-shifted input; the combine step and the normalisation are entrywise with broadcast rows and
  columns; the pooled row and the batch statistics are sums down the columns; the log-softmax takes a maximum and a
  sum along every row.
-/
import proofs.«161332_j44100724195822_1_alg».proof.Proof.RefVal
import proofs.«161332_j44100724195822_1_alg».proof.Proof.Spec
import proofs.«161332_j44100724195822_1_alg».proof.Proof.LibMatmul
import proofs.«161332_j44100724195822_1_alg».proof.Proof.LibRowReduce
import proofs.«161332_j44100724195822_1_alg».proof.Proof.LibWords
import proofs.«161332_j44100724195822_1_alg».proof.Proof.Moments
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefRead

open Idealize.ShloMosaic Idealize.ShloMosaic.ValueIdx
open Cert.ReferenceIdeal Cert.ReferenceIdeal.Facts₀ Cert.ReferenceIdeal.Facts

/-! ### A sum down the columns -/

/-- The index of the matrix over column `b` of the reduced vector, with row `a` inserted on the reduced axis,
    is `(a, b)`. -/
theorem lift_ix1_col {A B : Nat} (h : (⟨2, ![A, B]⟩ : Shape).Reduces [0] ⟨1, ![B]⟩) (b : Fin B) (a : Fin A) :
    h.lift (ix1 b) a = ix2 a b := by
  funext c
  match c with
  | ⟨0, _⟩ => rfl
  | ⟨1, _⟩ => rfl

/-- A host's reduction fact along axis 0 into a vector is also a kernel's (the vector has an axis). -/
theorem reduces_of_reducesTo_col {A B : Nat} (h' : (⟨2, ![A, B]⟩ : Shape).ReducesTo [0] ⟨1, ![B]⟩) :
    (⟨2, ![A, B]⟩ : Shape).Reduces [0] ⟨1, ![B]⟩ := by
  obtain ⟨h1, h2⟩ := h'
  exact ⟨h1, Nat.one_pos, h2⟩

/-- The host's column sum: a one-operand reduction by addition along axis 0 from the scalar `v`, read at column
    `b`, is `v` plus the sum of that column. -/
theorem hostReduceAdd_col {A B : Nat} (x : FVec Ideal ⟨2, ![A, B]⟩ .f32)
    (v : (⟨0, ![]⟩ : Shape).Idx → EReal) (h' : (⟨2, ![A, B]⟩ : Shape).ReducesTo [0] ⟨1, ![B]⟩)
    (hu : 0 < (⟨0, ![]⟩ : Shape).numel) (b : Fin B) :
    Host.reduceAdd (F := Ideal) (φ := .f32) x v h' hu (ix1 b) = v ix0 + ∑ a : Fin A, x (ix2 a b) := by
  have h := reduces_of_reducesTo_col h'
  refine (Ideal.hostReduceAdd_single h' h x (v (Shape.Idx.first hu)) (ix1 b)).trans ?_
  rw [eq_ix0 (Shape.Idx.first hu)]
  exact congrArg (fun r => v ix0 + r) (Finset.sum_congr rfl fun a _ => congrArg x (lift_ix1_col h b a))

/-- The same from the zero word: the column's sum. -/
theorem hostReduceAdd_col_zero {A B : Nat} (x : FVec Ideal ⟨2, ![A, B]⟩ .f32)
    (h' : (⟨2, ![A, B]⟩ : Shape).ReducesTo [0] ⟨1, ![B]⟩) (hu : 0 < (⟨0, ![]⟩ : Shape).numel) (b : Fin B) :
    Host.reduceAdd (F := Ideal) (φ := .f32) x (constant (F := Ideal) ⟨0, ![]⟩ .f32 0x00000000#32) h' hu (ix1 b)
      = ∑ a : Fin A, x (ix2 a b) := by
  rw [hostReduceAdd_col, constant_apply, LibWords.word_zero, zero_add]

/-- A row sum from the zero word: the row's sum. -/
theorem hostReduceAdd_row_zero {A B : Nat} (x : FVec Ideal ⟨2, ![A, B]⟩ .f32)
    (h' : (⟨2, ![A, B]⟩ : Shape).ReducesTo [1] ⟨1, ![A]⟩) (hu : 0 < (⟨0, ![]⟩ : Shape).numel) (a : Fin A) :
    Host.reduceAdd (F := Ideal) (φ := .f32) x (constant (F := Ideal) ⟨0, ![]⟩ .f32 0x00000000#32) h' hu (ix1 a)
      = ∑ b : Fin B, x (ix2 a b) := by
  rw [Cert.LibRowReduce.hostReduceAdd_row, constant_apply, LibWords.word_zero, zero_add]

/-! ### Broadcasts read at an index -/

/-- A one-row matrix repeated over `A` rows reads, at `(p, q)`, the row's entry `q`. -/
theorem bcast_row_apply {α : Type} {A B : Nat} (v : (⟨2, ![1, B]⟩ : Shape).Idx → α)
    (h : (⟨2, ![1, B]⟩ : Shape).BroadcastsInDim ⟨2, ![A, B]⟩ ![0, 1]) (p : Fin A) (q : Fin B) :
    broadcastInDim ⟨2, ![A, B]⟩ ![0, 1] h v (ix2 p q) = v (ix2 0 q) := by
  refine broadcastInDim_apply ![0, 1] h v (ix2 p q) (ix2 0 q) fun ax => ?_
  match ax with
  | ⟨0, _⟩ => rfl
  | ⟨1, _⟩ =>
    show q.val = if B = 1 then 0 else q.val
    split
    · have := q.isLt; omega
    · rfl

/-- A one-column matrix repeated over `B` columns reads, at `(p, q)`, the column's entry `p`. -/
theorem bcast_col_apply {α : Type} {A B : Nat} (v : (⟨2, ![A, 1]⟩ : Shape).Idx → α)
    (h : (⟨2, ![A, 1]⟩ : Shape).BroadcastsInDim ⟨2, ![A, B]⟩ ![0, 1]) (p : Fin A) (q : Fin B) :
    broadcastInDim ⟨2, ![A, B]⟩ ![0, 1] h v (ix2 p q) = v (ix2 p 0) := by
  refine broadcastInDim_apply ![0, 1] h v (ix2 p q) (ix2 p 0) fun ax => ?_
  match ax with
  | ⟨0, _⟩ =>
    show p.val = if A = 1 then 0 else p.val
    split
    · have := p.isLt; omega
    · rfl
  | ⟨1, _⟩ => rfl

/-- A vector laid as the one row of a matrix reads, at `(u, q)`, the vector's entry `q`. -/
theorem bcast_vec_row_apply {α : Type} {B : Nat} (v : (⟨1, ![B]⟩ : Shape).Idx → α)
    (h : (⟨1, ![B]⟩ : Shape).BroadcastsInDim ⟨2, ![1, B]⟩ ![1]) (u : Fin 1) (q : Fin B) :
    broadcastInDim ⟨2, ![1, B]⟩ ![1] h v (ix2 u q) = v (ix1 q) := by
  refine broadcastInDim_apply ![1] h v (ix2 u q) (ix1 q) fun ax => ?_
  match ax with
  | ⟨0, _⟩ =>
    show q.val = if B = 1 then 0 else q.val
    split
    · have := q.isLt; omega
    · rfl

/-- A vector laid as the one column of a matrix reads, at `(p, u)`, the vector's entry `p`. -/
theorem bcast_vec_col_apply {α : Type} {A : Nat} (v : (⟨1, ![A]⟩ : Shape).Idx → α)
    (h : (⟨1, ![A]⟩ : Shape).BroadcastsInDim ⟨2, ![A, 1]⟩ ![0]) (p : Fin A) (u : Fin 1) :
    broadcastInDim ⟨2, ![A, 1]⟩ ![0] h v (ix2 p u) = v (ix1 p) := by
  refine broadcastInDim_apply ![0] h v (ix2 p u) (ix1 p) fun ax => ?_
  match ax with
  | ⟨0, _⟩ =>
    show p.val = if A = 1 then 0 else p.val
    split
    · have := p.isLt; omega
    · rfl

/-! ### The host's one-operand functions at an index -/

theorem hostRsqrt_apply {s : Shape} (x : FVec Ideal s .f32) (i : s.Idx) : Host.rsqrt x i = Ideal.rsqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ### The linear layer -/

/-- The reference's linear layer on 256 output columns is the specification's. -/
theorem lin256_eq (x : FVec Ideal S100000x256 .f32) (vx : FVec Ideal S1x256 .f32) (W : FVec Ideal S256x256 .f32) :
    RefVal.lin256 x vx W = Cert.Vn.lin x vx W := by
  funext i
  obtain ⟨p, q, rfl⟩ : ∃ (p : Fin 100000) (q : Fin 256), i = ix2 p q := ⟨i 0, i 1, eq_ix2 i⟩
  unfold RefVal.lin256 Cert.Vn.lin
  rw [show dot_S100000x256_S256x256_S100000x256_1_0_0_1_n_n = DotDims.plain 100000 256 256 from rfl,
    Cert.MatOps.dotGeneral_plain_apply]
  refine Finset.sum_congr rfl fun k _ => ?_
  rw [addf_apply, bcast_row_apply]

/-- The reference's linear layer on 40 output columns is the specification's. -/
theorem lin40_eq (x : FVec Ideal S100000x256 .f32) (vx : FVec Ideal S1x256 .f32) (W : FVec Ideal S256x40 .f32) :
    RefVal.lin40 x vx W = Cert.Vn.lin x vx W := by
  funext i
  obtain ⟨p, q, rfl⟩ : ∃ (p : Fin 100000) (q : Fin 40), i = ix2 p q := ⟨i 0, i 1, eq_ix2 i⟩
  unfold RefVal.lin40 Cert.Vn.lin
  rw [show dot_S100000x256_S256x40_S100000x40_1_0_0_1_n_n = DotDims.plain 100000 256 40 from rfl,
    Cert.MatOps.dotGeneral_plain_apply]
  refine Finset.sum_congr rfl fun k _ => ?_
  rw [addf_apply, bcast_row_apply]

/-! ### The combine step -/

/-- The reference's combine step on 256 columns is the specification's, with the bias vector laid as a row. -/
theorem comb256_eq (agg hp : FVec Ideal S100000x256 .f32) (sc : FVec Ideal S100000x1 .f32) (b : FVec Ideal S256 .f32) :
    RefVal.comb256 agg hp sc b
      = Cert.Vn.comb agg hp sc (broadcastInDim S1x256 ![1] bcast_S256_S1x256_1 b) := by
  funext i
  obtain ⟨p, q, rfl⟩ : ∃ (p : Fin 100000) (q : Fin 256), i = ix2 p q := ⟨i 0, i 1, eq_ix2 i⟩
  unfold RefVal.comb256 Cert.Vn.comb
  rw [addf_apply, addf_apply, mulf_apply, bcast_col_apply, bcast_row_apply]

/-- The reference's combine step on 40 columns is the specification's, with the bias vector laid as a row. -/
theorem comb40_eq (agg hp : FVec Ideal S100000x40 .f32) (sc : FVec Ideal S100000x1 .f32) (b : FVec Ideal S40 .f32) :
    RefVal.comb40 agg hp sc b
      = Cert.Vn.comb agg hp sc (broadcastInDim S1x40 ![1] bcast_S40_S1x40_1 b) := by
  funext i
  obtain ⟨p, q, rfl⟩ : ∃ (p : Fin 100000) (q : Fin 40), i = ix2 p q := ⟨i 0, i 1, eq_ix2 i⟩
  unfold RefVal.comb40 Cert.Vn.comb
  rw [addf_apply, addf_apply, mulf_apply, bcast_col_apply, bcast_row_apply]

/-! ### The pooled row -/

/-- The reference's pooled row is the row of column sums. -/
theorem pool_eq (h : FVec Ideal S100000x256 .f32) : RefVal.pool h = Cert.Vn.colsum h := by
  funext j
  obtain ⟨u, q, rfl⟩ : ∃ (u : Fin 1) (q : Fin 256), j = ix2 u q := ⟨j 0, j 1, eq_ix2 j⟩
  unfold RefVal.pool Cert.Vn.colsum
  rw [bcast_vec_row_apply, hostReduceAdd_col_zero]

/-! ### The log-softmax -/

/-- Every row shifted by its largest entry, at an index: the entry minus the row's supremum. -/
theorem shifted_apply (y : FVec Ideal S100000x40 .f32) (p : Fin 100000) (q : Fin 40) :
    RefVal.shifted y (ix2 p q) = y (ix2 p q) - Cert.Vn.rowmax y p := by
  unfold RefVal.shifted RefVal.cols40 Cert.Vn.rowmax
  rw [subf_apply, bcast_col_apply, bcast_vec_col_apply, maximumf_apply, broadcastInDim_scalar_apply,
    Cert.LibRowReduce.hostReduce_maximumf_row, constant_apply, Cert.LibRowReduce.ofBits_neg_inf_f32,
    max_bot_left, max_bot_left]

/-- The reference's log-softmax is the specification's. -/
theorem lsm_eq (y : FVec Ideal S100000x40 .f32) : RefVal.lsm y = Cert.Vn.lsm y := by
  funext i
  obtain ⟨p, q, rfl⟩ : ∃ (p : Fin 100000) (q : Fin 40), i = ix2 p q := ⟨i 0, i 1, eq_ix2 i⟩
  unfold RefVal.lsm Cert.Vn.lsm
  rw [subf_apply, bcast_col_apply, hostLog_apply, bcast_vec_col_apply, hostReduceAdd_row_zero, shifted_apply]
  refine congrArg (fun s => (y (ix2 p q) - Cert.Vn.rowmax y p) - Ideal.log s) (Finset.sum_congr rfl fun b _ => ?_)
  rw [hostExp_apply, shifted_apply]

/-! ### Batch normalisation with the rectifier -/

/-- A vector repeated over the rows reads, at `(p, q)`, the vector's entry `q`. -/
theorem rows_apply (v : FVec Ideal S256 .f32) (p : Fin 100000) (q : Fin 256) :
    RefVal.rows v (ix2 p q) = v (ix1 q) := by
  unfold RefVal.rows
  rw [bcast_row_apply, bcast_vec_row_apply]

/-- A vector repeated over the rows reads, at `(p, q)`, the entry `(0, q)` of the vector laid as a row. -/
theorem rows_apply_row (v : FVec Ideal S256 .f32) (p : Fin 100000) (q : Fin 256) :
    RefVal.rows v (ix2 p q) = broadcastInDim S1x256 ![1] bcast_S256_S1x256_1 v (ix2 0 q) := by
  unfold RefVal.rows
  rw [bcast_row_apply]

/-- The reference's per-column mean is the column sum divided by the number of rows. -/
theorem bnMean_apply (y : FVec Ideal S100000x256 .f32) (q : Fin 256) :
    RefVal.bnMean y (ix1 q) = Cert.Vn.meanOf Cert.Vn.n100k (Cert.Vn.colsum y) (ix2 0 q) := by
  unfold RefVal.bnMean Cert.Vn.meanOf Cert.Vn.colsum
  rw [hostDivf_apply, hostReduceAdd_col_zero, broadcastInDim_scalar_apply, constant_apply]

/-- The reference's per-column variance is the mean of the squared deviations from the column's mean. -/
theorem bnVar_apply (y : FVec Ideal S100000x256 .f32) (q : Fin 256) :
    RefVal.bnVar y (ix1 q)
      = Ideal.div (∑ r : Fin 100000, (y (ix2 r q) - Cert.Vn.meanOf Cert.Vn.n100k (Cert.Vn.colsum y) (ix2 0 q))
          * (y (ix2 r q) - Cert.Vn.meanOf Cert.Vn.n100k (Cert.Vn.colsum y) (ix2 0 q))) Cert.Vn.n100k := by
  unfold RefVal.bnVar
  rw [hostDivf_apply, hostReduceAdd_col_zero, broadcastInDim_scalar_apply, constant_apply]
  refine congrArg (fun s => Ideal.div s Cert.Vn.n100k) (Finset.sum_congr rfl fun r _ => ?_)
  rw [mulf_apply, subf_apply, rows_apply, bnMean_apply]

/-- The reference's batch normalisation with the rectifier is the specification's normalisation by the column means
    and the means of squared deviations, with the scale and shift vectors laid as rows. -/
theorem bnRelu_eq (y : FVec Ideal S100000x256 .f32) (g b : FVec Ideal S256 .f32) :
    RefVal.bnRelu y g b
      = Cert.Vn.nrpPlain y (Cert.Vn.meanOf Cert.Vn.n100k (Cert.Vn.colsum y))
          (fun j => Ideal.div (∑ r : Fin 100000,
              (y (ix2 r (Cert.Vn.col j)) - Cert.Vn.meanOf Cert.Vn.n100k (Cert.Vn.colsum y) j)
                * (y (ix2 r (Cert.Vn.col j)) - Cert.Vn.meanOf Cert.Vn.n100k (Cert.Vn.colsum y) j)) Cert.Vn.n100k)
          (broadcastInDim S1x256 ![1] bcast_S256_S1x256_1 g) (broadcastInDim S1x256 ![1] bcast_S256_S1x256_1 b) := by
  funext i
  obtain ⟨p, q, rfl⟩ : ∃ (p : Fin 100000) (q : Fin 256), i = ix2 p q := ⟨i 0, i 1, eq_ix2 i⟩
  unfold RefVal.bnRelu Cert.Vn.nrpPlain
  rw [maximumf_apply, addf_apply, mulf_apply, mulf_apply, subf_apply, rows_apply (RefVal.bnMean y),
    rows_apply (Host.rsqrt _), rows_apply_row g, rows_apply_row b, hostRsqrt_apply, addf_apply, bnMean_apply,
    bnVar_apply, broadcastInDim_scalar_apply, broadcastInDim_scalar_apply, constant_apply, constant_apply,
    LibWords.word_zero]
  rfl

end Cert.ReferenceIdeal.RefRead

end
-- ==== Proof.RealSpec.lean ====
import proofs.«161332_j44100724195822_1_alg».proof.Proof.Moments

/-!
# Every function of the specification keeps real entries real

If all entries of the arguments are real numbers, so are all entries of the linear layer, of the combine
step, of the column sums, of the entrywise square, of the per-column mean and variance, and of both
normalisations. For the normalisations the point is the inverse square root, which is a real number at a
positive real only: the clamped variance `max v 0` is a nonnegative real whatever real `v` is, the
mean of squared deviations is a nonnegative real, and the stabiliser is a positive real, so in both cases
the argument of the inverse square root is a positive real.
-/

noncomputable section

namespace Cert.Vn

open Idealize.ShloMosaic Idealize.ShloMosaic.ValueIdx LibRealClosure
open scoped BigOperators

/-! ### The inverse square root of a stabilised variance -/

/-- A nonnegative real plus the stabiliser has a real inverse square root (extended-real form). -/
theorem rsqrt_add_eps_real {v : EReal} (hv : IsReal v) (h0 : 0 ≤ v) : IsReal (Ideal.rsqrt (v + eps)) := by
  obtain ⟨e, he, heq⟩ := eps_pos
  obtain ⟨r, rfl⟩ := hv
  rw [heq, ← EReal.coe_add]
  exact rsqrt_real _ (add_pos_of_nonneg_of_pos (EReal.coe_nonneg.mp h0) he)

/-- The same for an embedded real: the scalar of a layer normalisation. -/
theorem rsqrt_coe_add_eps_real (v : ℝ) (h0 : 0 ≤ v) : IsReal (Ideal.rsqrt ((v : EReal) + eps)) :=
  rsqrt_add_eps_real (isReal_coe v) (EReal.coe_nonneg.mpr h0)

/-- A real clamped at zero from below, plus the stabiliser, has a real inverse square root. -/
theorem rsqrt_max_add_eps_real {v : EReal} (hv : IsReal v) : IsReal (Ideal.rsqrt (max v 0 + eps)) :=
  rsqrt_add_eps_real (hv.max isReal_zero) (le_max_right v 0)

/-! ### The linear layer, the combine step, sums and squares -/

theorem lin_real {N K D : ℕ} (x : Mat N K) (vx : Mat 1 K) (W : Mat K D) (hx : ∀ i, IsReal (x i))
    (hvx : ∀ i, IsReal (vx i)) (hW : ∀ i, IsReal (W i)) : ∀ i, IsReal (lin x vx W i) :=
  fun _ => IsReal.sum_univ _ fun _ => ((hx _).add (hvx _)).mul (hW _)

theorem comb_real {N D : ℕ} (agg hp : Mat N D) (sc : Mat N 1) (b : Mat 1 D) (hagg : ∀ i, IsReal (agg i))
    (hhp : ∀ i, IsReal (hp i)) (hsc : ∀ i, IsReal (sc i)) (hb : ∀ i, IsReal (b i)) :
    ∀ i, IsReal (comb agg hp sc b i) :=
  fun i => ((hagg i).add ((hhp i).mul (hsc _))).add (hb _)

theorem colsum_real {N D : ℕ} (y : Mat N D) (hy : ∀ i, IsReal (y i)) : ∀ j, IsReal (colsum y j) :=
  fun _ => IsReal.sum_univ _ fun _ => hy _

theorem sq_real {N D : ℕ} (y : Mat N D) (hy : ∀ i, IsReal (y i)) : ∀ i, IsReal (sq y i) :=
  fun i => (hy i).mul (hy i)

/-! ### Mean and variance -/

/-- The quotient of real column sums by a nonzero real count is real. -/
theorem meanOf_real_of {D : ℕ} (n : EReal) (nr : ℝ) (hn : n = (nr : EReal)) (h0 : nr ≠ 0) (s : Mat 1 D)
    (hs : ∀ j, IsReal (s j)) : ∀ j, IsReal (meanOf n s j) := by
  subst hn
  exact fun j => (hs j).div nr h0

theorem meanOf_real {D : ℕ} (s : Mat 1 D) (hs : ∀ j, IsReal (s j)) : ∀ j, IsReal (meanOf n100k s j) :=
  meanOf_real_of n100k 100000 n100k_eq (by norm_num) s hs

/-- The second moment minus the squared mean, from real sums and a real mean, is real. -/
theorem varOf_real_of {D : ℕ} (n : EReal) (nr : ℝ) (hn : n = (nr : EReal)) (h0 : nr ≠ 0) (ss mean : Mat 1 D)
    (hss : ∀ j, IsReal (ss j)) (hmean : ∀ j, IsReal (mean j)) : ∀ j, IsReal (varOf n ss mean j) := by
  subst hn
  exact fun j => ((hss j).div nr h0).sub ((hmean j).mul (hmean j))

theorem varOf_real {D : ℕ} (ss mean : Mat 1 D) (hss : ∀ j, IsReal (ss j)) (hmean : ∀ j, IsReal (mean j)) :
    ∀ j, IsReal (varOf n100k ss mean j) :=
  varOf_real_of n100k 100000 n100k_eq (by norm_num) ss mean hss hmean

/-- The mean of squared deviations of real entries is real (n the real number of rows). -/
theorem varDev_real_of {N D : ℕ} (n : ℝ) (hN : n = (N : ℝ)) (hn : 0 < n) (y : Mat N D)
    (hy : ∀ i, IsReal (y i)) : ∀ j, IsReal (varDev (n : EReal) y j) := by
  intro j
  rw [← varOf_eq_varDev n hN hn y hy j]
  exact varOf_real_of (n : EReal) n rfl hn.ne' _ _ (colsum_real _ (sq_real y hy))
    (meanOf_real_of (n : EReal) n rfl hn.ne' _ (colsum_real y hy)) j

theorem varDev_real {D : ℕ} (y : Mat 100000 D) (hy : ∀ i, IsReal (y i)) : ∀ j, IsReal (varDev n100k y j) := by
  rw [n100k_eq]
  exact varDev_real_of 100000 (by norm_num) (by norm_num) y hy

theorem varDev_nonneg_100k {D : ℕ} (y : Mat 100000 D) (hy : ∀ i, IsReal (y i)) : ∀ j, 0 ≤ varDev n100k y j := by
  rw [n100k_eq]
  exact varDev_nonneg 100000 (by norm_num) y hy

/-! ### The two normalisations -/

/-- The normalisation with the clamp is real for real data and any real mean and variance. -/
theorem nrp_real_gen {N D : ℕ} (y : Mat N D) (mean var g b : Mat 1 D) (hy : ∀ i, IsReal (y i))
    (hmean : ∀ j, IsReal (mean j)) (hvar : ∀ j, IsReal (var j)) (hg : ∀ j, IsReal (g j))
    (hb : ∀ j, IsReal (b j)) : ∀ i, IsReal (nrp y mean var g b i) :=
  fun i => (((((hy i).sub (hmean _)).mul (rsqrt_max_add_eps_real (hvar _))).mul (hg _)).add (hb _)).max
    isReal_zero

/-- The normalisation without the clamp is real for real data, a real mean and a nonnegative real variance. -/
theorem nrpPlain_real_gen {N D : ℕ} (y : Mat N D) (mean var g b : Mat 1 D) (hy : ∀ i, IsReal (y i))
    (hmean : ∀ j, IsReal (mean j)) (hvar : ∀ j, IsReal (var j)) (hvar0 : ∀ j, 0 ≤ var j)
    (hg : ∀ j, IsReal (g j)) (hb : ∀ j, IsReal (b j)) : ∀ i, IsReal (nrpPlain y mean var g b i) :=
  fun i => (((((hy i).sub (hmean _)).mul (rsqrt_add_eps_real (hvar _) (hvar0 _))).mul (hg _)).add (hb _)).max
    isReal_zero

/-- The kernel's batch normalisation of 100000 rows of real entries is real. -/
theorem nrp_real {D : ℕ} (y : Mat 100000 D) (g b : Mat 1 D) (hy : ∀ i, IsReal (y i))
    (hg : ∀ j, IsReal (g j)) (hb : ∀ j, IsReal (b j)) :
    ∀ i, IsReal (nrp y (meanOf n100k (colsum y))
      (varOf n100k (colsum (sq y)) (meanOf n100k (colsum y))) g b i) :=
  nrp_real_gen y _ _ g b hy (meanOf_real _ (colsum_real y hy))
    (varOf_real _ _ (colsum_real _ (sq_real y hy)) (meanOf_real _ (colsum_real y hy))) hg hb

/-- The reference's batch normalisation of 100000 rows of real entries is real (variance named). -/
theorem nrpPlain_real_varDev {D : ℕ} (y : Mat 100000 D) (g b : Mat 1 D) (hy : ∀ i, IsReal (y i))
    (hg : ∀ j, IsReal (g j)) (hb : ∀ j, IsReal (b j)) :
    ∀ i, IsReal (nrpPlain y (meanOf n100k (colsum y)) (varDev n100k y) g b i) :=
  nrpPlain_real_gen y _ _ g b hy (meanOf_real _ (colsum_real y hy)) (varDev_real y hy)
    (varDev_nonneg_100k y hy) hg hb

/-- The same with the variance written out as the mean of squared deviations. -/
theorem nrpPlain_real {D : ℕ} (y : Mat 100000 D) (g b : Mat 1 D) (hy : ∀ i, IsReal (y i))
    (hg : ∀ j, IsReal (g j)) (hb : ∀ j, IsReal (b j)) :
    ∀ i, IsReal (nrpPlain y (meanOf n100k (colsum y))
      (fun j => Ideal.div (∑ r : Fin 100000, (y (ix2 r (col j)) - meanOf n100k (colsum y) j)
        * (y (ix2 r (col j)) - meanOf n100k (colsum y) j)) n100k) g b i) :=
  nrpPlain_real_varDev y g b hy hg hb

end Cert.Vn

end
-- ==== Proof.LibRealOps.lean ====
import Idealize.ShloMosaic.PureOps
import proofs.«161332_j44100724195822_1_alg».proof.Proof.LibRealClosure

/-!
# Host operations that keep every entry real

An array of extended reals all of whose entries are real stays so under the host operations
that only move entries (a gather, a broadcast, a concatenation: each entry of the result is an
entry of an operand), under the accumulating scatter (an entry plus a finite sum of update
entries), under the entrywise maximum, and under the entrywise quotient by an array with no
zero entry. A maximum with a number that is at least one is not zero.
-/

namespace LibRealOps

open Idealize.ShloMosaic LibRealClosure
open scoped BigOperators

variable {s t : Shape}

/-- A gather reads entries of its operand. -/
theorem gather_real {si : Shape} {w : Nat} (d : GatherDims s si t) (x : s.Idx → EReal) (idx : IVec si w)
    (hx : ∀ i, IsReal (x i)) (j : t.Idx) : IsReal (Host.gather d x idx j) := hx _

/-- A broadcast reads entries of its operand. -/
theorem broadcastInDim_real (dims : Fin s.rank → Fin t.rank) (h : s.BroadcastsInDim t dims) (x : s.Idx → EReal)
    (hx : ∀ i, IsReal (x i)) (j : t.Idx) : IsReal (broadcastInDim t dims h x j) := hx _

/-- Every entry of a concatenation is an entry of one of the pieces. -/
theorem concatenate_mem {α : Type} (a : Fin t.rank) (xs : List ((s : Shape) × (s.Idx → α)))
    (h : Shape.Concatenates (xs.map (·.1)) t a) (j : t.Idx) :
    ∃ p ∈ xs, ∃ k, concatenate t a xs h j = p.2 k := by
  unfold concatenate
  exact ⟨_, List.getElem_mem _, _, rfl⟩

/-- A concatenation of arrays with real entries has real entries. -/
theorem concatenate_real (a : Fin t.rank) (xs : List ((s : Shape) × (s.Idx → EReal)))
    (h : Shape.Concatenates (xs.map (·.1)) t a) (hx : ∀ p ∈ xs, ∀ k, IsReal (p.2 k)) (j : t.Idx) :
    IsReal (concatenate t a xs h j) := by
  obtain ⟨p, hp, k, e⟩ := concatenate_mem a xs h j
  rw [e]; exact hx p hp k

/-- The accumulating scatter of real updates into a real array has real entries. -/
theorem scatterAdd_real {φ : FTy} {si u : Shape} {w : Nat} (d : ScatterDims s si u) (x : FVec Ideal s φ)
    (idx : IVec si w) (upd : FVec Ideal u φ) (hx : ∀ i, IsReal (x i)) (hu : ∀ k, IsReal (upd k)) (i : s.Idx) :
    IsReal (Host.scatterAdd d x idx upd i) :=
  (hx i).add (IsReal.sum _ _ fun k _ => hu k)

/-- A constant array of a real word has real entries. -/
theorem constant_real {φ : FTy} (s : Shape) (b : BitVec φ.bits) (h : IsReal (Ideal.ofBits φ b)) (i : s.Idx) :
    IsReal ((constant s φ b : FVec Ideal s φ) i) := h

/-- The entrywise maximum of real arrays has real entries. -/
theorem maximumf_real {φ : FTy} (x y : FVec Ideal s φ) (hx : ∀ i, IsReal (x i)) (hy : ∀ i, IsReal (y i))
    (i : s.Idx) : IsReal (maximumf x y i) := (hx i).max (hy i)

/-- A maximum with entries that are at least one has no zero entry. -/
theorem maximumf_ne_zero {φ : FTy} (x y : FVec Ideal s φ) (hy : ∀ i, (1 : EReal) ≤ y i) (i : s.Idx) :
    maximumf x y i ≠ 0 := by
  have h1 : (1 : EReal) ≤ maximumf x y i := le_trans (hy i) (le_max_right (x i) (y i))
  intro h0
  rw [h0] at h1
  exact absurd h1 (by norm_num)

/-- The entrywise host quotient of real arrays, the divisor without a zero entry, has real entries. -/
theorem hostDivf_real {φ : FTy} (x y : FVec Ideal s φ) (hx : ∀ i, IsReal (x i)) (hy : ∀ i, IsReal (y i))
    (h0 : ∀ i, y i ≠ 0) (i : s.Idx) : IsReal (Host.divf x y i) := (hx i).div' (hy i) (h0 i)

end LibRealOps
-- ==== Proof.RealChain.lean ====
import proofs.«161332_j44100724195822_1_alg».proof.Proof.Chain
import proofs.«161332_j44100724195822_1_alg».proof.Proof.LibRealOps
import proofs.«161332_j44100724195822_1_alg».proof.Proof.RealSpec
import Idealize.ShloMosaic.PureOps.Ideal.Laws

/-!
# The shared host chains keep real entries real

The pieces of the graph convolution that run on the host — the inverse square root of (in-degree + 1), the
per-edge and per-node coefficients built from it, the neighbour aggregation, and the virtual node's update
(a linear map, a layer normalisation, a rectifier) — have real entries whenever their floating-point
arguments have, whatever the index words of the edge list are.

Moving operations (gather, broadcast) read entries of their operand; entrywise sums, differences, products
and maxima of reals are real; an accumulating scatter and a host sum are an entry plus a finite sum of
entries. The two inverse square roots are taken at positive reals: an in-degree is a finite sum of ones,
hence a nonnegative real, and one more than it is positive; the variance of a row is a mean of squares of
reals, hence a nonnegative real, and the stabiliser added to it is positive.
-/

noncomputable section

namespace Cert.KernelIdeal.Chain

open Idealize.ShloMosaic Cert.KernelIdeal Cert.KernelIdeal.Facts₀ Cert.KernelIdeal.Facts LibRealClosure
open scoped BigOperators

/-! ### Entrywise and accumulating operations, at an entry -/

section Ops
variable {s t : Shape} {φ : FTy}

theorem addf_apply (x y : FVec Ideal s φ) (i : s.Idx) : addf x y i = x i + y i := rfl

theorem hostRsqrt_apply (x : FVec Ideal s φ) (i : s.Idx) : Host.rsqrt x i = Ideal.rsqrt (x i) := rfl

theorem hostDivf_apply (x y : FVec Ideal s φ) (i : s.Idx) : Host.divf x y i = Ideal.div (x i) (y i) := rfl

/-- A broadcast constant is the constant's word at every entry. -/
theorem bconst_apply (dims : Fin s.rank → Fin t.rank) (h : s.BroadcastsInDim t dims) (b : BitVec φ.bits) (j : t.Idx) :
    broadcastInDim t dims h (constant (F := Ideal) s φ b) j = Ideal.ofBits φ b := rfl

theorem addf_real (x y : FVec Ideal s φ) (hx : ∀ i, IsReal (x i)) (hy : ∀ i, IsReal (y i)) (i : s.Idx) :
    IsReal (addf x y i) := (hx i).add (hy i)

theorem subf_real (x y : FVec Ideal s φ) (hx : ∀ i, IsReal (x i)) (hy : ∀ i, IsReal (y i)) (i : s.Idx) :
    IsReal (subf x y i) := (hx i).sub (hy i)

theorem mulf_real (x y : FVec Ideal s φ) (hx : ∀ i, IsReal (x i)) (hy : ∀ i, IsReal (y i)) (i : s.Idx) :
    IsReal (mulf x y i) := (hx i).mul (hy i)

/-- A broadcast of nonnegative entries has nonnegative entries. -/
theorem broadcastInDim_nonneg (dims : Fin s.rank → Fin t.rank) (h : s.BroadcastsInDim t dims) (x : s.Idx → EReal)
    (hx : ∀ i, 0 ≤ x i) (j : t.Idx) : 0 ≤ broadcastInDim t dims h x j := hx _

/-- The accumulating scatter of nonnegative updates into a nonnegative array has nonnegative entries. -/
theorem scatterAdd_nonneg {si u : Shape} {w : Nat} (d : ScatterDims s si u) (x : FVec Ideal s φ)
    (idx : IVec si w) (upd : FVec Ideal u φ) (hx : ∀ i, (0 : EReal) ≤ x i) (hu : ∀ k, (0 : EReal) ≤ upd k)
    (i : s.Idx) : (0 : EReal) ≤ Host.scatterAdd d x idx upd i :=
  add_nonneg (hx i) (Finset.sum_nonneg fun k _ => hu k)

/-- A host sum of real entries onto a real initial value has real entries. -/
theorem hostReduceAdd_real {axes : List (Fin s.rank)} {u : Shape} (x : FVec Ideal s φ) (init : u.Idx → Ideal φ)
    (h : s.ReducesTo axes t) (hu : 0 < u.numel) (hx : ∀ i, IsReal (x i)) (hi : ∀ k, IsReal (init k))
    (j : t.Idx) : IsReal (Host.reduceAdd x init h hu j) :=
  (hi _).add (IsReal.sum _ _ fun k _ => hx k)

/-- A host sum of nonnegative entries onto a nonnegative initial value has nonnegative entries. -/
theorem hostReduceAdd_nonneg {axes : List (Fin s.rank)} {u : Shape} (x : FVec Ideal s φ) (init : u.Idx → Ideal φ)
    (h : s.ReducesTo axes t) (hu : 0 < u.numel) (hx : ∀ i, (0 : EReal) ≤ x i) (hi : ∀ k, (0 : EReal) ≤ init k)
    (j : t.Idx) : (0 : EReal) ≤ Host.reduceAdd x init h hu j :=
  add_nonneg (hi _) (Finset.sum_nonneg fun k _ => hx k)

/-- The host quotient of nonnegative entries by a positive real constant has nonnegative entries. -/
theorem hostDivf_nonneg (x y : FVec Ideal s φ) (n : ℝ) (hn : 0 < n) (hx : ∀ i, (0 : EReal) ≤ x i)
    (hy : ∀ i, y i = (n : EReal)) (i : s.Idx) : (0 : EReal) ≤ Host.divf x y i := by
  rw [hostDivf_apply, hy i]
  exact Cert.Vn.div_nonneg_pos (hx i) n hn

/-- The host contraction of real operands has real entries. -/
theorem dotGeneral_real {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i))
    (j : so.Idx) : IsReal (Host.dotGeneral (F := Ideal) d prec l r j) := by
  show IsReal (FloatOps.dotGeneral d prec .single l r j)
  rw [Ideal.dotGeneral_apply]
  exact IsReal.sum_univ _ fun _ => (hl _).mul (hr _)

end Ops

/-! ### Words -/

theorem word_zero_real : IsReal (Ideal.ofBits .f32 0x00000000#32) := by
  rw [LibWords.word_zero]; exact isReal_zero

theorem word_one_real : IsReal (Ideal.ofBits .f32 0x3F800000#32) := by
  rw [LibWords.word_one]; exact isReal_one

theorem word_256_real : IsReal (Ideal.ofBits .f32 0x43800000#32) := ⟨256, Cert.Vn.word_256⟩

theorem word_256_ne_zero : Ideal.ofBits .f32 0x43800000#32 ≠ 0 := by
  rw [Cert.Vn.word_256]; exact EReal.coe_ne_zero.mpr (by norm_num)

/-- The square of a real is nonnegative. -/
theorem mul_self_nonneg_real {a : EReal} (ha : IsReal a) : 0 ≤ a * a := by
  obtain ⟨r, rfl⟩ := ha
  rw [← EReal.coe_mul]
  exact EReal.coe_nonneg.mpr (mul_self_nonneg r)

/-- One more than a nonnegative real has a real inverse square root. -/
theorem rsqrt_add_one_real {v c : EReal} (hv : IsReal v) (h0 : 0 ≤ v) (hc : c = 1) : IsReal (Ideal.rsqrt (v + c)) := by
  obtain ⟨r, rfl⟩ := hv
  subst hc
  rw [← EReal.coe_one, ← EReal.coe_add]
  exact Cert.Vn.rsqrt_real _ (by have := EReal.coe_nonneg.mp h0; linarith)

/-! ### The degree normaliser and the coefficients -/

/-- (in-degree + 1)^(-1/2) is real at every node: the in-degree is a finite sum of ones. -/
theorem dis_real (ei : IVec S2x800000 32) : ∀ i, IsReal (dis ei i) := by
  intro i
  unfold dis
  rw [hostRsqrt_apply, addf_apply]
  refine rsqrt_add_one_real
    (LibRealOps.scatterAdd_real _ _ _ _ (fun _ => word_zero_real) (fun _ => word_one_real) i)
    (scatterAdd_nonneg _ _ _ _ (fun _ => le_of_eq LibWords.word_zero.symm) (fun _ => ?_) i)
    LibWords.word_one
  rw [bconst_apply, LibWords.word_one]
  exact zero_le_one

/-- The per-edge coefficient dis[src]·dis[dst] is real: two entries of a real array, multiplied. -/
theorem coefc_real (ei : IVec S2x800000 32) : ∀ i, IsReal (coefc ei i) := fun i =>
  LibRealOps.broadcastInDim_real _ _ _
    (mulf_real _ _ (LibRealOps.gather_real _ _ _ (dis_real ei)) (LibRealOps.gather_real _ _ _ (dis_real ei))) i

/-- The per-node self-loop coefficient dis·dis is real. -/
theorem selfc_real (ei : IVec S2x800000 32) : ∀ i, IsReal (selfc ei i) := fun i =>
  LibRealOps.broadcastInDim_real _ _ _ (mulf_real _ _ (dis_real ei) (dis_real ei)) i

/-! ### The neighbour aggregation -/

/-- The aggregation of a real 256-column matrix is real: zeros plus finite sums of (a gathered entry times a
    coefficient). -/
theorem agg256_real (hp : FVec Ideal S100000x256 .f32) (ei : IVec S2x800000 32) (h : ∀ i, IsReal (hp i)) :
    ∀ i, IsReal (agg256 hp ei i) := fun i =>
  LibRealOps.scatterAdd_real _ _ _ _
    (LibRealOps.broadcastInDim_real _ _ _ (LibRealOps.constant_real _ _ word_zero_real))
    (mulf_real _ _ (LibRealOps.gather_real _ _ _ h) (LibRealOps.broadcastInDim_real _ _ _ (coefc_real ei))) i

/-- The aggregation of a real 40-column matrix is real. -/
theorem agg40_real (hp : FVec Ideal S100000x40 .f32) (ei : IVec S2x800000 32) (h : ∀ i, IsReal (hp i)) :
    ∀ i, IsReal (agg40 hp ei i) := fun i =>
  LibRealOps.scatterAdd_real _ _ _ _
    (LibRealOps.broadcastInDim_real _ _ _ (LibRealOps.constant_real _ _ word_zero_real))
    (mulf_real _ _ (LibRealOps.gather_real _ _ _ h) (LibRealOps.broadcastInDim_real _ _ _ (coefc_real ei))) i

/-! ### The layer normalisation of one row, stage by stage -/

/-- The row's mean: the host sum of the row, divided by the word of 256. -/
def lnMu (z : FVec Ideal S1x256 .f32) : FVec Ideal S1x1 .f32 :=
  Host.divf (broadcastInDim S1x1 ![0] bcast_S1_S1x1_0
      (Host.reduceAdd z (constant (F := Ideal) S_ .f32 0x00000000#32) reducesTo_S1x256_S1_d1 h_S_))
    (broadcastInDim S1x1 ![] bcast_S_S1x1 (constant (F := Ideal) S_ .f32 0x43800000#32))

/-- The row's deviations from its mean. -/
def lnD (z : FVec Ideal S1x256 .f32) : FVec Ideal S1x256 .f32 :=
  subf z (broadcastInDim S1x256 ![0, 1] bcast_S1x1_S1x256_0_1 (lnMu z))

/-- The row's variance: the host sum of the squared deviations, divided by the word of 256. -/
def lnVar (z : FVec Ideal S1x256 .f32) : FVec Ideal S1x1 .f32 :=
  Host.divf (broadcastInDim S1x1 ![0] bcast_S1_S1x1_0
      (Host.reduceAdd (mulf (lnD z) (lnD z)) (constant (F := Ideal) S_ .f32 0x00000000#32) reducesTo_S1x256_S1_d1 h_S_))
    (broadcastInDim S1x1 ![] bcast_S_S1x1 (constant (F := Ideal) S_ .f32 0x43800000#32))

/-- The inverse square root of the stabilised variance. -/
def lnInv (z : FVec Ideal S1x256 .f32) : FVec Ideal S1x1 .f32 :=
  Host.rsqrt (addf (lnVar z) (broadcastInDim S1x1 ![] bcast_S_S1x1 (constant (F := Ideal) S_ .f32 0x3727C5AC#32)))

/-- The layer normalisation in terms of its stages. -/
theorem lnRelu_eq (z : FVec Ideal S1x256 .f32) (g bb : FVec Ideal S256 .f32) :
    lnRelu z g bb = maximumf
      (addf (mulf (mulf (lnD z) (broadcastInDim S1x256 ![0, 1] bcast_S1x1_S1x256_0_1 (lnInv z)))
                  (broadcastInDim S1x256 ![1] bcast_S256_S1x256_1 g))
            (broadcastInDim S1x256 ![1] bcast_S256_S1x256_1 bb))
      (broadcastInDim S1x256 ![] bcast_S_S1x256 (constant (F := Ideal) S_ .f32 0x00000000#32)) := rfl

theorem lnMu_real (z : FVec Ideal S1x256 .f32) (hz : ∀ i, IsReal (z i)) : ∀ i, IsReal (lnMu z i) := fun i =>
  LibRealOps.hostDivf_real _ _
    (LibRealOps.broadcastInDim_real _ _ _ (hostReduceAdd_real z _ _ _ hz fun _ => word_zero_real))
    (fun _ => word_256_real) (fun _ => word_256_ne_zero) i

theorem lnD_real (z : FVec Ideal S1x256 .f32) (hz : ∀ i, IsReal (z i)) : ∀ i, IsReal (lnD z i) :=
  subf_real _ _ hz (LibRealOps.broadcastInDim_real _ _ _ (lnMu_real z hz))

theorem lnVar_real (z : FVec Ideal S1x256 .f32) (hz : ∀ i, IsReal (z i)) : ∀ i, IsReal (lnVar z i) := fun i =>
  LibRealOps.hostDivf_real _ _
    (LibRealOps.broadcastInDim_real _ _ _
      (hostReduceAdd_real _ _ _ _ (mulf_real _ _ (lnD_real z hz) (lnD_real z hz)) fun _ => word_zero_real))
    (fun _ => word_256_real) (fun _ => word_256_ne_zero) i

/-- The variance is a mean of squares of reals, so it is nonnegative. -/
theorem lnVar_nonneg (z : FVec Ideal S1x256 .f32) (hz : ∀ i, IsReal (z i)) : ∀ i, (0 : EReal) ≤ lnVar z i := fun i =>
  hostDivf_nonneg _ _ 256 (by norm_num)
    (broadcastInDim_nonneg _ _ _
      (hostReduceAdd_nonneg _ _ _ _ (fun k => mul_self_nonneg_real (lnD_real z hz k))
        fun _ => le_of_eq LibWords.word_zero.symm))
    (fun _ => Cert.Vn.word_256) i

theorem lnInv_real (z : FVec Ideal S1x256 .f32) (hz : ∀ i, IsReal (z i)) : ∀ i, IsReal (lnInv z i) := by
  intro i
  unfold lnInv
  rw [hostRsqrt_apply, addf_apply, bconst_apply]
  exact Cert.Vn.rsqrt_add_eps_real (lnVar_real z hz i) (lnVar_nonneg z hz i)

/-- The layer normalisation and rectifier of a real row, with real scale and shift, is real. -/
theorem lnRelu_real (z : FVec Ideal S1x256 .f32) (g bb : FVec Ideal S256 .f32) (hz : ∀ i, IsReal (z i))
    (hg : ∀ i, IsReal (g i)) (hbb : ∀ i, IsReal (bb i)) : ∀ i, IsReal (lnRelu z g bb i) := by
  intro i
  rw [lnRelu_eq]
  exact LibRealOps.maximumf_real _ _
    (addf_real _ _
      (mulf_real _ _
        (mulf_real _ _ (lnD_real z hz) (LibRealOps.broadcastInDim_real _ _ _ (lnInv_real z hz)))
        (LibRealOps.broadcastInDim_real _ _ _ hg))
      (LibRealOps.broadcastInDim_real _ _ _ hbb))
    (LibRealOps.broadcastInDim_real _ _ _ (LibRealOps.constant_real _ _ word_zero_real)) i

/-! ### The virtual node's update -/

/-- The virtual node's update of real arguments is real. -/
theorem vn_real (pool vx : FVec Ideal S1x256 .f32) (W : FVec Ideal S256x256 .f32) (b g bb : FVec Ideal S256 .f32)
    (hpool : ∀ i, IsReal (pool i)) (hvx : ∀ i, IsReal (vx i)) (hW : ∀ i, IsReal (W i))
    (hb : ∀ i, IsReal (b i)) (hg : ∀ i, IsReal (g i)) (hbb : ∀ i, IsReal (bb i)) :
    ∀ i, IsReal (vn pool vx W b g bb i) :=
  lnRelu_real _ g bb
    (addf_real _ _ (dotGeneral_real _ _ _ _ (addf_real _ _ hpool hvx) hW)
      (LibRealOps.broadcastInDim_real _ _ _ hb)) hg hbb

end Cert.KernelIdeal.Chain

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.Bridge.lean ====
/-
  The bridge between the two value functions.

  The idealized kernel's result (the index-by-index functions of the specification, composed with the host chains
  of the kernel's program) and the reference's result (its own host operations, stage by stage) are the same array
  whenever every floating-point argument has real entries.

  Three things are used.  The host chains the two programs share are the same text over records with the same
  fields, so they are the same functions.  A vector reshaped to one row is the vector broadcast along the second
  axis.  The kernel's variance (second moment minus squared mean, clamped at zero) and the reference's (mean of
  squared deviations) agree on real data; the data of each layer is real because every stage keeps real entries
  real, which is carried along layer by layer.
-/
import proofs.«161332_j44100724195822_1_alg».proof.Proof.KVal
import proofs.«161332_j44100724195822_1_alg».proof.Proof.RefVal
import proofs.«161332_j44100724195822_1_alg».proof.Proof.RefRead
import proofs.«161332_j44100724195822_1_alg».proof.Proof.Moments
import proofs.«161332_j44100724195822_1_alg».proof.Proof.RealSpec
import proofs.«161332_j44100724195822_1_alg».proof.Proof.RealChain
import proofs.«161332_j44100724195822_1_alg».proof.Proof.LibRealOps
import proofs.«161332_j44100724195822_1_alg».proof.Proof.LibRowVector

noncomputable section

namespace Cert.Bridge

open Idealize.ShloMosaic Idealize.ShloMosaic.ValueIdx LibRealClosure

/-! ### The shared host chains are the same functions -/

set_option maxHeartbeats 400000 in
/-- The self-loop coefficient column is the same function in both programs. -/
theorem selfc_eq (ei : IVec Cert.KernelIdeal.S2x800000 32) :
    Cert.KernelIdeal.Chain.selfc ei = Cert.ReferenceIdeal.RefVal.selfc ei := rfl

set_option maxHeartbeats 400000 in
/-- The neighbour aggregation on 256 columns is the same function in both programs. -/
theorem agg256_eq (hp : FVec Ideal Cert.KernelIdeal.S100000x256 .f32) (ei : IVec Cert.KernelIdeal.S2x800000 32) :
    Cert.KernelIdeal.Chain.agg256 hp ei = Cert.ReferenceIdeal.RefVal.agg256 hp ei := rfl

set_option maxHeartbeats 400000 in
/-- The neighbour aggregation on 40 columns is the same function in both programs. -/
theorem agg40_eq (hp : FVec Ideal Cert.KernelIdeal.S100000x40 .f32) (ei : IVec Cert.KernelIdeal.S2x800000 32) :
    Cert.KernelIdeal.Chain.agg40 hp ei = Cert.ReferenceIdeal.RefVal.agg40 hp ei := rfl

set_option maxHeartbeats 400000 in
/-- The virtual node's update is the same function in both programs. -/
theorem vn_eq (pool vx : FVec Ideal Cert.KernelIdeal.S1x256 .f32) (W : FVec Ideal Cert.KernelIdeal.S256x256 .f32)
    (b g bb : FVec Ideal Cert.KernelIdeal.S256 .f32) :
    Cert.KernelIdeal.Chain.vn pool vx W b g bb = Cert.ReferenceIdeal.RefVal.vn pool vx W b g bb := rfl

/-! ### A vector as one row -/

/-- A vector of 256 entries reshaped to one row is the vector broadcast along the second axis. -/
theorem rowv_eq (v : FVec Ideal Cert.KernelIdeal.S256 .f32) :
    Cert.KernelIdeal.KVal.rowv v
      = broadcastInDim Cert.ReferenceIdeal.S1x256 ![1] Cert.ReferenceIdeal.Facts₀.bcast_S256_S1x256_1 v :=
  Cert.Lib.RowVector.shapeCast_eq_broadcastInDim v _ _

/-- A vector of 40 entries reshaped to one row is the vector broadcast along the second axis. -/
theorem rowv40_eq (v : FVec Ideal Cert.KernelIdeal.S40 .f32) :
    Cert.KernelIdeal.KVal.rowv40 v
      = broadcastInDim Cert.ReferenceIdeal.S1x40 ![1] Cert.ReferenceIdeal.Facts₀.bcast_S40_S1x40_1 v :=
  Cert.Lib.RowVector.shapeCast_eq_broadcastInDim v _ _

/-- A real vector laid as a row of 256 entries is real. -/
theorem rowv_real (v : FVec Ideal Cert.KernelIdeal.S256 .f32) (hv : ∀ i, IsReal (v i)) :
    ∀ i, IsReal (Cert.KernelIdeal.KVal.rowv v i) := by
  intro i
  rw [rowv_eq]
  exact LibRealOps.broadcastInDim_real _ _ _ hv i

/-! ### The batch statistics in the kernel's spelling -/

/-- The kernel's mean row is the column sums divided by the number of rows. -/
theorem meanK_eq (s : FVec Ideal Cert.KernelIdeal.S1x256 .f32) :
    Cert.KernelIdeal.KVal.meanK s = Cert.Vn.meanOf Cert.Vn.n100k s := rfl

/-- The kernel's variance row is the second moment minus the squared mean. -/
theorem varK_eq (ss mean : FVec Ideal Cert.KernelIdeal.S1x256 .f32) :
    Cert.KernelIdeal.KVal.varK ss mean = Cert.Vn.varOf Cert.Vn.n100k ss mean := rfl

/-! ### One graph convolution, and its normalisation -/

/-- The kernel's graph convolution on 256 columns is the reference's. -/
theorem yK_eq (h : FVec Ideal Cert.KernelIdeal.S100000x256 .f32) (vx : FVec Ideal Cert.KernelIdeal.S1x256 .f32)
    (W : FVec Ideal Cert.KernelIdeal.S256x256 .f32) (b : FVec Ideal Cert.KernelIdeal.S256 .f32)
    (ei : IVec Cert.KernelIdeal.S2x800000 32) :
    Cert.KernelIdeal.KVal.yK h vx W b ei
      = Cert.ReferenceIdeal.RefVal.comb256
          (Cert.ReferenceIdeal.RefVal.agg256 (Cert.ReferenceIdeal.RefVal.lin256 h vx W) ei)
          (Cert.ReferenceIdeal.RefVal.lin256 h vx W) (Cert.ReferenceIdeal.RefVal.selfc ei) b := by
  unfold Cert.KernelIdeal.KVal.yK
  rw [Cert.ReferenceIdeal.RefRead.comb256_eq, Cert.ReferenceIdeal.RefRead.lin256_eq, ← agg256_eq, ← selfc_eq,
    ← rowv_eq]

/-- The kernel's graph convolution of real data with real parameters is real. -/
theorem yK_real (h : FVec Ideal Cert.KernelIdeal.S100000x256 .f32) (vx : FVec Ideal Cert.KernelIdeal.S1x256 .f32)
    (W : FVec Ideal Cert.KernelIdeal.S256x256 .f32) (b : FVec Ideal Cert.KernelIdeal.S256 .f32)
    (ei : IVec Cert.KernelIdeal.S2x800000 32) (hh : ∀ i, IsReal (h i)) (hvx : ∀ i, IsReal (vx i))
    (hW : ∀ i, IsReal (W i)) (hb : ∀ i, IsReal (b i)) :
    ∀ i, IsReal (Cert.KernelIdeal.KVal.yK h vx W b ei i) :=
  Cert.Vn.comb_real _ _ _ _
    (Cert.KernelIdeal.Chain.agg256_real _ ei (Cert.Vn.lin_real h vx W hh hvx hW))
    (Cert.Vn.lin_real h vx W hh hvx hW) (Cert.KernelIdeal.Chain.selfc_real ei) (rowv_real b hb)

/-- The kernel's batch normalisation with the rectifier is the reference's, on real data. -/
theorem hK_eq (y : FVec Ideal Cert.KernelIdeal.S100000x256 .f32) (g b : FVec Ideal Cert.KernelIdeal.S256 .f32)
    (hy : ∀ i, IsReal (y i)) :
    Cert.KernelIdeal.KVal.hK y g b = Cert.ReferenceIdeal.RefVal.bnRelu y g b := by
  unfold Cert.KernelIdeal.KVal.hK
  rw [Cert.ReferenceIdeal.RefRead.bnRelu_eq, meanK_eq, varK_eq, rowv_eq, rowv_eq]
  exact Cert.Vn.nrp_moments y _ _ hy

/-- The kernel's batch normalisation of real data with real scale and shift is real. -/
theorem hK_real (y : FVec Ideal Cert.KernelIdeal.S100000x256 .f32) (g b : FVec Ideal Cert.KernelIdeal.S256 .f32)
    (hy : ∀ i, IsReal (y i)) (hg : ∀ i, IsReal (g i)) (hb : ∀ i, IsReal (b i)) :
    ∀ i, IsReal (Cert.KernelIdeal.KVal.hK y g b i) := by
  unfold Cert.KernelIdeal.KVal.hK
  rw [meanK_eq, varK_eq]
  exact Cert.Vn.nrp_real y _ _ hy (rowv_real g hg) (rowv_real b hb)

/-- One whole layer (convolution, normalisation, rectifier): the kernel's is the reference's on real arguments. -/
theorem layer_eq (h : FVec Ideal Cert.KernelIdeal.S100000x256 .f32) (vx : FVec Ideal Cert.KernelIdeal.S1x256 .f32)
    (W : FVec Ideal Cert.KernelIdeal.S256x256 .f32) (b g bb : FVec Ideal Cert.KernelIdeal.S256 .f32)
    (ei : IVec Cert.KernelIdeal.S2x800000 32) (hh : ∀ i, IsReal (h i)) (hvx : ∀ i, IsReal (vx i))
    (hW : ∀ i, IsReal (W i)) (hb : ∀ i, IsReal (b i)) :
    Cert.KernelIdeal.KVal.hK (Cert.KernelIdeal.KVal.yK h vx W b ei) g bb
      = Cert.ReferenceIdeal.RefVal.bnRelu
          (Cert.ReferenceIdeal.RefVal.comb256
            (Cert.ReferenceIdeal.RefVal.agg256 (Cert.ReferenceIdeal.RefVal.lin256 h vx W) ei)
            (Cert.ReferenceIdeal.RefVal.lin256 h vx W) (Cert.ReferenceIdeal.RefVal.selfc ei) b) g bb := by
  rw [hK_eq _ _ _ (yK_real h vx W b ei hh hvx hW hb), yK_eq]

/-- The virtual node's update from the pooled features: the kernel's is the reference's. -/
theorem vn_step_eq (hh : FVec Ideal Cert.KernelIdeal.S100000x256 .f32) (vx : FVec Ideal Cert.KernelIdeal.S1x256 .f32)
    (W : FVec Ideal Cert.KernelIdeal.S256x256 .f32) (b g bb : FVec Ideal Cert.KernelIdeal.S256 .f32) :
    Cert.KernelIdeal.Chain.vn (Cert.Vn.colsum hh) vx W b g bb
      = Cert.ReferenceIdeal.RefVal.vn (Cert.ReferenceIdeal.RefVal.pool hh) vx W b g bb := by
  rw [Cert.ReferenceIdeal.RefRead.pool_eq, vn_eq]

/-- The last layer (convolution on 40 columns, log-softmax): the kernel's is the reference's. -/
theorem last_eq (h : FVec Ideal Cert.KernelIdeal.S100000x256 .f32) (vx : FVec Ideal Cert.KernelIdeal.S1x256 .f32)
    (W : FVec Ideal Cert.KernelIdeal.S256x40 .f32) (b : FVec Ideal Cert.KernelIdeal.S40 .f32)
    (ei : IVec Cert.KernelIdeal.S2x800000 32) :
    Cert.Vn.lsm (Cert.Vn.comb (Cert.KernelIdeal.Chain.agg40 (Cert.Vn.lin h vx W) ei) (Cert.Vn.lin h vx W)
        (Cert.KernelIdeal.Chain.selfc ei) (Cert.KernelIdeal.KVal.rowv40 b))
      = Cert.ReferenceIdeal.RefVal.lsm
          (Cert.ReferenceIdeal.RefVal.comb40
            (Cert.ReferenceIdeal.RefVal.agg40 (Cert.ReferenceIdeal.RefVal.lin40 h vx W) ei)
            (Cert.ReferenceIdeal.RefVal.lin40 h vx W) (Cert.ReferenceIdeal.RefVal.selfc ei) b) := by
  rw [Cert.ReferenceIdeal.RefRead.lsm_eq, Cert.ReferenceIdeal.RefRead.comb40_eq,
    Cert.ReferenceIdeal.RefRead.lin40_eq, ← agg40_eq, ← selfc_eq, ← rowv40_eq]

/-! ### The whole forward pass -/

/-- Layer 0's features: the kernel's are the reference's on real arguments. -/
theorem h0_eq (a0 : FVec Ideal Cert.KernelIdeal.S100000x256 .f32) (a1 : IVec Cert.KernelIdeal.S2x800000 32)
    (a2 : FVec Ideal Cert.KernelIdeal.S256x256 .f32) (a3 a8 a9 : FVec Ideal Cert.KernelIdeal.S256 .f32)
    (a12 : FVec Ideal Cert.KernelIdeal.S1x256 .f32) (r0 : ∀ i, IsReal (a0 i)) (r2 : ∀ i, IsReal (a2 i))
    (r3 : ∀ i, IsReal (a3 i)) (r12 : ∀ i, IsReal (a12 i)) :
    Cert.KernelIdeal.KVal.h0 a0 a1 a2 a3 a8 a9 a12 = Cert.ReferenceIdeal.RefVal.h0 a0 a1 a2 a3 a8 a9 a12 :=
  layer_eq a0 a12 a2 a3 a8 a9 a1 r0 r12 r2 r3

/-- Layer 0's features are real on real arguments. -/
theorem h0_real (a0 : FVec Ideal Cert.KernelIdeal.S100000x256 .f32) (a1 : IVec Cert.KernelIdeal.S2x800000 32)
    (a2 : FVec Ideal Cert.KernelIdeal.S256x256 .f32) (a3 a8 a9 : FVec Ideal Cert.KernelIdeal.S256 .f32)
    (a12 : FVec Ideal Cert.KernelIdeal.S1x256 .f32) (r0 : ∀ i, IsReal (a0 i)) (r2 : ∀ i, IsReal (a2 i))
    (r3 : ∀ i, IsReal (a3 i)) (r8 : ∀ i, IsReal (a8 i)) (r9 : ∀ i, IsReal (a9 i)) (r12 : ∀ i, IsReal (a12 i)) :
    ∀ i, IsReal (Cert.KernelIdeal.KVal.h0 a0 a1 a2 a3 a8 a9 a12 i) :=
  hK_real _ a8 a9 (yK_real a0 a12 a2 a3 a1 r0 r12 r2 r3) r8 r9

/-- On real arguments the idealized kernel's result is the reference's. -/
theorem out_eq
    (a0 : FVec Ideal Cert.KernelIdeal.S100000x256 .f32) (a1 : IVec Cert.KernelIdeal.S2x800000 32)
    (a2 : FVec Ideal Cert.KernelIdeal.S256x256 .f32) (a3 : FVec Ideal Cert.KernelIdeal.S256 .f32)
    (a4 : FVec Ideal Cert.KernelIdeal.S256x256 .f32) (a5 : FVec Ideal Cert.KernelIdeal.S256 .f32)
    (a6 : FVec Ideal Cert.KernelIdeal.S256x40 .f32) (a7 : FVec Ideal Cert.KernelIdeal.S40 .f32)
    (a8 a9 a10 a11 : FVec Ideal Cert.KernelIdeal.S256 .f32) (a12 : FVec Ideal Cert.KernelIdeal.S1x256 .f32)
    (a13 : FVec Ideal Cert.KernelIdeal.S256x256 .f32) (a14 a15 a16 : FVec Ideal Cert.KernelIdeal.S256 .f32)
    (a17 : FVec Ideal Cert.KernelIdeal.S256x256 .f32) (a18 a19 a20 : FVec Ideal Cert.KernelIdeal.S256 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (r7 : ∀ i, IsReal (a7 i)) (r8 : ∀ i, IsReal (a8 i))
    (r9 : ∀ i, IsReal (a9 i)) (r10 : ∀ i, IsReal (a10 i)) (r11 : ∀ i, IsReal (a11 i)) (r12 : ∀ i, IsReal (a12 i))
    (r13 : ∀ i, IsReal (a13 i)) (r14 : ∀ i, IsReal (a14 i)) (r15 : ∀ i, IsReal (a15 i)) (r16 : ∀ i, IsReal (a16 i))
    (r17 : ∀ i, IsReal (a17 i)) (r18 : ∀ i, IsReal (a18 i)) (r19 : ∀ i, IsReal (a19 i)) (r20 : ∀ i, IsReal (a20 i)) :
    Cert.KernelIdeal.KVal.out a0 a1 a2 a3 a4 a5 a6 a7 a8 a9 a10 a11 a12 a13 a14 a15 a16 a17 a18 a19 a20
      = Cert.ReferenceIdeal.RefVal.out a0 a1 a2 a3 a4 a5 a6 a7 a8 a9 a10 a11 a12 a13 a14 a15 a16 a17 a18 a19 a20 := by
  have R0 := h0_real a0 a1 a2 a3 a8 a9 a12 r0 r2 r3 r8 r9 r12
  simp only [Cert.KernelIdeal.KVal.out, Cert.ReferenceIdeal.RefVal.out, Cert.KernelIdeal.KVal.vx1]
  -- layer 0's features, named once on both sides
  rw [h0_eq a0 a1 a2 a3 a8 a9 a12 r0 r2 r3 r12] at R0 ⊢
  generalize Cert.ReferenceIdeal.RefVal.h0 a0 a1 a2 a3 a8 a9 a12 = H0 at R0 ⊢
  -- the virtual node after layer 0: real, and the same on both sides
  have RV1 := Cert.KernelIdeal.Chain.vn_real _ a12 a13 a14 a15 a16 (Cert.Vn.colsum_real H0 R0) r12 r13 r14 r15 r16
  rw [vn_step_eq H0 a12 a13 a14 a15 a16] at RV1 ⊢
  generalize Cert.ReferenceIdeal.RefVal.vn (Cert.ReferenceIdeal.RefVal.pool H0) a12 a13 a14 a15 a16 = V1 at RV1 ⊢
  -- layer 1, the second update of the virtual node, the last layer
  rw [layer_eq H0 V1 a4 a5 a10 a11 a1 R0 RV1 r4 r5, vn_step_eq, last_eq]

end Cert.Bridge

end
-- ==== Proof.Finite.lean ====
import proofs.«161332_j44100724195822_1_alg».proof.Defs
import proofs.«161332_j44100724195822_1_alg».proof.Proof.Gen.Pre_finite_inputs
import proofs.«161332_j44100724195822_1_alg».proof.Proof.LibRealClosure
import Idealize.ShloMosaic.Lib.ReduceAll
import Idealize.ShloMosaic.Lib.ValueIdx

/-!
# The precondition read back: every float input is an array of real numbers

The precondition computes, for each float argument `x`, the conjunction over all entries of
`|x i| < +∞` (the absolute value compared with the word of `+∞`, reduced by `and` from `1`
over every axis) and conjoins the twenty answers. At the ideal instance an entry is an extended
real, `|x| = max x (-x)`, the word `0x7F800000` denotes `⊤`, and `max x (-x) < ⊤` excludes
both `x = ⊤` and `x = ⊥`: the entry is a real number.
-/

namespace Cert.Finite

open Idealize.ShloMosaic LibRealClosure

/-- The word of `+∞` in single precision denotes the top of the extended reals. -/
theorem inf_word : Ideal.ofBits .f32 0x7F800000#32 = (⊤ : EReal) := by
  simp [Ideal.ofBits, Ideal.ieee]

/-- An extended real whose absolute value is below `⊤` is a real number. -/
theorem isReal_of_abs_lt_top (x : EReal) (h : max x (-x) < ⊤) : IsReal x := by
  rw [isReal_iff]
  constructor
  · rintro rfl; simp at h
  · rintro rfl; simp at h

/-- The ideal "less than" comparison answers `1` exactly when the order says so. -/
theorem cmp_olt_eq_one (x y : EReal) : Ideal.cmp .olt x y = 1#1 ↔ x < y := by
  unfold Ideal.cmp
  by_cases h : x < y <;> simp [h]

/-- The scalar shape has one index. -/
instance subsingleton_scalar_idx : Subsingleton (⟨0, ![]⟩ : Shape).Idx :=
  ⟨fun a b => funext fun d => d.elim0⟩

/-- One conjunct of the precondition, for an array of any shape reduced over all its axes: if the
    conjunction over the entries of `|x i| < +∞` is `1`, every entry of `x` is real. -/
theorem isReal_of_all {s : Shape} {axes : List (Fin s.rank)} (x : s.Idx → EReal)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
          (cmpf (F := Ideal) (φ := .f32) .olt (Host.absf (F := Ideal) (φ := .f32) x)
            (broadcastInDim s ![] hb (constant (F := Ideal) ⟨0, ![]⟩ .f32 0x7F800000#32)))
          (constantI ⟨0, ![]⟩ 1 1#1) hr hu j = 1#1) (i : s.Idx) : IsReal (x i) := by
  have h := Host.reduce_andi_all _ _ hr hu j e i
  apply isReal_of_abs_lt_top
  rw [← inf_word, ← cmp_olt_eq_one]
  exact h

open Cert.Pre_finite_inputs in
/-- The precondition at the ideal instance, all ones, makes each of the twenty float arguments an
    array of real numbers (the integer edge list, argument 1, is not constrained). -/
theorem finite_of_pre [Cert.Pre_finite_inputs.Facts]
    (x0 : S100000x256.Idx → EReal) (x1 : IVec S2x800000 32) (x2 : S256x256.Idx → EReal) (x3 : S256.Idx → EReal) (x4 : S256x256.Idx → EReal) (x5 : S256.Idx → EReal) (x6 : S256x40.Idx → EReal) (x7 : S40.Idx → EReal) (x8 : S256.Idx → EReal) (x9 : S256.Idx → EReal) (x10 : S256.Idx → EReal) (x11 : S256.Idx → EReal) (x12 : S1x256.Idx → EReal) (x13 : S256x256.Idx → EReal) (x14 : S256.Idx → EReal) (x15 : S256.Idx → EReal) (x16 : S256.Idx → EReal) (x17 : S256x256.Idx → EReal) (x18 : S256.Idx → EReal) (x19 : S256.Idx → EReal) (x20 : S256.Idx → EReal)
    (h : Cert.Pre_finite_inputs.fn (F := Ideal) x0 x1 x2 x3 x4 x5 x6 x7 x8 x9 x10 x11 x12 x13 x14 x15 x16 x17 x18 x19 x20 = (fun _ => 1#1)) :
    (∀ i, IsReal (x0 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) ∧ (∀ i, IsReal (x20 i)) := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩ := h0
  exact ⟨isReal_of_all x0 _ _ _ _ h0,
    isReal_of_all x2 _ _ _ _ h2,
    isReal_of_all x3 _ _ _ _ h3,
    isReal_of_all x4 _ _ _ _ h4,
    isReal_of_all x5 _ _ _ _ h5,
    isReal_of_all x6 _ _ _ _ h6,
    isReal_of_all x7 _ _ _ _ h7,
    isReal_of_all x8 _ _ _ _ h8,
    isReal_of_all x9 _ _ _ _ h9,
    isReal_of_all x10 _ _ _ _ h10,
    isReal_of_all x11 _ _ _ _ h11,
    isReal_of_all x12 _ _ _ _ h12,
    isReal_of_all x13 _ _ _ _ h13,
    isReal_of_all x14 _ _ _ _ h14,
    isReal_of_all x15 _ _ _ _ h15,
    isReal_of_all x16 _ _ _ _ h16,
    isReal_of_all x17 _ _ _ _ h17,
    isReal_of_all x18 _ _ _ _ h18,
    isReal_of_all x19 _ _ _ _ h19,
    isReal_of_all x20 _ _ _ _ h20⟩

end Cert.Finite
-- ==== Proof.Assemble.lean ====
import proofs.«161332_j44100724195822_1_alg».proof.Defs
import proofs.«161332_j44100724195822_1_alg».proof.Proof.Finite
import proofs.«161332_j44100724195822_1_alg».proof.Proof.KVal
import proofs.«161332_j44100724195822_1_alg».proof.Proof.RefVal
import proofs.«161332_j44100724195822_1_alg».proof.Proof.Gen.KernelIdeal
import proofs.«161332_j44100724195822_1_alg».proof.Proof.Gen.ReferenceIdeal
import proofs.«161332_j44100724195822_1_alg».proof.Proof.Gen.Pre_finite_inputs

/-!
# The final assembly

Given that the idealized kernel runs and leaves, on every device, the value `KVal.out` of its argument arrays
in its result (arguments unchanged), that the idealized reference runs and leaves `RefVal.out` of its argument
arrays in its result (arguments unchanged), and that the two values are equal whenever the twenty float arguments
are arrays of real numbers: the two programs, started from memories that agree on the arguments and satisfy the
precondition, end with equal results. The precondition is what makes the float arguments real.
-/

noncomputable section

namespace Cert.Assemble

open Idealize.ShloMosaic Idealize.SL.Sem LibRealClosure

/-- The reference's value at arrays equal, one by one, to real arrays is the kernel's value at those. -/
theorem out_transport
    (bridge : ∀ (a0 : FVec Ideal Cert.KernelIdeal.S100000x256 .f32) (a1 : IVec Cert.KernelIdeal.S2x800000 32) (a2 : FVec Ideal Cert.KernelIdeal.S256x256 .f32) (a3 : FVec Ideal Cert.KernelIdeal.S256 .f32) (a4 : FVec Ideal Cert.KernelIdeal.S256x256 .f32) (a5 : FVec Ideal Cert.KernelIdeal.S256 .f32) (a6 : FVec Ideal Cert.KernelIdeal.S256x40 .f32) (a7 : FVec Ideal Cert.KernelIdeal.S40 .f32) (a8 : FVec Ideal Cert.KernelIdeal.S256 .f32) (a9 : FVec Ideal Cert.KernelIdeal.S256 .f32) (a10 : FVec Ideal Cert.KernelIdeal.S256 .f32) (a11 : FVec Ideal Cert.KernelIdeal.S256 .f32) (a12 : FVec Ideal Cert.KernelIdeal.S1x256 .f32) (a13 : FVec Ideal Cert.KernelIdeal.S256x256 .f32) (a14 : FVec Ideal Cert.KernelIdeal.S256 .f32) (a15 : FVec Ideal Cert.KernelIdeal.S256 .f32) (a16 : FVec Ideal Cert.KernelIdeal.S256 .f32) (a17 : FVec Ideal Cert.KernelIdeal.S256x256 .f32) (a18 : FVec Ideal Cert.KernelIdeal.S256 .f32) (a19 : FVec Ideal Cert.KernelIdeal.S256 .f32) (a20 : FVec Ideal Cert.KernelIdeal.S256 .f32),
    (∀ i, IsReal (a0 i)) → (∀ i, IsReal (a2 i)) → (∀ i, IsReal (a3 i)) → (∀ i, IsReal (a4 i)) → (∀ i, IsReal (a5 i)) → (∀ i, IsReal (a6 i)) → (∀ i, IsReal (a7 i)) → (∀ i, IsReal (a8 i)) → (∀ i, IsReal (a9 i)) → (∀ i, IsReal (a10 i)) → (∀ i, IsReal (a11 i)) → (∀ i, IsReal (a12 i)) → (∀ i, IsReal (a13 i)) → (∀ i, IsReal (a14 i)) → (∀ i, IsReal (a15 i)) → (∀ i, IsReal (a16 i)) → (∀ i, IsReal (a17 i)) → (∀ i, IsReal (a18 i)) → (∀ i, IsReal (a19 i)) → (∀ i, IsReal (a20 i)) →
    Cert.KernelIdeal.KVal.out a0 a1 a2 a3 a4 a5 a6 a7 a8 a9 a10 a11 a12 a13 a14 a15 a16 a17 a18 a19 a20 = Cert.ReferenceIdeal.RefVal.out a0 a1 a2 a3 a4 a5 a6 a7 a8 a9 a10 a11 a12 a13 a14 a15 a16 a17 a18 a19 a20)
    {a0 b0 : FVec Ideal Cert.KernelIdeal.S100000x256 .f32} {a1 b1 : IVec Cert.KernelIdeal.S2x800000 32} {a2 b2 : FVec Ideal Cert.KernelIdeal.S256x256 .f32} {a3 b3 : FVec Ideal Cert.KernelIdeal.S256 .f32} {a4 b4 : FVec Ideal Cert.KernelIdeal.S256x256 .f32} {a5 b5 : FVec Ideal Cert.KernelIdeal.S256 .f32} {a6 b6 : FVec Ideal Cert.KernelIdeal.S256x40 .f32} {a7 b7 : FVec Ideal Cert.KernelIdeal.S40 .f32} {a8 b8 : FVec Ideal Cert.KernelIdeal.S256 .f32} {a9 b9 : FVec Ideal Cert.KernelIdeal.S256 .f32} {a10 b10 : FVec Ideal Cert.KernelIdeal.S256 .f32} {a11 b11 : FVec Ideal Cert.KernelIdeal.S256 .f32} {a12 b12 : FVec Ideal Cert.KernelIdeal.S1x256 .f32} {a13 b13 : FVec Ideal Cert.KernelIdeal.S256x256 .f32} {a14 b14 : FVec Ideal Cert.KernelIdeal.S256 .f32} {a15 b15 : FVec Ideal Cert.KernelIdeal.S256 .f32} {a16 b16 : FVec Ideal Cert.KernelIdeal.S256 .f32} {a17 b17 : FVec Ideal Cert.KernelIdeal.S256x256 .f32} {a18 b18 : FVec Ideal Cert.KernelIdeal.S256 .f32} {a19 b19 : FVec Ideal Cert.KernelIdeal.S256 .f32} {a20 b20 : FVec Ideal Cert.KernelIdeal.S256 .f32}
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20)
    (r0 : ∀ i, IsReal (a0 i)) (r2 : ∀ i, IsReal (a2 i)) (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (r10 : ∀ i, IsReal (a10 i)) (r11 : ∀ i, IsReal (a11 i)) (r12 : ∀ i, IsReal (a12 i)) (r13 : ∀ i, IsReal (a13 i)) (r14 : ∀ i, IsReal (a14 i)) (r15 : ∀ i, IsReal (a15 i)) (r16 : ∀ i, IsReal (a16 i)) (r17 : ∀ i, IsReal (a17 i)) (r18 : ∀ i, IsReal (a18 i)) (r19 : ∀ i, IsReal (a19 i)) (r20 : ∀ i, IsReal (a20 i)) :
    Cert.ReferenceIdeal.RefVal.out b0 b1 b2 b3 b4 b5 b6 b7 b8 b9 b10 b11 b12 b13 b14 b15 b16 b17 b18 b19 b20 = Cert.KernelIdeal.KVal.out a0 a1 a2 a3 a4 a5 a6 a7 a8 a9 a10 a11 a12 a13 a14 a15 a16 a17 a18 a19 a20 := by
  subst e0 e1 e2 e3 e4 e5 e6 e7 e8 e9 e10 e11 e12 e13 e14 e15 e16 e17 e18 e19 e20
  exact (bridge _ _ _ _ _ _ _ _ _ _ _ _ _ _ _ _ _ _ _ _ _ r0 r2 r3 r4 r5 r6 r7 r8 r9 r10 r11 r12 r13 r14 r15 r16 r17 r18 r19 r20).symm

/-- The two idealized programs end with equal results, from each one's run read back as a value and the
    equality of the two values on real arguments. -/
theorem algebraic_of
    (krun : ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v146) = Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)))
    (rrun : ∀ (m' : (ℓ : Loc Cert.ReferenceIdeal.nD Cert.ReferenceIdeal.τ Cert.ReferenceIdeal.sig) → Buf (Elt Ideal) ℓ) (g' : Dev Cert.ReferenceIdeal.nD → PrngReg),
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v202) = Cert.ReferenceIdeal.RefVal.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)))
    (bridge : ∀ (a0 : FVec Ideal Cert.KernelIdeal.S100000x256 .f32) (a1 : IVec Cert.KernelIdeal.S2x800000 32) (a2 : FVec Ideal Cert.KernelIdeal.S256x256 .f32) (a3 : FVec Ideal Cert.KernelIdeal.S256 .f32) (a4 : FVec Ideal Cert.KernelIdeal.S256x256 .f32) (a5 : FVec Ideal Cert.KernelIdeal.S256 .f32) (a6 : FVec Ideal Cert.KernelIdeal.S256x40 .f32) (a7 : FVec Ideal Cert.KernelIdeal.S40 .f32) (a8 : FVec Ideal Cert.KernelIdeal.S256 .f32) (a9 : FVec Ideal Cert.KernelIdeal.S256 .f32) (a10 : FVec Ideal Cert.KernelIdeal.S256 .f32) (a11 : FVec Ideal Cert.KernelIdeal.S256 .f32) (a12 : FVec Ideal Cert.KernelIdeal.S1x256 .f32) (a13 : FVec Ideal Cert.KernelIdeal.S256x256 .f32) (a14 : FVec Ideal Cert.KernelIdeal.S256 .f32) (a15 : FVec Ideal Cert.KernelIdeal.S256 .f32) (a16 : FVec Ideal Cert.KernelIdeal.S256 .f32) (a17 : FVec Ideal Cert.KernelIdeal.S256x256 .f32) (a18 : FVec Ideal Cert.KernelIdeal.S256 .f32) (a19 : FVec Ideal Cert.KernelIdeal.S256 .f32) (a20 : FVec Ideal Cert.KernelIdeal.S256 .f32),
    (∀ i, IsReal (a0 i)) → (∀ i, IsReal (a2 i)) → (∀ i, IsReal (a3 i)) → (∀ i, IsReal (a4 i)) → (∀ i, IsReal (a5 i)) → (∀ i, IsReal (a6 i)) → (∀ i, IsReal (a7 i)) → (∀ i, IsReal (a8 i)) → (∀ i, IsReal (a9 i)) → (∀ i, IsReal (a10 i)) → (∀ i, IsReal (a11 i)) → (∀ i, IsReal (a12 i)) → (∀ i, IsReal (a13 i)) → (∀ i, IsReal (a14 i)) → (∀ i, IsReal (a15 i)) → (∀ i, IsReal (a16 i)) → (∀ i, IsReal (a17 i)) → (∀ i, IsReal (a18 i)) → (∀ i, IsReal (a19 i)) → (∀ i, IsReal (a20 i)) →
    Cert.KernelIdeal.KVal.out a0 a1 a2 a3 a4 a5 a6 a7 a8 a9 a10 a11 a12 a13 a14 a15 a16 a17 a18 a19 a20 = Cert.ReferenceIdeal.RefVal.out a0 a1 a2 a3 a4 a5 a6 a7 a8 a9 a10 a11 a12 a13 a14 a15 a16 a17 a18 a19 a20) :
    Cert.algebraic_KernelIdeal_ReferenceIdeal := by
  intro m g m' g' hpre hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), krun m g, ?_⟩
  refine (θ_run _ _ _).mono (fun r h c => ⟨(h c).1.trans ?_, (h c).2⟩) (rrun m' g')
  obtain ⟨e0, e1, e2, e3, e4, e5, e6, e7, e8, e9, e10, e11, e12, e13, e14, e15, e16, e17, e18, e19, e20⟩ := hagree c
  obtain ⟨r0, r2, r3, r4, r5, r6, r7, r8, r9, r10, r11, r12, r13, r14, r15, r16, r17, r18, r19, r20⟩ := Cert.Finite.finite_of_pre _ _ _ _ _ _ _ _ _ _ _ _ _ _ _ _ _ _ _ _ _ (hpre c)
  exact out_transport bridge e0 e1 e2 e3 e4 e5 e6 e7 e8 e9 e10 e11 e12 e13 e14 e15 e16 e17 e18 e19 e20 r0 r2 r3 r4 r5 r6 r7 r8 r9 r10 r11 r12 r13 r14 r15 r16 r17 r18 r19 r20

/-- The idealized reference runs and leaves its arguments unchanged. -/
theorem frame_ref_of
    (rrun : ∀ (m' : (ℓ : Loc Cert.ReferenceIdeal.nD Cert.ReferenceIdeal.τ Cert.ReferenceIdeal.sig) → Buf (Elt Ideal) ℓ) (g' : Dev Cert.ReferenceIdeal.nD → PrngReg),
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v202) = Cert.ReferenceIdeal.RefVal.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))) :
    Cert.frame_ReferenceIdeal := by
  intro m g _
  exact (θ_run _ _ _).mono (fun _ h c => (h c).2) (rrun m g)

end Cert.Assemble

end
-- ==== Proof.lean ====
/-
  The certificate of the three-layer graph convolution with a virtual node: the word-level kernel, its idealization
  and the idealized reference each run to the end with their arguments unchanged, and on the extended reals the
  idealized kernel and the idealized reference end with the same result array.

  Why the two results agree.  Layer by layer both programs compute y = agg + hp · selfcoef + bias from the same
  linear map and the same neighbour aggregation; they differ only in how they normalise y over the nodes: the kernel
  accumulates the column sums of y and of y², takes mean = s/N and variance = ss/N − mean², clamps it at zero and
  adds the stabiliser, while the reference takes the mean of the squared deviations from the mean.  For real entries
  the two variances are one nonnegative real number, so the clamp does nothing and the two normalisations are the
  same function.  Every entry IS real: the inputs are finite by the precondition, the degree counts are at least one,
  so the edge coefficients are real, and sums, products, maxima and the inverse square root of a positive real keep
  entries real through both layers.  The last layer has no normalisation, and its log-softmax is the same formula on
  both sides.
-/
import proofs.«161332_j44100724195822_1_alg».proof.Defs
import proofs.«161332_j44100724195822_1_alg».proof.Proof.Gen.Kernel
import proofs.«161332_j44100724195822_1_alg».proof.Proof.Gen.Kernel.Skeleton
import proofs.«161332_j44100724195822_1_alg».proof.Proof.Gen.Kernel.Launch
import proofs.«161332_j44100724195822_1_alg».proof.Proof.Gen.Kernel.Points
import proofs.«161332_j44100724195822_1_alg».proof.Proof.Gen.Kernel.Frame
import proofs.«161332_j44100724195822_1_alg».proof.Proof.Gen.KernelIdeal
import proofs.«161332_j44100724195822_1_alg».proof.Proof.Gen.KernelIdeal.Skeleton
import proofs.«161332_j44100724195822_1_alg».proof.Proof.Gen.KernelIdeal.Launch
import proofs.«161332_j44100724195822_1_alg».proof.Proof.Gen.KernelIdeal.Points
import proofs.«161332_j44100724195822_1_alg».proof.Proof.Gen.KernelIdeal.Frame
import proofs.«161332_j44100724195822_1_alg».proof.Proof.Gen.ReferenceIdeal
import proofs.«161332_j44100724195822_1_alg».proof.Proof.Gen.Pre_finite_inputs
import proofs.«161332_j44100724195822_1_alg».proof.Proof.KRun
import proofs.«161332_j44100724195822_1_alg».proof.Proof.KChainC
import proofs.«161332_j44100724195822_1_alg».proof.Proof.RefRunFinal
import proofs.«161332_j44100724195822_1_alg».proof.Proof.Bridge
import proofs.«161332_j44100724195822_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Assemble.frame_ref_of Cert.ReferenceIdeal.ValueP.ref_run,
    trivial,
    Cert.Assemble.algebraic_of
      (fun m g => (θ_run (Cert.KernelIdeal.defs (F := Ideal)) _ _).mono
        (fun _ h c => ⟨(h c).1.trans (Cert.KernelIdeal.KChain.W19_out m g c), (h c).2⟩)
        (Cert.KernelIdeal.Run.run_out (F := Ideal) m g))
      Cert.ReferenceIdeal.ValueP.ref_run Cert.Bridge.out_eq⟩

end Cert.Proof

end
